-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v83)) (v1 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_v84) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x10 : Shape := ⟨2, ![8192, 10]⟩
abbrev S8192x1900 : Shape := ⟨2, ![8192, 1900]⟩
abbrev S10x7600 : Shape := ⟨2, ![10, 7600]⟩
abbrev S1900x7600 : Shape := ⟨2, ![1900, 7600]⟩
abbrev S10x1900 : Shape := ⟨2, ![10, 1900]⟩
abbrev S1900x1900 : Shape := ⟨2, ![1900, 1900]⟩
abbrev S7600 : Shape := ⟨1, ![7600]⟩
abbrev S1900 : Shape := ⟨1, ![1900]⟩
abbrev S_ : Shape := ⟨0, ![]⟩

class Facts : Prop where
  bcast_S_S8192x10 : S_.BroadcastsInDim S8192x10 (![] : Fin 0 → Fin S8192x10.rank)
  reducesTo_S8192x10_S_d0_1 : S8192x10.ReducesTo [0, 1] S_
  h_S_ : 0 < S_.numel
  bcast_S_S8192x1900 : S_.BroadcastsInDim S8192x1900 (![] : Fin 0 → Fin S8192x1900.rank)
  reducesTo_S8192x1900_S_d0_1 : S8192x1900.ReducesTo [0, 1] S_
  bcast_S_S10x7600 : S_.BroadcastsInDim S10x7600 (![] : Fin 0 → Fin S10x7600.rank)
  reducesTo_S10x7600_S_d0_1 : S10x7600.ReducesTo [0, 1] S_
  bcast_S_S1900x7600 : S_.BroadcastsInDim S1900x7600 (![] : Fin 0 → Fin S1900x7600.rank)
  reducesTo_S1900x7600_S_d0_1 : S1900x7600.ReducesTo [0, 1] S_
  bcast_S_S10x1900 : S_.BroadcastsInDim S10x1900 (![] : Fin 0 → Fin S10x1900.rank)
  reducesTo_S10x1900_S_d0_1 : S10x1900.ReducesTo [0, 1] S_
  bcast_S_S1900x1900 : S_.BroadcastsInDim S1900x1900 (![] : Fin 0 → Fin S1900x1900.rank)
  reducesTo_S1900x1900_S_d0_1 : S1900x1900.ReducesTo [0, 1] S_
  bcast_S_S7600 : S_.BroadcastsInDim S7600 (![] : Fin 0 → Fin S7600.rank)
  reducesTo_S7600_S_d0 : S7600.ReducesTo [0] S_
  bcast_S_S1900 : S_.BroadcastsInDim S1900 (![] : Fin 0 → Fin S1900.rank)
  reducesTo_S1900_S_d0 : S1900.ReducesTo [0] S_

variable [Facts]

def fn_part3 {F : FTy → Type} [FloatOps F] (main_arg11 : FVec F S1900 .f32) (main_v48 : IVec S_ 1) (main_v49 : FVec F S1900 .f32) (main_v50 : FVec F S1900 .f32) : IVec S_ 1 :=
  let main_v51 : IVec S1900 1 := cmpf .olt main_v49 main_v50
  let main_c_19 : IVec S_ 1 := constantI S_ 1 1#1
  let main_v52 : IVec S_ 1 := (fun x v => Host.reduce IntOp.andi x v reducesTo_S1900_S_d0 h_S_) main_v51 main_c_19
  let main_v53 : IVec S_ 1 := andi main_v48 main_v52
  let main_v54 : FVec F S1900 .f32 := Host.absf main_arg11
  let main_cst_20 : FVec F S_ .f32 := constant S_ .f32 0x7F800000#32
  let main_v55 : FVec F S1900 .f32 := broadcastInDim S1900 ![] bcast_S_S1900 main_cst_20
  let main_v56 : IVec S1900 1 := cmpf .olt main_v54 main_v55
  let main_c_21 : IVec S_ 1 := constantI S_ 1 1#1
  let main_v57 : IVec S_ 1 := (fun x v => Host.reduce IntOp.andi x v reducesTo_S1900_S_d0 h_S_) main_v56 main_c_21
  let main_v58 : IVec S_ 1 := andi main_v53 main_v57
  main_v58

def fn_part2 {F : FTy → Type} [FloatOps F] (main_arg7 : FVec F S7600 .f32) (main_arg8 : FVec F S7600 .f32) (main_arg9 : FVec F S7600 .f32) (main_arg10 : FVec F S1900 .f32) (main_arg11 : FVec F S1900 .f32) (main_v33 : IVec S_ 1) : IVec S_ 1 :=
  let main_v34 : FVec F S7600 .f32 := Host.absf main_arg7
  let main_cst_12 : FVec F S_ .f32 := constant S_ .f32 0x7F800000#32
  let main_v35 : FVec F S7600 .f32 := broadcastInDim S7600 ![] bcast_S_S7600 main_cst_12
  let main_v36 : IVec S7600 1 := cmpf .olt main_v34 main_v35
  let main_c_13 : IVec S_ 1 := constantI S_ 1 1#1
  let main_v37 : IVec S_ 1 := (fun x v => Host.reduce IntOp.andi x v reducesTo_S7600_S_d0 h_S_) main_v36 main_c_13
  let main_v38 : IVec S_ 1 := andi main_v33 main_v37
  let main_v39 : FVec F S7600 .f32 := Host.absf main_arg8
  let main_cst_14 : FVec F S_ .f32 := constant S_ .f32 0x7F800000#32
  let main_v40 : FVec F S7600 .f32 := broadcastInDim S7600 ![] bcast_S_S7600 main_cst_14
  let main_v41 : IVec S7600 1 := cmpf .olt main_v39 main_v40
  let main_c_15 : IVec S_ 1 := constantI S_ 1 1#1
  let main_v42 : IVec S_ 1 := (fun x v => Host.reduce IntOp.andi x v reducesTo_S7600_S_d0 h_S_) main_v41 main_c_15
  let main_v43 : IVec S_ 1 := andi main_v38 main_v42
  let main_v44 : FVec F S7600 .f32 := Host.absf main_arg9
  let main_cst_16 : FVec F S_ .f32 := constant S_ .f32 0x7F800000#32
  let main_v45 : FVec F S7600 .f32 := broadcastInDim S7600 ![] bcast_S_S7600 main_cst_16
  let main_v46 : IVec S7600 1 := cmpf .olt main_v44 main_v45
  let main_c_17 : IVec S_ 1 := constantI S_ 1 1#1
  let main_v47 : IVec S_ 1 := (fun x v => Host.reduce IntOp.andi x v reducesTo_S7600_S_d0 h_S_) main_v46 main_c_17
  let main_v48 : IVec S_ 1 := andi main_v43 main_v47
  let main_v49 : FVec F S1900 .f32 := Host.absf main_arg10
  let main_cst_18 : FVec F S_ .f32 := constant S_ .f32 0x7F800000#32
  let main_v50 : FVec F S1900 .f32 := broadcastInDim S1900 ![] bcast_S_S1900 main_cst_18
  fn_part3 (F := F) main_arg11 main_v48 main_v49 main_v50

def fn_part1 {F : FTy → Type} [FloatOps F] (main_arg4 : FVec F S1900x7600 .f32) (main_arg5 : FVec F S10x1900 .f32) (main_arg6 : FVec F S1900x1900 .f32) (main_arg7 : FVec F S7600 .f32) (main_arg8 : FVec F S7600 .f32) (main_arg9 : FVec F S7600 .f32) (main_arg10 : FVec F S1900 .f32) (main_arg11 : FVec F S1900 .f32) (main_v13 : IVec S_ 1) (main_v16 : IVec S10x7600 1) : IVec S_ 1 :=
  let main_c_5 : IVec S_ 1 := constantI S_ 1 1#1
  let main_v17 : IVec S_ 1 := (fun x v => Host.reduce IntOp.andi x v reducesTo_S10x7600_S_d0_1 h_S_) main_v16 main_c_5
  let main_v18 : IVec S_ 1 := andi main_v13 main_v17
  let main_v19 : FVec F S1900x7600 .f32 := Host.absf main_arg4
  let main_cst_6 : FVec F S_ .f32 := constant S_ .f32 0x7F800000#32
  let main_v20 : FVec F S1900x7600 .f32 := broadcastInDim S1900x7600 ![] bcast_S_S1900x7600 main_cst_6
  let main_v21 : IVec S1900x7600 1 := cmpf .olt main_v19 main_v20
  let main_c_7 : IVec S_ 1 := constantI S_ 1 1#1
  let main_v22 : IVec S_ 1 := (fun x v => Host.reduce IntOp.andi x v reducesTo_S1900x7600_S_d0_1 h_S_) main_v21 main_c_7
  let main_v23 : IVec S_ 1 := andi main_v18 main_v22
  let main_v24 : FVec F S10x1900 .f32 := Host.absf main_arg5
  let main_cst_8 : FVec F S_ .f32 := constant S_ .f32 0x7F800000#32
  let main_v25 : FVec F S10x1900 .f32 := broadcastInDim S10x1900 ![] bcast_S_S10x1900 main_cst_8
  let main_v26 : IVec S10x1900 1 := cmpf .olt main_v24 main_v25
  let main_c_9 : IVec S_ 1 := constantI S_ 1 1#1
  let main_v27 : IVec S_ 1 := (fun x v => Host.reduce IntOp.andi x v reducesTo_S10x1900_S_d0_1 h_S_) main_v26 main_c_9
  let main_v28 : IVec S_ 1 := andi main_v23 main_v27
  let main_v29 : FVec F S1900x1900 .f32 := Host.absf main_arg6
  let main_cst_10 : FVec F S_ .f32 := constant S_ .f32 0x7F800000#32
  let main_v30 : FVec F S1900x1900 .f32 := broadcastInDim S1900x1900 ![] bcast_S_S1900x1900 main_cst_10
  let main_v31 : IVec S1900x1900 1 := cmpf .olt main_v29 main_v30
  let main_c_11 : IVec S_ 1 := constantI S_ 1 1#1
  let main_v32 : IVec S_ 1 := (fun x v => Host.reduce IntOp.andi x v reducesTo_S1900x1900_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8192x10 .f32) (main_arg1 : FVec F S8192x1900 .f32) (main_arg2 : FVec F S8192x1900 .f32) (main_arg3 : FVec F S10x7600 .f32) (main_arg4 : FVec F S1900x7600 .f32) (main_arg5 : FVec F S10x1900 .f32) (main_arg6 : FVec F S1900x1900 .f32) (main_arg7 : FVec F S7600 .f32) (main_arg8 : FVec F S7600 .f32) (main_arg9 : FVec F S7600 .f32) (main_arg10 : FVec F S1900 .f32) (main_arg11 : FVec F S1900 .f32) : IVec S_ 1 :=
  let main_v0 : FVec F S8192x10 .f32 := Host.absf main_arg0
  let main_cst : FVec F S_ .f32 := constant S_ .f32 0x7F800000#32
  let main_v1 : FVec F S8192x10 .f32 := broadcastInDim S8192x10 ![] bcast_S_S8192x10 main_cst
  let main_v2 : IVec S8192x10 1 := cmpf .olt main_v0 main_v1
  let main_c : IVec S_ 1 := constantI S_ 1 1#1
  let main_v3 : IVec S_ 1 := (fun x v => Host.reduce IntOp.andi x v reducesTo_S8192x10_S_d0_1 h_S_) main_v2 main_c
  let main_v4 : FVec F S8192x1900 .f32 := Host.absf main_arg1
  let main_cst_0 : FVec F S_ .f32 := constant S_ .f32 0x7F800000#32
  let main_v5 : FVec F S8192x1900 .f32 := broadcastInDim S8192x1900 ![] bcast_S_S8192x1900 main_cst_0
  let main_v6 : IVec S8192x1900 1 := cmpf .olt main_v4 main_v5
  let main_c_1 : IVec S_ 1 := constantI S_ 1 1#1
  let main_v7 : IVec S_ 1 := (fun x v => Host.reduce IntOp.andi x v reducesTo_S8192x1900_S_d0_1 h_S_) main_v6 main_c_1
  let main_v8 : IVec S_ 1 := andi main_v3 main_v7
  let main_v9 : FVec F S8192x1900 .f32 := Host.absf main_arg2
  let main_cst_2 : FVec F S_ .f32 := constant S_ .f32 0x7F800000#32
  let main_v10 : FVec F S8192x1900 .f32 := broadcastInDim S8192x1900 ![] bcast_S_S8192x1900 main_cst_2
  let main_v11 : IVec S8192x1900 1 := cmpf .olt main_v9 main_v10
  let main_c_3 : IVec S_ 1 := constantI S_ 1 1#1
  let main_v12 : IVec S_ 1 := (fun x v => Host.reduce IntOp.andi x v reducesTo_S8192x1900_S_d0_1 h_S_) main_v11 main_c_3
  let main_v13 : IVec S_ 1 := andi main_v8 main_v12
  let main_v14 : FVec F S10x7600 .f32 := Host.absf main_arg3
  let main_cst_4 : FVec F S_ .f32 := constant S_ .f32 0x7F800000#32
  let main_v15 : FVec F S10x7600 .f32 := broadcastInDim S10x7600 ![] bcast_S_S10x7600 main_cst_4
  let main_v16 : IVec S10x7600 1 := cmpf .olt main_v14 main_v15
  fn_part1 (F := F) main_arg4 main_arg5 main_arg6 main_arg7 main_arg8 main_arg9 main_arg10 main_arg11 main_v13 main_v16
-- ==== Kernel.lean ====
abbrev S8192x10 : Shape := ⟨2, ![8192, 10]⟩
abbrev S8192x1900 : Shape := ⟨2, ![8192, 1900]⟩
abbrev S10x7600 : Shape := ⟨2, ![10, 7600]⟩
abbrev S1900x7600 : Shape := ⟨2, ![1900, 7600]⟩
abbrev S10x1900 : Shape := ⟨2, ![10, 1900]⟩
abbrev S1900x1900 : Shape := ⟨2, ![1900, 1900]⟩
abbrev S7600 : Shape := ⟨1, ![7600]⟩
abbrev S1900 : Shape := ⟨1, ![1900]⟩
abbrev S_ : Shape := ⟨0, ![]⟩
abbrev S1x7600 : Shape := ⟨2, ![1, 7600]⟩
abbrev S1x1900 : Shape := ⟨2, ![1, 1900]⟩
abbrev S10x1920 : Shape := ⟨2, ![10, 1920]⟩
abbrev S1920x1920 : Shape := ⟨2, ![1920, 1920]⟩
abbrev S8192x1920 : Shape := ⟨2, ![8192, 1920]⟩
abbrev S10x7680 : Shape := ⟨2, ![10, 7680]⟩
abbrev S1900x1920 : Shape := ⟨2, ![1900, 1920]⟩
abbrev S1900x7680 : Shape := ⟨2, ![1900, 7680]⟩
abbrev S1920x7680 : Shape := ⟨2, ![1920, 7680]⟩
abbrev S1x1920 : Shape := ⟨2, ![1, 1920]⟩
abbrev S1x7680 : Shape := ⟨2, ![1, 7680]⟩
abbrev S256x10 : Shape := ⟨2, ![256, 10]⟩
abbrev S256x1920 : Shape := ⟨2, ![256, 1920]⟩
abbrev S128x1920 : Shape := ⟨2, ![128, 1920]⟩
abbrev S128x10 : Shape := ⟨2, ![128, 10]⟩

abbrev nBuf : Space → Nat
  | .hbm => 140
  | .vmem => 21
  | .smem => 0
  | _ => 0

abbrev hbmTy0_0 (i : Nat) : BufTy := match i % 128 with
  | 0 => ⟨S8192x10, .f32⟩
  | 1 => ⟨S8192x1900, .f32⟩
  | 2 => ⟨S8192x1900, .f32⟩
  | 3 => ⟨S10x7600, .f32⟩
  | 4 => ⟨S1900x7600, .f32⟩
  | 5 => ⟨S10x1900, .f32⟩
  | 6 => ⟨S1900x1900, .f32⟩
  | 7 => ⟨S7600, .f32⟩
  | 8 => ⟨S7600, .f32⟩
  | 9 => ⟨S7600, .f32⟩
  | 10 => ⟨S1900, .f32⟩
  | 11 => ⟨S1900, .f32⟩
  | 12 => ⟨S10x7600, .f32⟩
  | 13 => ⟨S_, .f32⟩
  | 14 => ⟨S7600, .f32⟩
  | 15 => ⟨S1x7600, .f32⟩
  | 16 => ⟨S_, .f32⟩
  | 17 => ⟨S1x7600, .f32⟩
  | 18 => ⟨S1x7600, .f32⟩
  | 19 => ⟨S1x7600, .f32⟩
  | 20 => ⟨S10x7600, .f32⟩
  | 21 => ⟨S10x7600, .f32⟩
  | 22 => ⟨S1x7600, .f32⟩
  | 23 => ⟨S10x7600, .f32⟩
  | 24 => ⟨S10x7600, .f32⟩
  | 25 => ⟨S1900x7600, .f32⟩
  | 26 => ⟨S_, .f32⟩
  | 27 => ⟨S7600, .f32⟩
  | 28 => ⟨S1x7600, .f32⟩
  | 29 => ⟨S_, .f32⟩
  | 30 => ⟨S1x7600, .f32⟩
  | 31 => ⟨S1x7600, .f32⟩
  | 32 => ⟨S1x7600, .f32⟩
  | 33 => ⟨S1900x7600, .f32⟩
  | 34 => ⟨S1900x7600, .f32⟩
  | 35 => ⟨S1x7600, .f32⟩
  | 36 => ⟨S1900x7600, .f32⟩
  | 37 => ⟨S1900x7600, .f32⟩
  | 38 => ⟨S10x1900, .f32⟩
  | 39 => ⟨S_, .f32⟩
  | 40 => ⟨S1900, .f32⟩
  | 41 => ⟨S1x1900, .f32⟩
  | 42 => ⟨S_, .f32⟩
  | 43 => ⟨S1x1900, .f32⟩
  | 44 => ⟨S1x1900, .f32⟩
  | 45 => ⟨S1x1900, .f32⟩
  | 46 => ⟨S10x1900, .f32⟩
  | 47 => ⟨S10x1900, .f32⟩
  | 48 => ⟨S1x1900, .f32⟩
  | 49 => ⟨S10x1900, .f32⟩
  | 50 => ⟨S10x1900, .f32⟩
  | 51 => ⟨S1900x1900, .f32⟩
  | 52 => ⟨S_, .f32⟩
  | 53 => ⟨S1900, .f32⟩
  | 54 => ⟨S1x1900, .f32⟩
  | 55 => ⟨S_, .f32⟩
  | 56 => ⟨S1x1900, .f32⟩
  | 57 => ⟨S1x1900, .f32⟩
  | 58 => ⟨S1x1900, .f32⟩
  | 59 => ⟨S1900x1900, .f32⟩
  | 60 => ⟨S1900x1900, .f32⟩
  | 61 => ⟨S1x1900, .f32⟩
  | 62 => ⟨S1900x1900, .f32⟩
  | 63 => ⟨S1900x1900, .f32⟩
  | 64 => ⟨S_, .i32⟩
  | 65 => ⟨S_, .f32⟩
  | 66 => ⟨S10x1920, .f32⟩
  | 67 => ⟨S10x1920, .bf16⟩
  | 68 => ⟨S_, .i32⟩
  | 69 => ⟨S_, .f32⟩
  | 70 => ⟨S1920x1920, .f32⟩
  | 71 => ⟨S1920x1920, .bf16⟩
  | 72 => ⟨S_, .i32⟩
  | 73 => ⟨S_, .f32⟩
  | 74 => ⟨S8192x1920, .f32⟩
  | 75 => ⟨S_, .i32⟩
  | 76 => ⟨S_, .f32⟩
  | 77 => ⟨S8192x1920, .f32⟩
  | 78 => ⟨S10x1900, .f32⟩
  | 79 => ⟨S10x1900, .f32⟩
  | 80 => ⟨S10x1900, .f32⟩
  | 81 => ⟨S10x1900, .f32⟩
  | 82 => ⟨S_, .i32⟩
  | 83 => ⟨S_, .f32⟩
  | 84 => ⟨S10x1920, .f32⟩
  | 85 => ⟨S_, .i32⟩
  | 86 => ⟨S_, .f32⟩
  | 87 => ⟨S10x1920, .f32⟩
  | 88 => ⟨S_, .i32⟩
  | 89 => ⟨S_, .f32⟩
  | 90 => ⟨S10x1920, .f32⟩
  | 91 => ⟨S_, .i32⟩
  | 92 => ⟨S_, .f32⟩
  | 93 => ⟨S10x1920, .f32⟩
  | 94 => ⟨S10x7680, .f32⟩
  | 95 => ⟨S10x7680, .bf16⟩
  | 96 => ⟨S1900x1900, .f32⟩
  | 97 => ⟨S1900x1900, .f32⟩
  | 98 => ⟨S1900x1900, .f32⟩
  | 99 => ⟨S1900x1900, .f32⟩
  | 100 => ⟨S_, .i32⟩
  | 101 => ⟨S_, .f32⟩
  | 102 => ⟨S1900x1920, .f32⟩
  | 103 => ⟨S_, .i32⟩
  | 104 => ⟨S_, .f32⟩
  | 105 => ⟨S1900x1920, .f32⟩
  | 106 => ⟨S_, .i32⟩
  | 107 => ⟨S_, .f32⟩
  | 108 => ⟨S1900x1920, .f32⟩
  | 109 => ⟨S_, .i32⟩
  | 110 => ⟨S_, .f32⟩
  | 111 => ⟨S1900x1920, .f32⟩
  | 112 => ⟨S1900x7680, .f32⟩
  | 113 => ⟨S_, .i32⟩
  | 114 => ⟨S_, .f32⟩
  | 115 => ⟨S1920x7680, .f32⟩
  | 116 => ⟨S1920x7680, .bf16⟩
  | 117 => ⟨S1x7600, .f32⟩
  | 118 => ⟨S1x1900, .f32⟩
  | 119 => ⟨S1x1900, .f32⟩
  | 120 => ⟨S1x1900, .f32⟩
  | 121 => ⟨S1x1900, .f32⟩
  | 122 => ⟨S_, .i32⟩
  | 123 => ⟨S_, .f32⟩
  | 124 => ⟨S1x1920, .f32⟩
  | 125 => ⟨S_, .i32⟩
  | 126 => ⟨S_, .f32⟩
  | 127 => ⟨S1x1920, .f32⟩
  | _ => ⟨S8192x10, .f32⟩

abbrev hbmTy0_1 (i : Nat) : BufTy := match i % 128 with
  | 0 => ⟨S_, .i32⟩
  | 1 => ⟨S_, .f32⟩
  | 2 => ⟨S1x1920, .f32⟩
  | 3 => ⟨S_, .i32⟩
  | 4 => ⟨S_, .f32⟩
  | 5 => ⟨S1x1920, .f32⟩
  | 6 => ⟨S1x7680, .f32⟩
  | 7 => ⟨S8192x1920, .bf16⟩
  | 8 => ⟨S8192x1920, .f32⟩
  | 9 => ⟨S8192x1920, .f32⟩
  | 10 => ⟨S8192x1900, .f32⟩
  | 11 => ⟨S8192x1900, .f32⟩
  | _ => ⟨S8192x10, .f32⟩

abbrev hbmTy (i : Nat) : BufTy := match i / 128 with
  | 0 => hbmTy0_0 i
  | 1 => hbmTy0_1 i
  | _ => ⟨S8192x10, .f32⟩

abbrev bufTy : (tb : Table) → Fin (tcTables nBuf tb) → BufTy
  | .hbm, ⟨i, _⟩ => hbmTy i
  | .local _ .vmem, ⟨0, _⟩ => ⟨S256x10, .f32⟩
  | .local _ .vmem, ⟨1, _⟩ => ⟨S256x10, .f32⟩
  | .local _ .vmem, ⟨2, _⟩ => ⟨S256x1920, .f32⟩
  | .local _ .vmem, ⟨3, _⟩ => ⟨S256x1920, .f32⟩
  | .local _ .vmem, ⟨4, _⟩ => ⟨S10x1920, .bf16⟩
  | .local _ .vmem, ⟨5, _⟩ => ⟨S1920x1920, .bf16⟩
  | .local _ .vmem, ⟨6, _⟩ => ⟨S256x1920, .bf16⟩
  | .local _ .vmem, ⟨7, _⟩ => ⟨S256x1920, .bf16⟩
  | .local _ .vmem, ⟨8, _⟩ => ⟨S128x1920, .bf16⟩
  | .local _ .vmem, ⟨9, _⟩ => ⟨S128x1920, .bf16⟩
  | .local _ .vmem, ⟨10, _⟩ => ⟨S128x10, .f32⟩
  | .local _ .vmem, ⟨11, _⟩ => ⟨S128x10, .f32⟩
  | .local _ .vmem, ⟨12, _⟩ => ⟨S128x1920, .f32⟩
  | .local _ .vmem, ⟨13, _⟩ => ⟨S128x1920, .f32⟩
  | .local _ .vmem, ⟨14, _⟩ => ⟨S10x7680, .bf16⟩
  | .local _ .vmem, ⟨15, _⟩ => ⟨S1920x7680, .bf16⟩
  | .local _ .vmem, ⟨16, _⟩ => ⟨S1x7680, .f32⟩
  | .local _ .vmem, ⟨17, _⟩ => ⟨S128x1920, .f32⟩
  | .local _ .vmem, ⟨18, _⟩ => ⟨S128x1920, .f32⟩
  | .local _ .vmem, ⟨19, _⟩ => ⟨S128x1920, .f32⟩
  | .local _ .vmem, ⟨20, _⟩ => ⟨S128x1920, .f32⟩
  | _, _ => ⟨S8192x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c : Ref sig .tc := ⟨.hbm, 64, rfl⟩
abbrev main_call0_v0 : Ref sig .tc := ⟨.hbm, 65, rfl⟩
abbrev main_v44 : Ref sig .tc := ⟨.hbm, 66, rfl⟩
abbrev main_v45 : Ref sig .tc := ⟨.hbm, 67, rfl⟩
abbrev main_c_7 : Ref sig .tc := ⟨.hbm, 68, rfl⟩
abbrev main_call1_v0 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_call2_v0 : Ref sig .tc := ⟨.hbm, 73, rfl⟩
abbrev main_v48 : Ref sig .tc := ⟨.hbm, 74, rfl⟩
abbrev main_c_9 : Ref sig .tc := ⟨.hbm, 75, rfl⟩
abbrev main_call3_v0 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_c_10 : Ref sig .tc := ⟨.hbm, 82, rfl⟩
abbrev main_call4_v0 : Ref sig .tc := ⟨.hbm, 83, rfl⟩
abbrev main_v54 : Ref sig .tc := ⟨.hbm, 84, rfl⟩
abbrev main_c_11 : Ref sig .tc := ⟨.hbm, 85, rfl⟩
abbrev main_call5_v0 : Ref sig .tc := ⟨.hbm, 86, rfl⟩
abbrev main_v55 : Ref sig .tc := ⟨.hbm, 87, rfl⟩
abbrev main_c_12 : Ref sig .tc := ⟨.hbm, 88, rfl⟩
abbrev main_call6_v0 : Ref sig .tc := ⟨.hbm, 89, rfl⟩
abbrev main_v56 : Ref sig .tc := ⟨.hbm, 90, rfl⟩
abbrev main_c_13 : Ref sig .tc := ⟨.hbm, 91, rfl⟩
abbrev main_call7_v0 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_c_14 : Ref sig .tc := ⟨.hbm, 100, rfl⟩
abbrev main_call8_v0 : Ref sig .tc := ⟨.hbm, 101, rfl⟩
abbrev main_v64 : Ref sig .tc := ⟨.hbm, 102, rfl⟩
abbrev main_c_15 : Ref sig .tc := ⟨.hbm, 103, rfl⟩
abbrev main_call9_v0 : Ref sig .tc := ⟨.hbm, 104, rfl⟩
abbrev main_v65 : Ref sig .tc := ⟨.hbm, 105, rfl⟩
abbrev main_c_16 : Ref sig .tc := ⟨.hbm, 106, rfl⟩
abbrev main_call10_v0 : Ref sig .tc := ⟨.hbm, 107, rfl⟩
abbrev main_v66 : Ref sig .tc := ⟨.hbm, 108, rfl⟩
abbrev main_c_17 : Ref sig .tc := ⟨.hbm, 109, rfl⟩
abbrev main_call11_v0 : Ref sig .tc := ⟨.hbm, 110, rfl⟩
abbrev main_v67 : Ref sig .tc := ⟨.hbm, 111, rfl⟩
abbrev main_v68 : Ref sig .tc := ⟨.hbm, 112, rfl⟩
abbrev main_c_18 : Ref sig .tc := ⟨.hbm, 113, rfl⟩
abbrev main_call12_v0 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_c_19 : Ref sig .tc := ⟨.hbm, 122, rfl⟩
abbrev main_call13_v0 : Ref sig .tc := ⟨.hbm, 123, rfl⟩
abbrev main_v76 : Ref sig .tc := ⟨.hbm, 124, rfl⟩
abbrev main_c_20 : Ref sig .tc := ⟨.hbm, 125, rfl⟩
abbrev main_call14_v0 : Ref sig .tc := ⟨.hbm, 126, rfl⟩
abbrev main_v77 : Ref sig .tc := ⟨.hbm, 127, rfl⟩
abbrev main_c_21 : Ref sig .tc := ⟨.hbm, 128, rfl⟩
abbrev main_call15_v0 : Ref sig .tc := ⟨.hbm, 129, rfl⟩
abbrev main_v78 : Ref sig .tc := ⟨.hbm, 130, rfl⟩
abbrev main_c_22 : Ref sig .tc := ⟨.hbm, 131, rfl⟩
abbrev main_call16_v0 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82_0 : Ref sig .tc := ⟨.hbm, 136, rfl⟩
abbrev main_v82_1 : Ref sig .tc := ⟨.hbm, 137, rfl⟩
abbrev main_v83 : Ref sig .tc := ⟨.hbm, 138, rfl⟩
abbrev main_v84 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1920 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x1920 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1920x1920 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1920 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1920 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x10 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x1920 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S10x7680 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1920x7680 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x7680 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S128x1920 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x1920 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  reducesTo_S10x7600_S7600_d0 : S10x7600.ReducesTo [0] S7600
  h_S_ : 0 < S_.numel
  bcast_S7600_S1x7600_1 : S7600.BroadcastsInDim S1x7600 (![1] : Fin 1 → Fin S1x7600.rank)
  bcast_S_S1x7600 : S_.BroadcastsInDim S1x7600 (![] : Fin 0 → Fin S1x7600.rank)
  bcast_S1x7600_S10x7600_0_1 : S1x7600.BroadcastsInDim S10x7600 (![0, 1] : Fin 2 → Fin S10x7600.rank)
  reducesTo_S1900x7600_S7600_d0 : S1900x7600.ReducesTo [0] S7600
  bcast_S1x7600_S1900x7600_0_1 : S1x7600.BroadcastsInDim S1900x7600 (![0, 1] : Fin 2 → Fin S1900x7600.rank)
  reducesTo_S10x1900_S1900_d0 : S10x1900.ReducesTo [0] S1900
  bcast_S1900_S1x1900_1 : S1900.BroadcastsInDim S1x1900 (![1] : Fin 1 → Fin S1x1900.rank)
  bcast_S_S1x1900 : S_.BroadcastsInDim S1x1900 (![] : Fin 0 → Fin S1x1900.rank)
  bcast_S1x1900_S10x1900_0_1 : S1x1900.BroadcastsInDim S10x1900 (![0, 1] : Fin 2 → Fin S10x1900.rank)
  reducesTo_S1900x1900_S1900_d0 : S1900x1900.ReducesTo [0] S1900
  bcast_S1x1900_S1900x1900_0_1 : S1x1900.BroadcastsInDim S1900x1900 (![0, 1] : Fin 2 → Fin S1900x1900.rank)
  pads_S10x1900_S10x1920_000_0200 : S10x1900.Pads (![0, 0] : Fin 2 → Nat) ![0, 20] ![0, 0] S10x1920
  bitsLt_bf16_f32 : FTy.bits .bf16 < FTy.bits .f32
  pads_S1900x1900_S1920x1920_0200_0200 : S1900x1900.Pads (![0, 0] : Fin 2 → Nat) ![20, 20] ![0, 0] S1920x1920
  pads_S8192x1900_S8192x1920_000_0200 : S8192x1900.Pads (![0, 0] : Fin 2 → Nat) ![0, 20] ![0, 0] S8192x1920
  slices_S10x7600_S10x1900_0_0 : S10x7600.Slices ![0, 0] S10x1900
  slices_S10x7600_S10x1900_0_1900 : S10x7600.Slices ![0, 1900] S10x1900
  slices_S10x7600_S10x1900_0_3800 : S10x7600.Slices ![0, 3800] S10x1900
  slices_S10x7600_S10x1900_0_5700 : S10x7600.Slices ![0, 5700] S10x1900
  concatenates_S10x1920_S10x1920_S10x1920_S10x1920_S10x7680_d1 : Shape.Concatenates [S10x1920, S10x1920, S10x1920, S10x1920] S10x7680 1
  slices_S1900x7600_S1900x1900_0_0 : S1900x7600.Slices ![0, 0] S1900x1900
  slices_S1900x7600_S1900x1900_0_1900 : S1900x7600.Slices ![0, 1900] S1900x1900
  slices_S1900x7600_S1900x1900_0_3800 : S1900x7600.Slices ![0, 3800] S1900x1900
  slices_S1900x7600_S1900x1900_0_5700 : S1900x7600.Slices ![0, 5700] S1900x1900
  pads_S1900x1900_S1900x1920_000_0200 : S1900x1900.Pads (![0, 0] : Fin 2 → Nat) ![0, 20] ![0, 0] S1900x1920
  concatenates_S1900x1920_S1900x1920_S1900x1920_S1900x1920_S1900x7680_d1 : Shape.Concatenates [S1900x1920, S1900x1920, S1900x1920, S1900x1920] S1900x7680 1
  pads_S1900x7680_S1920x7680_0200_000 : S1900x7680.Pads (![0, 0] : Fin 2 → Nat) ![20, 0] ![0, 0] S1920x7680
  shapeCasts_S7600_S1x7600 : S7600.ShapeCasts S1x7600
  slices_S1x7600_S1x1900_0_0 : S1x7600.Slices ![0, 0] S1x1900
  slices_S1x7600_S1x1900_0_1900 : S1x7600.Slices ![0, 1900] S1x1900
  slices_S1x7600_S1x1900_0_3800 : S1x7600.Slices ![0, 3800] S1x1900
  slices_S1x7600_S1x1900_0_5700 : S1x7600.Slices ![0, 5700] S1x1900
  pads_S1x1900_S1x1920_000_0200 : S1x1900.Pads (![0, 0] : Fin 2 → Nat) ![0, 20] ![0, 0] S1x1920
  concatenates_S1x1920_S1x1920_S1x1920_S1x1920_S1x7680_d1 : Shape.Concatenates [S1x1920, S1x1920, S1x1920, S1x1920] S1x7680 1
  inb_S256x10_S256x10_0_0 : ∀ a, (![0, 0] : Fin 2 → Nat) a + S256x10.size a ≤ S256x10.size a
  h_S256x10 : 0 < S256x10.numel
  inb_S256x1920_S256x1920_0_0 : ∀ a, (![0, 0] : Fin 2 → Nat) a + S256x1920.size a ≤ S256x1920.size a
  h_S256x1920 : 0 < S256x1920.numel
  shapeCasts_S256x1920_S256x1920 : S256x1920.ShapeCasts S256x1920
  inb_S10x1920_S10x1920_0_0 : ∀ a, (![0, 0] : Fin 2 → Nat) a + S10x1920.size a ≤ S10x1920.size a
  h_S10x1920 : 0 < S10x1920.numel
  shapeCasts_S10x1920_S10x1920 : S10x1920.ShapeCasts S10x1920
  inb_S1920x1920_S1920x1920_0_0 : ∀ a, (![0, 0] : Fin 2 → Nat) a + S1920x1920.size a ≤ S1920x1920.size a
  h_S1920x1920 : 0 < S1920x1920.numel
  shapeCasts_S1920x1920_S1920x1920 : S1920x1920.ShapeCasts S1920x1920
  packedbf16_S256x1920_S256x1920_0_0 : (Rect.unit (s := S256x1920) ![0, 0] S256x1920.size inb_S256x1920_S256x1920_0_0).PackedRows (EltTy.packing .bf16)
  inb_S128x10_S128x10_0_0 : ∀ a, (![0, 0] : Fin 2 → Nat) a + S128x10.size a ≤ S128x10.size a
  h_S128x10 : 0 < S128x10.numel
  inb_S128x1920_S128x1920_0_0 : ∀ a, (![0, 0] : Fin 2 → Nat) a + S128x1920.size a ≤ S128x1920.size a
  h_S128x1920 : 0 < S128x1920.numel
  shapeCasts_S128x1920_S128x1920 : S128x1920.ShapeCasts S128x1920
  inb_S10x7680_S10x1920_0_0 : ∀ a, (![0, 0] : Fin 2 → Nat) a + S10x1920.size a ≤ S10x7680.size a
  inb_S1920x7680_S1920x1920_0_0 : ∀ a, (![0, 0] : Fin 2 → Nat) a + S1920x1920.size a ≤ S1920x7680.size a
  inb_S1x7680_S1x1920_0_0 : ∀ a, (![0, 0] : Fin 2 → Nat) a + S1x1920.size a ≤ S1x7680.size a
  h_S1x1920 : 0 < S1x1920.numel
  shapeCasts_S1x1920_S1x1920 : S1x1920.ShapeCasts S1x1920
  broadcasts_S1x1920_S128x1920 : S1x1920.Broadcasts S128x1920
  inb_S10x7680_S10x1920_0_1920 : ∀ a, (![0, 1920] : Fin 2 → Nat) a + S10x1920.size a ≤ S10x7680.size a
  inb_S1920x7680_S1920x1920_0_1920 : ∀ a, (![0, 1920] : Fin 2 → Nat) a + S1920x1920.size a ≤ S1920x7680.size a
  inb_S1x7680_S1x1920_0_1920 : ∀ a, (![0, 1920] : Fin 2 → Nat) a + S1x1920.size a ≤ S1x7680.size a
  inb_S10x7680_S10x1920_0_3840 : ∀ a, (![0, 3840] : Fin 2 → Nat) a + S10x1920.size a ≤ S10x7680.size a
  inb_S1920x7680_S1920x1920_0_3840 : ∀ a, (![0, 3840] : Fin 2 → Nat) a + S1920x1920.size a ≤ S1920x7680.size a
  inb_S1x7680_S1x1920_0_3840 : ∀ a, (![0, 3840] : Fin 2 → Nat) a + S1x1920.size a ≤ S1x7680.size a
  inb_S10x7680_S10x1920_0_5760 : ∀ a, (![0, 5760] : Fin 2 → Nat) a + S10x1920.size a ≤ S10x7680.size a
  inb_S1920x7680_S1920x1920_0_5760 : ∀ a, (![0, 5760] : Fin 2 → Nat) a + S1920x1920.size a ≤ S1920x7680.size a
  inb_S1x7680_S1x1920_0_5760 : ∀ a, (![0, 5760] : Fin 2 → Nat) a + S1x1920.size a ≤ S1x7680.size a
  slices_S8192x1920_S8192x1900_0_0 : S8192x1920.Slices ![0, 0] S8192x1900
  dot_S256x10_S10x1920_S256x1920_1_0_0_1_n_n_wf : DotDims.WF S256x10 S10x1920 S256x1920 [1] [0] [0] [1] [] []
  dot_S256x1920_S1920x1920_S256x1920_1_0_0_1_n_n_wf : DotDims.WF S256x1920 S1920x1920 S256x1920 [1] [0] [0] [1] [] []
  dot_S128x10_S10x1920_S128x1920_1_0_0_1_n_n_wf : DotDims.WF S128x10 S10x1920 S128x1920 [1] [0] [0] [1] [] []
  dot_S128x1920_S1920x1920_S128x1920_1_0_0_1_n_n_wf : DotDims.WF S128x1920 S1920x1920 S128x1920 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x10.size a ≤ S8192x10.size a
  hwx0_0 : ∀ i : grid0.Coords, EltTy.bits .f32 = 32 ∨ (Rect.block (s := S8192x10) S256x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1920.size a ≤ S8192x1920.size a
  hwx0_1 : ∀ i : grid0.Coords, EltTy.bits .f32 = 32 ∨ (Rect.block (s := S8192x1920) S256x1920.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x1920.size a ≤ S10x1920.size a
  hwx0_2 : ∀ i : grid0.Coords, EltTy.bits .bf16 = 32 ∨ (Rect.block (s := S10x1920) S10x1920.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1920x1920.size a ≤ S1920x1920.size a
  hwx0_3 : ∀ i : grid0.Coords, EltTy.bits .bf16 = 32 ∨ (Rect.block (s := S1920x1920) S1920x1920.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1920.size a ≤ S8192x1920.size a
  hwx0_4 : ∀ i : grid0.Coords, EltTy.bits .bf16 = 32 ∨ (Rect.block (s := S8192x1920) S256x1920.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1920.size a ≤ S8192x1920.size a
  hwx1_0 : ∀ i : grid1.Coords, EltTy.bits .bf16 = 32 ∨ (Rect.block (s := S8192x1920) S128x1920.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x10.size a ≤ S8192x10.size a
  hwx1_1 : ∀ i : grid1.Coords, EltTy.bits .f32 = 32 ∨ (Rect.block (s := S8192x10) S128x10.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1920.size a ≤ S8192x1920.size a
  hwx1_2 : ∀ i : grid1.Coords, EltTy.bits .f32 = 32 ∨ (Rect.block (s := S8192x1920) S128x1920.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S10x7680.size a ≤ S10x7680.size a
  hwx1_3 : ∀ i : grid1.Coords, EltTy.bits .bf16 = 32 ∨ (Rect.block (s := S10x7680) S10x7680.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1920x7680.size a ≤ S1920x7680.size a
  hwx1_4 : ∀ i : grid1.Coords, EltTy.bits .bf16 = 32 ∨ (Rect.block (s := S1920x7680) S1920x7680.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x7680.size a ≤ S1x7680.size a
  hwx1_5 : ∀ i : grid1.Coords, EltTy.bits .f32 = 32 ∨ (Rect.block (s := S1x7680) S1x7680.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x1920.size a ≤ S8192x1920.size a
  hwx1_6 : ∀ i : grid1.Coords, EltTy.bits .f32 = 32 ∨ (Rect.block (s := S8192x1920) S128x1920.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S128x1920.size a ≤ S8192x1920.size a
  hwx1_7 : ∀ i : grid1.Coords, EltTy.bits .f32 = 32 ∨ (Rect.block (s := S8192x1920) S128x1920.size (cc1_transform_7 i) (hinb1_7 i)).WholeWords (EltTy.packing .f32)

variable [Facts₀]

def dot_S256x10_S10x1920_S256x1920_1_0_0_1_n_n : DotDims S256x10 S10x1920 S256x1920 where
  lhsContracting := [1]
  rhsContracting := [0]
  lhsNonContracting := [0]
  rhsNonContracting := [1]
  lhsBatch := []
  rhsBatch := []
  wf := dot_S256x10_S10x1920_S256x1920_1_0_0_1_n_n_wf
def dot_S256x1920_S1920x1920_S256x1920_1_0_0_1_n_n : DotDims S256x1920 S1920x1920 S256x1920 where
  lhsContracting := [1]
  rhsContracting := [0]
  lhsNonContracting := [0]
  rhsNonContracting := [1]
  lhsBatch := []
  rhsBatch := []
  wf := dot_S256x1920_S1920x1920_S256x1920_1_0_0_1_n_n_wf
def dot_S128x10_S10x1920_S128x1920_1_0_0_1_n_n : DotDims S128x10 S10x1920 S128x1920 where
  lhsContracting := [1]
  rhsContracting := [0]
  lhsNonContracting := [0]
  rhsNonContracting := [1]
  lhsBatch := []
  rhsBatch := []
  wf := dot_S128x10_S10x1920_S128x1920_1_0_0_1_n_n_wf
def dot_S128x1920_S1920x1920_S128x1920_1_0_0_1_n_n : DotDims S128x1920 S1920x1920 S128x1920 where
  lhsContracting := [1]
  rhsContracting := [0]
  lhsNonContracting := [0]
  rhsNonContracting := [1]
  lhsBatch := []
  rhsBatch := []
  wf := dot_S128x1920_S1920x1920_S128x1920_1_0_0_1_n_n_wf

abbrev win0_0 : Pipeline.Window sig grid0 :=
  Pipeline.Window.ofSpec (Memref.whole main_arg0) S256x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S256x1920.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S10x1920.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S1920x1920.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v81) S256x1920.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v81) S128x1920.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S128x10.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S128x1920.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v59) S10x7680.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v70) S1920x7680.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v80) S1x7680.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v82_0) S128x1920.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v82_1) S128x1920.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S8192x10 : Shape := ⟨2, ![8192, 10]⟩
abbrev S8192x1900 : Shape := ⟨2, ![8192, 1900]⟩
abbrev S10x7600 : Shape := ⟨2, ![10, 7600]⟩
abbrev S1900x7600 : Shape := ⟨2, ![1900, 7600]⟩
abbrev S10x1900 : Shape := ⟨2, ![10, 1900]⟩
abbrev S1900x1900 : Shape := ⟨2, ![1900, 1900]⟩
abbrev S7600 : Shape := ⟨1, ![7600]⟩
abbrev S1900 : Shape := ⟨1, ![1900]⟩
abbrev S_ : Shape := ⟨0, ![]⟩
abbrev S1x7600 : Shape := ⟨2, ![1, 7600]⟩
abbrev S1x1900 : Shape := ⟨2, ![1, 1900]⟩
abbrev S8192x7600 : Shape := ⟨2, ![8192, 7600]⟩

abbrev nBuf : Space → Nat
  | .hbm => 107
  | .vmem => 0
  | .smem => 0
  | _ => 0

abbrev bufTy : (tb : Table) → Fin (tcTables nBuf tb) → BufTy
  | .hbm, ⟨0, _⟩ => ⟨S8192x10, .f32⟩
  | .hbm, ⟨1, _⟩ => ⟨S8192x1900, .f32⟩
  | .hbm, ⟨2, _⟩ => ⟨S8192x1900, .f32⟩
  | .hbm, ⟨3, _⟩ => ⟨S10x7600, .f32⟩
  | .hbm, ⟨4, _⟩ => ⟨S1900x7600, .f32⟩
  | .hbm, ⟨5, _⟩ => ⟨S10x1900, .f32⟩
  | .hbm, ⟨6, _⟩ => ⟨S1900x1900, .f32⟩
  | .hbm, ⟨7, _⟩ => ⟨S7600, .f32⟩
  | .hbm, ⟨8, _⟩ => ⟨S7600, .f32⟩
  | .hbm, ⟨9, _⟩ => ⟨S7600, .f32⟩
  | .hbm, ⟨10, _⟩ => ⟨S1900, .f32⟩
  | .hbm, ⟨11, _⟩ => ⟨S1900, .f32⟩
  | .hbm, ⟨12, _⟩ => ⟨S10x7600, .f32⟩
  | .hbm, ⟨13, _⟩ => ⟨S_, .f32⟩
  | .hbm, ⟨14, _⟩ => ⟨S7600, .f32⟩
  | .hbm, ⟨15, _⟩ => ⟨S1x7600, .f32⟩
  | .hbm, ⟨16, _⟩ => ⟨S_, .f32⟩
  | .hbm, ⟨17, _⟩ => ⟨S1x7600, .f32⟩
  | .hbm, ⟨18, _⟩ => ⟨S1x7600, .f32⟩
  | .hbm, ⟨19, _⟩ => ⟨S1x7600, .f32⟩
  | .hbm, ⟨20, _⟩ => ⟨S10x7600, .f32⟩
  | .hbm, ⟨21, _⟩ => ⟨S10x7600, .f32⟩
  | .hbm, ⟨22, _⟩ => ⟨S1x7600, .f32⟩
  | .hbm, ⟨23, _⟩ => ⟨S10x7600, .f32⟩
  | .hbm, ⟨24, _⟩ => ⟨S10x7600, .f32⟩
  | .hbm, ⟨25, _⟩ => ⟨S1900x7600, .f32⟩
  | .hbm, ⟨26, _⟩ => ⟨S_, .f32⟩
  | .hbm, ⟨27, _⟩ => ⟨S7600, .f32⟩
  | .hbm, ⟨28, _⟩ => ⟨S1x7600, .f32⟩
  | .hbm, ⟨29, _⟩ => ⟨S_, .f32⟩
  | .hbm, ⟨30, _⟩ => ⟨S1x7600, .f32⟩
  | .hbm, ⟨31, _⟩ => ⟨S1x7600, .f32⟩
  | .hbm, ⟨32, _⟩ => ⟨S1x7600, .f32⟩
  | .hbm, ⟨33, _⟩ => ⟨S1900x7600, .f32⟩
  | .hbm, ⟨34, _⟩ => ⟨S1900x7600, .f32⟩
  | .hbm, ⟨35, _⟩ => ⟨S1x7600, .f32⟩
  | .hbm, ⟨36, _⟩ => ⟨S1900x7600, .f32⟩
  | .hbm, ⟨37, _⟩ => ⟨S1900x7600, .f32⟩
  | .hbm, ⟨38, _⟩ => ⟨S10x1900, .f32⟩
  | .hbm, ⟨39, _⟩ => ⟨S_, .f32⟩
  | .hbm, ⟨40, _⟩ => ⟨S1900, .f32⟩
  | .hbm, ⟨41, _⟩ => ⟨S1x1900, .f32⟩
  | .hbm, ⟨42, _⟩ => ⟨S_, .f32⟩
  | .hbm, ⟨43, _⟩ => ⟨S1x1900, .f32⟩
  | .hbm, ⟨44, _⟩ => ⟨S1x1900, .f32⟩
  | .hbm, ⟨45, _⟩ => ⟨S1x1900, .f32⟩
  | .hbm, ⟨46, _⟩ => ⟨S10x1900, .f32⟩
  | .hbm, ⟨47, _⟩ => ⟨S10x1900, .f32⟩
  | .hbm, ⟨48, _⟩ => ⟨S1x1900, .f32⟩
  | .hbm, ⟨49, _⟩ => ⟨S10x1900, .f32⟩
  | .hbm, ⟨50, _⟩ => ⟨S10x1900, .f32⟩
  | .hbm, ⟨51, _⟩ => ⟨S1900x1900, .f32⟩
  | .hbm, ⟨52, _⟩ => ⟨S_, .f32⟩
  | .hbm, ⟨53, _⟩ => ⟨S1900, .f32⟩
  | .hbm, ⟨54, _⟩ => ⟨S1x1900, .f32⟩
  | .hbm, ⟨55, _⟩ => ⟨S_, .f32⟩
  | .hbm, ⟨56, _⟩ => ⟨S1x1900, .f32⟩
  | .hbm, ⟨57, _⟩ => ⟨S1x1900, .f32⟩
  | .hbm, ⟨58, _⟩ => ⟨S1x1900, .f32⟩
  | .hbm, ⟨59, _⟩ => ⟨S1900x1900, .f32⟩
  | .hbm, ⟨60, _⟩ => ⟨S1900x1900, .f32⟩
  | .hbm, ⟨61, _⟩ => ⟨S1x1900, .f32⟩
  | .hbm, ⟨62, _⟩ => ⟨S1900x1900, .f32⟩
  | .hbm, ⟨63, _⟩ => ⟨S1900x1900, .f32⟩
  | .hbm, ⟨64, _⟩ => ⟨S8192x1900, .f32⟩
  | .hbm, ⟨65, _⟩ => ⟨S8192x1900, .f32⟩
  | .hbm, ⟨66, _⟩ => ⟨S8192x1900, .f32⟩
  | .hbm, ⟨67, _⟩ => ⟨S8192x7600, .f32⟩
  | .hbm, ⟨68, _⟩ => ⟨S8192x7600, .f32⟩
  | .hbm, ⟨69, _⟩ => ⟨S8192x7600, .f32⟩
  | .hbm, ⟨70, _⟩ => ⟨S1x7600, .f32⟩
  | .hbm, ⟨71, _⟩ => ⟨S8192x7600, .f32⟩
  | .hbm, ⟨72, _⟩ => ⟨S8192x7600, .f32⟩
  | .hbm, ⟨73, _⟩ => ⟨S8192x1900, .f32⟩
  | .hbm, ⟨74, _⟩ => ⟨S8192x1900, .f32⟩
  | .hbm, ⟨75, _⟩ => ⟨S8192x1900, .f32⟩
  | .hbm, ⟨76, _⟩ => ⟨S8192x1900, .f32⟩
  | .hbm, ⟨77, _⟩ => ⟨S8192x1900, .f32⟩
  | .hbm, ⟨78, _⟩ => ⟨S8192x1900, .f32⟩
  | .hbm, ⟨79, _⟩ => ⟨S_, .f32⟩
  | .hbm, ⟨80, _⟩ => ⟨S8192x1900, .f32⟩
  | .hbm, ⟨81, _⟩ => ⟨S8192x1900, .f32⟩
  | .hbm, ⟨82, _⟩ => ⟨S_, .f32⟩
  | .hbm, ⟨83, _⟩ => ⟨S8192x1900, .f32⟩
  | .hbm, ⟨84, _⟩ => ⟨S8192x1900, .f32⟩
  | .hbm, ⟨85, _⟩ => ⟨S8192x1900, .f32⟩
  | .hbm, ⟨86, _⟩ => ⟨S8192x1900, .f32⟩
  | .hbm, ⟨87, _⟩ => ⟨S_, .f32⟩
  | .hbm, ⟨88, _⟩ => ⟨S8192x1900, .f32⟩
  | .hbm, ⟨89, _⟩ => ⟨S8192x1900, .f32⟩
  | .hbm, ⟨90, _⟩ => ⟨S_, .f32⟩
  | .hbm, ⟨91, _⟩ => ⟨S8192x1900, .f32⟩
  | .hbm, ⟨92, _⟩ => ⟨S8192x1900, .f32⟩
  | .hbm, ⟨93, _⟩ => ⟨S8192x1900, .f32⟩
  | .hbm, ⟨94, _⟩ => ⟨S8192x1900, .f32⟩
  | .hbm, ⟨95, _⟩ => ⟨S_, .f32⟩
  | .hbm, ⟨96, _⟩ => ⟨S8192x1900, .f32⟩
  | .hbm, ⟨97, _⟩ => ⟨S8192x1900, .f32⟩
  | .hbm, ⟨98, _⟩ => ⟨S_, .f32⟩
  | .hbm, ⟨99, _⟩ => ⟨S8192x1900, .f32⟩
  | .hbm, ⟨100, _⟩ => ⟨S8192x1900, .f32⟩
  | .hbm, ⟨101, _⟩ => ⟨S8192x1900, .f32⟩
  | .hbm, ⟨102, _⟩ => ⟨S8192x1900, .f32⟩
  | .hbm, ⟨103, _⟩ => ⟨S8192x1900, .f32⟩
  | .hbm, ⟨104, _⟩ => ⟨S8192x1900, .f32⟩
  | .hbm, ⟨105, _⟩ => ⟨S8192x1900, .f32⟩
  | .hbm, ⟨106, _⟩ => ⟨S8192x1900, .f32⟩
  | _, _ => ⟨S8192x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_7 : Ref sig .tc := ⟨.hbm, 79, rfl⟩
abbrev main_v59 : Ref sig .tc := ⟨.hbm, 80, rfl⟩
abbrev main_v60 : Ref sig .tc := ⟨.hbm, 81, rfl⟩
abbrev main_cst_8 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_9 : Ref sig .tc := ⟨.hbm, 87, rfl⟩
abbrev main_v65 : Ref sig .tc := ⟨.hbm, 88, rfl⟩
abbrev main_v66 : Ref sig .tc := ⟨.hbm, 89, rfl⟩
abbrev main_cst_10 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_11 : Ref sig .tc := ⟨.hbm, 95, rfl⟩
abbrev main_v71 : Ref sig .tc := ⟨.hbm, 96, rfl⟩
abbrev main_v72 : Ref sig .tc := ⟨.hbm, 97, rfl⟩
abbrev main_cst_12 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩

abbrev nD : Nat := 1
abbrev τ : Topo := Topo.v7x

variable {F : FTy → Type} [FloatOps F]

class Facts₀ : Prop where
  reducesTo_S10x7600_S7600_d0 : S10x7600.ReducesTo [0] S7600
  h_S_ : 0 < S_.numel
  bcast_S7600_S1x7600_1 : S7600.BroadcastsInDim S1x7600 (![1] : Fin 1 → Fin S1x7600.rank)
  bcast_S_S1x7600 : S_.BroadcastsInDim S1x7600 (![] : Fin 0 → Fin S1x7600.rank)
  bcast_S1x7600_S10x7600_0_1 : S1x7600.BroadcastsInDim S10x7600 (![0, 1] : Fin 2 → Fin S10x7600.rank)
  reducesTo_S1900x7600_S7600_d0 : S1900x7600.ReducesTo [0] S7600
  bcast_S1x7600_S1900x7600_0_1 : S1x7600.BroadcastsInDim S1900x7600 (![0, 1] : Fin 2 → Fin S1900x7600.rank)
  reducesTo_S10x1900_S1900_d0 : S10x1900.ReducesTo [0] S1900
  bcast_S1900_S1x1900_1 : S1900.BroadcastsInDim S1x1900 (![1] : Fin 1 → Fin S1x1900.rank)
  bcast_S_S1x1900 : S_.BroadcastsInDim S1x1900 (![] : Fin 0 → Fin S1x1900.rank)
  bcast_S1x1900_S10x1900_0_1 : S1x1900.BroadcastsInDim S10x1900 (![0, 1] : Fin 2 → Fin S10x1900.rank)
  reducesTo_S1900x1900_S1900_d0 : S1900x1900.ReducesTo [0] S1900
  bcast_S1x1900_S1900x1900_0_1 : S1x1900.BroadcastsInDim S1900x1900 (![0, 1] : Fin 2 → Fin S1900x1900.rank)
  bcast_S1x7600_S8192x7600_0_1 : S1x7600.BroadcastsInDim S8192x7600 (![0, 1] : Fin 2 → Fin S8192x7600.rank)
  slices_S8192x7600_S8192x1900_0_0 : S8192x7600.Slices ![0, 0] S8192x1900
  slices_S8192x7600_S8192x1900_0_1900 : S8192x7600.Slices ![0, 1900] S8192x1900
  slices_S8192x7600_S8192x1900_0_3800 : S8192x7600.Slices ![0, 3800] S8192x1900
  slices_S8192x7600_S8192x1900_0_5700 : S8192x7600.Slices ![0, 5700] S8192x1900
  bcast_S_S8192x1900 : S_.BroadcastsInDim S8192x1900 (![] : Fin 0 → Fin S8192x1900.rank)
  dot_S8192x10_S10x1900_S8192x1900_1_0_0_1_n_n_wf : DotDims.WF S8192x10 S10x1900 S8192x1900 [1] [0] [0] [1] [] []
  dot_S8192x1900_S1900x1900_S8192x1900_1_0_0_1_n_n_wf : DotDims.WF S8192x1900 S1900x1900 S8192x1900 [1] [0] [0] [1] [] []
  dot_S8192x10_S10x7600_S8192x7600_1_0_0_1_n_n_wf : DotDims.WF S8192x10 S10x7600 S8192x7600 [1] [0] [0] [1] [] []
  dot_S8192x1900_S1900x7600_S8192x7600_1_0_0_1_n_n_wf : DotDims.WF S8192x1900 S1900x7600 S8192x7600 [1] [0] [0] [1] [] []

variable [Facts₀]

def dot_S8192x10_S10x1900_S8192x1900_1_0_0_1_n_n : DotDims S8192x10 S10x1900 S8192x1900 where
  lhsContracting := [1]
  rhsContracting := [0]
  lhsNonContracting := [0]
  rhsNonContracting := [1]
  lhsBatch := []
  rhsBatch := []
  wf := dot_S8192x10_S10x1900_S8192x1900_1_0_0_1_n_n_wf
def dot_S8192x1900_S1900x1900_S8192x1900_1_0_0_1_n_n : DotDims S8192x1900 S1900x1900 S8192x1900 where
  lhsContracting := [1]
  rhsContracting := [0]
  lhsNonContracting := [0]
  rhsNonContracting := [1]
  lhsBatch := []
  rhsBatch := []
  wf := dot_S8192x1900_S1900x1900_S8192x1900_1_0_0_1_n_n_wf
def dot_S8192x10_S10x7600_S8192x7600_1_0_0_1_n_n : DotDims S8192x10 S10x7600 S8192x7600 where
  lhsContracting := [1]
  rhsContracting := [0]
  lhsNonContracting := [0]
  rhsNonContracting := [1]
  lhsBatch := []
  rhsBatch := []
  wf := dot_S8192x10_S10x7600_S8192x7600_1_0_0_1_n_n_wf
def dot_S8192x1900_S1900x7600_S8192x7600_1_0_0_1_n_n : DotDims S8192x1900 S1900x7600 S8192x7600 where
  lhsContracting := [1]
  rhsContracting := [0]
  lhsNonContracting := [0]
  rhsNonContracting := [1]
  lhsBatch := []
  rhsBatch := []
  wf := dot_S8192x1900_S1900x7600_S8192x7600_1_0_0_1_n_n_wf

class Facts : Prop extends Facts₀ where

variable [Facts]
-- ==== Proof.KRegion0.lean ====
/-
  The first pallas call (the multiplicative state, 32 grid points of 256 batch rows) as a pipeline region, at any float
  instance: what each window's block is at a grid point, what the body leaves in the output window's staging buffer
  (ONE whole-block store of the product of the two projections), the body's triple, the pipeline's proof data over
  arbitrary entry contents `V`, and the body obligation at every point. The body reads four blocks (the inputs' rows, the
  padded previous hidden state's rows, and the two padded weight matrices whole) and writes one.
-/
import proofs.«136980_j58978490909175_2_alg».proof.Proof.Gen.Kernel.Launch
import proofs.«136980_j58978490909175_2_alg».proof.Proof.Gen.Kernel.Skeleton
import proofs.«136980_j58978490909175_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered: every statement below is at this parameter
variable (V : (c : Dev nD) → (b : Ref sig .tc) → Buf (Elt F) ((c : Thread nD τ).loc b))

/-! ## The windows' blocks -/

/-- Window `w`'s block at grid point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's current staging buffer holds its block at every point, fetched there or not, for any proof data
    whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- Input window 3's current staging buffer holds its block at every point, fetched there or not, for any proof data
    whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-! ## The body's accesses: every load and the store take a whole staging buffer -/

abbrev rIn0 : Rect S256x10 := Rect.unit (s := S256x10) ![0, 0] S256x10.size inb_S256x10_S256x10_0_0
abbrev rRow0 : Rect S256x1920 := Rect.unit (s := S256x1920) ![0, 0] S256x1920.size inb_S256x1920_S256x1920_0_0
abbrev rWmx0 : Rect S10x1920 := Rect.unit (s := S10x1920) ![0, 0] S10x1920.size inb_S10x1920_S10x1920_0_0
abbrev rWmh0 : Rect S1920x1920 := Rect.unit (s := S1920x1920) ![0, 0] S1920x1920.size inb_S1920x1920_S1920x1920_0_0

/-! ## What the body leaves in the output window's buffer -/

/-- The output window's staging buffer after the body, from the four input blocks: its one store as a piece. -/
def out0_4 (x0 : Vec F S256x10 .f32) (x1 : Vec F S256x1920 .f32) (x2 : Vec F S10x1920 .bf16) (x3 : Vec F S1920x1920 .bf16) : Vec F S256x1920 .bf16 :=
  View.canon [⟨rRow0, k0_pay1 (View.ld x0 rIn0) (View.ld x1 rRow0) (View.ld x2 rWmx0) (View.ld x3 rWmh0)⟩]

/-- The one store takes the whole buffer, so it covers it. -/
theorem cover0_4 (p0 : Vec F S256x1920 .bf16) (y : S256x1920.Idx) :
    ∃ pc ∈ ([⟨rRow0, p0⟩] : List (View.Piece (Elt F) S256x1920 .bf16)), y ∈ pc.1.set :=
  View.cover_of_tiled [⟨rRow0, p0⟩] S256x1920.size (by rfl) y

/-! ## The body's triple -/

set_option maxHeartbeats 4000000 in
/-- The body on whole staging memrefs — the inputs' at contents `x0 … x3`, the output's at anything — runs to the
    continuation with the inputs' as they were and the output's at `out0_4` of them. -/
theorem sound_kernel0 (c : Dev nD) (E : Set ℕ) (i : grid0.Coords)
    (arg1 : Memref sig .tc .vmem S256x10 .f32) (harg1 : arg1.IsWhole) (arg2 : Memref sig .tc .vmem S256x1920 .f32) (harg2 : arg2.IsWhole)
    (arg3 : Memref sig .tc .vmem S10x1920 .bf16) (harg3 : arg3.IsWhole) (arg4 : Memref sig .tc .vmem S1920x1920 .bf16) (harg4 : arg4.IsWhole)
    (arg5 : Memref sig .tc .vmem S256x1920 .bf16) (harg5 : arg5.IsWhole)
    (x0 : Vec F S256x10 .f32) (x1 : Vec F S256x1920 .f32) (x2 : Vec F S10x1920 .bf16) (x3 : Vec F S1920x1920 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__m_kernel i arg1 harg1 arg2 harg2 arg3 harg3 arg4 harg4 arg5 harg5) K := by
  simp only [cc0__m_kernel_eq_skeleton]; unfold cc0__m_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the first pipeline on core `c`: the arrays as the region finds them; after the body at point `t`
    each input's buffer at its block and the output's at `out0_4` of the input blocks; the invariant keeps the scoped
    rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => out0_4 (blk0 V c 0 t) (blk0 V c 1 t) (blk0 V c 2 t) (blk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) :
    (dat0 V c).after 4 t = out0_4 (blk0 V c 0 t) (blk0 V c 1 t) (blk0 V c 2 t) (blk0 V c 3 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (blk0 V c 0 t) (blk0 V c 1 t) (blk0 V c 2 t) (blk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KRegion1.lean ====
/-
  The second pallas call (the four gates and the two new states, 64 grid points of 128 batch rows) as a pipeline region,
  at any float instance. The body reads the multiplicative state's rows, the inputs' rows, the padded previous cell
  state's rows and — whole, once — the gate-aligned padded weights and bias, from which it takes the four gates' column
  bands at offsets 0, 1920, 3840 and 5760; it stores the new hidden state and the new cell state, one whole-block store
  each. Stated here: the blocks at a point, what the body leaves in the two output buffers, the body's triple, the proof
  data over arbitrary entry contents `V`, and the body obligation at every point.
-/
import proofs.«136980_j58978490909175_2_alg».proof.Proof.Gen.Kernel.Launch
import proofs.«136980_j58978490909175_2_alg».proof.Proof.Gen.Kernel.Skeleton
import proofs.«136980_j58978490909175_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered: every statement below is at this parameter
variable (V : (c : Dev nD) → (b : Ref sig .tc) → Buf (Elt F) ((c : Thread nD τ).loc b))

/-! ## The windows' blocks -/

/-- Window `w`'s block at grid point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's current staging buffer holds its block at every point, fetched there or not, for any proof data
    whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's current staging buffer holds its block at every point, fetched there or not, for any proof data
    whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- Input window 3's current staging buffer holds its block at every point, fetched there or not, for any proof data
    whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- Input window 4's current staging buffer holds its block at every point, fetched there or not, for any proof data
    whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- Input window 5's current staging buffer holds its block at every point, fetched there or not, for any proof data
    whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

/-! ## The body's accesses: whole row blocks, and the four column bands of the weights and the bias -/

abbrev rIn1 : Rect S128x10 := Rect.unit (s := S128x10) ![0, 0] S128x10.size inb_S128x10_S128x10_0_0
abbrev rRow1 : Rect S128x1920 := Rect.unit (s := S128x1920) ![0, 0] S128x1920.size inb_S128x1920_S128x1920_0_0
abbrev rWx1_0 : Rect S10x7680 := Rect.unit (s := S10x7680) ![0, 0] S10x1920.size inb_S10x7680_S10x1920_0_0
abbrev rWh1_0 : Rect S1920x7680 := Rect.unit (s := S1920x7680) ![0, 0] S1920x1920.size inb_S1920x7680_S1920x1920_0_0
abbrev rB1_0 : Rect S1x7680 := Rect.unit (s := S1x7680) ![0, 0] S1x1920.size inb_S1x7680_S1x1920_0_0
abbrev rWx1_1920 : Rect S10x7680 := Rect.unit (s := S10x7680) ![0, 1920] S10x1920.size inb_S10x7680_S10x1920_0_1920
abbrev rWh1_1920 : Rect S1920x7680 := Rect.unit (s := S1920x7680) ![0, 1920] S1920x1920.size inb_S1920x7680_S1920x1920_0_1920
abbrev rB1_1920 : Rect S1x7680 := Rect.unit (s := S1x7680) ![0, 1920] S1x1920.size inb_S1x7680_S1x1920_0_1920
abbrev rWx1_3840 : Rect S10x7680 := Rect.unit (s := S10x7680) ![0, 3840] S10x1920.size inb_S10x7680_S10x1920_0_3840
abbrev rWh1_3840 : Rect S1920x7680 := Rect.unit (s := S1920x7680) ![0, 3840] S1920x1920.size inb_S1920x7680_S1920x1920_0_3840
abbrev rB1_3840 : Rect S1x7680 := Rect.unit (s := S1x7680) ![0, 3840] S1x1920.size inb_S1x7680_S1x1920_0_3840
abbrev rWx1_5760 : Rect S10x7680 := Rect.unit (s := S10x7680) ![0, 5760] S10x1920.size inb_S10x7680_S10x1920_0_5760
abbrev rWh1_5760 : Rect S1920x7680 := Rect.unit (s := S1920x7680) ![0, 5760] S1920x1920.size inb_S1920x7680_S1920x1920_0_5760
abbrev rB1_5760 : Rect S1x7680 := Rect.unit (s := S1x7680) ![0, 5760] S1x1920.size inb_S1x7680_S1x1920_0_5760

/-! ## What the body leaves in each output window's buffer -/

/-- The new hidden state's staging buffer after the body, from the six input blocks: its one store as a piece. -/
def out1_6 (x0 : Vec F S128x1920 .bf16) (x1 : Vec F S128x10 .f32) (x2 : Vec F S128x1920 .f32) (x3 : Vec F S10x7680 .bf16) (x4 : Vec F S1920x7680 .bf16) (x5 : Vec F S1x7680 .f32) : Vec F S128x1920 .f32 :=
  View.canon [⟨rRow1, k1_pay2 (k1_pay3 (View.ld x1 rIn1)) (k1_pay4 (View.ld x0 rRow1)) (k1_pay5 (View.ld x2 rRow1)) (k1_pay6 (View.ld x1 rIn1) (View.ld x0 rRow1) (View.ld x3 rWx1_0) (View.ld x4 rWh1_0) (View.ld x5 rB1_0)) (k1_pay7 (View.ld x1 rIn1) (View.ld x0 rRow1) (View.ld x3 rWx1_1920) (View.ld x4 rWh1_1920) (View.ld x5 rB1_1920)) (k1_pay8 (View.ld x3 rWx1_3840)) (k1_pay9 (View.ld x4 rWh1_3840)) (View.ld x5 rB1_3840) (View.ld x3 rWx1_5760) (View.ld x4 rWh1_5760) (View.ld x5 rB1_5760)⟩]

/-- The new cell state's staging buffer after the body, from the six input blocks: its one store as a piece. -/
def out1_7 (x0 : Vec F S128x1920 .bf16) (x1 : Vec F S128x10 .f32) (x2 : Vec F S128x1920 .f32) (x3 : Vec F S10x7680 .bf16) (x4 : Vec F S1920x7680 .bf16) (x5 : Vec F S1x7680 .f32) : Vec F S128x1920 .f32 :=
  View.canon [⟨rRow1, k1_pay1 (k1_pay3 (View.ld x1 rIn1)) (k1_pay4 (View.ld x0 rRow1)) (k1_pay5 (View.ld x2 rRow1)) (k1_pay6 (View.ld x1 rIn1) (View.ld x0 rRow1) (View.ld x3 rWx1_0) (View.ld x4 rWh1_0) (View.ld x5 rB1_0)) (k1_pay7 (View.ld x1 rIn1) (View.ld x0 rRow1) (View.ld x3 rWx1_1920) (View.ld x4 rWh1_1920) (View.ld x5 rB1_1920)) (View.ld x3 rWx1_5760) (View.ld x4 rWh1_5760) (View.ld x5 rB1_5760)⟩]

/-- A store of the whole buffer covers it. -/
theorem cover1_row (p0 : Vec F S128x1920 .f32) (y : S128x1920.Idx) :
    ∃ pc ∈ ([⟨rRow1, p0⟩] : List (View.Piece (Elt F) S128x1920 .f32)), y ∈ pc.1.set :=
  View.cover_of_tiled [⟨rRow1, p0⟩] S128x1920.size (by rfl) y

/-! ## The body's triple -/

set_option maxHeartbeats 8000000 in
/-- The body on whole staging memrefs — the inputs' at contents `x0 … x5`, the outputs' at anything — runs to the
    continuation with the inputs' as they were and the outputs' at `out1_6`, `out1_7` of them. -/
theorem sound_kernel1 (c : Dev nD) (E : Set ℕ) (i : grid1.Coords)
    (arg1 : Memref sig .tc .vmem S128x1920 .bf16) (harg1 : arg1.IsWhole)
    (arg2 : Memref sig .tc .vmem S128x10 .f32) (harg2 : arg2.IsWhole)
    (arg3 : Memref sig .tc .vmem S128x1920 .f32) (harg3 : arg3.IsWhole)
    (arg4 : Memref sig .tc .vmem S10x7680 .bf16) (harg4 : arg4.IsWhole)
    (arg5 : Memref sig .tc .vmem S1920x7680 .bf16) (harg5 : arg5.IsWhole)
    (arg6 : Memref sig .tc .vmem S1x7680 .f32) (harg6 : arg6.IsWhole)
    (arg7 : Memref sig .tc .vmem S128x1920 .f32) (harg7 : arg7.IsWhole)
    (arg8 : Memref sig .tc .vmem S128x1920 .f32) (harg8 : arg8.IsWhole)
    (x0 : Vec F S128x1920 .bf16) (x1 : Vec F S128x10 .f32) (x2 : Vec F S128x1920 .f32) (x3 : Vec F S10x7680 .bf16) (x4 : Vec F S1920x7680 .bf16) (x5 : Vec F S1x7680 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__zgate_kernel i arg1 harg1 arg2 harg2 arg3 harg3 arg4 harg4 arg5 harg5 arg6 harg6 arg7 harg7 arg8 harg8) K := by
  simp only [cc1__zgate_kernel_eq_skeleton]; unfold cc1__zgate_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover1_row _)
  iexists _; isplitr
  swap; · iexact H7
  ipureintro
  try dsimp only
  exact View.read_writes_eq_canon _ _ _ (cover1_row _)

/-! ## The pipeline's proof data -/

/-- The proof data of the second pipeline on core `c`: the arrays as the region finds them; after the body at point `t`
    each input's buffer at its block and each output's at `out1_6` / `out1_7` of the input blocks; the invariant keeps
    the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => out1_6 (blk1 V c 0 t) (blk1 V c 1 t) (blk1 V c 2 t) (blk1 V c 3 t) (blk1 V c 4 t) (blk1 V c 5 t)
    | ⟨7, _⟩ => out1_7 (blk1 V c 0 t) (blk1 V c 1 t) (blk1 V c 2 t) (blk1 V c 3 t) (blk1 V c 4 t) (blk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = out1_6 (blk1 V c 0 t) (blk1 V c 1 t) (blk1 V c 2 t) (blk1 V c 3 t) (blk1 V c 4 t) (blk1 V c 5 t) := by dsimp only [dat1]
theorem after1_7 (c : Dev nD) (t : Fin cfg1.N) : (dat1 V c).after 7 t = out1_7 (blk1 V c 0 t) (blk1 V c 1 t) (blk1 V c 2 t) (blk1 V c 3 t) (blk1 V c 4 t) (blk1 V c 5 t) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d
theorem before1_4 (c : Dev nD) (t : Fin cfg1.N) (d) : (dat1 V c).before 4 t d = blk1 V c 4 t :=
  before1_4_of V (dat1 V c) (A_eq1 V c 4) (after1_4 V c) t d
theorem before1_5 (c : Dev nD) (t : Fin cfg1.N) (d) : (dat1 V c).before 5 t d = blk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (blk1 V c 0 t) (blk1 V c 1 t) (blk1 V c 2 t) (blk1 V c 3 t) (blk1 V c 4 t) (blk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KRun.lean ====
/-
  The whole program as a chain of segments, at any float instance: thirty-five stretches of host operations, the two
  pallas calls, and the final stretch that slices the padding off. Each pallas call is a pipeline region over the
  contents the host stretches before it leave; what a region leaves is its input arrays as found and each output array
  at what the grid's write-backs add up to. From the two regions' records follow the frame (every argument array ends as
  launched) and a run whose post reads EVERY unscoped buffer at the last segment's contents, the two results among them.
-/
import proofs.«136980_j58978490909175_2_alg».proof.Proof.RegionsKernel
import proofs.«136980_j58978490909175_2_alg».proof.Proof.KRegion0
import proofs.«136980_j58978490909175_2_alg».proof.Proof.KRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 65536

noncomputable section

namespace Cert.Kernel.Fr

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions find and what they leave -/

/-- What the first region finds: the launch contents after the thirty-five host stretches. -/
abbrev E0 : (c : Dev nD) → (b : Ref sig .tc) → Buf (Elt F) ((c : Thread nD τ).loc b) := fun c b => V35 m c b

/-- What the first region leaves: its arrays at what the pipeline's write-backs add up to, everything else as found. -/
def left0 (c : Dev nD) : Valuation τ sig (Elt F) :=
  Pipeline.withArrays spec0 c (V35 m c) fun w => (dat0 (E0 m) c).arrAt w cfg0.N

/-- The first region's result, as the table of region results the host valuations are written over (read at one place). -/
def outs0 : Outs (F := F) := fun _ r c => left0 m c r

/-- What the second region finds: the first region's result in place, nothing else changed. -/
abbrev E1 : (c : Dev nD) → (b : Ref sig .tc) → Buf (Elt F) ((c : Thread nD τ).loc b) := fun c b => V36 m (outs0 m) c b

/-- What the second region leaves. -/
def left1 (c : Dev nD) : Valuation τ sig (Elt F) :=
  Pipeline.withArrays spec1 c (V36 m (outs0 m) c) fun w => (dat1 (E1 m) c).arrAt w cfg1.N

/-- Both regions' results as one table: the first region's at item 36, the second's at item 37. -/
def outs : Outs (F := F) := fun J r c => match J with
  | 36 => left0 m c r
  | _ => left1 m c r

theorem V36_outs (c : Dev nD) : V36 m (outs m) c = V36 m (outs0 m) c := rfl

theorem left0_arr (c : Dev nD) (w : Fin cfg0.W) :
    left0 m c (Proc.devRef .tc (Pipeline.arrRef spec0 w)) = (dat0 (E0 m) c).arrAt w cfg0.N := by
  unfold left0; exact Pipeline.withArrays_arr spec0 launch0.win.arr_inj c _ _ w

theorem left1_arr (c : Dev nD) (w : Fin cfg1.W) :
    left1 m c (Proc.devRef .tc (Pipeline.arrRef spec1 w)) = (dat1 (E1 m) c).arrAt w cfg1.N := by
  unfold left1; exact Pipeline.withArrays_arr spec1 launch1.win.arr_inj c _ _ w

/-- An input array of the first region is, at the region's exit, what it was at entry. -/
theorem keep0 (c : Dev nD) (w : Fin cfg0.W) (hin : (cfg0.win w).isOut = false)
    (hne : Pipeline.arrRef spec0 w ∉ ([main_v81] : List (Ref sig .tc))) :
    (dat0 (E0 m) c).arrAt w cfg0.N = V36 m (outs m) c (Pipeline.arrRef spec0 w) :=
  ((dat0 (E0 m) c).arrAt_in w hin _).trans ((A_eq0 (E0 m) c w).trans (V36_of m (outs m) c _ hne).symm)

/-- At the first region's exit each of its arrays holds what the pipeline leaves, -/
theorem hF0 (c : Dev nD) : ∀ w : Fin cfg0.W, (dat0 (E0 m) c).arrAt w cfg0.N = V36 m (outs m) c (Pipeline.arrRef spec0 w)
  | ⟨0, _⟩ => keep0 m c 0 rfl (by decide)
  | ⟨1, _⟩ => keep0 m c 1 rfl (by decide)
  | ⟨2, _⟩ => keep0 m c 2 rfl (by decide)
  | ⟨3, _⟩ => keep0 m c 3 rfl (by decide)
  | ⟨4, _⟩ => by
    show _ = Function.update (V35 m c) (Proc.devRef .tc main_v81) (left0 m c (Proc.devRef .tc main_v81)) (Proc.devRef .tc main_v81)
    rw [Function.update_self]
    exact (left0_arr m c 4).symm

/-- and every other buffer what it held at entry. -/
theorem hrest0 (c : Dev nD) : ∀ b, b ∉ Finset.univ.image (Pipeline.arrRef spec0) → V36 m (outs m) c b = V35 m c b :=
  fun b hb => V36_of m (outs m) c b fun h => hb (by
    rw [List.mem_singleton] at h; subst h
    exact Finset.mem_image.mpr ⟨4, Finset.mem_univ _, rfl⟩)

/-- An input array of the second region is, at the region's exit, what it was at entry. -/
theorem keep1 (c : Dev nD) (w : Fin cfg1.W) (hin : (cfg1.win w).isOut = false)
    (hne : Pipeline.arrRef spec1 w ∉ ([main_v82_0, main_v82_1] : List (Ref sig .tc))) :
    (dat1 (E1 m) c).arrAt w cfg1.N = V37 m (outs m) c (Pipeline.arrRef spec1 w) :=
  ((dat1 (E1 m) c).arrAt_in w hin _).trans ((A_eq1 (E1 m) c w).trans (V37_of m (outs m) c _ hne).symm)

theorem hF1 (c : Dev nD) : ∀ w : Fin cfg1.W, (dat1 (E1 m) c).arrAt w cfg1.N = V37 m (outs m) c (Pipeline.arrRef spec1 w)
  | ⟨0, _⟩ => keep1 m c 0 rfl (by decide)
  | ⟨1, _⟩ => keep1 m c 1 rfl (by decide)
  | ⟨2, _⟩ => keep1 m c 2 rfl (by decide)
  | ⟨3, _⟩ => keep1 m c 3 rfl (by decide)
  | ⟨4, _⟩ => keep1 m c 4 rfl (by decide)
  | ⟨5, _⟩ => keep1 m c 5 rfl (by decide)
  | ⟨6, _⟩ => by
    show _ = Function.update (Function.update (V36 m (outs m) c) (Proc.devRef .tc main_v82_0) (left1 m c (Proc.devRef .tc main_v82_0)))
      (Proc.devRef .tc main_v82_1) (left1 m c (Proc.devRef .tc main_v82_1)) (Proc.devRef .tc main_v82_0)
    rw [Function.update_of_ne (StableHlo.devRef_ne_of_ne (by decide)), Function.update_self]
    exact (left1_arr m c 6).symm
  | ⟨7, _⟩ => by
    show _ = Function.update (Function.update (V36 m (outs m) c) (Proc.devRef .tc main_v82_0) (left1 m c (Proc.devRef .tc main_v82_0)))
      (Proc.devRef .tc main_v82_1) (left1 m c (Proc.devRef .tc main_v82_1)) (Proc.devRef .tc main_v82_1)
    rw [Function.update_self]
    exact (left1_arr m c 7).symm

theorem hrest1 (c : Dev nD) : ∀ b, b ∉ Finset.univ.image (Pipeline.arrRef spec1) → V37 m (outs m) c b = E1 m c b :=
  fun b hb => V37_of m (outs m) c b fun h => hb (by
    rw [List.mem_cons, List.mem_singleton] at h
    rcases h with h | h
    · subst h; exact Finset.mem_image.mpr ⟨6, Finset.mem_univ _, rfl⟩
    · subst h; exact Finset.mem_image.mpr ⟨7, Finset.mem_univ _, rfl⟩)

/-! ## The proof data family and what rides along -/

/-- Every pipeline's proof data, each at its region's entry contents. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c

abbrev 𝒱₀ : Variants := Variants.none
/-- No core owes another anything. -/
abbrev L : GSem nD τ sig → Finset Unit := fun _ => ∅
abbrev lv : GSem nD τ sig → Unit → ℕ := fun _ _ => 0
/-- Beside the buffers, through every segment: the core's generator register at some state, and the core owing nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- The first pallas call: entered from the unscoped buffers after the host prefix, left with its result in place. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V35 m c) ∗ R c)
  post c := iprop(StableHlo.held (c : Thread nD τ) (Pipeline.ucRefs τ sig) (V36 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => V36 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas call: entered from there, left with its two results in place. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (V36 m (outs0 m) c) ∗ R c)
  post c := iprop(StableHlo.held (c : Thread nD τ) (Pipeline.ucRefs τ sig) (V37 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => V37 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

theorem launch_elt : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What rides along is made at the launch on every core: the generator register, and nothing owed. -/
theorem launch_rest : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem rest_owes (c : Dev nD) : R (F := F) c ⊢ (iprop(∃ W, owes (c : Thread nD τ) (0 : CellTallies nD τ sig Unit) W) : sProp 𝕄) := by
  iintro ⟨-, HO⟩; iexact HO

/-! ## The frame -/

/-- Every weakly fair execution of the program terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_cond m emb₁ () 𝒱₀ L lv (fun _ _ => rfl) ρ (outs m) (pdats m) 0 (fun _ => iprop(emp))
    (initOf (Pipeline.cells cfgs cellOf_inj) (Pipeline.launchToks cfgs cellOf_inj)) launch_elt
    (fun _ c => R c) (launch_rest ρ) (fun c => rest_owes c)
    (reg0 m) (fun c => .rfl) (fun c => .rfl) (reg1 m) (fun c => by rw [V36_outs]; exact .rfl) (fun c => .rfl)

/-! ## The run, every unscoped buffer read at the end -/

set_option backward.isDefEq.respectTransparency.types false in
/-- Every weakly fair execution terminates with every unscoped buffer of every core at the last segment's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V38 m (outs m) c b) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m))
    (fun c Q => by
      rewrite [main_chain c, Seg.run_eq_chain,
        show (segs m (outs m) 𝒱₀ L lv (fun _ c => R c) () (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          StableHlo.seq hostOps0_17,
          StableHlo.seq hostOps0_18,
          StableHlo.seq hostOps0_19,
          StableHlo.seq hostOps0_20,
          StableHlo.seq hostOps0_21,
          StableHlo.seq hostOps0_22,
          StableHlo.seq hostOps0_23,
          StableHlo.seq hostOps0_24,
          StableHlo.seq hostOps0_25,
          StableHlo.seq hostOps0_26,
          StableHlo.seq hostOps0_27,
          StableHlo.seq hostOps0_28,
          StableHlo.seq hostOps0_29,
          StableHlo.seq hostOps0_30,
          StableHlo.seq hostOps0_31,
          StableHlo.seq hostOps0_32,
          StableHlo.seq hostOps0_33,
          StableHlo.seq hostOps0_34,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj)) (hu₀ := launch_elt)
    (T₀ := fun c => iprop(StableHlo.held (c : Thread nD τ) (Pipeline.ucRefs τ sig) (V0 m c) ∗ R c))
    (Tₙ := fun c => StableHlo.held (c : Thread nD τ) (Pipeline.ucRefs τ sig) (V38 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl,
      (show (iprop(StableHlo.held (c : Thread nD τ) (Pipeline.ucRefs τ sig) (V36 m (outs m) c) ∗ R c) : sProp 𝕄)
          ⊢ iprop(StableHlo.held (c : Thread nD τ) (Pipeline.ucRefs τ sig) (V36 m (outs0 m) c) ∗ R c) from by rw [V36_outs]),
      .rfl, sep_mono .rfl (rest_owes c)⟩)
    (hinit := ?_)
    (QY := fun c s => ∀ b ∈ Pipeline.ucRefs τ sig, s.mem (((c : Thread nD τ)).1, b) = V38 m (outs m) c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (launch_rest (F := F) ρ) $$ [Hr Hla] with HE
    · isplitl [Hr]; · iexact Hr
      iexact Hla
    imodintro
    have hjoin : (iprop((bigSep Finset.univ fun c : Dev nD => StableHlo.held (c : Thread nD τ) (Pipeline.ucRefs τ sig) (V0 m c))
          ∗ bigSep Finset.univ fun c : Dev nD => R (F := F) c) : sProp 𝕄)
        ⊢ bigSep Finset.univ fun c : Dev nD => iprop(StableHlo.held (c : Thread nD τ) (Pipeline.ucRefs τ sig) (V0 m c) ∗ R c) := by
      rw [← bigSep_sep']
    iapply hjoin
    isplitl [Hh]; · iexact Hh
    iexact HE
  · unfold StableHlo.held
    iintro ⟨Hh, HSI⟩
    imodintro
    iapply (pointsTo_read_all (Pipeline.ucRefs τ sig) (fun b => (((c : Thread nD τ)).1, b)) (V38 m (outs m) c) s')
    isplitl [Hh] <;> iassumption

end Cert.Kernel.Fr

end
-- ==== Proof.KiRegion0.lean ====
/-
  The first pallas call (the multiplicative state, 32 grid points of 256 batch rows) as a pipeline region, at any float
  instance: what each window's block is at a grid point, what the body leaves in the output window's staging buffer
  (ONE whole-block store of the product of the two projections), the body's triple, the pipeline's proof data over
  arbitrary entry contents `V`, and the body obligation at every point. The body reads four blocks (the inputs' rows, the
  padded previous hidden state's rows, and the two padded weight matrices whole) and writes one.
-/
import proofs.«136980_j58978490909175_2_alg».proof.Proof.Gen.KernelIdeal.Launch
import proofs.«136980_j58978490909175_2_alg».proof.Proof.Gen.KernelIdeal.Skeleton
import proofs.«136980_j58978490909175_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered: every statement below is at this parameter
variable (V : (c : Dev nD) → (b : Ref sig .tc) → Buf (Elt F) ((c : Thread nD τ).loc b))

/-! ## The windows' blocks -/

/-- Window `w`'s block at grid point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's current staging buffer holds its block at every point, fetched there or not, for any proof data
    whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- Input window 3's current staging buffer holds its block at every point, fetched there or not, for any proof data
    whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-! ## The body's accesses: every load and the store take a whole staging buffer -/

abbrev rIn0 : Rect S256x10 := Rect.unit (s := S256x10) ![0, 0] S256x10.size inb_S256x10_S256x10_0_0
abbrev rRow0 : Rect S256x1920 := Rect.unit (s := S256x1920) ![0, 0] S256x1920.size inb_S256x1920_S256x1920_0_0
abbrev rWmx0 : Rect S10x1920 := Rect.unit (s := S10x1920) ![0, 0] S10x1920.size inb_S10x1920_S10x1920_0_0
abbrev rWmh0 : Rect S1920x1920 := Rect.unit (s := S1920x1920) ![0, 0] S1920x1920.size inb_S1920x1920_S1920x1920_0_0

/-! ## What the body leaves in the output window's buffer -/

/-- The output window's staging buffer after the body, from the four input blocks: its one store as a piece. -/
def out0_4 (x0 : Vec F S256x10 .f32) (x1 : Vec F S256x1920 .f32) (x2 : Vec F S10x1920 .bf16) (x3 : Vec F S1920x1920 .bf16) : Vec F S256x1920 .bf16 :=
  View.canon [⟨rRow0, k0_pay1 (View.ld x0 rIn0) (View.ld x1 rRow0) (View.ld x2 rWmx0) (View.ld x3 rWmh0)⟩]

/-- The one store takes the whole buffer, so it covers it. -/
theorem cover0_4 (p0 : Vec F S256x1920 .bf16) (y : S256x1920.Idx) :
    ∃ pc ∈ ([⟨rRow0, p0⟩] : List (View.Piece (Elt F) S256x1920 .bf16)), y ∈ pc.1.set :=
  View.cover_of_tiled [⟨rRow0, p0⟩] S256x1920.size (by rfl) y

/-! ## The body's triple -/

set_option maxHeartbeats 4000000 in
/-- The body on whole staging memrefs — the inputs' at contents `x0 … x3`, the output's at anything — runs to the
    continuation with the inputs' as they were and the output's at `out0_4` of them. -/
theorem sound_kernel0 (c : Dev nD) (E : Set ℕ) (i : grid0.Coords)
    (arg1 : Memref sig .tc .vmem S256x10 .f32) (harg1 : arg1.IsWhole) (arg2 : Memref sig .tc .vmem S256x1920 .f32) (harg2 : arg2.IsWhole)
    (arg3 : Memref sig .tc .vmem S10x1920 .bf16) (harg3 : arg3.IsWhole) (arg4 : Memref sig .tc .vmem S1920x1920 .bf16) (harg4 : arg4.IsWhole)
    (arg5 : Memref sig .tc .vmem S256x1920 .bf16) (harg5 : arg5.IsWhole)
    (x0 : Vec F S256x10 .f32) (x1 : Vec F S256x1920 .f32) (x2 : Vec F S10x1920 .bf16) (x3 : Vec F S1920x1920 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__m_kernel i arg1 harg1 arg2 harg2 arg3 harg3 arg4 harg4 arg5 harg5) K := by
  simp only [cc0__m_kernel_eq_skeleton]; unfold cc0__m_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the first pipeline on core `c`: the arrays as the region finds them; after the body at point `t`
    each input's buffer at its block and the output's at `out0_4` of the input blocks; the invariant keeps the scoped
    rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => out0_4 (blk0 V c 0 t) (blk0 V c 1 t) (blk0 V c 2 t) (blk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) :
    (dat0 V c).after 4 t = out0_4 (blk0 V c 0 t) (blk0 V c 1 t) (blk0 V c 2 t) (blk0 V c 3 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (blk0 V c 0 t) (blk0 V c 1 t) (blk0 V c 2 t) (blk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KiRegion1.lean ====
/-
  The second pallas call (the four gates and the two new states, 64 grid points of 128 batch rows) as a pipeline region,
  at any float instance. The body reads the multiplicative state's rows, the inputs' rows, the padded previous cell
  state's rows and — whole, once — the gate-aligned padded weights and bias, from which it takes the four gates' column
  bands at offsets 0, 1920, 3840 and 5760; it stores the new hidden state and the new cell state, one whole-block store
  each. Stated here: the blocks at a point, what the body leaves in the two output buffers, the body's triple, the proof
  data over arbitrary entry contents `V`, and the body obligation at every point.
-/
import proofs.«136980_j58978490909175_2_alg».proof.Proof.Gen.KernelIdeal.Launch
import proofs.«136980_j58978490909175_2_alg».proof.Proof.Gen.KernelIdeal.Skeleton
import proofs.«136980_j58978490909175_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the unscoped buffers hold when the region is entered: every statement below is at this parameter
variable (V : (c : Dev nD) → (b : Ref sig .tc) → Buf (Elt F) ((c : Thread nD τ).loc b))

/-! ## The windows' blocks -/

/-- Window `w`'s block at grid point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's current staging buffer holds its block at every point, fetched there or not, for any proof data
    whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's current staging buffer holds its block at every point, fetched there or not, for any proof data
    whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- Input window 3's current staging buffer holds its block at every point, fetched there or not, for any proof data
    whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- Input window 4's current staging buffer holds its block at every point, fetched there or not, for any proof data
    whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- Input window 5's current staging buffer holds its block at every point, fetched there or not, for any proof data
    whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

/-! ## The body's accesses: whole row blocks, and the four column bands of the weights and the bias -/

abbrev rIn1 : Rect S128x10 := Rect.unit (s := S128x10) ![0, 0] S128x10.size inb_S128x10_S128x10_0_0
abbrev rRow1 : Rect S128x1920 := Rect.unit (s := S128x1920) ![0, 0] S128x1920.size inb_S128x1920_S128x1920_0_0
abbrev rWx1_0 : Rect S10x7680 := Rect.unit (s := S10x7680) ![0, 0] S10x1920.size inb_S10x7680_S10x1920_0_0
abbrev rWh1_0 : Rect S1920x7680 := Rect.unit (s := S1920x7680) ![0, 0] S1920x1920.size inb_S1920x7680_S1920x1920_0_0
abbrev rB1_0 : Rect S1x7680 := Rect.unit (s := S1x7680) ![0, 0] S1x1920.size inb_S1x7680_S1x1920_0_0
abbrev rWx1_1920 : Rect S10x7680 := Rect.unit (s := S10x7680) ![0, 1920] S10x1920.size inb_S10x7680_S10x1920_0_1920
abbrev rWh1_1920 : Rect S1920x7680 := Rect.unit (s := S1920x7680) ![0, 1920] S1920x1920.size inb_S1920x7680_S1920x1920_0_1920
abbrev rB1_1920 : Rect S1x7680 := Rect.unit (s := S1x7680) ![0, 1920] S1x1920.size inb_S1x7680_S1x1920_0_1920
abbrev rWx1_3840 : Rect S10x7680 := Rect.unit (s := S10x7680) ![0, 3840] S10x1920.size inb_S10x7680_S10x1920_0_3840
abbrev rWh1_3840 : Rect S1920x7680 := Rect.unit (s := S1920x7680) ![0, 3840] S1920x1920.size inb_S1920x7680_S1920x1920_0_3840
abbrev rB1_3840 : Rect S1x7680 := Rect.unit (s := S1x7680) ![0, 3840] S1x1920.size inb_S1x7680_S1x1920_0_3840
abbrev rWx1_5760 : Rect S10x7680 := Rect.unit (s := S10x7680) ![0, 5760] S10x1920.size inb_S10x7680_S10x1920_0_5760
abbrev rWh1_5760 : Rect S1920x7680 := Rect.unit (s := S1920x7680) ![0, 5760] S1920x1920.size inb_S1920x7680_S1920x1920_0_5760
abbrev rB1_5760 : Rect S1x7680 := Rect.unit (s := S1x7680) ![0, 5760] S1x1920.size inb_S1x7680_S1x1920_0_5760

/-! ## What the body leaves in each output window's buffer -/

/-- The new hidden state's staging buffer after the body, from the six input blocks: its one store as a piece. -/
def out1_6 (x0 : Vec F S128x1920 .bf16) (x1 : Vec F S128x10 .f32) (x2 : Vec F S128x1920 .f32) (x3 : Vec F S10x7680 .bf16) (x4 : Vec F S1920x7680 .bf16) (x5 : Vec F S1x7680 .f32) : Vec F S128x1920 .f32 :=
  View.canon [⟨rRow1, k1_pay2 (k1_pay3 (View.ld x1 rIn1)) (k1_pay4 (View.ld x0 rRow1)) (k1_pay5 (View.ld x2 rRow1)) (k1_pay6 (View.ld x1 rIn1) (View.ld x0 rRow1) (View.ld x3 rWx1_0) (View.ld x4 rWh1_0) (View.ld x5 rB1_0)) (k1_pay7 (View.ld x1 rIn1) (View.ld x0 rRow1) (View.ld x3 rWx1_1920) (View.ld x4 rWh1_1920) (View.ld x5 rB1_1920)) (k1_pay8 (View.ld x3 rWx1_3840)) (k1_pay9 (View.ld x4 rWh1_3840)) (View.ld x5 rB1_3840) (View.ld x3 rWx1_5760) (View.ld x4 rWh1_5760) (View.ld x5 rB1_5760)⟩]

/-- The new cell state's staging buffer after the body, from the six input blocks: its one store as a piece. -/
def out1_7 (x0 : Vec F S128x1920 .bf16) (x1 : Vec F S128x10 .f32) (x2 : Vec F S128x1920 .f32) (x3 : Vec F S10x7680 .bf16) (x4 : Vec F S1920x7680 .bf16) (x5 : Vec F S1x7680 .f32) : Vec F S128x1920 .f32 :=
  View.canon [⟨rRow1, k1_pay1 (k1_pay3 (View.ld x1 rIn1)) (k1_pay4 (View.ld x0 rRow1)) (k1_pay5 (View.ld x2 rRow1)) (k1_pay6 (View.ld x1 rIn1) (View.ld x0 rRow1) (View.ld x3 rWx1_0) (View.ld x4 rWh1_0) (View.ld x5 rB1_0)) (k1_pay7 (View.ld x1 rIn1) (View.ld x0 rRow1) (View.ld x3 rWx1_1920) (View.ld x4 rWh1_1920) (View.ld x5 rB1_1920)) (View.ld x3 rWx1_5760) (View.ld x4 rWh1_5760) (View.ld x5 rB1_5760)⟩]

/-- A store of the whole buffer covers it. -/
theorem cover1_row (p0 : Vec F S128x1920 .f32) (y : S128x1920.Idx) :
    ∃ pc ∈ ([⟨rRow1, p0⟩] : List (View.Piece (Elt F) S128x1920 .f32)), y ∈ pc.1.set :=
  View.cover_of_tiled [⟨rRow1, p0⟩] S128x1920.size (by rfl) y

/-! ## The body's triple -/

set_option maxHeartbeats 8000000 in
/-- The body on whole staging memrefs — the inputs' at contents `x0 … x5`, the outputs' at anything — runs to the
    continuation with the inputs' as they were and the outputs' at `out1_6`, `out1_7` of them. -/
theorem sound_kernel1 (c : Dev nD) (E : Set ℕ) (i : grid1.Coords)
    (arg1 : Memref sig .tc .vmem S128x1920 .bf16) (harg1 : arg1.IsWhole)
    (arg2 : Memref sig .tc .vmem S128x10 .f32) (harg2 : arg2.IsWhole)
    (arg3 : Memref sig .tc .vmem S128x1920 .f32) (harg3 : arg3.IsWhole)
    (arg4 : Memref sig .tc .vmem S10x7680 .bf16) (harg4 : arg4.IsWhole)
    (arg5 : Memref sig .tc .vmem S1920x7680 .bf16) (harg5 : arg5.IsWhole)
    (arg6 : Memref sig .tc .vmem S1x7680 .f32) (harg6 : arg6.IsWhole)
    (arg7 : Memref sig .tc .vmem S128x1920 .f32) (harg7 : arg7.IsWhole)
    (arg8 : Memref sig .tc .vmem S128x1920 .f32) (harg8 : arg8.IsWhole)
    (x0 : Vec F S128x1920 .bf16) (x1 : Vec F S128x10 .f32) (x2 : Vec F S128x1920 .f32) (x3 : Vec F S10x7680 .bf16) (x4 : Vec F S1920x7680 .bf16) (x5 : Vec F S1x7680 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__zgate_kernel i arg1 harg1 arg2 harg2 arg3 harg3 arg4 harg4 arg5 harg5 arg6 harg6 arg7 harg7 arg8 harg8) K := by
  simp only [cc1__zgate_kernel_eq_skeleton]; unfold cc1__zgate_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover1_row _)
  iexists _; isplitr
  swap; · iexact H7
  ipureintro
  try dsimp only
  exact View.read_writes_eq_canon _ _ _ (cover1_row _)

/-! ## The pipeline's proof data -/

/-- The proof data of the second pipeline on core `c`: the arrays as the region finds them; after the body at point `t`
    each input's buffer at its block and each output's at `out1_6` / `out1_7` of the input blocks; the invariant keeps
    the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => out1_6 (blk1 V c 0 t) (blk1 V c 1 t) (blk1 V c 2 t) (blk1 V c 3 t) (blk1 V c 4 t) (blk1 V c 5 t)
    | ⟨7, _⟩ => out1_7 (blk1 V c 0 t) (blk1 V c 1 t) (blk1 V c 2 t) (blk1 V c 3 t) (blk1 V c 4 t) (blk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = out1_6 (blk1 V c 0 t) (blk1 V c 1 t) (blk1 V c 2 t) (blk1 V c 3 t) (blk1 V c 4 t) (blk1 V c 5 t) := by dsimp only [dat1]
theorem after1_7 (c : Dev nD) (t : Fin cfg1.N) : (dat1 V c).after 7 t = out1_7 (blk1 V c 0 t) (blk1 V c 1 t) (blk1 V c 2 t) (blk1 V c 3 t) (blk1 V c 4 t) (blk1 V c 5 t) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d
theorem before1_4 (c : Dev nD) (t : Fin cfg1.N) (d) : (dat1 V c).before 4 t d = blk1 V c 4 t :=
  before1_4_of V (dat1 V c) (A_eq1 V c 4) (after1_4 V c) t d
theorem before1_5 (c : Dev nD) (t : Fin cfg1.N) (d) : (dat1 V c).before 5 t d = blk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (blk1 V c 0 t) (blk1 V c 1 t) (blk1 V c 2 t) (blk1 V c 3 t) (blk1 V c 4 t) (blk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KiRun.lean ====
/-
  The whole program as a chain of segments, at any float instance: thirty-five stretches of host operations, the two
  pallas calls, and the final stretch that slices the padding off. Each pallas call is a pipeline region over the
  contents the host stretches before it leave; what a region leaves is its input arrays as found and each output array
  at what the grid's write-backs add up to. From the two regions' records follow the frame (every argument array ends as
  launched) and a run whose post reads EVERY unscoped buffer at the last segment's contents, the two results among them.
-/
import proofs.«136980_j58978490909175_2_alg».proof.Proof.RegionsKernelIdeal
import proofs.«136980_j58978490909175_2_alg».proof.Proof.KiRegion0
import proofs.«136980_j58978490909175_2_alg».proof.Proof.KiRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 65536

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions find and what they leave -/

/-- What the first region finds: the launch contents after the thirty-five host stretches. -/
abbrev E0 : (c : Dev nD) → (b : Ref sig .tc) → Buf (Elt F) ((c : Thread nD τ).loc b) := fun c b => V35 m c b

/-- What the first region leaves: its arrays at what the pipeline's write-backs add up to, everything else as found. -/
def left0 (c : Dev nD) : Valuation τ sig (Elt F) :=
  Pipeline.withArrays spec0 c (V35 m c) fun w => (dat0 (E0 m) c).arrAt w cfg0.N

/-- The first region's result, as the table of region results the host valuations are written over (read at one place). -/
def outs0 : Outs (F := F) := fun _ r c => left0 m c r

/-- What the second region finds: the first region's result in place, nothing else changed. -/
abbrev E1 : (c : Dev nD) → (b : Ref sig .tc) → Buf (Elt F) ((c : Thread nD τ).loc b) := fun c b => V36 m (outs0 m) c b

/-- What the second region leaves. -/
def left1 (c : Dev nD) : Valuation τ sig (Elt F) :=
  Pipeline.withArrays spec1 c (V36 m (outs0 m) c) fun w => (dat1 (E1 m) c).arrAt w cfg1.N

/-- Both regions' results as one table: the first region's at item 36, the second's at item 37. -/
def outs : Outs (F := F) := fun J r c => match J with
  | 36 => left0 m c r
  | _ => left1 m c r

theorem V36_outs (c : Dev nD) : V36 m (outs m) c = V36 m (outs0 m) c := rfl

theorem left0_arr (c : Dev nD) (w : Fin cfg0.W) :
    left0 m c (Proc.devRef .tc (Pipeline.arrRef spec0 w)) = (dat0 (E0 m) c).arrAt w cfg0.N := by
  unfold left0; exact Pipeline.withArrays_arr spec0 launch0.win.arr_inj c _ _ w

theorem left1_arr (c : Dev nD) (w : Fin cfg1.W) :
    left1 m c (Proc.devRef .tc (Pipeline.arrRef spec1 w)) = (dat1 (E1 m) c).arrAt w cfg1.N := by
  unfold left1; exact Pipeline.withArrays_arr spec1 launch1.win.arr_inj c _ _ w

/-- An input array of the first region is, at the region's exit, what it was at entry. -/
theorem keep0 (c : Dev nD) (w : Fin cfg0.W) (hin : (cfg0.win w).isOut = false)
    (hne : Pipeline.arrRef spec0 w ∉ ([main_v81] : List (Ref sig .tc))) :
    (dat0 (E0 m) c).arrAt w cfg0.N = V36 m (outs m) c (Pipeline.arrRef spec0 w) :=
  ((dat0 (E0 m) c).arrAt_in w hin _).trans ((A_eq0 (E0 m) c w).trans (V36_of m (outs m) c _ hne).symm)

/-- At the first region's exit each of its arrays holds what the pipeline leaves, -/
theorem hF0 (c : Dev nD) : ∀ w : Fin cfg0.W, (dat0 (E0 m) c).arrAt w cfg0.N = V36 m (outs m) c (Pipeline.arrRef spec0 w)
  | ⟨0, _⟩ => keep0 m c 0 rfl (by decide)
  | ⟨1, _⟩ => keep0 m c 1 rfl (by decide)
  | ⟨2, _⟩ => keep0 m c 2 rfl (by decide)
  | ⟨3, _⟩ => keep0 m c 3 rfl (by decide)
  | ⟨4, _⟩ => by
    show _ = Function.update (V35 m c) (Proc.devRef .tc main_v81) (left0 m c (Proc.devRef .tc main_v81)) (Proc.devRef .tc main_v81)
    rw [Function.update_self]
    exact (left0_arr m c 4).symm

/-- and every other buffer what it held at entry. -/
theorem hrest0 (c : Dev nD) : ∀ b, b ∉ Finset.univ.image (Pipeline.arrRef spec0) → V36 m (outs m) c b = V35 m c b :=
  fun b hb => V36_of m (outs m) c b fun h => hb (by
    rw [List.mem_singleton] at h; subst h
    exact Finset.mem_image.mpr ⟨4, Finset.mem_univ _, rfl⟩)

/-- An input array of the second region is, at the region's exit, what it was at entry. -/
theorem keep1 (c : Dev nD) (w : Fin cfg1.W) (hin : (cfg1.win w).isOut = false)
    (hne : Pipeline.arrRef spec1 w ∉ ([main_v82_0, main_v82_1] : List (Ref sig .tc))) :
    (dat1 (E1 m) c).arrAt w cfg1.N = V37 m (outs m) c (Pipeline.arrRef spec1 w) :=
  ((dat1 (E1 m) c).arrAt_in w hin _).trans ((A_eq1 (E1 m) c w).trans (V37_of m (outs m) c _ hne).symm)

theorem hF1 (c : Dev nD) : ∀ w : Fin cfg1.W, (dat1 (E1 m) c).arrAt w cfg1.N = V37 m (outs m) c (Pipeline.arrRef spec1 w)
  | ⟨0, _⟩ => keep1 m c 0 rfl (by decide)
  | ⟨1, _⟩ => keep1 m c 1 rfl (by decide)
  | ⟨2, _⟩ => keep1 m c 2 rfl (by decide)
  | ⟨3, _⟩ => keep1 m c 3 rfl (by decide)
  | ⟨4, _⟩ => keep1 m c 4 rfl (by decide)
  | ⟨5, _⟩ => keep1 m c 5 rfl (by decide)
  | ⟨6, _⟩ => by
    show _ = Function.update (Function.update (V36 m (outs m) c) (Proc.devRef .tc main_v82_0) (left1 m c (Proc.devRef .tc main_v82_0)))
      (Proc.devRef .tc main_v82_1) (left1 m c (Proc.devRef .tc main_v82_1)) (Proc.devRef .tc main_v82_0)
    rw [Function.update_of_ne (StableHlo.devRef_ne_of_ne (by decide)), Function.update_self]
    exact (left1_arr m c 6).symm
  | ⟨7, _⟩ => by
    show _ = Function.update (Function.update (V36 m (outs m) c) (Proc.devRef .tc main_v82_0) (left1 m c (Proc.devRef .tc main_v82_0)))
      (Proc.devRef .tc main_v82_1) (left1 m c (Proc.devRef .tc main_v82_1)) (Proc.devRef .tc main_v82_1)
    rw [Function.update_self]
    exact (left1_arr m c 7).symm

theorem hrest1 (c : Dev nD) : ∀ b, b ∉ Finset.univ.image (Pipeline.arrRef spec1) → V37 m (outs m) c b = E1 m c b :=
  fun b hb => V37_of m (outs m) c b fun h => hb (by
    rw [List.mem_cons, List.mem_singleton] at h
    rcases h with h | h
    · subst h; exact Finset.mem_image.mpr ⟨6, Finset.mem_univ _, rfl⟩
    · subst h; exact Finset.mem_image.mpr ⟨7, Finset.mem_univ _, rfl⟩)

/-! ## The proof data family and what rides along -/

/-- Every pipeline's proof data, each at its region's entry contents. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c

abbrev 𝒱₀ : Variants := Variants.none
/-- No core owes another anything. -/
abbrev L : GSem nD τ sig → Finset Unit := fun _ => ∅
abbrev lv : GSem nD τ sig → Unit → ℕ := fun _ _ => 0
/-- Beside the buffers, through every segment: the core's generator register at some state, and the core owing nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- The first pallas call: entered from the unscoped buffers after the host prefix, left with its result in place. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V35 m c) ∗ R c)
  post c := iprop(StableHlo.held (c : Thread nD τ) (Pipeline.ucRefs τ sig) (V36 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => V36 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas call: entered from there, left with its two results in place. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (V36 m (outs0 m) c) ∗ R c)
  post c := iprop(StableHlo.held (c : Thread nD τ) (Pipeline.ucRefs τ sig) (V37 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => V37 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

theorem launch_elt : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What rides along is made at the launch on every core: the generator register, and nothing owed. -/
theorem launch_rest : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem rest_owes (c : Dev nD) : R (F := F) c ⊢ (iprop(∃ W, owes (c : Thread nD τ) (0 : CellTallies nD τ sig Unit) W) : sProp 𝕄) := by
  iintro ⟨-, HO⟩; iexact HO

/-! ## The frame -/

/-- Every weakly fair execution of the program terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_cond m emb₁ () 𝒱₀ L lv (fun _ _ => rfl) ρ (outs m) (pdats m) 0 (fun _ => iprop(emp))
    (initOf (Pipeline.cells cfgs cellOf_inj) (Pipeline.launchToks cfgs cellOf_inj)) launch_elt
    (fun _ c => R c) (launch_rest ρ) (fun c => rest_owes c)
    (reg0 m) (fun c => .rfl) (fun c => .rfl) (reg1 m) (fun c => by rw [V36_outs]; exact .rfl) (fun c => .rfl)

/-! ## The run, every unscoped buffer read at the end -/

set_option backward.isDefEq.respectTransparency.types false in
/-- Every weakly fair execution terminates with every unscoped buffer of every core at the last segment's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V38 m (outs m) c b) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m))
    (fun c Q => by
      rewrite [main_chain c, Seg.run_eq_chain,
        show (segs m (outs m) 𝒱₀ L lv (fun _ c => R c) () (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          StableHlo.seq hostOps0_17,
          StableHlo.seq hostOps0_18,
          StableHlo.seq hostOps0_19,
          StableHlo.seq hostOps0_20,
          StableHlo.seq hostOps0_21,
          StableHlo.seq hostOps0_22,
          StableHlo.seq hostOps0_23,
          StableHlo.seq hostOps0_24,
          StableHlo.seq hostOps0_25,
          StableHlo.seq hostOps0_26,
          StableHlo.seq hostOps0_27,
          StableHlo.seq hostOps0_28,
          StableHlo.seq hostOps0_29,
          StableHlo.seq hostOps0_30,
          StableHlo.seq hostOps0_31,
          StableHlo.seq hostOps0_32,
          StableHlo.seq hostOps0_33,
          StableHlo.seq hostOps0_34,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj)) (hu₀ := launch_elt)
    (T₀ := fun c => iprop(StableHlo.held (c : Thread nD τ) (Pipeline.ucRefs τ sig) (V0 m c) ∗ R c))
    (Tₙ := fun c => StableHlo.held (c : Thread nD τ) (Pipeline.ucRefs τ sig) (V38 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl,
      (show (iprop(StableHlo.held (c : Thread nD τ) (Pipeline.ucRefs τ sig) (V36 m (outs m) c) ∗ R c) : sProp 𝕄)
          ⊢ iprop(StableHlo.held (c : Thread nD τ) (Pipeline.ucRefs τ sig) (V36 m (outs0 m) c) ∗ R c) from by rw [V36_outs]),
      .rfl, sep_mono .rfl (rest_owes c)⟩)
    (hinit := ?_)
    (QY := fun c s => ∀ b ∈ Pipeline.ucRefs τ sig, s.mem (((c : Thread nD τ)).1, b) = V38 m (outs m) c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (launch_rest (F := F) ρ) $$ [Hr Hla] with HE
    · isplitl [Hr]; · iexact Hr
      iexact Hla
    imodintro
    have hjoin : (iprop((bigSep Finset.univ fun c : Dev nD => StableHlo.held (c : Thread nD τ) (Pipeline.ucRefs τ sig) (V0 m c))
          ∗ bigSep Finset.univ fun c : Dev nD => R (F := F) c) : sProp 𝕄)
        ⊢ bigSep Finset.univ fun c : Dev nD => iprop(StableHlo.held (c : Thread nD τ) (Pipeline.ucRefs τ sig) (V0 m c) ∗ R c) := by
      rw [← bigSep_sep']
    iapply hjoin
    isplitl [Hh]; · iexact Hh
    iexact HE
  · unfold StableHlo.held
    iintro ⟨Hh, HSI⟩
    imodintro
    iapply (pointsTo_read_all (Pipeline.ucRefs τ sig) (fun b => (((c : Thread nD τ)).1, b)) (V38 m (outs m) c) s')
    isplitl [Hh] <;> iassumption

end Cert.KernelIdeal.Fr

end
-- ==== Proof.Spec.lean ====
/-
  The function both programs compute, entry by entry, on the extended reals: one step of a multiplicative LSTM cell
  over a batch of 8192 rows, 10 inputs and 1900 hidden units, from weights that are ALREADY column-normalised
  (the normalisation is the same host computation in both programs and is carried as an argument here).

    m(r,k)  = (Σ_q x(r,q)·wmx(q,k)) · (Σ_q h(r,q)·wmh(q,k))                      the multiplicative state
    z(r,c)  = Σ_q x(r,q)·wx(q,c) + Σ_k m(r,k)·wh(k,c) + b(c)                      the four gates' pre-activations, c < 4·1900
    c'(r,j) = σ(z(r,1900+j))·c(r,j) + σ(z(r,j))·tanh(z(r,5700+j))                 the new cell state
    h'(r,j) = σ(z(r,3800+j))·tanh(c'(r,j))                                         the new hidden state

  with σ the logistic function. Only sums, products and the two transcendental functions occur, so the definitions make
  sense at the infinities as well and no finiteness is assumed anywhere.
-/
import Idealize.ShloMosaic.PureOps.Ideal

noncomputable section

namespace Cert.Spec

open Idealize.ShloMosaic

/-- Column `j` of gate `g` among the `4·1900` gate columns: `g·1900 + j`. -/
def col (g : Fin 4) (j : Fin 1900) : Fin 7600 :=
  ⟨g.val * 1900 + j.val, by have := g.isLt; have := j.isLt; omega⟩

/-- The multiplicative state: the product of the input's and the previous hidden state's projections. -/
def mState (x : Fin 8192 → Fin 10 → EReal) (hp : Fin 8192 → Fin 1900 → EReal)
    (wmx : Fin 10 → Fin 1900 → EReal) (wmh : Fin 1900 → Fin 1900 → EReal) (r : Fin 8192) (k : Fin 1900) : EReal :=
  (∑ q : Fin 10, x r q * wmx q k) * (∑ q : Fin 1900, hp r q * wmh q k)

/-- The gates' pre-activations: input projection plus state projection plus bias, in this order of addition. -/
def gateZ (x : Fin 8192 → Fin 10 → EReal) (hp : Fin 8192 → Fin 1900 → EReal)
    (wx : Fin 10 → Fin 7600 → EReal) (wh : Fin 1900 → Fin 7600 → EReal)
    (wmx : Fin 10 → Fin 1900 → EReal) (wmh : Fin 1900 → Fin 1900 → EReal) (b : Fin 7600 → EReal)
    (r : Fin 8192) (c : Fin 7600) : EReal :=
  (∑ q : Fin 10, x r q * wx q c) + (∑ k : Fin 1900, mState x hp wmx wmh r k * wh k c) + b c

/-- The new cell state: forget gate times the old state plus input gate times the candidate. -/
def cNew (x : Fin 8192 → Fin 10 → EReal) (cp hp : Fin 8192 → Fin 1900 → EReal)
    (wx : Fin 10 → Fin 7600 → EReal) (wh : Fin 1900 → Fin 7600 → EReal)
    (wmx : Fin 10 → Fin 1900 → EReal) (wmh : Fin 1900 → Fin 1900 → EReal) (b : Fin 7600 → EReal)
    (r : Fin 8192) (j : Fin 1900) : EReal :=
  Ideal.logistic (gateZ x hp wx wh wmx wmh b r (col 1 j)) * cp r j
    + Ideal.logistic (gateZ x hp wx wh wmx wmh b r (col 0 j)) * Ideal.tanh (gateZ x hp wx wh wmx wmh b r (col 3 j))

/-- The new hidden state: output gate times the squashed new cell state. -/
def hNew (x : Fin 8192 → Fin 10 → EReal) (cp hp : Fin 8192 → Fin 1900 → EReal)
    (wx : Fin 10 → Fin 7600 → EReal) (wh : Fin 1900 → Fin 7600 → EReal)
    (wmx : Fin 10 → Fin 1900 → EReal) (wmh : Fin 1900 → Fin 1900 → EReal) (b : Fin 7600 → EReal)
    (r : Fin 8192) (j : Fin 1900) : EReal :=
  Ideal.logistic (gateZ x hp wx wh wmx wmh b r (col 2 j)) * Ideal.tanh (cNew x cp hp wx wh wmx wmh b r j)

end Cert.Spec

end
-- ==== Proof.RefValue.lean ====
/-
  The reference program's two results, read back entry by entry: they are the specification's new hidden state and new
  cell state of the argument arrays (with the reference's own column-normalised weights).

  The four weight arrays enter only through their normalised forms w · rsqrt(max(Σ_rows w², ε)) · gain, which are named
  here (`wxn`, `whn`, `wmxn`, `wmhn`) as the very terms of host operations the reference applies, and are never opened:
  everything after them is read at an entry (r, j). There the two matrix products are finite sums over the contracted
  axis, the four gates are the column blocks g·1900 + j of the pre-activations, and the quotient 1 / (1 + e^(−z)) that
  the reference spells out is the logistic function. No finiteness is used.
-/
import proofs.«136980_j58978490909175_2_alg».proof.Proof.Gen.ReferenceIdeal.Run
import proofs.«136980_j58978490909175_2_alg».proof.Proof.Gen.ReferenceIdeal.Read
import proofs.«136980_j58978490909175_2_alg».proof.Proof.Spec
import Idealize.ShloMosaic.Lib.ValueIdx
import Idealize.ShloMosaic.Lib.IdealHost
import Idealize.ShloMosaic.PureOps.Ideal.Laws

noncomputable section

namespace Cert.RefSide

open Cert.ReferenceIdeal Cert.ReferenceIdeal.Gen Idealize.ShloMosaic Idealize.ShloMosaic.TcCoe Idealize.SL.Sem
open Idealize.ShloMosaic.StableHlo Idealize.ShloMosaic.ValueIdx
open scoped BigOperators

/-! ## The normalised weights, as the reference computes them -/

/-- The input-to-gates weights with every column scaled to unit Euclidean length (the squared length floored at a
    small positive constant) and multiplied by its gain: the host operations the reference applies to them. -/
def wxn (wx : FVec Ideal S10x7600 .f32) (gx : FVec Ideal S7600 .f32) : FVec Ideal S10x7600 .f32 :=
  mulf (mulf wx (broadcastInDim S10x7600 ![0, 1] bcast_S1x7600_S10x7600_0_1 (Host.rsqrt (F := Ideal) (maximumf (broadcastInDim S1x7600 ![1] bcast_S7600_S1x7600_1 (Host.reduceAdd (F := Ideal) (mulf wx wx) (constant (F := Ideal) S_ .f32 0x00000000#32) reducesTo_S10x7600_S7600_d0 h_S_)) (broadcastInDim S1x7600 ![] bcast_S_S1x7600 (constant (F := Ideal) S_ .f32 0x2B8CBCCC#32)))))) (broadcastInDim S10x7600 ![0, 1] bcast_S1x7600_S10x7600_0_1 (broadcastInDim S1x7600 ![1] bcast_S7600_S1x7600_1 gx))

/-- The state-to-gates weights, column-normalised and scaled by their gain in the same way. -/
def whn (wh : FVec Ideal S1900x7600 .f32) (gh : FVec Ideal S7600 .f32) : FVec Ideal S1900x7600 .f32 :=
  mulf (mulf wh (broadcastInDim S1900x7600 ![0, 1] bcast_S1x7600_S1900x7600_0_1 (Host.rsqrt (F := Ideal) (maximumf (broadcastInDim S1x7600 ![1] bcast_S7600_S1x7600_1 (Host.reduceAdd (F := Ideal) (mulf wh wh) (constant (F := Ideal) S_ .f32 0x00000000#32) reducesTo_S1900x7600_S7600_d0 h_S_)) (broadcastInDim S1x7600 ![] bcast_S_S1x7600 (constant (F := Ideal) S_ .f32 0x2B8CBCCC#32)))))) (broadcastInDim S1900x7600 ![0, 1] bcast_S1x7600_S1900x7600_0_1 (broadcastInDim S1x7600 ![1] bcast_S7600_S1x7600_1 gh))

/-- The input's weights into the multiplicative state, column-normalised and scaled by their gain. -/
def wmxn (wmx : FVec Ideal S10x1900 .f32) (gmx : FVec Ideal S1900 .f32) : FVec Ideal S10x1900 .f32 :=
  mulf (mulf wmx (broadcastInDim S10x1900 ![0, 1] bcast_S1x1900_S10x1900_0_1 (Host.rsqrt (F := Ideal) (maximumf (broadcastInDim S1x1900 ![1] bcast_S1900_S1x1900_1 (Host.reduceAdd (F := Ideal) (mulf wmx wmx) (constant (F := Ideal) S_ .f32 0x00000000#32) reducesTo_S10x1900_S1900_d0 h_S_)) (broadcastInDim S1x1900 ![] bcast_S_S1x1900 (constant (F := Ideal) S_ .f32 0x2B8CBCCC#32)))))) (broadcastInDim S10x1900 ![0, 1] bcast_S1x1900_S10x1900_0_1 (broadcastInDim S1x1900 ![1] bcast_S1900_S1x1900_1 gmx))

/-- The previous hidden state's weights into the multiplicative state, column-normalised and scaled by their gain. -/
def wmhn (wmh : FVec Ideal S1900x1900 .f32) (gmh : FVec Ideal S1900 .f32) : FVec Ideal S1900x1900 .f32 :=
  mulf (mulf wmh (broadcastInDim S1900x1900 ![0, 1] bcast_S1x1900_S1900x1900_0_1 (Host.rsqrt (F := Ideal) (maximumf (broadcastInDim S1x1900 ![1] bcast_S1900_S1x1900_1 (Host.reduceAdd (F := Ideal) (mulf wmh wmh) (constant (F := Ideal) S_ .f32 0x00000000#32) reducesTo_S1900x1900_S1900_d0 h_S_)) (broadcastInDim S1x1900 ![] bcast_S_S1x1900 (constant (F := Ideal) S_ .f32 0x2B8CBCCC#32)))))) (broadcastInDim S1900x1900 ![0, 1] bcast_S1x1900_S1900x1900_0_1 (broadcastInDim S1x1900 ![1] bcast_S1900_S1x1900_1 gmh))

/-- The array the reference contracts the input with, for the gates, is `wxn`. -/
theorem v10_eq (wx : FVec Ideal S10x7600 .f32) (gx : FVec Ideal S7600 .f32) :
    Read.val_main_v10 (F := Ideal) wx gx = wxn wx gx := rfl

/-- The array the reference contracts the multiplicative state with is `whn`. -/
theorem v21_eq (wh : FVec Ideal S1900x7600 .f32) (gh : FVec Ideal S7600 .f32) :
    Read.val_main_v21 (F := Ideal) wh gh = whn wh gh := rfl

/-- The array the reference contracts the input with, for the multiplicative state, is `wmxn`. -/
theorem v32_eq (wmx : FVec Ideal S10x1900 .f32) (gmx : FVec Ideal S1900 .f32) :
    Read.val_main_v32 (F := Ideal) wmx gmx = wmxn wmx gmx := rfl

/-- The array the reference contracts the previous hidden state with is `wmhn`. -/
theorem v43_eq (wmh : FVec Ideal S1900x1900 .f32) (gmh : FVec Ideal S1900 .f32) :
    Read.val_main_v43 (F := Ideal) wmh gmh = wmhn wmh gmh := rfl

/-! ## The generated index maps at an index given by its coordinates -/

/-- In a product's entry (r, k) the left factor is read along row r and the right factor down column k; the
    eight statements below say so for the reference's four products. -/
theorem lidx44 (r : Fin 8192) (k : Fin 1900) (q : Fin 10) : Read.lidx_main_v44 (ix2 r k) q = ix2 r q :=
  funext fun a => match a with | ⟨0, _⟩ => rfl | ⟨1, _⟩ => rfl
theorem ridx44 (r : Fin 8192) (k : Fin 1900) (q : Fin 10) : Read.ridx_main_v44 (ix2 r k) q = ix2 q k :=
  funext fun a => match a with | ⟨0, _⟩ => rfl | ⟨1, _⟩ => rfl
theorem lidx45 (r : Fin 8192) (k : Fin 1900) (q : Fin 1900) : Read.lidx_main_v45 (ix2 r k) q = ix2 r q :=
  funext fun a => match a with | ⟨0, _⟩ => rfl | ⟨1, _⟩ => rfl
theorem ridx45 (r : Fin 8192) (k : Fin 1900) (q : Fin 1900) : Read.ridx_main_v45 (ix2 r k) q = ix2 q k :=
  funext fun a => match a with | ⟨0, _⟩ => rfl | ⟨1, _⟩ => rfl
theorem lidx47 (r : Fin 8192) (c : Fin 7600) (q : Fin 10) : Read.lidx_main_v47 (ix2 r c) q = ix2 r q :=
  funext fun a => match a with | ⟨0, _⟩ => rfl | ⟨1, _⟩ => rfl
theorem ridx47 (r : Fin 8192) (c : Fin 7600) (q : Fin 10) : Read.ridx_main_v47 (ix2 r c) q = ix2 q c :=
  funext fun a => match a with | ⟨0, _⟩ => rfl | ⟨1, _⟩ => rfl
theorem lidx48 (r : Fin 8192) (c : Fin 7600) (k : Fin 1900) : Read.lidx_main_v48 (ix2 r c) k = ix2 r k :=
  funext fun a => match a with | ⟨0, _⟩ => rfl | ⟨1, _⟩ => rfl
theorem ridx48 (r : Fin 8192) (c : Fin 7600) (k : Fin 1900) : Read.ridx_main_v48 (ix2 r c) k = ix2 k c :=
  funext fun a => match a with | ⟨0, _⟩ => rfl | ⟨1, _⟩ => rfl
/-- The bias, first made a row and then repeated down the rows, is read at the column. -/
theorem idx5051 (r : Fin 8192) (c : Fin 7600) : Read.idx_main_v50 (Read.idx_main_v51 (ix2 r c)) = ix1 c :=
  funext fun a => match a with | ⟨0, _⟩ => rfl
/-- Gate g's slice of the pre-activations reads column g·1900 + j; the four statements below are g = 0, 1, 2, 3. -/
theorem idx53 (r : Fin 8192) (j : Fin 1900) : Read.idx_main_v53 (ix2 r j) = ix2 r (Cert.Spec.col 0 j) :=
  funext fun a => match a with
    | ⟨0, _⟩ => rfl
    | ⟨1, _⟩ => Fin.ext (by show j.val = (0 : Fin 4).val * 1900 + j.val; simp)
theorem idx54 (r : Fin 8192) (j : Fin 1900) : Read.idx_main_v54 (ix2 r j) = ix2 r (Cert.Spec.col 1 j) :=
  funext fun a => match a with
    | ⟨0, _⟩ => rfl
    | ⟨1, _⟩ => Fin.ext (by show 1900 + j.val = (1 : Fin 4).val * 1900 + j.val; simp)
theorem idx55 (r : Fin 8192) (j : Fin 1900) : Read.idx_main_v55 (ix2 r j) = ix2 r (Cert.Spec.col 2 j) :=
  funext fun a => match a with
    | ⟨0, _⟩ => rfl
    | ⟨1, _⟩ => Fin.ext (by show 3800 + j.val = (2 : Fin 4).val * 1900 + j.val; simp)
theorem idx56 (r : Fin 8192) (j : Fin 1900) : Read.idx_main_v56 (ix2 r j) = ix2 r (Cert.Spec.col 3 j) :=
  funext fun a => match a with
    | ⟨0, _⟩ => rfl
    | ⟨1, _⟩ => Fin.ext (by show 5700 + j.val = (3 : Fin 4).val * 1900 + j.val; simp)

/-- The logistic function is the quotient the reference spells out. -/
theorem logistic_eq (z : EReal) : Ideal.div 1 (1 + Ideal.exp (-z)) = Ideal.logistic z := rfl

section
variable (x : FVec Ideal S8192x10 .f32) (cp hp : FVec Ideal S8192x1900 .f32)
  (wx : FVec Ideal S10x7600 .f32) (wh : FVec Ideal S1900x7600 .f32)
  (wmx : FVec Ideal S10x1900 .f32) (wmh : FVec Ideal S1900x1900 .f32)
  (b gx gh : FVec Ideal S7600 .f32) (gmx gmh : FVec Ideal S1900 .f32)

/-- The reference's multiplicative state, entry by entry, is the specification's. -/
theorem m_apply (r : Fin 8192) (k : Fin 1900) :
    Read.val_main_v46 (F := Ideal) x hp wmx wmh gmx gmh (ix2 r k)
      = Cert.Spec.mState (fun r q => x (ix2 r q)) (fun r j => hp (ix2 r j))
          (fun q k => wmxn wmx gmx (ix2 q k)) (fun q k => wmhn wmh gmh (ix2 q k)) r k := by
  rw [Read.val_main_v46_apply, Read.val_main_v44_apply, Read.val_main_v45_apply, v32_eq, v43_eq]
  simp only [lidx44, ridx44, lidx45, ridx45, Ideal.mulf_def]
  rfl

/-- The reference's gate pre-activations, entry by entry, are the specification's. -/
theorem gate_apply (r : Fin 8192) (c : Fin 7600) :
    Read.val_main_v52 (F := Ideal) x hp wx wh wmx wmh b gx gh gmx gmh (ix2 r c)
      = Cert.Spec.gateZ (fun r q => x (ix2 r q)) (fun r j => hp (ix2 r j))
          (fun q c => wxn wx gx (ix2 q c)) (fun k c => whn wh gh (ix2 k c))
          (fun q k => wmxn wmx gmx (ix2 q k)) (fun q k => wmhn wmh gmh (ix2 q k)) (fun c => b (ix1 c)) r c := by
  rw [Read.val_main_v52_apply, Read.val_main_v49_apply, Read.val_main_v47_apply, Read.val_main_v48_apply,
    Read.val_main_v51_apply, Read.val_main_v50_apply, v10_eq, v21_eq]
  simp only [lidx47, ridx47, lidx48, ridx48, idx5051, m_apply, Ideal.addf_def]
  rfl

end

/-! ## The reference's stages at an entry -/

section
variable (x : FVec Ideal S8192x10 .f32) (cp hp : FVec Ideal S8192x1900 .f32)
  (wx : FVec Ideal S10x7600 .f32) (wh : FVec Ideal S1900x7600 .f32)
  (wmx : FVec Ideal S10x1900 .f32) (wmh : FVec Ideal S1900x1900 .f32)
  (b gx gh : FVec Ideal S7600 .f32) (gmx gmh : FVec Ideal S1900 .f32)

/-- The reference's new cell state, entry by entry, is the specification's. -/
theorem c_apply (r : Fin 8192) (j : Fin 1900) :
    Read.val_main_v78 (F := Ideal) x cp hp wx wh wmx wmh b gx gh gmx gmh (ix2 r j)
      = Cert.Spec.cNew (fun r q => x (ix2 r q)) (fun r j => cp (ix2 r j)) (fun r j => hp (ix2 r j))
          (fun q c => wxn wx gx (ix2 q c)) (fun k c => whn wh gh (ix2 k c))
          (fun q k => wmxn wmx gmx (ix2 q k)) (fun q k => wmhn wmh gmh (ix2 q k)) (fun c => b (ix1 c)) r j := by
  simp only [Read.val_main_v78_apply, Read.val_main_v76_apply, Read.val_main_v77_apply, Read.val_main_v68_apply,
    Read.val_main_v67_apply, Read.val_main_cst_10_apply, Read.val_main_v66_apply, Read.val_main_v65_apply,
    Read.val_main_cst_9_apply, Read.val_main_v64_apply, Read.val_main_v63_apply, Read.val_main_v54_apply,
    Read.val_main_v62_apply, Read.val_main_v61_apply, Read.val_main_cst_8_apply, Read.val_main_v60_apply,
    Read.val_main_v59_apply, Read.val_main_cst_7_apply, Read.val_main_v58_apply, Read.val_main_v57_apply,
    Read.val_main_v53_apply, Read.val_main_v75_apply, Read.val_main_v56_apply,
    idx53, idx54, idx56, gate_apply,
    Ideal.addf_def, Ideal.mulf_def, Ideal.hostDivf_def, Ideal.hostUnary_exp_def, Ideal.hostUnary_tanh_def,
    Ideal.hostNegf_def, Ideal.negf_def, Ideal.ofBits_def, Ideal.ofBits_one_f32, logistic_eq]
  rfl

/-- The reference's new hidden state, entry by entry, is the specification's. -/
theorem h_apply (r : Fin 8192) (j : Fin 1900) :
    Read.val_main_v80 (F := Ideal) x cp hp wx wh wmx wmh b gx gh gmx gmh (ix2 r j)
      = Cert.Spec.hNew (fun r q => x (ix2 r q)) (fun r j => cp (ix2 r j)) (fun r j => hp (ix2 r j))
          (fun q c => wxn wx gx (ix2 q c)) (fun k c => whn wh gh (ix2 k c))
          (fun q k => wmxn wmx gmx (ix2 q k)) (fun q k => wmhn wmh gmh (ix2 q k)) (fun c => b (ix1 c)) r j := by
  simp only [Read.val_main_v80_apply, Read.val_main_v79_apply, c_apply, Read.val_main_v74_apply,
    Read.val_main_v73_apply, Read.val_main_cst_12_apply, Read.val_main_v72_apply, Read.val_main_v71_apply,
    Read.val_main_cst_11_apply, Read.val_main_v70_apply, Read.val_main_v69_apply, Read.val_main_v55_apply,
    idx55, gate_apply,
    Ideal.addf_def, Ideal.mulf_def, Ideal.hostDivf_def, Ideal.hostUnary_exp_def, Ideal.hostUnary_tanh_def,
    Ideal.hostNegf_def, Ideal.negf_def, Ideal.ofBits_def, Ideal.ofBits_one_f32, logistic_eq]
  rfl

/-- The reference's second result, the new cell state, as a function of the twelve argument arrays. -/
theorem result_c :
    Read.val_main_v78 (F := Ideal) x cp hp wx wh wmx wmh b gx gh gmx gmh
      = fun i => Cert.Spec.cNew (fun r q => x (ix2 r q)) (fun r j => cp (ix2 r j)) (fun r j => hp (ix2 r j))
          (fun q c => wxn wx gx (ix2 q c)) (fun k c => whn wh gh (ix2 k c))
          (fun q k => wmxn wmx gmx (ix2 q k)) (fun q k => wmhn wmh gmh (ix2 q k)) (fun c => b (ix1 c)) (i 0) (i 1) := by
  funext i
  obtain ⟨r, j, rfl⟩ : ∃ (r : Fin 8192) (j : Fin 1900), i = ix2 r j := ⟨i 0, i 1, eq_ix2 i⟩
  exact c_apply x cp hp wx wh wmx wmh b gx gh gmx gmh r j

/-- The reference's first result, the new hidden state, as a function of the twelve argument arrays. -/
theorem result_h :
    Read.val_main_v80 (F := Ideal) x cp hp wx wh wmx wmh b gx gh gmx gmh
      = fun i => Cert.Spec.hNew (fun r q => x (ix2 r q)) (fun r j => cp (ix2 r j)) (fun r j => hp (ix2 r j))
          (fun q c => wxn wx gx (ix2 q c)) (fun k c => whn wh gh (ix2 k c))
          (fun q k => wmxn wmx gmx (ix2 q k)) (fun q k => wmhn wmh gmh (ix2 q k)) (fun c => b (ix1 c)) (i 0) (i 1) := by
  funext i
  obtain ⟨r, j, rfl⟩ : ∃ (r : Fin 8192) (j : Fin 1900), i = ix2 r j := ⟨i 0, i 1, eq_ix2 i⟩
  exact h_apply x cp hp wx wh wmx wmh b gx gh gmx gmh r j

end

/-! ## The two results as arrays, and the run -/

/-- The specification's new hidden state of the twelve argument arrays (the weights normalised as the reference
    normalises them), as an array over the results' index set. -/
abbrev hOut (x : FVec Ideal S8192x10 .f32) (cp hp : FVec Ideal S8192x1900 .f32)
    (wx : FVec Ideal S10x7600 .f32) (wh : FVec Ideal S1900x7600 .f32)
    (wmx : FVec Ideal S10x1900 .f32) (wmh : FVec Ideal S1900x1900 .f32)
    (b gx gh : FVec Ideal S7600 .f32) (gmx gmh : FVec Ideal S1900 .f32) : FVec Ideal S8192x1900 .f32 :=
  fun i => Cert.Spec.hNew (fun r q => x (ix2 r q)) (fun r j => cp (ix2 r j)) (fun r j => hp (ix2 r j))
    (fun q c => wxn wx gx (ix2 q c)) (fun k c => whn wh gh (ix2 k c))
    (fun q k => wmxn wmx gmx (ix2 q k)) (fun q k => wmhn wmh gmh (ix2 q k)) (fun c => b (ix1 c)) (i 0) (i 1)

/-- The specification's new cell state of the twelve argument arrays, as an array over the results' index set. -/
abbrev cOut (x : FVec Ideal S8192x10 .f32) (cp hp : FVec Ideal S8192x1900 .f32)
    (wx : FVec Ideal S10x7600 .f32) (wh : FVec Ideal S1900x7600 .f32)
    (wmx : FVec Ideal S10x1900 .f32) (wmh : FVec Ideal S1900x1900 .f32)
    (b gx gh : FVec Ideal S7600 .f32) (gmx gmh : FVec Ideal S1900 .f32) : FVec Ideal S8192x1900 .f32 :=
  fun i => Cert.Spec.cNew (fun r q => x (ix2 r q)) (fun r j => cp (ix2 r j)) (fun r j => hp (ix2 r j))
    (fun q c => wxn wx gx (ix2 q c)) (fun k c => whn wh gh (ix2 k c))
    (fun q k => wmxn wmx gmx (ix2 q k)) (fun q k => wmhn wmh gmh (ix2 q k)) (fun c => b (ix1 c)) (i 0) (i 1)

/-- Every weakly fair execution of the reference terminates with its two results at the specification's new hidden
    state and new cell state of the argument arrays as launched, and the arguments unchanged. -/
theorem run (m' : (ℓ : Loc nD τ sig) → Buf (Elt Ideal) ℓ) (ρ' : Dev nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev nD,
      r.2.mem ((c.tc : Thread nD τ).loc main_v80) = hOut (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11))
      ∧ r.2.mem ((c.tc : Thread nD τ).loc main_v78) = cOut (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)) :=
  (θ_run Cert.ReferenceIdeal.defs _ _).mono
    (fun _ h c => ⟨(h c).1.trans ((Read.val_main_v80_eq m' c).trans (result_h _ _ _ _ _ _ _ _ _ _ _ _)),
      (h c).2.1.trans ((Read.val_main_v78_eq m' c).trans (result_c _ _ _ _ _ _ _ _ _ _ _ _)), (h c).2.2⟩)
    (Cert.ReferenceIdeal.Value.run (F := Ideal) m' ρ')

/-- Every weakly fair execution of the reference terminates with the arguments unchanged. -/
theorem frame (m : (ℓ : Loc nD τ sig) → Buf (Elt Ideal) ℓ) (g : Dev nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run Cert.ReferenceIdeal.defs _ _).mono (fun _ h c => (h c).2.2)
    (Cert.ReferenceIdeal.Value.run (F := Ideal) m g)

/-- The new hidden state array at the entry (r, j). -/
theorem hOut_apply (x : FVec Ideal S8192x10 .f32) (cp hp : FVec Ideal S8192x1900 .f32)
    (wx : FVec Ideal S10x7600 .f32) (wh : FVec Ideal S1900x7600 .f32)
    (wmx : FVec Ideal S10x1900 .f32) (wmh : FVec Ideal S1900x1900 .f32)
    (b gx gh : FVec Ideal S7600 .f32) (gmx gmh : FVec Ideal S1900 .f32) (r : Fin 8192) (j : Fin 1900) :
    hOut x cp hp wx wh wmx wmh b gx gh gmx gmh (ix2 r j)
      = Cert.Spec.hNew (fun r q => x (ix2 r q)) (fun r j => cp (ix2 r j)) (fun r j => hp (ix2 r j))
          (fun q c => wxn wx gx (ix2 q c)) (fun k c => whn wh gh (ix2 k c))
          (fun q k => wmxn wmx gmx (ix2 q k)) (fun q k => wmhn wmh gmh (ix2 q k)) (fun c => b (ix1 c)) r j := rfl

/-- The new cell state array at the entry (r, j). -/
theorem cOut_apply (x : FVec Ideal S8192x10 .f32) (cp hp : FVec Ideal S8192x1900 .f32)
    (wx : FVec Ideal S10x7600 .f32) (wh : FVec Ideal S1900x7600 .f32)
    (wmx : FVec Ideal S10x1900 .f32) (wmh : FVec Ideal S1900x1900 .f32)
    (b gx gh : FVec Ideal S7600 .f32) (gmx gmh : FVec Ideal S1900 .f32) (r : Fin 8192) (j : Fin 1900) :
    cOut x cp hp wx wh wmx wmh b gx gh gmx gmh (ix2 r j)
      = Cert.Spec.cNew (fun r q => x (ix2 r q)) (fun r j => cp (ix2 r j)) (fun r j => hp (ix2 r j))
          (fun q c => wxn wx gx (ix2 q c)) (fun k c => whn wh gh (ix2 k c))
          (fun q k => wmxn wmx gmx (ix2 q k)) (fun q k => wmhn wmh gmh (ix2 q k)) (fun c => b (ix1 c)) r j := rfl

end Cert.RefSide

end
-- ==== Proof.PayloadMath.lean ====
/- The arithmetic of the two kernel bodies, read at one entry.

   Each kernel body stores a value that is a pure function of the blocks it loads. At the ideal
   values (extended reals, every operation exact, changes of float format the identity) these
   functions are read here at a row p and a column q: a matrix product accumulated into zero is the
   sum over the contracted axis of the products of entries; a one-row bias broadcast over the rows
   reads the row; a cast to the same shape and a change of format do nothing; the remaining
   operations act entry by entry. -/
import proofs.«136980_j58978490909175_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.SL.Sem Cert.KernelIdeal Cert.KernelIdeal.Gen Idealize.ShloMosaic.ValueIdx
open scoped BigOperators

/-- The left operand's row coordinate in the 256×10 by 10×1920 product is the output's row. -/
theorem mm_256x10_l0 (i : S256x1920.Idx) (c : dot_S256x10_S10x1920_S256x1920_1_0_0_1_n_n.contr.Idx) :
    (dot_S256x10_S10x1920_S256x1920_1_0_0_1_n_n.lhsIdx i c 0).val = (i 0).val := by
  unfold DotDims.lhsIdx
  rw [dif_neg (show ¬(0 : Fin S256x10.rank) ∈ dot_S256x10_S10x1920_S256x1920_1_0_0_1_n_n.lhsBatch by decide),
    dif_pos (show (0 : Fin S256x10.rank) ∈ dot_S256x10_S10x1920_S256x1920_1_0_0_1_n_n.lhsNonContracting by decide)]
  rfl
/-- The right operand's column coordinate in the 256×10 by 10×1920 product is the output's column. -/
theorem mm_256x10_r1 (i : S256x1920.Idx) (c : dot_S256x10_S10x1920_S256x1920_1_0_0_1_n_n.contr.Idx) :
    (dot_S256x10_S10x1920_S256x1920_1_0_0_1_n_n.rhsIdx i c 1).val = (i 1).val := by
  unfold DotDims.rhsIdx
  rw [dif_neg (show ¬(1 : Fin S10x1920.rank) ∈ dot_S256x10_S10x1920_S256x1920_1_0_0_1_n_n.rhsBatch by decide),
    dif_pos (show (1 : Fin S10x1920.rank) ∈ dot_S256x10_S10x1920_S256x1920_1_0_0_1_n_n.rhsNonContracting by decide)]
  rfl
/-- A product of a 256×10 matrix with a 10×1920 matrix, accumulated into zero, read at row p and
    column q: the sum over the contracted axis of the entries' products. -/
theorem mm_256x10 (l : FVec Ideal S256x10 .bf16) (r : FVec Ideal S10x1920 .bf16) (p : Fin 256) (q : Fin 1920) :
    matmul (F := Ideal) dot_S256x10_S10x1920_S256x1920_1_0_0_1_n_n none l r (constant (F := Ideal) S256x1920 .f32 0x00000000#32) (ix2 p q)
      = ∑ k : Fin 10, l (ix2 p k) * r (ix2 k q) := by
  simp only [matmul]
  rw [Ideal.matmul_constant_zero_apply, ← Equiv.sum_comp (contrEquiv1 dot_S256x10_S10x1920_S256x1920_1_0_0_1_n_n 10 rfl rfl).symm]
  refine Finset.sum_congr rfl fun k _ => ?_
  have hk := contrEquiv1_symm_val dot_S256x10_S10x1920_S256x1920_1_0_0_1_n_n 10 rfl rfl k
  have el : dot_S256x10_S10x1920_S256x1920_1_0_0_1_n_n.lhsIdx (ix2 p q) ((contrEquiv1 dot_S256x10_S10x1920_S256x1920_1_0_0_1_n_n 10 rfl rfl).symm k) = ix2 p k :=
    funext fun a => Fin.ext (by
      match a with
      | ⟨0, _⟩ => exact mm_256x10_l0 _ _
      | ⟨1, _⟩ => exact (dot_S256x10_S10x1920_S256x1920_1_0_0_1_n_n.lhsIdx_val_of_single rfl _ _).trans hk)
  have er : dot_S256x10_S10x1920_S256x1920_1_0_0_1_n_n.rhsIdx (ix2 p q) ((contrEquiv1 dot_S256x10_S10x1920_S256x1920_1_0_0_1_n_n 10 rfl rfl).symm k) = ix2 k q :=
    funext fun a => Fin.ext (by
      match a with
      | ⟨0, _⟩ => exact (dot_S256x10_S10x1920_S256x1920_1_0_0_1_n_n.rhsIdx_val_of_single rfl _ _).trans hk
      | ⟨1, _⟩ => exact mm_256x10_r1 _ _)
  rw [el, er]

/-- The left operand's row coordinate in the 256×1920 by 1920×1920 product is the output's row. -/
theorem mm_256x1920_l0 (i : S256x1920.Idx) (c : dot_S256x1920_S1920x1920_S256x1920_1_0_0_1_n_n.contr.Idx) :
    (dot_S256x1920_S1920x1920_S256x1920_1_0_0_1_n_n.lhsIdx i c 0).val = (i 0).val := by
  unfold DotDims.lhsIdx
  rw [dif_neg (show ¬(0 : Fin S256x1920.rank) ∈ dot_S256x1920_S1920x1920_S256x1920_1_0_0_1_n_n.lhsBatch by decide),
    dif_pos (show (0 : Fin S256x1920.rank) ∈ dot_S256x1920_S1920x1920_S256x1920_1_0_0_1_n_n.lhsNonContracting by decide)]
  rfl
/-- The right operand's column coordinate in the 256×1920 by 1920×1920 product is the output's column. -/
theorem mm_256x1920_r1 (i : S256x1920.Idx) (c : dot_S256x1920_S1920x1920_S256x1920_1_0_0_1_n_n.contr.Idx) :
    (dot_S256x1920_S1920x1920_S256x1920_1_0_0_1_n_n.rhsIdx i c 1).val = (i 1).val := by
  unfold DotDims.rhsIdx
  rw [dif_neg (show ¬(1 : Fin S1920x1920.rank) ∈ dot_S256x1920_S1920x1920_S256x1920_1_0_0_1_n_n.rhsBatch by decide),
    dif_pos (show (1 : Fin S1920x1920.rank) ∈ dot_S256x1920_S1920x1920_S256x1920_1_0_0_1_n_n.rhsNonContracting by decide)]
  rfl
/-- A product of a 256×1920 matrix with a 1920×1920 matrix, accumulated into zero, read at row p and
    column q: the sum over the contracted axis of the entries' products. -/
theorem mm_256x1920 (l : FVec Ideal S256x1920 .bf16) (r : FVec Ideal S1920x1920 .bf16) (p : Fin 256) (q : Fin 1920) :
    matmul (F := Ideal) dot_S256x1920_S1920x1920_S256x1920_1_0_0_1_n_n none l r (constant (F := Ideal) S256x1920 .f32 0x00000000#32) (ix2 p q)
      = ∑ k : Fin 1920, l (ix2 p k) * r (ix2 k q) := by
  simp only [matmul]
  rw [Ideal.matmul_constant_zero_apply, ← Equiv.sum_comp (contrEquiv1 dot_S256x1920_S1920x1920_S256x1920_1_0_0_1_n_n 1920 rfl rfl).symm]
  refine Finset.sum_congr rfl fun k _ => ?_
  have hk := contrEquiv1_symm_val dot_S256x1920_S1920x1920_S256x1920_1_0_0_1_n_n 1920 rfl rfl k
  have el : dot_S256x1920_S1920x1920_S256x1920_1_0_0_1_n_n.lhsIdx (ix2 p q) ((contrEquiv1 dot_S256x1920_S1920x1920_S256x1920_1_0_0_1_n_n 1920 rfl rfl).symm k) = ix2 p k :=
    funext fun a => Fin.ext (by
      match a with
      | ⟨0, _⟩ => exact mm_256x1920_l0 _ _
      | ⟨1, _⟩ => exact (dot_S256x1920_S1920x1920_S256x1920_1_0_0_1_n_n.lhsIdx_val_of_single rfl _ _).trans hk)
  have er : dot_S256x1920_S1920x1920_S256x1920_1_0_0_1_n_n.rhsIdx (ix2 p q) ((contrEquiv1 dot_S256x1920_S1920x1920_S256x1920_1_0_0_1_n_n 1920 rfl rfl).symm k) = ix2 k q :=
    funext fun a => Fin.ext (by
      match a with
      | ⟨0, _⟩ => exact (dot_S256x1920_S1920x1920_S256x1920_1_0_0_1_n_n.rhsIdx_val_of_single rfl _ _).trans hk
      | ⟨1, _⟩ => exact mm_256x1920_r1 _ _)
  rw [el, er]

/-- The left operand's row coordinate in the 128×10 by 10×1920 product is the output's row. -/
theorem mm_128x10_l0 (i : S128x1920.Idx) (c : dot_S128x10_S10x1920_S128x1920_1_0_0_1_n_n.contr.Idx) :
    (dot_S128x10_S10x1920_S128x1920_1_0_0_1_n_n.lhsIdx i c 0).val = (i 0).val := by
  unfold DotDims.lhsIdx
  rw [dif_neg (show ¬(0 : Fin S128x10.rank) ∈ dot_S128x10_S10x1920_S128x1920_1_0_0_1_n_n.lhsBatch by decide),
    dif_pos (show (0 : Fin S128x10.rank) ∈ dot_S128x10_S10x1920_S128x1920_1_0_0_1_n_n.lhsNonContracting by decide)]
  rfl
/-- The right operand's column coordinate in the 128×10 by 10×1920 product is the output's column. -/
theorem mm_128x10_r1 (i : S128x1920.Idx) (c : dot_S128x10_S10x1920_S128x1920_1_0_0_1_n_n.contr.Idx) :
    (dot_S128x10_S10x1920_S128x1920_1_0_0_1_n_n.rhsIdx i c 1).val = (i 1).val := by
  unfold DotDims.rhsIdx
  rw [dif_neg (show ¬(1 : Fin S10x1920.rank) ∈ dot_S128x10_S10x1920_S128x1920_1_0_0_1_n_n.rhsBatch by decide),
    dif_pos (show (1 : Fin S10x1920.rank) ∈ dot_S128x10_S10x1920_S128x1920_1_0_0_1_n_n.rhsNonContracting by decide)]
  rfl
/-- A product of a 128×10 matrix with a 10×1920 matrix, accumulated into zero, read at row p and
    column q: the sum over the contracted axis of the entries' products. -/
theorem mm_128x10 (l : FVec Ideal S128x10 .bf16) (r : FVec Ideal S10x1920 .bf16) (p : Fin 128) (q : Fin 1920) :
    matmul (F := Ideal) dot_S128x10_S10x1920_S128x1920_1_0_0_1_n_n none l r (constant (F := Ideal) S128x1920 .f32 0x00000000#32) (ix2 p q)
      = ∑ k : Fin 10, l (ix2 p k) * r (ix2 k q) := by
  simp only [matmul]
  rw [Ideal.matmul_constant_zero_apply, ← Equiv.sum_comp (contrEquiv1 dot_S128x10_S10x1920_S128x1920_1_0_0_1_n_n 10 rfl rfl).symm]
  refine Finset.sum_congr rfl fun k _ => ?_
  have hk := contrEquiv1_symm_val dot_S128x10_S10x1920_S128x1920_1_0_0_1_n_n 10 rfl rfl k
  have el : dot_S128x10_S10x1920_S128x1920_1_0_0_1_n_n.lhsIdx (ix2 p q) ((contrEquiv1 dot_S128x10_S10x1920_S128x1920_1_0_0_1_n_n 10 rfl rfl).symm k) = ix2 p k :=
    funext fun a => Fin.ext (by
      match a with
      | ⟨0, _⟩ => exact mm_128x10_l0 _ _
      | ⟨1, _⟩ => exact (dot_S128x10_S10x1920_S128x1920_1_0_0_1_n_n.lhsIdx_val_of_single rfl _ _).trans hk)
  have er : dot_S128x10_S10x1920_S128x1920_1_0_0_1_n_n.rhsIdx (ix2 p q) ((contrEquiv1 dot_S128x10_S10x1920_S128x1920_1_0_0_1_n_n 10 rfl rfl).symm k) = ix2 k q :=
    funext fun a => Fin.ext (by
      match a with
      | ⟨0, _⟩ => exact (dot_S128x10_S10x1920_S128x1920_1_0_0_1_n_n.rhsIdx_val_of_single rfl _ _).trans hk
      | ⟨1, _⟩ => exact mm_128x10_r1 _ _)
  rw [el, er]

/-- The left operand's row coordinate in the 128×1920 by 1920×1920 product is the output's row. -/
theorem mm_128x1920_l0 (i : S128x1920.Idx) (c : dot_S128x1920_S1920x1920_S128x1920_1_0_0_1_n_n.contr.Idx) :
    (dot_S128x1920_S1920x1920_S128x1920_1_0_0_1_n_n.lhsIdx i c 0).val = (i 0).val := by
  unfold DotDims.lhsIdx
  rw [dif_neg (show ¬(0 : Fin S128x1920.rank) ∈ dot_S128x1920_S1920x1920_S128x1920_1_0_0_1_n_n.lhsBatch by decide),
    dif_pos (show (0 : Fin S128x1920.rank) ∈ dot_S128x1920_S1920x1920_S128x1920_1_0_0_1_n_n.lhsNonContracting by decide)]
  rfl
/-- The right operand's column coordinate in the 128×1920 by 1920×1920 product is the output's column. -/
theorem mm_128x1920_r1 (i : S128x1920.Idx) (c : dot_S128x1920_S1920x1920_S128x1920_1_0_0_1_n_n.contr.Idx) :
    (dot_S128x1920_S1920x1920_S128x1920_1_0_0_1_n_n.rhsIdx i c 1).val = (i 1).val := by
  unfold DotDims.rhsIdx
  rw [dif_neg (show ¬(1 : Fin S1920x1920.rank) ∈ dot_S128x1920_S1920x1920_S128x1920_1_0_0_1_n_n.rhsBatch by decide),
    dif_pos (show (1 : Fin S1920x1920.rank) ∈ dot_S128x1920_S1920x1920_S128x1920_1_0_0_1_n_n.rhsNonContracting by decide)]
  rfl
/-- A product of a 128×1920 matrix with a 1920×1920 matrix, accumulated into zero, read at row p and
    column q: the sum over the contracted axis of the entries' products. -/
theorem mm_128x1920 (l : FVec Ideal S128x1920 .bf16) (r : FVec Ideal S1920x1920 .bf16) (p : Fin 128) (q : Fin 1920) :
    matmul (F := Ideal) dot_S128x1920_S1920x1920_S128x1920_1_0_0_1_n_n none l r (constant (F := Ideal) S128x1920 .f32 0x00000000#32) (ix2 p q)
      = ∑ k : Fin 1920, l (ix2 p k) * r (ix2 k q) := by
  simp only [matmul]
  rw [Ideal.matmul_constant_zero_apply, ← Equiv.sum_comp (contrEquiv1 dot_S128x1920_S1920x1920_S128x1920_1_0_0_1_n_n 1920 rfl rfl).symm]
  refine Finset.sum_congr rfl fun k _ => ?_
  have hk := contrEquiv1_symm_val dot_S128x1920_S1920x1920_S128x1920_1_0_0_1_n_n 1920 rfl rfl k
  have el : dot_S128x1920_S1920x1920_S128x1920_1_0_0_1_n_n.lhsIdx (ix2 p q) ((contrEquiv1 dot_S128x1920_S1920x1920_S128x1920_1_0_0_1_n_n 1920 rfl rfl).symm k) = ix2 p k :=
    funext fun a => Fin.ext (by
      match a with
      | ⟨0, _⟩ => exact mm_128x1920_l0 _ _
      | ⟨1, _⟩ => exact (dot_S128x1920_S1920x1920_S128x1920_1_0_0_1_n_n.lhsIdx_val_of_single rfl _ _).trans hk)
  have er : dot_S128x1920_S1920x1920_S128x1920_1_0_0_1_n_n.rhsIdx (ix2 p q) ((contrEquiv1 dot_S128x1920_S1920x1920_S128x1920_1_0_0_1_n_n 1920 rfl rfl).symm k) = ix2 k q :=
    funext fun a => Fin.ext (by
      match a with
      | ⟨0, _⟩ => exact (dot_S128x1920_S1920x1920_S128x1920_1_0_0_1_n_n.rhsIdx_val_of_single rfl _ _).trans hk
      | ⟨1, _⟩ => exact mm_128x1920_r1 _ _)
  rw [el, er]

/-- The first kernel's stored block at row p and column q: the product of the two contractions, of the
    input rows with the first weight and of the previous hidden rows with the second. -/
theorem pay0_apply (v0 : Vec Ideal S256x10 .f32) (v2 : Vec Ideal S256x1920 .f32) (v5 : Vec Ideal S10x1920 .bf16)
    (v8 : Vec Ideal S1920x1920 .bf16) (p : Fin 256) (q : Fin 1920) :
    k0_pay1 (F := Ideal) v0 v2 v5 v8 (ix2 p q)
      = (∑ k : Fin 10, v0 (ix2 p k) * v5 (ix2 k q)) * (∑ k : Fin 1920, v2 (ix2 p k) * v8 (ix2 k q)) := by
  unfold k0_pay1
  simp only [shapeCast_self]
  rw [truncf_apply, mulf_apply, mm_256x10, mm_256x1920]
  rfl

/-- The logistic function of a block, at an entry. -/
theorem logistic_apply {s : Shape} {φ : FTy} (a : FVec Ideal s φ) (i : s.Idx) :
    logistic a i = Ideal.logistic (a i) := rfl
/-- The hyperbolic tangent of a block, at an entry. -/
theorem tanh_apply {s : Shape} {φ : FTy} (a : FVec Ideal s φ) (i : s.Idx) :
    tanh a i = Ideal.tanh (a i) := rfl

/-- One gate's pre-activation block at row p and column q: the input row against the gate's input
    weights, plus the multiplicative state's row against the gate's recurrent weights, plus the
    gate's bias at column q. -/
theorem gate6_apply (v0 : Vec Ideal S128x10 .f32) (v2 : Vec Ideal S128x1920 .bf16) (v6 : Vec Ideal S10x1920 .bf16)
    (v8 : Vec Ideal S1920x1920 .bf16) (v10 : Vec Ideal S1x1920 .f32) (p : Fin 128) (q : Fin 1920) :
    k1_pay6 (F := Ideal) v0 v2 v6 v8 v10 (ix2 p q)
      = (∑ k : Fin 10, v0 (ix2 p k) * v6 (ix2 k q)) + (∑ k : Fin 1920, v2 (ix2 p k) * v8 (ix2 k q))
        + v10 (ix2 (0 : Fin 1) q) := by
  unfold k1_pay6 k1_pay3 k1_pay4
  simp only [shapeCast_self]
  rw [addf_apply, addf_apply, mm_128x10, mm_128x1920, broadcastTo_1b_ab_apply]
  rfl

/-- One gate's pre-activation block at row p and column q: the input row against the gate's input
    weights, plus the multiplicative state's row against the gate's recurrent weights, plus the
    gate's bias at column q. -/
theorem gate7_apply (v0 : Vec Ideal S128x10 .f32) (v2 : Vec Ideal S128x1920 .bf16) (v17 : Vec Ideal S10x1920 .bf16)
    (v19 : Vec Ideal S1920x1920 .bf16) (v21 : Vec Ideal S1x1920 .f32) (p : Fin 128) (q : Fin 1920) :
    k1_pay7 (F := Ideal) v0 v2 v17 v19 v21 (ix2 p q)
      = (∑ k : Fin 10, v0 (ix2 p k) * v17 (ix2 k q)) + (∑ k : Fin 1920, v2 (ix2 p k) * v19 (ix2 k q))
        + v21 (ix2 (0 : Fin 1) q) := by
  unfold k1_pay7 k1_pay3 k1_pay4
  simp only [shapeCast_self]
  rw [addf_apply, addf_apply, mm_128x10, mm_128x1920, broadcastTo_1b_ab_apply]
  rfl

/-- The new cell state's block at row p and column q: the forget gate's logistic times the previous
    cell state, plus the input gate's logistic times the hyperbolic tangent of the update gate's
    pre-activation (input row against its input weights, plus state row against its recurrent
    weights, plus its bias). -/
theorem pay1c_apply (v1 : FVec Ideal S128x10 .bf16) (v3 : FVec Ideal S128x1920 .bf16) (v5 : FVec Ideal S128x1920 .f32)
    (v16 : FVec Ideal S128x1920 .f32) (v27 : FVec Ideal S128x1920 .f32) (v39 : Vec Ideal S10x1920 .bf16)
    (v41 : Vec Ideal S1920x1920 .bf16) (v43 : Vec Ideal S1x1920 .f32) (p : Fin 128) (q : Fin 1920) :
    k1_pay1 (F := Ideal) v1 v3 v5 v16 v27 v39 v41 v43 (ix2 p q)
      = Ideal.logistic (v27 (ix2 p q)) * v5 (ix2 p q)
        + Ideal.logistic (v16 (ix2 p q))
          * Ideal.tanh ((∑ k : Fin 10, v1 (ix2 p k) * v39 (ix2 k q)) + (∑ k : Fin 1920, v3 (ix2 p k) * v41 (ix2 k q))
              + v43 (ix2 (0 : Fin 1) q)) := by
  unfold k1_pay1
  simp only [shapeCast_self]
  rw [addf_apply, mulf_apply, mulf_apply, logistic_apply, logistic_apply, tanh_apply, addf_apply, addf_apply,
    mm_128x10, mm_128x1920, broadcastTo_1b_ab_apply]

/-- The new hidden state's block at row p and column q: the output gate's logistic (of the input row
    against its input weights, plus the state row against its recurrent weights, plus its bias) times
    the hyperbolic tangent of the new cell state there. -/
theorem pay1h_apply (v1 : FVec Ideal S128x10 .bf16) (v3 : FVec Ideal S128x1920 .bf16) (v5 : FVec Ideal S128x1920 .f32)
    (v16 : FVec Ideal S128x1920 .f32) (v27 : FVec Ideal S128x1920 .f32) (v29 : FVec Ideal S10x1920 .bf16)
    (v31 : FVec Ideal S1920x1920 .bf16) (v32 : Vec Ideal S1x1920 .f32) (v39 : Vec Ideal S10x1920 .bf16)
    (v41 : Vec Ideal S1920x1920 .bf16) (v43 : Vec Ideal S1x1920 .f32) (p : Fin 128) (q : Fin 1920) :
    k1_pay2 (F := Ideal) v1 v3 v5 v16 v27 v29 v31 v32 v39 v41 v43 (ix2 p q)
      = Ideal.logistic ((∑ k : Fin 10, v1 (ix2 p k) * v29 (ix2 k q)) + (∑ k : Fin 1920, v3 (ix2 p k) * v31 (ix2 k q))
            + v32 (ix2 (0 : Fin 1) q))
        * Ideal.tanh (k1_pay1 (F := Ideal) v1 v3 v5 v16 v27 v39 v41 v43 (ix2 p q)) := by
  unfold k1_pay2
  simp only [shapeCast_self]
  rw [mulf_apply, logistic_apply, tanh_apply, addf_apply, addf_apply, mm_128x10, mm_128x1920, broadcastTo_1b_ab_apply]

/-- A change of float format is the identity at the ideal values. -/
theorem pay3_eq (v0 : Vec Ideal S128x10 .f32) : k1_pay3 (F := Ideal) v0 = v0 := rfl
/-- A cast to the same shape is the identity. -/
theorem pay4_eq (v2 : Vec Ideal S128x1920 .bf16) : k1_pay4 (F := Ideal) v2 = v2 := by
  unfold k1_pay4; exact shapeCast_self _ _
/-- A cast to the same shape is the identity. -/
theorem pay5_eq (v4 : Vec Ideal S128x1920 .f32) : k1_pay5 (F := Ideal) v4 = v4 := by
  unfold k1_pay5; exact shapeCast_self _ _
/-- A cast to the same shape is the identity. -/
theorem pay8_eq (v : Vec Ideal S10x1920 .bf16) : k1_pay8 (F := Ideal) v = v := by
  unfold k1_pay8; exact shapeCast_self _ _
/-- A cast to the same shape is the identity. -/
theorem pay9_eq (v : Vec Ideal S1920x1920 .bf16) : k1_pay9 (F := Ideal) v = v := by
  unfold k1_pay9; exact shapeCast_self _ _

end Cert.KernelIdeal.Pay

end
-- ==== Proof.KiValue0.lean ====
/- From blocks to the whole array, first region.

   The first pipelined region writes the multiplicative state in 32 blocks of 256 rows. What each
   grid point writes back is the body's stored value of the blocks it is given; read at an entry
   this is the product of two contractions of rows of the arrays the region finds, because a row
   block's row p at point t is row t·256 + p of its array and each weight window's block is its
   whole array. The blocks tile the output, so after the region the output array is one function
   of the arrays found at entry. Stated for arbitrary entry contents, at the ideal values. -/
import proofs.«136980_j58978490909175_2_alg».proof.Proof.KiRegion0
import proofs.«136980_j58978490909175_2_alg».proof.Proof.PayloadMath
import Idealize.ShloMosaic.Lib.Pipeline.Value
import Idealize.ShloMosaic.Lib.ValueIdx

noncomputable section

namespace Cert.KernelIdeal.Val

open Cert.KernelIdeal Cert.KernelIdeal.Gen Cert.KernelIdeal.Fr Cert.KernelIdeal.Pay
open Idealize.ShloMosaic Idealize.ShloMosaic.TcCoe Idealize.SL.Sem Idealize.ShloMosaic.ValueIdx
open Idealize.ShloMosaic.Pipeline (Dat)
open scoped BigOperators

-- what the unscoped buffers hold when a region is entered
variable (V : (c : Dev nD) → (b : Ref sig .tc) → Buf (Elt Ideal) ((c : Thread nD τ).loc b))

/-- The multiplicative state as one function of four arrays: at row r and column q, the input row
    against the first projection's column, times the previous hidden row against the second
    projection's column. -/
def G0 (x : S8192x10.Idx → EReal) (hp : S8192x1920.Idx → EReal) (wmx : S10x1920.Idx → EReal)
    (wmh : S1920x1920.Idx → EReal) : S8192x1920.Idx → EReal := fun i =>
  (∑ k : Fin 10, x (ix2 (⟨(i 0).val, (i 0).isLt⟩ : Fin 8192) k) * wmx (ix2 k (⟨(i 1).val, (i 1).isLt⟩ : Fin 1920)))
    * (∑ k : Fin 1920, hp (ix2 (⟨(i 0).val, (i 0).isLt⟩ : Fin 8192) k) * wmh (ix2 k (⟨(i 1).val, (i 1).isLt⟩ : Fin 1920)))

theorem G0_apply (x : S8192x10.Idx → EReal) (hp : S8192x1920.Idx → EReal) (wmx : S10x1920.Idx → EReal)
    (wmh : S1920x1920.Idx → EReal) (r : Fin 8192) (q : Fin 1920) :
    G0 x hp wmx wmh (ix2 r q)
      = (∑ k : Fin 10, x (ix2 r k) * wmx (ix2 k q)) * (∑ k : Fin 1920, hp (ix2 r k) * wmh (ix2 k q)) := rfl

/-- The multiplicative state of the arrays the first region finds on core c. -/
def M0 (c : Dev nD) : S8192x1920.Idx → EReal :=
  G0 (V c main_arg0) (V c main_v48) (V c main_v45) (V c main_v47)

theorem M0_apply (c : Dev nD) (r : Fin 8192) (q : Fin 1920) :
    M0 V c (ix2 r q)
      = (∑ k : Fin 10, HMul.hMul (α := EReal) (β := EReal) (V c main_arg0 (ix2 r k)) (V c main_v45 (ix2 k q)))
        * (∑ k : Fin 1920, HMul.hMul (α := EReal) (β := EReal) (V c main_v48 (ix2 r k)) (V c main_v47 (ix2 k q))) := rfl

theorem hz : (![0, 0] : Fin 2 → Nat) = fun _ => 0 := funext fun a => by fin_cases a <;> rfl

/-- The first region's index maps over its 32 points: the row windows sit at block row t, column
    block 0; the two weight windows at block 0 on both axes. -/
theorem idx_facts0 : ∀ t : Fin cfg0.N, t.val < 32
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Entry (p, k) of block t of window 0 is entry (t·256 + p, k) of its array. -/
theorem emb0_0 (t : Fin cfg0.N) (p : Fin 256) (k : Fin 10) (h : t.val * 256 + p.val < 8192) :
    (((cfg0.win 0).blk t).view.emb (ix2 p k) : S8192x10.Idx) = ix2 (⟨t.val * 256 + p.val, h⟩ : Fin 8192) k := by
  obtain ⟨ht, e00, e01, e10, e11, e20, e21, e30, e31, e40, e41⟩ := idx_facts0 t
  funext a; apply Fin.ext
  match a with
  | ⟨0, _⟩ => show win0_0.index t (0 : Fin 2) * 256 + 1 * p.val = t.val * 256 + p.val; omega
  | ⟨1, _⟩ => show win0_0.index t (1 : Fin 2) * 10 + 1 * k.val = k.val; omega

/-- Entry (p, k) of block t of window 1 is entry (t·256 + p, k) of its array. -/
theorem emb0_1 (t : Fin cfg0.N) (p : Fin 256) (k : Fin 1920) (h : t.val * 256 + p.val < 8192) :
    (((cfg0.win 1).blk t).view.emb (ix2 p k) : S8192x1920.Idx) = ix2 (⟨t.val * 256 + p.val, h⟩ : Fin 8192) k := by
  obtain ⟨ht, e00, e01, e10, e11, e20, e21, e30, e31, e40, e41⟩ := idx_facts0 t
  funext a; apply Fin.ext
  match a with
  | ⟨0, _⟩ => show win0_1.index t (0 : Fin 2) * 256 + 1 * p.val = t.val * 256 + p.val; omega
  | ⟨1, _⟩ => show win0_1.index t (1 : Fin 2) * 1920 + 1 * k.val = k.val; omega

/-- Window 2's block is its whole array at every point. -/
theorem emb0_2 (t : Fin cfg0.N) (p : Fin 10) (k : Fin 1920) :
    (((cfg0.win 2).blk t).view.emb (ix2 p k) : S10x1920.Idx) = ix2 p k := by
  obtain ⟨ht, e00, e01, e10, e11, e20, e21, e30, e31, e40, e41⟩ := idx_facts0 t
  funext a; apply Fin.ext
  match a with
  | ⟨0, _⟩ => show win0_2.index t (0 : Fin 2) * 10 + 1 * p.val = p.val; omega
  | ⟨1, _⟩ => show win0_2.index t (1 : Fin 2) * 1920 + 1 * k.val = k.val; omega

/-- Window 3's block is its whole array at every point. -/
theorem emb0_3 (t : Fin cfg0.N) (p : Fin 1920) (k : Fin 1920) :
    (((cfg0.win 3).blk t).view.emb (ix2 p k) : S1920x1920.Idx) = ix2 p k := by
  obtain ⟨ht, e00, e01, e10, e11, e20, e21, e30, e31, e40, e41⟩ := idx_facts0 t
  funext a; apply Fin.ext
  match a with
  | ⟨0, _⟩ => show win0_3.index t (0 : Fin 2) * 1920 + 1 * p.val = p.val; omega
  | ⟨1, _⟩ => show win0_3.index t (1 : Fin 2) * 1920 + 1 * k.val = k.val; omega

/-- Entry (p, k) of block t of window 4 is entry (t·256 + p, k) of its array. -/
theorem emb0_4 (t : Fin cfg0.N) (p : Fin 256) (k : Fin 1920) (h : t.val * 256 + p.val < 8192) :
    (((cfg0.win 4).blk t).view.emb (ix2 p k) : S8192x1920.Idx) = ix2 (⟨t.val * 256 + p.val, h⟩ : Fin 8192) k := by
  obtain ⟨ht, e00, e01, e10, e11, e20, e21, e30, e31, e40, e41⟩ := idx_facts0 t
  funext a; apply Fin.ext
  match a with
  | ⟨0, _⟩ => show win0_4.index t (0 : Fin 2) * 256 + 1 * p.val = t.val * 256 + p.val; omega
  | ⟨1, _⟩ => show win0_4.index t (1 : Fin 2) * 1920 + 1 * k.val = k.val; omega

/-- A point's row offset stays inside the 8192 rows. -/
theorem row_lt0 (t : Fin cfg0.N) (p : Fin 256) : t.val * 256 + p.val < 8192 := by
  have := (idx_facts0 t).1; have := p.isLt; omega

/-- The input rows' block at point t, at an entry. -/
theorem blk0_0_apply (c : Dev nD) (t : Fin cfg0.N) (p : Fin 256) (k : Fin 10) :
    blk0 V c 0 t (ix2 p k) = V c main_arg0 (ix2 (⟨t.val * 256 + p.val, row_lt0 t p⟩ : Fin 8192) k) := by
  show V c main_arg0 (((cfg0.win 0).blk t).view.emb (ix2 p k)) = _
  exact congrArg (V c main_arg0) (emb0_0 t p k _)
/-- The previous hidden rows' block at point t, at an entry. -/
theorem blk0_1_apply (c : Dev nD) (t : Fin cfg0.N) (p : Fin 256) (k : Fin 1920) :
    blk0 V c 1 t (ix2 p k) = V c main_v48 (ix2 (⟨t.val * 256 + p.val, row_lt0 t p⟩ : Fin 8192) k) := by
  show V c main_v48 (((cfg0.win 1).blk t).view.emb (ix2 p k)) = _
  exact congrArg (V c main_v48) (emb0_1 t p k _)
/-- The first projection's block is the whole matrix. -/
theorem blk0_2_apply (c : Dev nD) (t : Fin cfg0.N) (k : Fin 10) (q : Fin 1920) :
    blk0 V c 2 t (ix2 k q) = V c main_v45 (ix2 k q) := by
  show V c main_v45 (((cfg0.win 2).blk t).view.emb (ix2 k q)) = _
  exact congrArg (V c main_v45) (emb0_2 t k q)
/-- The second projection's block is the whole matrix. -/
theorem blk0_3_apply (c : Dev nD) (t : Fin cfg0.N) (k : Fin 1920) (q : Fin 1920) :
    blk0 V c 3 t (ix2 k q) = V c main_v47 (ix2 k q) := by
  show V c main_v47 (((cfg0.win 3).blk t).view.emb (ix2 k q)) = _
  exact congrArg (V c main_v47) (emb0_3 t k q)

/-- What point t writes back is block t of the multiplicative state. -/
theorem flushed0_eq (c : Dev nD) (t : Fin cfg0.N) :
    (dat0 V c).flushed 4 t = ((cfg0.win 4).blk t).view.read (Elt Ideal) (M0 V c) := by
  show (cfg0.win 4).cut (grid0.coords t) ((dat0 V c).after 4 t) = _
  rw [after0_4]
  unfold out0_4
  rw [View.canon_unit_zero hz]
  simp only [View.ld_unit_zero (S := S256x10) hz, View.ld_unit_zero (S := S256x1920) hz,
    View.ld_unit_zero (S := S10x1920) hz, View.ld_unit_zero (S := S1920x1920) hz]
  funext j
  obtain ⟨p, q, rfl⟩ : ∃ (p : Fin 256) (q : Fin 1920), j = ix2 p q := ⟨j 0, j 1, eq_ix2 j⟩
  show k0_pay1 (blk0 V c 0 t) (blk0 V c 1 t) (blk0 V c 2 t) (blk0 V c 3 t) (ix2 p q)
    = M0 V c (((cfg0.win 4).blk t).view.emb (ix2 p q))
  rw [pay0_apply, emb0_4 t p q (row_lt0 t p), M0_apply]
  simp only [blk0_0_apply, blk0_1_apply, blk0_2_apply, blk0_3_apply]

/-- An index of the output array is in point t's block iff each coordinate is in the block's range. -/
theorem mem_blk0 (t : Fin cfg0.N) (i : S8192x1920.Idx) :
    i ∈ ((cfg0.win 4).blk t).view.set ↔ ∀ a : Fin 2, win0_4.index t a * S256x1920.size a ≤ (i a).val
      ∧ (i a).val < win0_4.index t a * S256x1920.size a + S256x1920.size a := by
  show i ∈ ((View.whole main_v81).slice (win0_4.rect t)).set ↔ _
  rw [View.set_slice_whole, Rect.mem_set_unit]
  exact Iff.rfl

/-- The 32 row blocks tile the output array: row r lies in block r / 256. -/
theorem cover0 (i : S8192x1920.Idx) :
    ∃ t : Fin cfg0.N, (cfg0.win 4).flush t = true ∧ i ∈ ((cfg0.win 4).blk t).view.set := by
  have hi0 : (i 0).val < 8192 := (i 0).isLt
  have hi1 : (i 1).val < 1920 := (i 1).isLt
  have hN : (i 0).val / 256 < cfg0.N := by show (i 0).val / 256 < 32; omega
  refine ⟨⟨(i 0).val / 256, hN⟩, flush0_4 _, ?_⟩
  obtain ⟨ht, e00, e01, e10, e11, e20, e21, e30, e31, e40, e41⟩ := idx_facts0 ⟨(i 0).val / 256, hN⟩
  rw [mem_blk0]
  intro a
  match a with
  | ⟨0, _⟩ =>
    show win0_4.index ⟨(i 0).val / 256, hN⟩ (0 : Fin 2) * 256 ≤ (i 0).val
      ∧ (i 0).val < win0_4.index ⟨(i 0).val / 256, hN⟩ (0 : Fin 2) * 256 + 256
    rw [e40]; show (i 0).val / 256 * 256 ≤ (i 0).val ∧ (i 0).val < (i 0).val / 256 * 256 + 256; omega
  | ⟨1, _⟩ =>
    show win0_4.index ⟨(i 0).val / 256, hN⟩ (1 : Fin 2) * 1920 ≤ (i 1).val
      ∧ (i 1).val < win0_4.index ⟨(i 0).val / 256, hN⟩ (1 : Fin 2) * 1920 + 1920
    rw [e41]; omega

/-- After the first region the output array is the multiplicative state of the arrays it found. -/
theorem final0 (c : Dev nD) : (dat0 V c).arrAt 4 cfg0.N = M0 V c :=
  (dat0 V c).arrAt_eq_of_cover 4 (M0 V c) (fun t _ => flushed0_eq V c t) cover0

end Cert.KernelIdeal.Val

end
-- ==== Proof.KiValue1.lean ====
/- From blocks to the whole arrays, second region.

   The second pipelined region writes the new hidden state and the new cell state in 64 blocks of
   128 rows. The body takes each gate's weights and bias as the band of 1920 columns at offset
   g·1920 of the gate-aligned arrays, so a gate's pre-activation from the loaded blocks is one
   formula in the gate number; a row block's row p at point t is row t·128 + p of its array and
   the weight and bias windows' blocks are their whole arrays. The blocks tile both outputs, so
   after the region each output array is one function of the arrays found at entry. Stated for
   arbitrary entry contents, at the ideal values. -/
import proofs.«136980_j58978490909175_2_alg».proof.Proof.KiRegion1
import proofs.«136980_j58978490909175_2_alg».proof.Proof.PayloadMath
import proofs.«136980_j58978490909175_2_alg».proof.Proof.KiValue0
import Idealize.ShloMosaic.Lib.Pipeline.Value
import Idealize.ShloMosaic.Lib.ValueIdx

noncomputable section

namespace Cert.KernelIdeal.Val

open Cert.KernelIdeal Cert.KernelIdeal.Gen Cert.KernelIdeal.Fr Cert.KernelIdeal.Pay
open Idealize.ShloMosaic Idealize.ShloMosaic.TcCoe Idealize.SL.Sem Idealize.ShloMosaic.ValueIdx
open Idealize.ShloMosaic.Pipeline (Dat)
open scoped BigOperators

-- what the unscoped buffers hold when a region is entered
variable (V : (c : Dev nD) → (b : Ref sig .tc) → Buf (Elt Ideal) ((c : Thread nD τ).loc b))

/-- Column q of gate g in the gate-aligned padded weights and bias: g·1920 + q. -/
def gcol (g : Fin 4) (q : Fin 1920) : Fin 7680 := ⟨g.val * 1920 + q.val, by have := g.isLt; have := q.isLt; omega⟩

/-- Gate g's pre-activation at row r and column q, as a function of the arrays at literal types
    (any number R of rows): the input row against the gate's input weights, plus the multiplicative
    state's row against the gate's recurrent weights, plus the gate's bias. -/
def zgAt {R : Nat} (x : (⟨2, ![R, 10]⟩ : Shape).Idx → EReal) (m : (⟨2, ![R, 1920]⟩ : Shape).Idx → EReal)
    (wx : S10x7680.Idx → EReal) (wh : S1920x7680.Idx → EReal) (b : S1x7680.Idx → EReal)
    (g : Fin 4) (r : Fin R) (q : Fin 1920) : EReal :=
  (∑ k : Fin 10, x (ix2 r k) * wx (ix2 k (gcol g q))) + (∑ k : Fin 1920, m (ix2 r k) * wh (ix2 k (gcol g q)))
    + b (ix2 (0 : Fin 1) (gcol g q))

/-- A load of a band of B columns at column offset o, out of C columns, read at an entry. -/
theorem ld_band {Val : EltTy → Type} {e' : EltTy} {A B C : Nat} (o : Nat) (X : (⟨2, ![A, C]⟩ : Shape).Idx → Val e')
    (inb : ∀ a, (![0, o] : Fin 2 → Nat) a + (⟨2, ![A, B]⟩ : Shape).size a ≤ (⟨2, ![A, C]⟩ : Shape).size a)
    (k : Fin A) (q : Fin B) (h : o + q.val < C) :
    View.ld X (Rect.unit (s := ⟨2, ![A, C]⟩) ![0, o] (⟨2, ![A, B]⟩ : Shape).size inb) (ix2 k q)
      = X (ix2 k (⟨o + q.val, h⟩ : Fin C)) := by
  show X ((Rect.unit (s := ⟨2, ![A, C]⟩) ![0, o] (⟨2, ![A, B]⟩ : Shape).size inb).idx (ix2 k q)) = _
  refine congrArg X (funext fun a => Fin.ext ?_)
  match a with
  | ⟨0, _⟩ => show 0 + 1 * k.val = k.val; omega
  | ⟨1, _⟩ => show o + 1 * q.val = o + q.val; omega

/-! The body's loads of the four column bands, at an entry: band g starts at column g·1920. -/

theorem ld_wx_0 (x3 : Vec Ideal S10x7680 .bf16) (k : Fin 10) (q : Fin 1920) :
    View.ld x3 rWx1_0 (ix2 k q) = x3 (ix2 k (gcol 0 q)) :=
  ld_band 0 x3 _ k q (by have := q.isLt; omega)
theorem ld_wh_0 (x4 : Vec Ideal S1920x7680 .bf16) (k : Fin 1920) (q : Fin 1920) :
    View.ld x4 rWh1_0 (ix2 k q) = x4 (ix2 k (gcol 0 q)) :=
  ld_band 0 x4 _ k q (by have := q.isLt; omega)
theorem ld_b_0 (x5 : Vec Ideal S1x7680 .f32) (q : Fin 1920) :
    View.ld x5 rB1_0 (ix2 (0 : Fin 1) q) = x5 (ix2 (0 : Fin 1) (gcol 0 q)) :=
  ld_band 0 x5 _ (0 : Fin 1) q (by have := q.isLt; omega)
theorem ld_wx_1 (x3 : Vec Ideal S10x7680 .bf16) (k : Fin 10) (q : Fin 1920) :
    View.ld x3 rWx1_1920 (ix2 k q) = x3 (ix2 k (gcol 1 q)) :=
  ld_band 1920 x3 _ k q (by have := q.isLt; omega)
theorem ld_wh_1 (x4 : Vec Ideal S1920x7680 .bf16) (k : Fin 1920) (q : Fin 1920) :
    View.ld x4 rWh1_1920 (ix2 k q) = x4 (ix2 k (gcol 1 q)) :=
  ld_band 1920 x4 _ k q (by have := q.isLt; omega)
theorem ld_b_1 (x5 : Vec Ideal S1x7680 .f32) (q : Fin 1920) :
    View.ld x5 rB1_1920 (ix2 (0 : Fin 1) q) = x5 (ix2 (0 : Fin 1) (gcol 1 q)) :=
  ld_band 1920 x5 _ (0 : Fin 1) q (by have := q.isLt; omega)
theorem ld_wx_2 (x3 : Vec Ideal S10x7680 .bf16) (k : Fin 10) (q : Fin 1920) :
    View.ld x3 rWx1_3840 (ix2 k q) = x3 (ix2 k (gcol 2 q)) :=
  ld_band 3840 x3 _ k q (by have := q.isLt; omega)
theorem ld_wh_2 (x4 : Vec Ideal S1920x7680 .bf16) (k : Fin 1920) (q : Fin 1920) :
    View.ld x4 rWh1_3840 (ix2 k q) = x4 (ix2 k (gcol 2 q)) :=
  ld_band 3840 x4 _ k q (by have := q.isLt; omega)
theorem ld_b_2 (x5 : Vec Ideal S1x7680 .f32) (q : Fin 1920) :
    View.ld x5 rB1_3840 (ix2 (0 : Fin 1) q) = x5 (ix2 (0 : Fin 1) (gcol 2 q)) :=
  ld_band 3840 x5 _ (0 : Fin 1) q (by have := q.isLt; omega)
theorem ld_wx_3 (x3 : Vec Ideal S10x7680 .bf16) (k : Fin 10) (q : Fin 1920) :
    View.ld x3 rWx1_5760 (ix2 k q) = x3 (ix2 k (gcol 3 q)) :=
  ld_band 5760 x3 _ k q (by have := q.isLt; omega)
theorem ld_wh_3 (x4 : Vec Ideal S1920x7680 .bf16) (k : Fin 1920) (q : Fin 1920) :
    View.ld x4 rWh1_5760 (ix2 k q) = x4 (ix2 k (gcol 3 q)) :=
  ld_band 5760 x4 _ k q (by have := q.isLt; omega)
theorem ld_b_3 (x5 : Vec Ideal S1x7680 .f32) (q : Fin 1920) :
    View.ld x5 rB1_5760 (ix2 (0 : Fin 1) q) = x5 (ix2 (0 : Fin 1) (gcol 3 q)) :=
  ld_band 5760 x5 _ (0 : Fin 1) q (by have := q.isLt; omega)

/-- Gate 0's pre-activation from the loaded blocks, with the gate's column band taken at offset 0. -/
theorem zb_0 (x0 : Vec Ideal S128x1920 .bf16) (x1 : Vec Ideal S128x10 .f32) (x3 : Vec Ideal S10x7680 .bf16)
    (x4 : Vec Ideal S1920x7680 .bf16) (x5 : Vec Ideal S1x7680 .f32) (p : Fin 128) (q : Fin 1920) :
    (∑ k : Fin 10, x1 (ix2 p k) * View.ld x3 rWx1_0 (ix2 k q))
        + (∑ k : Fin 1920, x0 (ix2 p k) * View.ld x4 rWh1_0 (ix2 k q)) + View.ld x5 rB1_0 (ix2 (0 : Fin 1) q)
      = zgAt x1 x0 x3 x4 x5 0 p q := by
  unfold zgAt
  rw [ld_b_0]
  exact congrArg₂ (· + ·) (congrArg₂ (· + ·) (Finset.sum_congr rfl fun k _ => by rw [ld_wx_0])
    (Finset.sum_congr rfl fun k _ => by rw [ld_wh_0])) rfl

/-- Gate 1's pre-activation from the loaded blocks, with the gate's column band taken at offset 1920. -/
theorem zb_1 (x0 : Vec Ideal S128x1920 .bf16) (x1 : Vec Ideal S128x10 .f32) (x3 : Vec Ideal S10x7680 .bf16)
    (x4 : Vec Ideal S1920x7680 .bf16) (x5 : Vec Ideal S1x7680 .f32) (p : Fin 128) (q : Fin 1920) :
    (∑ k : Fin 10, x1 (ix2 p k) * View.ld x3 rWx1_1920 (ix2 k q))
        + (∑ k : Fin 1920, x0 (ix2 p k) * View.ld x4 rWh1_1920 (ix2 k q)) + View.ld x5 rB1_1920 (ix2 (0 : Fin 1) q)
      = zgAt x1 x0 x3 x4 x5 1 p q := by
  unfold zgAt
  rw [ld_b_1]
  exact congrArg₂ (· + ·) (congrArg₂ (· + ·) (Finset.sum_congr rfl fun k _ => by rw [ld_wx_1])
    (Finset.sum_congr rfl fun k _ => by rw [ld_wh_1])) rfl

/-- Gate 2's pre-activation from the loaded blocks, with the gate's column band taken at offset 3840. -/
theorem zb_2 (x0 : Vec Ideal S128x1920 .bf16) (x1 : Vec Ideal S128x10 .f32) (x3 : Vec Ideal S10x7680 .bf16)
    (x4 : Vec Ideal S1920x7680 .bf16) (x5 : Vec Ideal S1x7680 .f32) (p : Fin 128) (q : Fin 1920) :
    (∑ k : Fin 10, x1 (ix2 p k) * View.ld x3 rWx1_3840 (ix2 k q))
        + (∑ k : Fin 1920, x0 (ix2 p k) * View.ld x4 rWh1_3840 (ix2 k q)) + View.ld x5 rB1_3840 (ix2 (0 : Fin 1) q)
      = zgAt x1 x0 x3 x4 x5 2 p q := by
  unfold zgAt
  rw [ld_b_2]
  exact congrArg₂ (· + ·) (congrArg₂ (· + ·) (Finset.sum_congr rfl fun k _ => by rw [ld_wx_2])
    (Finset.sum_congr rfl fun k _ => by rw [ld_wh_2])) rfl

/-- Gate 3's pre-activation from the loaded blocks, with the gate's column band taken at offset 5760. -/
theorem zb_3 (x0 : Vec Ideal S128x1920 .bf16) (x1 : Vec Ideal S128x10 .f32) (x3 : Vec Ideal S10x7680 .bf16)
    (x4 : Vec Ideal S1920x7680 .bf16) (x5 : Vec Ideal S1x7680 .f32) (p : Fin 128) (q : Fin 1920) :
    (∑ k : Fin 10, x1 (ix2 p k) * View.ld x3 rWx1_5760 (ix2 k q))
        + (∑ k : Fin 1920, x0 (ix2 p k) * View.ld x4 rWh1_5760 (ix2 k q)) + View.ld x5 rB1_5760 (ix2 (0 : Fin 1) q)
      = zgAt x1 x0 x3 x4 x5 3 p q := by
  unfold zgAt
  rw [ld_b_3]
  exact congrArg₂ (· + ·) (congrArg₂ (· + ·) (Finset.sum_congr rfl fun k _ => by rw [ld_wx_3])
    (Finset.sum_congr rfl fun k _ => by rw [ld_wh_3])) rfl

/-- The new cell state's stored block as a function of the six loaded blocks, at an entry. -/
theorem out7_apply (x0 : Vec Ideal S128x1920 .bf16) (x1 : Vec Ideal S128x10 .f32) (x2 : Vec Ideal S128x1920 .f32)
    (x3 : Vec Ideal S10x7680 .bf16) (x4 : Vec Ideal S1920x7680 .bf16) (x5 : Vec Ideal S1x7680 .f32)
    (p : Fin 128) (q : Fin 1920) :
    out1_7 (F := Ideal) x0 x1 x2 x3 x4 x5 (ix2 p q)
      = Ideal.logistic (zgAt x1 x0 x3 x4 x5 1 p q) * x2 (ix2 p q)
        + Ideal.logistic (zgAt x1 x0 x3 x4 x5 0 p q) * Ideal.tanh (zgAt x1 x0 x3 x4 x5 3 p q) := by
  unfold out1_7
  rw [View.canon_unit_zero hz]
  simp only [View.ld_unit_zero (S := S128x10) hz, View.ld_unit_zero (S := S128x1920) hz]
  rw [pay1c_apply, gate7_apply, gate6_apply, pay3_eq, pay4_eq, pay5_eq, zb_1, zb_0, zb_3]

/-- The new hidden state's stored block as a function of the six loaded blocks, at an entry. -/
theorem out6_apply (x0 : Vec Ideal S128x1920 .bf16) (x1 : Vec Ideal S128x10 .f32) (x2 : Vec Ideal S128x1920 .f32)
    (x3 : Vec Ideal S10x7680 .bf16) (x4 : Vec Ideal S1920x7680 .bf16) (x5 : Vec Ideal S1x7680 .f32)
    (p : Fin 128) (q : Fin 1920) :
    out1_6 (F := Ideal) x0 x1 x2 x3 x4 x5 (ix2 p q)
      = Ideal.logistic (zgAt x1 x0 x3 x4 x5 2 p q)
        * Ideal.tanh (Ideal.logistic (zgAt x1 x0 x3 x4 x5 1 p q) * x2 (ix2 p q)
            + Ideal.logistic (zgAt x1 x0 x3 x4 x5 0 p q) * Ideal.tanh (zgAt x1 x0 x3 x4 x5 3 p q)) := by
  unfold out1_6
  rw [View.canon_unit_zero hz]
  simp only [View.ld_unit_zero (S := S128x10) hz, View.ld_unit_zero (S := S128x1920) hz]
  rw [pay1h_apply, pay1c_apply, gate7_apply, gate6_apply, pay8_eq, pay9_eq, pay3_eq, pay4_eq, pay5_eq,
    zb_2, zb_1, zb_0, zb_3]

/-! ## From the blocks to the arrays -/

/-- The second region's index maps over its 64 points: the row windows sit at block row t, column
    block 0; the weight and bias windows at block 0 on both axes. -/
theorem idx_facts1 : ∀ t : Fin cfg1.N, t.val < 64
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- Entry (p, k) of block t of window 0 is entry (t·128 + p, k) of its array. -/
theorem emb1_0 (t : Fin cfg1.N) (p : Fin 128) (k : Fin 1920) (h : t.val * 128 + p.val < 8192) :
    (((cfg1.win 0).blk t).view.emb (ix2 p k) : S8192x1920.Idx) = ix2 (⟨t.val * 128 + p.val, h⟩ : Fin 8192) k := by
  obtain ⟨ht, e00, e01, e10, e11, e20, e21, e30, e31, e40, e41, e50, e51, e60, e61, e70, e71⟩ := idx_facts1 t
  funext a; apply Fin.ext
  match a with
  | ⟨0, _⟩ => show win1_0.index t (0 : Fin 2) * 128 + 1 * p.val = t.val * 128 + p.val; omega
  | ⟨1, _⟩ => show win1_0.index t (1 : Fin 2) * 1920 + 1 * k.val = k.val; omega

/-- Entry (p, k) of block t of window 1 is entry (t·128 + p, k) of its array. -/
theorem emb1_1 (t : Fin cfg1.N) (p : Fin 128) (k : Fin 10) (h : t.val * 128 + p.val < 8192) :
    (((cfg1.win 1).blk t).view.emb (ix2 p k) : S8192x10.Idx) = ix2 (⟨t.val * 128 + p.val, h⟩ : Fin 8192) k := by
  obtain ⟨ht, e00, e01, e10, e11, e20, e21, e30, e31, e40, e41, e50, e51, e60, e61, e70, e71⟩ := idx_facts1 t
  funext a; apply Fin.ext
  match a with
  | ⟨0, _⟩ => show win1_1.index t (0 : Fin 2) * 128 + 1 * p.val = t.val * 128 + p.val; omega
  | ⟨1, _⟩ => show win1_1.index t (1 : Fin 2) * 10 + 1 * k.val = k.val; omega

/-- Entry (p, k) of block t of window 2 is entry (t·128 + p, k) of its array. -/
theorem emb1_2 (t : Fin cfg1.N) (p : Fin 128) (k : Fin 1920) (h : t.val * 128 + p.val < 8192) :
    (((cfg1.win 2).blk t).view.emb (ix2 p k) : S8192x1920.Idx) = ix2 (⟨t.val * 128 + p.val, h⟩ : Fin 8192) k := by
  obtain ⟨ht, e00, e01, e10, e11, e20, e21, e30, e31, e40, e41, e50, e51, e60, e61, e70, e71⟩ := idx_facts1 t
  funext a; apply Fin.ext
  match a with
  | ⟨0, _⟩ => show win1_2.index t (0 : Fin 2) * 128 + 1 * p.val = t.val * 128 + p.val; omega
  | ⟨1, _⟩ => show win1_2.index t (1 : Fin 2) * 1920 + 1 * k.val = k.val; omega

/-- Window 3's block is its whole array at every point. -/
theorem emb1_3 (t : Fin cfg1.N) (p : Fin 10) (k : Fin 7680) :
    (((cfg1.win 3).blk t).view.emb (ix2 p k) : S10x7680.Idx) = ix2 p k := by
  obtain ⟨ht, e00, e01, e10, e11, e20, e21, e30, e31, e40, e41, e50, e51, e60, e61, e70, e71⟩ := idx_facts1 t
  funext a; apply Fin.ext
  match a with
  | ⟨0, _⟩ => show win1_3.index t (0 : Fin 2) * 10 + 1 * p.val = p.val; omega
  | ⟨1, _⟩ => show win1_3.index t (1 : Fin 2) * 7680 + 1 * k.val = k.val; omega

/-- Window 4's block is its whole array at every point. -/
theorem emb1_4 (t : Fin cfg1.N) (p : Fin 1920) (k : Fin 7680) :
    (((cfg1.win 4).blk t).view.emb (ix2 p k) : S1920x7680.Idx) = ix2 p k := by
  obtain ⟨ht, e00, e01, e10, e11, e20, e21, e30, e31, e40, e41, e50, e51, e60, e61, e70, e71⟩ := idx_facts1 t
  funext a; apply Fin.ext
  match a with
  | ⟨0, _⟩ => show win1_4.index t (0 : Fin 2) * 1920 + 1 * p.val = p.val; omega
  | ⟨1, _⟩ => show win1_4.index t (1 : Fin 2) * 7680 + 1 * k.val = k.val; omega

/-- Window 5's block is its whole array at every point. -/
theorem emb1_5 (t : Fin cfg1.N) (p : Fin 1) (k : Fin 7680) :
    (((cfg1.win 5).blk t).view.emb (ix2 p k) : S1x7680.Idx) = ix2 p k := by
  obtain ⟨ht, e00, e01, e10, e11, e20, e21, e30, e31, e40, e41, e50, e51, e60, e61, e70, e71⟩ := idx_facts1 t
  funext a; apply Fin.ext
  match a with
  | ⟨0, _⟩ => show win1_5.index t (0 : Fin 2) * 1 + 1 * p.val = p.val; omega
  | ⟨1, _⟩ => show win1_5.index t (1 : Fin 2) * 7680 + 1 * k.val = k.val; omega

/-- Entry (p, k) of block t of window 6 is entry (t·128 + p, k) of its array. -/
theorem emb1_6 (t : Fin cfg1.N) (p : Fin 128) (k : Fin 1920) (h : t.val * 128 + p.val < 8192) :
    (((cfg1.win 6).blk t).view.emb (ix2 p k) : S8192x1920.Idx) = ix2 (⟨t.val * 128 + p.val, h⟩ : Fin 8192) k := by
  obtain ⟨ht, e00, e01, e10, e11, e20, e21, e30, e31, e40, e41, e50, e51, e60, e61, e70, e71⟩ := idx_facts1 t
  funext a; apply Fin.ext
  match a with
  | ⟨0, _⟩ => show win1_6.index t (0 : Fin 2) * 128 + 1 * p.val = t.val * 128 + p.val; omega
  | ⟨1, _⟩ => show win1_6.index t (1 : Fin 2) * 1920 + 1 * k.val = k.val; omega

/-- Entry (p, k) of block t of window 7 is entry (t·128 + p, k) of its array. -/
theorem emb1_7 (t : Fin cfg1.N) (p : Fin 128) (k : Fin 1920) (h : t.val * 128 + p.val < 8192) :
    (((cfg1.win 7).blk t).view.emb (ix2 p k) : S8192x1920.Idx) = ix2 (⟨t.val * 128 + p.val, h⟩ : Fin 8192) k := by
  obtain ⟨ht, e00, e01, e10, e11, e20, e21, e30, e31, e40, e41, e50, e51, e60, e61, e70, e71⟩ := idx_facts1 t
  funext a; apply Fin.ext
  match a with
  | ⟨0, _⟩ => show win1_7.index t (0 : Fin 2) * 128 + 1 * p.val = t.val * 128 + p.val; omega
  | ⟨1, _⟩ => show win1_7.index t (1 : Fin 2) * 1920 + 1 * k.val = k.val; omega

/-- A point's row offset stays inside the 8192 rows. -/
theorem row_lt1 (t : Fin cfg1.N) (p : Fin 128) : t.val * 128 + p.val < 8192 := by
  have := (idx_facts1 t).1; have := p.isLt; omega

/-- The multiplicative state's rows at point t, at an entry. -/
theorem blk1_0_apply (c : Dev nD) (t : Fin cfg1.N) (p : Fin 128) (k : Fin 1920) :
    blk1 V c 0 t (ix2 p k) = V c main_v81 (ix2 (⟨t.val * 128 + p.val, row_lt1 t p⟩ : Fin 8192) k) := by
  show V c main_v81 (((cfg1.win 0).blk t).view.emb (ix2 p k)) = _
  exact congrArg (V c main_v81) (emb1_0 t p k _)

/-- The input rows at point t, at an entry. -/
theorem blk1_1_apply (c : Dev nD) (t : Fin cfg1.N) (p : Fin 128) (k : Fin 10) :
    blk1 V c 1 t (ix2 p k) = V c main_arg0 (ix2 (⟨t.val * 128 + p.val, row_lt1 t p⟩ : Fin 8192) k) := by
  show V c main_arg0 (((cfg1.win 1).blk t).view.emb (ix2 p k)) = _
  exact congrArg (V c main_arg0) (emb1_1 t p k _)

/-- The previous cell state's rows at point t, at an entry. -/
theorem blk1_2_apply (c : Dev nD) (t : Fin cfg1.N) (p : Fin 128) (k : Fin 1920) :
    blk1 V c 2 t (ix2 p k) = V c main_v49 (ix2 (⟨t.val * 128 + p.val, row_lt1 t p⟩ : Fin 8192) k) := by
  show V c main_v49 (((cfg1.win 2).blk t).view.emb (ix2 p k)) = _
  exact congrArg (V c main_v49) (emb1_2 t p k _)

/-- The gates' input weights: the block is the whole array. -/
theorem blk1_3_apply (c : Dev nD) (t : Fin cfg1.N) (k : Fin 10) (j : Fin 7680) :
    blk1 V c 3 t (ix2 k j) = V c main_v59 (ix2 k j) := by
  show V c main_v59 (((cfg1.win 3).blk t).view.emb (ix2 k j)) = _
  exact congrArg (V c main_v59) (emb1_3 t k j)

/-- The gates' recurrent weights: the block is the whole array. -/
theorem blk1_4_apply (c : Dev nD) (t : Fin cfg1.N) (k : Fin 1920) (j : Fin 7680) :
    blk1 V c 4 t (ix2 k j) = V c main_v70 (ix2 k j) := by
  show V c main_v70 (((cfg1.win 4).blk t).view.emb (ix2 k j)) = _
  exact congrArg (V c main_v70) (emb1_4 t k j)

/-- The gates' bias: the block is the whole array. -/
theorem blk1_5_apply (c : Dev nD) (t : Fin cfg1.N) (k : Fin 1) (j : Fin 7680) :
    blk1 V c 5 t (ix2 k j) = V c main_v80 (ix2 k j) := by
  show V c main_v80 (((cfg1.win 5).blk t).view.emb (ix2 k j)) = _
  exact congrArg (V c main_v80) (emb1_5 t k j)

/-! ## The closed forms -/

theorem gcol_val (g : Fin 4) (q : Fin 1920) : (gcol g q).val = g.val * 1920 + q.val := rfl

/-- Gate g's pre-activation at row r and column q, of the arrays the second region finds on core c. -/
def zg (c : Dev nD) (g : Fin 4) (r : Fin 8192) (q : Fin 1920) : EReal :=
  zgAt (R := 8192) (V c main_arg0) (V c main_v81) (V c main_v59) (V c main_v70) (V c main_v80) g r q

theorem zg_apply (c : Dev nD) (g : Fin 4) (r : Fin 8192) (q : Fin 1920) :
    zg V c g r q
      = HAdd.hAdd (α := EReal) (β := EReal)
          ((∑ k : Fin 10, HMul.hMul (α := EReal) (β := EReal) (V c main_arg0 (ix2 r k)) (V c main_v59 (ix2 k (gcol g q))))
            + (∑ k : Fin 1920, HMul.hMul (α := EReal) (β := EReal) (V c main_v81 (ix2 r k)) (V c main_v70 (ix2 k (gcol g q)))))
          (V c main_v80 (ix2 (0 : Fin 1) (gcol g q))) := rfl

/-- The new cell state from the gates' pre-activations z and the previous cell state cp: the forget
    gate's logistic times the previous cell state plus the input gate's logistic times the
    hyperbolic tangent of the update gate. -/
def C1At (z : Fin 4 → Fin 8192 → Fin 1920 → EReal) (cp : S8192x1920.Idx → EReal) : S8192x1920.Idx → EReal := fun i =>
  Ideal.logistic (z 1 ⟨(i 0).val, (i 0).isLt⟩ ⟨(i 1).val, (i 1).isLt⟩)
      * cp (ix2 (⟨(i 0).val, (i 0).isLt⟩ : Fin 8192) (⟨(i 1).val, (i 1).isLt⟩ : Fin 1920))
    + Ideal.logistic (z 0 ⟨(i 0).val, (i 0).isLt⟩ ⟨(i 1).val, (i 1).isLt⟩)
      * Ideal.tanh (z 3 ⟨(i 0).val, (i 0).isLt⟩ ⟨(i 1).val, (i 1).isLt⟩)

/-- The new hidden state: the output gate's logistic times the hyperbolic tangent of the new cell state. -/
def H1At (z : Fin 4 → Fin 8192 → Fin 1920 → EReal) (cp : S8192x1920.Idx → EReal) : S8192x1920.Idx → EReal := fun i =>
  Ideal.logistic (z 2 ⟨(i 0).val, (i 0).isLt⟩ ⟨(i 1).val, (i 1).isLt⟩) * Ideal.tanh (C1At z cp i)

/-- The new cell state of the arrays the second region finds on core c. -/
def C1 (c : Dev nD) : S8192x1920.Idx → EReal := C1At (zg V c) (V c main_v49)
/-- The new hidden state of the arrays the second region finds on core c. -/
def H1 (c : Dev nD) : S8192x1920.Idx → EReal := H1At (zg V c) (V c main_v49)

theorem C1_apply (c : Dev nD) (r : Fin 8192) (q : Fin 1920) :
    C1 V c (ix2 r q)
      = HMul.hMul (α := EReal) (β := EReal) (Ideal.logistic (zg V c 1 r q)) (V c main_v49 (ix2 r q))
        + Ideal.logistic (zg V c 0 r q) * Ideal.tanh (zg V c 3 r q) := rfl

theorem H1_apply (c : Dev nD) (r : Fin 8192) (q : Fin 1920) :
    H1 V c (ix2 r q) = Ideal.logistic (zg V c 2 r q) * Ideal.tanh (C1 V c (ix2 r q)) := rfl

/-- A gate's pre-activation from the blocks at point t is the gate's pre-activation of the arrays,
    at the block's row in the array. -/
theorem zg_blk (c : Dev nD) (t : Fin cfg1.N) (g : Fin 4) (p : Fin 128) (q : Fin 1920) :
    zgAt (R := 128) (blk1 V c 1 t) (blk1 V c 0 t) (blk1 V c 3 t) (blk1 V c 4 t) (blk1 V c 5 t) g p q
      = zg V c g (⟨t.val * 128 + p.val, row_lt1 t p⟩ : Fin 8192) q := by
  unfold zg zgAt
  simp only [blk1_0_apply, blk1_1_apply, blk1_3_apply, blk1_4_apply, blk1_5_apply]

/-- What point t writes back to the cell-state output is block t of the new cell state. -/
theorem flushed1_7_eq (c : Dev nD) (t : Fin cfg1.N) :
    (dat1 V c).flushed 7 t = ((cfg1.win 7).blk t).view.read (Elt Ideal) (C1 V c) := by
  show (cfg1.win 7).cut (grid1.coords t) ((dat1 V c).after 7 t) = _
  rw [after1_7]
  funext j
  obtain ⟨p, q, rfl⟩ : ∃ (p : Fin 128) (q : Fin 1920), j = ix2 p q := ⟨j 0, j 1, eq_ix2 j⟩
  show out1_7 (blk1 V c 0 t) (blk1 V c 1 t) (blk1 V c 2 t) (blk1 V c 3 t) (blk1 V c 4 t) (blk1 V c 5 t) (ix2 p q)
    = C1 V c (((cfg1.win 7).blk t).view.emb (ix2 p q))
  rw [out7_apply, emb1_7 t p q (row_lt1 t p), C1_apply, blk1_2_apply]
  simp only [zg_blk]

/-- What point t writes back to the hidden-state output is block t of the new hidden state. -/
theorem flushed1_6_eq (c : Dev nD) (t : Fin cfg1.N) :
    (dat1 V c).flushed 6 t = ((cfg1.win 6).blk t).view.read (Elt Ideal) (H1 V c) := by
  show (cfg1.win 6).cut (grid1.coords t) ((dat1 V c).after 6 t) = _
  rw [after1_6]
  funext j
  obtain ⟨p, q, rfl⟩ : ∃ (p : Fin 128) (q : Fin 1920), j = ix2 p q := ⟨j 0, j 1, eq_ix2 j⟩
  show out1_6 (blk1 V c 0 t) (blk1 V c 1 t) (blk1 V c 2 t) (blk1 V c 3 t) (blk1 V c 4 t) (blk1 V c 5 t) (ix2 p q)
    = H1 V c (((cfg1.win 6).blk t).view.emb (ix2 p q))
  rw [out6_apply, emb1_6 t p q (row_lt1 t p), H1_apply, C1_apply, blk1_2_apply]
  simp only [zg_blk]

/-- An index of output window 6's array is in point t's block iff each coordinate is in the block's range. -/
theorem mem_blk1_6 (t : Fin cfg1.N) (i : S8192x1920.Idx) :
    i ∈ ((cfg1.win 6).blk t).view.set ↔ ∀ a : Fin 2, win1_6.index t a * S128x1920.size a ≤ (i a).val
      ∧ (i a).val < win1_6.index t a * S128x1920.size a + S128x1920.size a := by
  show i ∈ ((View.whole main_v82_0).slice (win1_6.rect t)).set ↔ _
  rw [View.set_slice_whole, Rect.mem_set_unit]
  exact Iff.rfl

/-- The 64 row blocks tile output window 6's array: row r lies in block r / 128. -/
theorem cover1_6 (i : S8192x1920.Idx) :
    ∃ t : Fin cfg1.N, (cfg1.win 6).flush t = true ∧ i ∈ ((cfg1.win 6).blk t).view.set := by
  have hi0 : (i 0).val < 8192 := (i 0).isLt
  have hi1 : (i 1).val < 1920 := (i 1).isLt
  have hN : (i 0).val / 128 < cfg1.N := by show (i 0).val / 128 < 64; omega
  refine ⟨⟨(i 0).val / 128, hN⟩, flush1_6 _, ?_⟩
  obtain ⟨ht, e00, e01, e10, e11, e20, e21, e30, e31, e40, e41, e50, e51, e60, e61, e70, e71⟩ :=
    idx_facts1 ⟨(i 0).val / 128, hN⟩
  rw [mem_blk1_6]
  intro a
  match a with
  | ⟨0, _⟩ =>
    show win1_6.index ⟨(i 0).val / 128, hN⟩ (0 : Fin 2) * 128 ≤ (i 0).val
      ∧ (i 0).val < win1_6.index ⟨(i 0).val / 128, hN⟩ (0 : Fin 2) * 128 + 128
    rw [e60]; show (i 0).val / 128 * 128 ≤ (i 0).val ∧ (i 0).val < (i 0).val / 128 * 128 + 128; omega
  | ⟨1, _⟩ =>
    show win1_6.index ⟨(i 0).val / 128, hN⟩ (1 : Fin 2) * 1920 ≤ (i 1).val
      ∧ (i 1).val < win1_6.index ⟨(i 0).val / 128, hN⟩ (1 : Fin 2) * 1920 + 1920
    rw [e61]; omega

/-- An index of output window 7's array is in point t's block iff each coordinate is in the block's range. -/
theorem mem_blk1_7 (t : Fin cfg1.N) (i : S8192x1920.Idx) :
    i ∈ ((cfg1.win 7).blk t).view.set ↔ ∀ a : Fin 2, win1_7.index t a * S128x1920.size a ≤ (i a).val
      ∧ (i a).val < win1_7.index t a * S128x1920.size a + S128x1920.size a := by
  show i ∈ ((View.whole main_v82_1).slice (win1_7.rect t)).set ↔ _
  rw [View.set_slice_whole, Rect.mem_set_unit]
  exact Iff.rfl

/-- The 64 row blocks tile output window 7's array: row r lies in block r / 128. -/
theorem cover1_7 (i : S8192x1920.Idx) :
    ∃ t : Fin cfg1.N, (cfg1.win 7).flush t = true ∧ i ∈ ((cfg1.win 7).blk t).view.set := by
  have hi0 : (i 0).val < 8192 := (i 0).isLt
  have hi1 : (i 1).val < 1920 := (i 1).isLt
  have hN : (i 0).val / 128 < cfg1.N := by show (i 0).val / 128 < 64; omega
  refine ⟨⟨(i 0).val / 128, hN⟩, flush1_7 _, ?_⟩
  obtain ⟨ht, e00, e01, e10, e11, e20, e21, e30, e31, e40, e41, e50, e51, e60, e61, e70, e71⟩ :=
    idx_facts1 ⟨(i 0).val / 128, hN⟩
  rw [mem_blk1_7]
  intro a
  match a with
  | ⟨0, _⟩ =>
    show win1_7.index ⟨(i 0).val / 128, hN⟩ (0 : Fin 2) * 128 ≤ (i 0).val
      ∧ (i 0).val < win1_7.index ⟨(i 0).val / 128, hN⟩ (0 : Fin 2) * 128 + 128
    rw [e70]; show (i 0).val / 128 * 128 ≤ (i 0).val ∧ (i 0).val < (i 0).val / 128 * 128 + 128; omega
  | ⟨1, _⟩ =>
    show win1_7.index ⟨(i 0).val / 128, hN⟩ (1 : Fin 2) * 1920 ≤ (i 1).val
      ∧ (i 1).val < win1_7.index ⟨(i 0).val / 128, hN⟩ (1 : Fin 2) * 1920 + 1920
    rw [e71]; omega

/-- After the second region the cell-state output array is the new cell state of the arrays it found. -/
theorem final1_c (c : Dev nD) : (dat1 V c).arrAt 7 cfg1.N = C1 V c :=
  (dat1 V c).arrAt_eq_of_cover 7 (C1 V c) (fun t _ => flushed1_7_eq V c t) cover1_7

/-- After the second region the hidden-state output array is the new hidden state of the arrays it found. -/
theorem final1_h (c : Dev nD) : (dat1 V c).arrAt 6 cfg1.N = H1 V c :=
  (dat1 V c).arrAt_eq_of_cover 6 (H1 V c) (fun t _ => flushed1_6_eq V c t) cover1_6

end Cert.KernelIdeal.Val

end
-- ==== Proof.HostPrefix.lean ====
/-
  The host operations of the kernel program before its two kernel calls, as equations between whole arrays: what each
  buffer the calls read holds when the first call starts, in terms of the buffers written before it. Nothing here
  depends on the float instance.
-/
import proofs.«136980_j58978490909175_2_alg».proof.Proof.RegionsKernelIdeal
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 65536

noncomputable section

namespace Cert.KernelIdeal.HostVal

open Cert.KernelIdeal Cert.KernelIdeal.Gen Cert.KernelIdeal.GenP
open Idealize.ShloMosaic Idealize.ShloMosaic.TcCoe Idealize.ShloMosaic.ValueIdx
open Idealize.ShloMosaic.StableHlo (after_cons after_nil)
open Idealize.SL.Sem

variable {F : FTy → Type} [FloatOps F]
variable (m : (ℓ : Loc nD τ sig) → Buf (Elt F) ℓ)

/-! ## The arguments are untouched -/

/-- No host operation before the two kernel calls writes argument 0. -/
theorem V35_arg0 (c : Dev nD) : V35 m c main_arg0 = m ((c : Thread nD τ).loc main_arg0) :=
  (V35_of m c main_arg0 (by decide)).trans <| (V34_of m c main_arg0 (by decide)).trans <| (V33_of m c main_arg0 (by decide)).trans <| (V32_of m c main_arg0 (by decide)).trans <| (V31_of m c main_arg0 (by decide)).trans <| (V30_of m c main_arg0 (by decide)).trans <| (V29_of m c main_arg0 (by decide)).trans <| (V28_of m c main_arg0 (by decide)).trans <| (V27_of m c main_arg0 (by decide)).trans <| (V26_of m c main_arg0 (by decide)).trans <| (V25_of m c main_arg0 (by decide)).trans <| (V24_of m c main_arg0 (by decide)).trans <| (V23_of m c main_arg0 (by decide)).trans <| (V22_of m c main_arg0 (by decide)).trans <| (V21_of m c main_arg0 (by decide)).trans <| (V20_of m c main_arg0 (by decide)).trans <| (V19_of m c main_arg0 (by decide)).trans <| (V18_of m c main_arg0 (by decide)).trans <| (V17_of m c main_arg0 (by decide)).trans <| (V16_of m c main_arg0 (by decide)).trans <| (V15_of m c main_arg0 (by decide)).trans <| (V14_of m c main_arg0 (by decide)).trans <| (V13_of m c main_arg0 (by decide)).trans <| (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide))

/-- No host operation before the two kernel calls writes argument 1. -/
theorem V35_arg1 (c : Dev nD) : V35 m c main_arg1 = m ((c : Thread nD τ).loc main_arg1) :=
  (V35_of m c main_arg1 (by decide)).trans <| (V34_of m c main_arg1 (by decide)).trans <| (V33_of m c main_arg1 (by decide)).trans <| (V32_of m c main_arg1 (by decide)).trans <| (V31_of m c main_arg1 (by decide)).trans <| (V30_of m c main_arg1 (by decide)).trans <| (V29_of m c main_arg1 (by decide)).trans <| (V28_of m c main_arg1 (by decide)).trans <| (V27_of m c main_arg1 (by decide)).trans <| (V26_of m c main_arg1 (by decide)).trans <| (V25_of m c main_arg1 (by decide)).trans <| (V24_of m c main_arg1 (by decide)).trans <| (V23_of m c main_arg1 (by decide)).trans <| (V22_of m c main_arg1 (by decide)).trans <| (V21_of m c main_arg1 (by decide)).trans <| (V20_of m c main_arg1 (by decide)).trans <| (V19_of m c main_arg1 (by decide)).trans <| (V18_of m c main_arg1 (by decide)).trans <| (V17_of m c main_arg1 (by decide)).trans <| (V16_of m c main_arg1 (by decide)).trans <| (V15_of m c main_arg1 (by decide)).trans <| (V14_of m c main_arg1 (by decide)).trans <| (V13_of m c main_arg1 (by decide)).trans <| (V12_of m c main_arg1 (by decide)).trans <| (V11_of m c main_arg1 (by decide)).trans <| (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide))

/-- No host operation before the two kernel calls writes argument 2. -/
theorem V35_arg2 (c : Dev nD) : V35 m c main_arg2 = m ((c : Thread nD τ).loc main_arg2) :=
  (V35_of m c main_arg2 (by decide)).trans <| (V34_of m c main_arg2 (by decide)).trans <| (V33_of m c main_arg2 (by decide)).trans <| (V32_of m c main_arg2 (by decide)).trans <| (V31_of m c main_arg2 (by decide)).trans <| (V30_of m c main_arg2 (by decide)).trans <| (V29_of m c main_arg2 (by decide)).trans <| (V28_of m c main_arg2 (by decide)).trans <| (V27_of m c main_arg2 (by decide)).trans <| (V26_of m c main_arg2 (by decide)).trans <| (V25_of m c main_arg2 (by decide)).trans <| (V24_of m c main_arg2 (by decide)).trans <| (V23_of m c main_arg2 (by decide)).trans <| (V22_of m c main_arg2 (by decide)).trans <| (V21_of m c main_arg2 (by decide)).trans <| (V20_of m c main_arg2 (by decide)).trans <| (V19_of m c main_arg2 (by decide)).trans <| (V18_of m c main_arg2 (by decide)).trans <| (V17_of m c main_arg2 (by decide)).trans <| (V16_of m c main_arg2 (by decide)).trans <| (V15_of m c main_arg2 (by decide)).trans <| (V14_of m c main_arg2 (by decide)).trans <| (V13_of m c main_arg2 (by decide)).trans <| (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide))

/-- No host operation before the two kernel calls writes argument 3. -/
theorem V35_arg3 (c : Dev nD) : V35 m c main_arg3 = m ((c : Thread nD τ).loc main_arg3) :=
  (V35_of m c main_arg3 (by decide)).trans <| (V34_of m c main_arg3 (by decide)).trans <| (V33_of m c main_arg3 (by decide)).trans <| (V32_of m c main_arg3 (by decide)).trans <| (V31_of m c main_arg3 (by decide)).trans <| (V30_of m c main_arg3 (by decide)).trans <| (V29_of m c main_arg3 (by decide)).trans <| (V28_of m c main_arg3 (by decide)).trans <| (V27_of m c main_arg3 (by decide)).trans <| (V26_of m c main_arg3 (by decide)).trans <| (V25_of m c main_arg3 (by decide)).trans <| (V24_of m c main_arg3 (by decide)).trans <| (V23_of m c main_arg3 (by decide)).trans <| (V22_of m c main_arg3 (by decide)).trans <| (V21_of m c main_arg3 (by decide)).trans <| (V20_of m c main_arg3 (by decide)).trans <| (V19_of m c main_arg3 (by decide)).trans <| (V18_of m c main_arg3 (by decide)).trans <| (V17_of m c main_arg3 (by decide)).trans <| (V16_of m c main_arg3 (by decide)).trans <| (V15_of m c main_arg3 (by decide)).trans <| (V14_of m c main_arg3 (by decide)).trans <| (V13_of m c main_arg3 (by decide)).trans <| (V12_of m c main_arg3 (by decide)).trans <| (V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide))

/-- No host operation before the two kernel calls writes argument 4. -/
theorem V35_arg4 (c : Dev nD) : V35 m c main_arg4 = m ((c : Thread nD τ).loc main_arg4) :=
  (V35_of m c main_arg4 (by decide)).trans <| (V34_of m c main_arg4 (by decide)).trans <| (V33_of m c main_arg4 (by decide)).trans <| (V32_of m c main_arg4 (by decide)).trans <| (V31_of m c main_arg4 (by decide)).trans <| (V30_of m c main_arg4 (by decide)).trans <| (V29_of m c main_arg4 (by decide)).trans <| (V28_of m c main_arg4 (by decide)).trans <| (V27_of m c main_arg4 (by decide)).trans <| (V26_of m c main_arg4 (by decide)).trans <| (V25_of m c main_arg4 (by decide)).trans <| (V24_of m c main_arg4 (by decide)).trans <| (V23_of m c main_arg4 (by decide)).trans <| (V22_of m c main_arg4 (by decide)).trans <| (V21_of m c main_arg4 (by decide)).trans <| (V20_of m c main_arg4 (by decide)).trans <| (V19_of m c main_arg4 (by decide)).trans <| (V18_of m c main_arg4 (by decide)).trans <| (V17_of m c main_arg4 (by decide)).trans <| (V16_of m c main_arg4 (by decide)).trans <| (V15_of m c main_arg4 (by decide)).trans <| (V14_of m c main_arg4 (by decide)).trans <| (V13_of m c main_arg4 (by decide)).trans <| (V12_of m c main_arg4 (by decide)).trans <| (V11_of m c main_arg4 (by decide)).trans <| (V10_of m c main_arg4 (by decide)).trans <| (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide))

/-- No host operation before the two kernel calls writes argument 5. -/
theorem V35_arg5 (c : Dev nD) : V35 m c main_arg5 = m ((c : Thread nD τ).loc main_arg5) :=
  (V35_of m c main_arg5 (by decide)).trans <| (V34_of m c main_arg5 (by decide)).trans <| (V33_of m c main_arg5 (by decide)).trans <| (V32_of m c main_arg5 (by decide)).trans <| (V31_of m c main_arg5 (by decide)).trans <| (V30_of m c main_arg5 (by decide)).trans <| (V29_of m c main_arg5 (by decide)).trans <| (V28_of m c main_arg5 (by decide)).trans <| (V27_of m c main_arg5 (by decide)).trans <| (V26_of m c main_arg5 (by decide)).trans <| (V25_of m c main_arg5 (by decide)).trans <| (V24_of m c main_arg5 (by decide)).trans <| (V23_of m c main_arg5 (by decide)).trans <| (V22_of m c main_arg5 (by decide)).trans <| (V21_of m c main_arg5 (by decide)).trans <| (V20_of m c main_arg5 (by decide)).trans <| (V19_of m c main_arg5 (by decide)).trans <| (V18_of m c main_arg5 (by decide)).trans <| (V17_of m c main_arg5 (by decide)).trans <| (V16_of m c main_arg5 (by decide)).trans <| (V15_of m c main_arg5 (by decide)).trans <| (V14_of m c main_arg5 (by decide)).trans <| (V13_of m c main_arg5 (by decide)).trans <| (V12_of m c main_arg5 (by decide)).trans <| (V11_of m c main_arg5 (by decide)).trans <| (V10_of m c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide))

/-- No host operation before the two kernel calls writes argument 6. -/
theorem V35_arg6 (c : Dev nD) : V35 m c main_arg6 = m ((c : Thread nD τ).loc main_arg6) :=
  (V35_of m c main_arg6 (by decide)).trans <| (V34_of m c main_arg6 (by decide)).trans <| (V33_of m c main_arg6 (by decide)).trans <| (V32_of m c main_arg6 (by decide)).trans <| (V31_of m c main_arg6 (by decide)).trans <| (V30_of m c main_arg6 (by decide)).trans <| (V29_of m c main_arg6 (by decide)).trans <| (V28_of m c main_arg6 (by decide)).trans <| (V27_of m c main_arg6 (by decide)).trans <| (V26_of m c main_arg6 (by decide)).trans <| (V25_of m c main_arg6 (by decide)).trans <| (V24_of m c main_arg6 (by decide)).trans <| (V23_of m c main_arg6 (by decide)).trans <| (V22_of m c main_arg6 (by decide)).trans <| (V21_of m c main_arg6 (by decide)).trans <| (V20_of m c main_arg6 (by decide)).trans <| (V19_of m c main_arg6 (by decide)).trans <| (V18_of m c main_arg6 (by decide)).trans <| (V17_of m c main_arg6 (by decide)).trans <| (V16_of m c main_arg6 (by decide)).trans <| (V15_of m c main_arg6 (by decide)).trans <| (V14_of m c main_arg6 (by decide)).trans <| (V13_of m c main_arg6 (by decide)).trans <| (V12_of m c main_arg6 (by decide)).trans <| (V11_of m c main_arg6 (by decide)).trans <| (V10_of m c main_arg6 (by decide)).trans <| (V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide))

/-- No host operation before the two kernel calls writes argument 7. -/
theorem V35_arg7 (c : Dev nD) : V35 m c main_arg7 = m ((c : Thread nD τ).loc main_arg7) :=
  (V35_of m c main_arg7 (by decide)).trans <| (V34_of m c main_arg7 (by decide)).trans <| (V33_of m c main_arg7 (by decide)).trans <| (V32_of m c main_arg7 (by decide)).trans <| (V31_of m c main_arg7 (by decide)).trans <| (V30_of m c main_arg7 (by decide)).trans <| (V29_of m c main_arg7 (by decide)).trans <| (V28_of m c main_arg7 (by decide)).trans <| (V27_of m c main_arg7 (by decide)).trans <| (V26_of m c main_arg7 (by decide)).trans <| (V25_of m c main_arg7 (by decide)).trans <| (V24_of m c main_arg7 (by decide)).trans <| (V23_of m c main_arg7 (by decide)).trans <| (V22_of m c main_arg7 (by decide)).trans <| (V21_of m c main_arg7 (by decide)).trans <| (V20_of m c main_arg7 (by decide)).trans <| (V19_of m c main_arg7 (by decide)).trans <| (V18_of m c main_arg7 (by decide)).trans <| (V17_of m c main_arg7 (by decide)).trans <| (V16_of m c main_arg7 (by decide)).trans <| (V15_of m c main_arg7 (by decide)).trans <| (V14_of m c main_arg7 (by decide)).trans <| (V13_of m c main_arg7 (by decide)).trans <| (V12_of m c main_arg7 (by decide)).trans <| (V11_of m c main_arg7 (by decide)).trans <| (V10_of m c main_arg7 (by decide)).trans <| (V9_of m c main_arg7 (by decide)).trans <| (V8_of m c main_arg7 (by decide)).trans <| (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide))

/-- No host operation before the two kernel calls writes argument 8. -/
theorem V35_arg8 (c : Dev nD) : V35 m c main_arg8 = m ((c : Thread nD τ).loc main_arg8) :=
  (V35_of m c main_arg8 (by decide)).trans <| (V34_of m c main_arg8 (by decide)).trans <| (V33_of m c main_arg8 (by decide)).trans <| (V32_of m c main_arg8 (by decide)).trans <| (V31_of m c main_arg8 (by decide)).trans <| (V30_of m c main_arg8 (by decide)).trans <| (V29_of m c main_arg8 (by decide)).trans <| (V28_of m c main_arg8 (by decide)).trans <| (V27_of m c main_arg8 (by decide)).trans <| (V26_of m c main_arg8 (by decide)).trans <| (V25_of m c main_arg8 (by decide)).trans <| (V24_of m c main_arg8 (by decide)).trans <| (V23_of m c main_arg8 (by decide)).trans <| (V22_of m c main_arg8 (by decide)).trans <| (V21_of m c main_arg8 (by decide)).trans <| (V20_of m c main_arg8 (by decide)).trans <| (V19_of m c main_arg8 (by decide)).trans <| (V18_of m c main_arg8 (by decide)).trans <| (V17_of m c main_arg8 (by decide)).trans <| (V16_of m c main_arg8 (by decide)).trans <| (V15_of m c main_arg8 (by decide)).trans <| (V14_of m c main_arg8 (by decide)).trans <| (V13_of m c main_arg8 (by decide)).trans <| (V12_of m c main_arg8 (by decide)).trans <| (V11_of m c main_arg8 (by decide)).trans <| (V10_of m c main_arg8 (by decide)).trans <| (V9_of m c main_arg8 (by decide)).trans <| (V8_of m c main_arg8 (by decide)).trans <| (V7_of m c main_arg8 (by decide)).trans <| (V6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide))

/-- No host operation before the two kernel calls writes argument 9. -/
theorem V35_arg9 (c : Dev nD) : V35 m c main_arg9 = m ((c : Thread nD τ).loc main_arg9) :=
  (V35_of m c main_arg9 (by decide)).trans <| (V34_of m c main_arg9 (by decide)).trans <| (V33_of m c main_arg9 (by decide)).trans <| (V32_of m c main_arg9 (by decide)).trans <| (V31_of m c main_arg9 (by decide)).trans <| (V30_of m c main_arg9 (by decide)).trans <| (V29_of m c main_arg9 (by decide)).trans <| (V28_of m c main_arg9 (by decide)).trans <| (V27_of m c main_arg9 (by decide)).trans <| (V26_of m c main_arg9 (by decide)).trans <| (V25_of m c main_arg9 (by decide)).trans <| (V24_of m c main_arg9 (by decide)).trans <| (V23_of m c main_arg9 (by decide)).trans <| (V22_of m c main_arg9 (by decide)).trans <| (V21_of m c main_arg9 (by decide)).trans <| (V20_of m c main_arg9 (by decide)).trans <| (V19_of m c main_arg9 (by decide)).trans <| (V18_of m c main_arg9 (by decide)).trans <| (V17_of m c main_arg9 (by decide)).trans <| (V16_of m c main_arg9 (by decide)).trans <| (V15_of m c main_arg9 (by decide)).trans <| (V14_of m c main_arg9 (by decide)).trans <| (V13_of m c main_arg9 (by decide)).trans <| (V12_of m c main_arg9 (by decide)).trans <| (V11_of m c main_arg9 (by decide)).trans <| (V10_of m c main_arg9 (by decide)).trans <| (V9_of m c main_arg9 (by decide)).trans <| (V8_of m c main_arg9 (by decide)).trans <| (V7_of m c main_arg9 (by decide)).trans <| (V6_of m c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide))

/-- No host operation before the two kernel calls writes argument 10. -/
theorem V35_arg10 (c : Dev nD) : V35 m c main_arg10 = m ((c : Thread nD τ).loc main_arg10) :=
  (V35_of m c main_arg10 (by decide)).trans <| (V34_of m c main_arg10 (by decide)).trans <| (V33_of m c main_arg10 (by decide)).trans <| (V32_of m c main_arg10 (by decide)).trans <| (V31_of m c main_arg10 (by decide)).trans <| (V30_of m c main_arg10 (by decide)).trans <| (V29_of m c main_arg10 (by decide)).trans <| (V28_of m c main_arg10 (by decide)).trans <| (V27_of m c main_arg10 (by decide)).trans <| (V26_of m c main_arg10 (by decide)).trans <| (V25_of m c main_arg10 (by decide)).trans <| (V24_of m c main_arg10 (by decide)).trans <| (V23_of m c main_arg10 (by decide)).trans <| (V22_of m c main_arg10 (by decide)).trans <| (V21_of m c main_arg10 (by decide)).trans <| (V20_of m c main_arg10 (by decide)).trans <| (V19_of m c main_arg10 (by decide)).trans <| (V18_of m c main_arg10 (by decide)).trans <| (V17_of m c main_arg10 (by decide)).trans <| (V16_of m c main_arg10 (by decide)).trans <| (V15_of m c main_arg10 (by decide)).trans <| (V14_of m c main_arg10 (by decide)).trans <| (V13_of m c main_arg10 (by decide)).trans <| (V12_of m c main_arg10 (by decide)).trans <| (V11_of m c main_arg10 (by decide)).trans <| (V10_of m c main_arg10 (by decide)).trans <| (V9_of m c main_arg10 (by decide)).trans <| (V8_of m c main_arg10 (by decide)).trans <| (V7_of m c main_arg10 (by decide)).trans <| (V6_of m c main_arg10 (by decide)).trans <| (V5_of m c main_arg10 (by decide)).trans <| (V4_of m c main_arg10 (by decide)).trans <| (V3_of m c main_arg10 (by decide)).trans <| (V2_of m c main_arg10 (by decide)).trans <| (V1_of m c main_arg10 (by decide))

/-- No host operation before the two kernel calls writes argument 11. -/
theorem V35_arg11 (c : Dev nD) : V35 m c main_arg11 = m ((c : Thread nD τ).loc main_arg11) :=
  (V35_of m c main_arg11 (by decide)).trans <| (V34_of m c main_arg11 (by decide)).trans <| (V33_of m c main_arg11 (by decide)).trans <| (V32_of m c main_arg11 (by decide)).trans <| (V31_of m c main_arg11 (by decide)).trans <| (V30_of m c main_arg11 (by decide)).trans <| (V29_of m c main_arg11 (by decide)).trans <| (V28_of m c main_arg11 (by decide)).trans <| (V27_of m c main_arg11 (by decide)).trans <| (V26_of m c main_arg11 (by decide)).trans <| (V25_of m c main_arg11 (by decide)).trans <| (V24_of m c main_arg11 (by decide)).trans <| (V23_of m c main_arg11 (by decide)).trans <| (V22_of m c main_arg11 (by decide)).trans <| (V21_of m c main_arg11 (by decide)).trans <| (V20_of m c main_arg11 (by decide)).trans <| (V19_of m c main_arg11 (by decide)).trans <| (V18_of m c main_arg11 (by decide)).trans <| (V17_of m c main_arg11 (by decide)).trans <| (V16_of m c main_arg11 (by decide)).trans <| (V15_of m c main_arg11 (by decide)).trans <| (V14_of m c main_arg11 (by decide)).trans <| (V13_of m c main_arg11 (by decide)).trans <| (V12_of m c main_arg11 (by decide)).trans <| (V11_of m c main_arg11 (by decide)).trans <| (V10_of m c main_arg11 (by decide)).trans <| (V9_of m c main_arg11 (by decide)).trans <| (V8_of m c main_arg11 (by decide)).trans <| (V7_of m c main_arg11 (by decide)).trans <| (V6_of m c main_arg11 (by decide)).trans <| (V5_of m c main_arg11 (by decide)).trans <| (V4_of m c main_arg11 (by decide)).trans <| (V3_of m c main_arg11 (by decide)).trans <| (V2_of m c main_arg11 (by decide)).trans <| (V1_of m c main_arg11 (by decide))

/-! ## The padding constants -/

/-- The integer zero that becomes a padding value. -/
theorem E_c (c : Dev nD) :
    (V35 m c main_c : (⟨S_, .i32⟩ : BufTy).Contents (Elt F)) = constantI S_ 32 0#32 := by
  have hX : V35 m c main_c = V1 m c main_c := (V35_of m c main_c (by decide)).trans <| (V34_of m c main_c (by decide)).trans <| (V33_of m c main_c (by decide)).trans <| (V32_of m c main_c (by decide)).trans <| (V31_of m c main_c (by decide)).trans <| (V30_of m c main_c (by decide)).trans <| (V29_of m c main_c (by decide)).trans <| (V28_of m c main_c (by decide)).trans <| (V27_of m c main_c (by decide)).trans <| (V26_of m c main_c (by decide)).trans <| (V25_of m c main_c (by decide)).trans <| (V24_of m c main_c (by decide)).trans <| (V23_of m c main_c (by decide)).trans <| (V22_of m c main_c (by decide)).trans <| (V21_of m c main_c (by decide)).trans <| (V20_of m c main_c (by decide)).trans <| (V19_of m c main_c (by decide)).trans <| (V18_of m c main_c (by decide)).trans <| (V17_of m c main_c (by decide)).trans <| (V16_of m c main_c (by decide)).trans <| (V15_of m c main_c (by decide)).trans <| (V14_of m c main_c (by decide)).trans <| (V13_of m c main_c (by decide)).trans <| (V12_of m c main_c (by decide)).trans <| (V11_of m c main_c (by decide)).trans <| (V10_of m c main_c (by decide)).trans <| (V9_of m c main_c (by decide)).trans <| (V8_of m c main_c (by decide)).trans <| (V7_of m c main_c (by decide)).trans <| (V6_of m c main_c (by decide)).trans <| (V5_of m c main_c (by decide)).trans <| (V4_of m c main_c (by decide)).trans <| (V3_of m c main_c (by decide)).trans <| (V2_of m c main_c (by decide))
  have hW : (V1 m c main_c : (⟨S_, .i32⟩ : BufTy).Contents (Elt F)) = constantI S_ 32 0#32 := by
    dsimp only [V1, hostOps0]; generalize V0 m c = W; after_results_simp
  rw [hX, hW]

/-- The integer zero that becomes a padding value. -/
theorem E_c_7 (c : Dev nD) :
    (V35 m c main_c_7 : (⟨S_, .i32⟩ : BufTy).Contents (Elt F)) = constantI S_ 32 0#32 := by
  have hX : V35 m c main_c_7 = V3 m c main_c_7 := (V35_of m c main_c_7 (by decide)).trans <| (V34_of m c main_c_7 (by decide)).trans <| (V33_of m c main_c_7 (by decide)).trans <| (V32_of m c main_c_7 (by decide)).trans <| (V31_of m c main_c_7 (by decide)).trans <| (V30_of m c main_c_7 (by decide)).trans <| (V29_of m c main_c_7 (by decide)).trans <| (V28_of m c main_c_7 (by decide)).trans <| (V27_of m c main_c_7 (by decide)).trans <| (V26_of m c main_c_7 (by decide)).trans <| (V25_of m c main_c_7 (by decide)).trans <| (V24_of m c main_c_7 (by decide)).trans <| (V23_of m c main_c_7 (by decide)).trans <| (V22_of m c main_c_7 (by decide)).trans <| (V21_of m c main_c_7 (by decide)).trans <| (V20_of m c main_c_7 (by decide)).trans <| (V19_of m c main_c_7 (by decide)).trans <| (V18_of m c main_c_7 (by decide)).trans <| (V17_of m c main_c_7 (by decide)).trans <| (V16_of m c main_c_7 (by decide)).trans <| (V15_of m c main_c_7 (by decide)).trans <| (V14_of m c main_c_7 (by decide)).trans <| (V13_of m c main_c_7 (by decide)).trans <| (V12_of m c main_c_7 (by decide)).trans <| (V11_of m c main_c_7 (by decide)).trans <| (V10_of m c main_c_7 (by decide)).trans <| (V9_of m c main_c_7 (by decide)).trans <| (V8_of m c main_c_7 (by decide)).trans <| (V7_of m c main_c_7 (by decide)).trans <| (V6_of m c main_c_7 (by decide)).trans <| (V5_of m c main_c_7 (by decide)).trans <| (V4_of m c main_c_7 (by decide))
  have hW : (V3 m c main_c_7 : (⟨S_, .i32⟩ : BufTy).Contents (Elt F)) = constantI S_ 32 0#32 := by
    dsimp only [V3, hostOps0_2]; generalize V2 m c = W; after_results
  rw [hX, hW]

/-- The integer zero that becomes a padding value. -/
theorem E_c_8 (c : Dev nD) :
    (V35 m c main_c_8 : (⟨S_, .i32⟩ : BufTy).Contents (Elt F)) = constantI S_ 32 0#32 := by
  have hX : V35 m c main_c_8 = V5 m c main_c_8 := (V35_of m c main_c_8 (by decide)).trans <| (V34_of m c main_c_8 (by decide)).trans <| (V33_of m c main_c_8 (by decide)).trans <| (V32_of m c main_c_8 (by decide)).trans <| (V31_of m c main_c_8 (by decide)).trans <| (V30_of m c main_c_8 (by decide)).trans <| (V29_of m c main_c_8 (by decide)).trans <| (V28_of m c main_c_8 (by decide)).trans <| (V27_of m c main_c_8 (by decide)).trans <| (V26_of m c main_c_8 (by decide)).trans <| (V25_of m c main_c_8 (by decide)).trans <| (V24_of m c main_c_8 (by decide)).trans <| (V23_of m c main_c_8 (by decide)).trans <| (V22_of m c main_c_8 (by decide)).trans <| (V21_of m c main_c_8 (by decide)).trans <| (V20_of m c main_c_8 (by decide)).trans <| (V19_of m c main_c_8 (by decide)).trans <| (V18_of m c main_c_8 (by decide)).trans <| (V17_of m c main_c_8 (by decide)).trans <| (V16_of m c main_c_8 (by decide)).trans <| (V15_of m c main_c_8 (by decide)).trans <| (V14_of m c main_c_8 (by decide)).trans <| (V13_of m c main_c_8 (by decide)).trans <| (V12_of m c main_c_8 (by decide)).trans <| (V11_of m c main_c_8 (by decide)).trans <| (V10_of m c main_c_8 (by decide)).trans <| (V9_of m c main_c_8 (by decide)).trans <| (V8_of m c main_c_8 (by decide)).trans <| (V7_of m c main_c_8 (by decide)).trans <| (V6_of m c main_c_8 (by decide))
  have hW : (V5 m c main_c_8 : (⟨S_, .i32⟩ : BufTy).Contents (Elt F)) = constantI S_ 32 0#32 := by
    dsimp only [V5, hostOps0_4]; generalize V4 m c = W; after_results
  rw [hX, hW]

/-- The integer zero that becomes a padding value. -/
theorem E_c_9 (c : Dev nD) :
    (V35 m c main_c_9 : (⟨S_, .i32⟩ : BufTy).Contents (Elt F)) = constantI S_ 32 0#32 := by
  have hX : V35 m c main_c_9 = V7 m c main_c_9 := (V35_of m c main_c_9 (by decide)).trans <| (V34_of m c main_c_9 (by decide)).trans <| (V33_of m c main_c_9 (by decide)).trans <| (V32_of m c main_c_9 (by decide)).trans <| (V31_of m c main_c_9 (by decide)).trans <| (V30_of m c main_c_9 (by decide)).trans <| (V29_of m c main_c_9 (by decide)).trans <| (V28_of m c main_c_9 (by decide)).trans <| (V27_of m c main_c_9 (by decide)).trans <| (V26_of m c main_c_9 (by decide)).trans <| (V25_of m c main_c_9 (by decide)).trans <| (V24_of m c main_c_9 (by decide)).trans <| (V23_of m c main_c_9 (by decide)).trans <| (V22_of m c main_c_9 (by decide)).trans <| (V21_of m c main_c_9 (by decide)).trans <| (V20_of m c main_c_9 (by decide)).trans <| (V19_of m c main_c_9 (by decide)).trans <| (V18_of m c main_c_9 (by decide)).trans <| (V17_of m c main_c_9 (by decide)).trans <| (V16_of m c main_c_9 (by decide)).trans <| (V15_of m c main_c_9 (by decide)).trans <| (V14_of m c main_c_9 (by decide)).trans <| (V13_of m c main_c_9 (by decide)).trans <| (V12_of m c main_c_9 (by decide)).trans <| (V11_of m c main_c_9 (by decide)).trans <| (V10_of m c main_c_9 (by decide)).trans <| (V9_of m c main_c_9 (by decide)).trans <| (V8_of m c main_c_9 (by decide))
  have hW : (V7 m c main_c_9 : (⟨S_, .i32⟩ : BufTy).Contents (Elt F)) = constantI S_ 32 0#32 := by
    dsimp only [V7, hostOps0_6]; generalize V6 m c = W; after_results
  rw [hX, hW]

/-- The integer zero that becomes a padding value. -/
theorem E_c_10 (c : Dev nD) :
    (V35 m c main_c_10 : (⟨S_, .i32⟩ : BufTy).Contents (Elt F)) = constantI S_ 32 0#32 := by
  have hX : V35 m c main_c_10 = V9 m c main_c_10 := (V35_of m c main_c_10 (by decide)).trans <| (V34_of m c main_c_10 (by decide)).trans <| (V33_of m c main_c_10 (by decide)).trans <| (V32_of m c main_c_10 (by decide)).trans <| (V31_of m c main_c_10 (by decide)).trans <| (V30_of m c main_c_10 (by decide)).trans <| (V29_of m c main_c_10 (by decide)).trans <| (V28_of m c main_c_10 (by decide)).trans <| (V27_of m c main_c_10 (by decide)).trans <| (V26_of m c main_c_10 (by decide)).trans <| (V25_of m c main_c_10 (by decide)).trans <| (V24_of m c main_c_10 (by decide)).trans <| (V23_of m c main_c_10 (by decide)).trans <| (V22_of m c main_c_10 (by decide)).trans <| (V21_of m c main_c_10 (by decide)).trans <| (V20_of m c main_c_10 (by decide)).trans <| (V19_of m c main_c_10 (by decide)).trans <| (V18_of m c main_c_10 (by decide)).trans <| (V17_of m c main_c_10 (by decide)).trans <| (V16_of m c main_c_10 (by decide)).trans <| (V15_of m c main_c_10 (by decide)).trans <| (V14_of m c main_c_10 (by decide)).trans <| (V13_of m c main_c_10 (by decide)).trans <| (V12_of m c main_c_10 (by decide)).trans <| (V11_of m c main_c_10 (by decide)).trans <| (V10_of m c main_c_10 (by decide))
  have hW : (V9 m c main_c_10 : (⟨S_, .i32⟩ : BufTy).Contents (Elt F)) = constantI S_ 32 0#32 := by
    dsimp only [V9, hostOps0_8]; generalize V8 m c = W; after_results
  rw [hX, hW]

/-- The integer zero that becomes a padding value. -/
theorem E_c_11 (c : Dev nD) :
    (V35 m c main_c_11 : (⟨S_, .i32⟩ : BufTy).Contents (Elt F)) = constantI S_ 32 0#32 := by
  have hX : V35 m c main_c_11 = V11 m c main_c_11 := (V35_of m c main_c_11 (by decide)).trans <| (V34_of m c main_c_11 (by decide)).trans <| (V33_of m c main_c_11 (by decide)).trans <| (V32_of m c main_c_11 (by decide)).trans <| (V31_of m c main_c_11 (by decide)).trans <| (V30_of m c main_c_11 (by decide)).trans <| (V29_of m c main_c_11 (by decide)).trans <| (V28_of m c main_c_11 (by decide)).trans <| (V27_of m c main_c_11 (by decide)).trans <| (V26_of m c main_c_11 (by decide)).trans <| (V25_of m c main_c_11 (by decide)).trans <| (V24_of m c main_c_11 (by decide)).trans <| (V23_of m c main_c_11 (by decide)).trans <| (V22_of m c main_c_11 (by decide)).trans <| (V21_of m c main_c_11 (by decide)).trans <| (V20_of m c main_c_11 (by decide)).trans <| (V19_of m c main_c_11 (by decide)).trans <| (V18_of m c main_c_11 (by decide)).trans <| (V17_of m c main_c_11 (by decide)).trans <| (V16_of m c main_c_11 (by decide)).trans <| (V15_of m c main_c_11 (by decide)).trans <| (V14_of m c main_c_11 (by decide)).trans <| (V13_of m c main_c_11 (by decide)).trans <| (V12_of m c main_c_11 (by decide))
  have hW : (V11 m c main_c_11 : (⟨S_, .i32⟩ : BufTy).Contents (Elt F)) = constantI S_ 32 0#32 := by
    dsimp only [V11, hostOps0_10]; generalize V10 m c = W; after_results
  rw [hX, hW]

/-- The integer zero that becomes a padding value. -/
theorem E_c_12 (c : Dev nD) :
    (V35 m c main_c_12 : (⟨S_, .i32⟩ : BufTy).Contents (Elt F)) = constantI S_ 32 0#32 := by
  have hX : V35 m c main_c_12 = V13 m c main_c_12 := (V35_of m c main_c_12 (by decide)).trans <| (V34_of m c main_c_12 (by decide)).trans <| (V33_of m c main_c_12 (by decide)).trans <| (V32_of m c main_c_12 (by decide)).trans <| (V31_of m c main_c_12 (by decide)).trans <| (V30_of m c main_c_12 (by decide)).trans <| (V29_of m c main_c_12 (by decide)).trans <| (V28_of m c main_c_12 (by decide)).trans <| (V27_of m c main_c_12 (by decide)).trans <| (V26_of m c main_c_12 (by decide)).trans <| (V25_of m c main_c_12 (by decide)).trans <| (V24_of m c main_c_12 (by decide)).trans <| (V23_of m c main_c_12 (by decide)).trans <| (V22_of m c main_c_12 (by decide)).trans <| (V21_of m c main_c_12 (by decide)).trans <| (V20_of m c main_c_12 (by decide)).trans <| (V19_of m c main_c_12 (by decide)).trans <| (V18_of m c main_c_12 (by decide)).trans <| (V17_of m c main_c_12 (by decide)).trans <| (V16_of m c main_c_12 (by decide)).trans <| (V15_of m c main_c_12 (by decide)).trans <| (V14_of m c main_c_12 (by decide))
  have hW : (V13 m c main_c_12 : (⟨S_, .i32⟩ : BufTy).Contents (Elt F)) = constantI S_ 32 0#32 := by
    dsimp only [V13, hostOps0_12]; generalize V12 m c = W; after_results
  rw [hX, hW]

/-- The integer zero that becomes a padding value. -/
theorem E_c_13 (c : Dev nD) :
    (V35 m c main_c_13 : (⟨S_, .i32⟩ : BufTy).Contents (Elt F)) = constantI S_ 32 0#32 := by
  have hX : V35 m c main_c_13 = V15 m c main_c_13 := (V35_of m c main_c_13 (by decide)).trans <| (V34_of m c main_c_13 (by decide)).trans <| (V33_of m c main_c_13 (by decide)).trans <| (V32_of m c main_c_13 (by decide)).trans <| (V31_of m c main_c_13 (by decide)).trans <| (V30_of m c main_c_13 (by decide)).trans <| (V29_of m c main_c_13 (by decide)).trans <| (V28_of m c main_c_13 (by decide)).trans <| (V27_of m c main_c_13 (by decide)).trans <| (V26_of m c main_c_13 (by decide)).trans <| (V25_of m c main_c_13 (by decide)).trans <| (V24_of m c main_c_13 (by decide)).trans <| (V23_of m c main_c_13 (by decide)).trans <| (V22_of m c main_c_13 (by decide)).trans <| (V21_of m c main_c_13 (by decide)).trans <| (V20_of m c main_c_13 (by decide)).trans <| (V19_of m c main_c_13 (by decide)).trans <| (V18_of m c main_c_13 (by decide)).trans <| (V17_of m c main_c_13 (by decide)).trans <| (V16_of m c main_c_13 (by decide))
  have hW : (V15 m c main_c_13 : (⟨S_, .i32⟩ : BufTy).Contents (Elt F)) = constantI S_ 32 0#32 := by
    dsimp only [V15, hostOps0_14]; generalize V14 m c = W; after_results
  rw [hX, hW]

/-- The integer zero that becomes a padding value. -/
theorem E_c_14 (c : Dev nD) :
    (V35 m c main_c_14 : (⟨S_, .i32⟩ : BufTy).Contents (Elt F)) = constantI S_ 32 0#32 := by
  have hX : V35 m c main_c_14 = V17 m c main_c_14 := (V35_of m c main_c_14 (by decide)).trans <| (V34_of m c main_c_14 (by decide)).trans <| (V33_of m c main_c_14 (by decide)).trans <| (V32_of m c main_c_14 (by decide)).trans <| (V31_of m c main_c_14 (by decide)).trans <| (V30_of m c main_c_14 (by decide)).trans <| (V29_of m c main_c_14 (by decide)).trans <| (V28_of m c main_c_14 (by decide)).trans <| (V27_of m c main_c_14 (by decide)).trans <| (V26_of m c main_c_14 (by decide)).trans <| (V25_of m c main_c_14 (by decide)).trans <| (V24_of m c main_c_14 (by decide)).trans <| (V23_of m c main_c_14 (by decide)).trans <| (V22_of m c main_c_14 (by decide)).trans <| (V21_of m c main_c_14 (by decide)).trans <| (V20_of m c main_c_14 (by decide)).trans <| (V19_of m c main_c_14 (by decide)).trans <| (V18_of m c main_c_14 (by decide))
  have hW : (V17 m c main_c_14 : (⟨S_, .i32⟩ : BufTy).Contents (Elt F)) = constantI S_ 32 0#32 := by
    dsimp only [V17, hostOps0_16]; generalize V16 m c = W; after_results
  rw [hX, hW]

/-- The integer zero that becomes a padding value. -/
theorem E_c_15 (c : Dev nD) :
    (V35 m c main_c_15 : (⟨S_, .i32⟩ : BufTy).Contents (Elt F)) = constantI S_ 32 0#32 := by
  have hX : V35 m c main_c_15 = V19 m c main_c_15 := (V35_of m c main_c_15 (by decide)).trans <| (V34_of m c main_c_15 (by decide)).trans <| (V33_of m c main_c_15 (by decide)).trans <| (V32_of m c main_c_15 (by decide)).trans <| (V31_of m c main_c_15 (by decide)).trans <| (V30_of m c main_c_15 (by decide)).trans <| (V29_of m c main_c_15 (by decide)).trans <| (V28_of m c main_c_15 (by decide)).trans <| (V27_of m c main_c_15 (by decide)).trans <| (V26_of m c main_c_15 (by decide)).trans <| (V25_of m c main_c_15 (by decide)).trans <| (V24_of m c main_c_15 (by decide)).trans <| (V23_of m c main_c_15 (by decide)).trans <| (V22_of m c main_c_15 (by decide)).trans <| (V21_of m c main_c_15 (by decide)).trans <| (V20_of m c main_c_15 (by decide))
  have hW : (V19 m c main_c_15 : (⟨S_, .i32⟩ : BufTy).Contents (Elt F)) = constantI S_ 32 0#32 := by
    dsimp only [V19, hostOps0_18]; generalize V18 m c = W; after_results
  rw [hX, hW]

/-- The integer zero that becomes a padding value. -/
theorem E_c_16 (c : Dev nD) :
    (V35 m c main_c_16 : (⟨S_, .i32⟩ : BufTy).Contents (Elt F)) = constantI S_ 32 0#32 := by
  have hX : V35 m c main_c_16 = V21 m c main_c_16 := (V35_of m c main_c_16 (by decide)).trans <| (V34_of m c main_c_16 (by decide)).trans <| (V33_of m c main_c_16 (by decide)).trans <| (V32_of m c main_c_16 (by decide)).trans <| (V31_of m c main_c_16 (by decide)).trans <| (V30_of m c main_c_16 (by decide)).trans <| (V29_of m c main_c_16 (by decide)).trans <| (V28_of m c main_c_16 (by decide)).trans <| (V27_of m c main_c_16 (by decide)).trans <| (V26_of m c main_c_16 (by decide)).trans <| (V25_of m c main_c_16 (by decide)).trans <| (V24_of m c main_c_16 (by decide)).trans <| (V23_of m c main_c_16 (by decide)).trans <| (V22_of m c main_c_16 (by decide))
  have hW : (V21 m c main_c_16 : (⟨S_, .i32⟩ : BufTy).Contents (Elt F)) = constantI S_ 32 0#32 := by
    dsimp only [V21, hostOps0_20]; generalize V20 m c = W; after_results
  rw [hX, hW]

/-- The integer zero that becomes a padding value. -/
theorem E_c_17 (c : Dev nD) :
    (V35 m c main_c_17 : (⟨S_, .i32⟩ : BufTy).Contents (Elt F)) = constantI S_ 32 0#32 := by
  have hX : V35 m c main_c_17 = V23 m c main_c_17 := (V35_of m c main_c_17 (by decide)).trans <| (V34_of m c main_c_17 (by decide)).trans <| (V33_of m c main_c_17 (by decide)).trans <| (V32_of m c main_c_17 (by decide)).trans <| (V31_of m c main_c_17 (by decide)).trans <| (V30_of m c main_c_17 (by decide)).trans <| (V29_of m c main_c_17 (by decide)).trans <| (V28_of m c main_c_17 (by decide)).trans <| (V27_of m c main_c_17 (by decide)).trans <| (V26_of m c main_c_17 (by decide)).trans <| (V25_of m c main_c_17 (by decide)).trans <| (V24_of m c main_c_17 (by decide))
  have hW : (V23 m c main_c_17 : (⟨S_, .i32⟩ : BufTy).Contents (Elt F)) = constantI S_ 32 0#32 := by
    dsimp only [V23, hostOps0_22]; generalize V22 m c = W; after_results
  rw [hX, hW]

/-- The integer zero that becomes a padding value. -/
theorem E_c_18 (c : Dev nD) :
    (V35 m c main_c_18 : (⟨S_, .i32⟩ : BufTy).Contents (Elt F)) = constantI S_ 32 0#32 := by
  have hX : V35 m c main_c_18 = V25 m c main_c_18 := (V35_of m c main_c_18 (by decide)).trans <| (V34_of m c main_c_18 (by decide)).trans <| (V33_of m c main_c_18 (by decide)).trans <| (V32_of m c main_c_18 (by decide)).trans <| (V31_of m c main_c_18 (by decide)).trans <| (V30_of m c main_c_18 (by decide)).trans <| (V29_of m c main_c_18 (by decide)).trans <| (V28_of m c main_c_18 (by decide)).trans <| (V27_of m c main_c_18 (by decide)).trans <| (V26_of m c main_c_18 (by decide))
  have hW : (V25 m c main_c_18 : (⟨S_, .i32⟩ : BufTy).Contents (Elt F)) = constantI S_ 32 0#32 := by
    dsimp only [V25, hostOps0_24]; generalize V24 m c = W; after_results
  rw [hX, hW]

/-- The integer zero that becomes a padding value. -/
theorem E_c_19 (c : Dev nD) :
    (V35 m c main_c_19 : (⟨S_, .i32⟩ : BufTy).Contents (Elt F)) = constantI S_ 32 0#32 := by
  have hX : V35 m c main_c_19 = V27 m c main_c_19 := (V35_of m c main_c_19 (by decide)).trans <| (V34_of m c main_c_19 (by decide)).trans <| (V33_of m c main_c_19 (by decide)).trans <| (V32_of m c main_c_19 (by decide)).trans <| (V31_of m c main_c_19 (by decide)).trans <| (V30_of m c main_c_19 (by decide)).trans <| (V29_of m c main_c_19 (by decide)).trans <| (V28_of m c main_c_19 (by decide))
  have hW : (V27 m c main_c_19 : (⟨S_, .i32⟩ : BufTy).Contents (Elt F)) = constantI S_ 32 0#32 := by
    dsimp only [V27, hostOps0_26]; generalize V26 m c = W; after_results
  rw [hX, hW]

/-- The integer zero that becomes a padding value. -/
theorem E_c_20 (c : Dev nD) :
    (V35 m c main_c_20 : (⟨S_, .i32⟩ : BufTy).Contents (Elt F)) = constantI S_ 32 0#32 := by
  have hX : V35 m c main_c_20 = V29 m c main_c_20 := (V35_of m c main_c_20 (by decide)).trans <| (V34_of m c main_c_20 (by decide)).trans <| (V33_of m c main_c_20 (by decide)).trans <| (V32_of m c main_c_20 (by decide)).trans <| (V31_of m c main_c_20 (by decide)).trans <| (V30_of m c main_c_20 (by decide))
  have hW : (V29 m c main_c_20 : (⟨S_, .i32⟩ : BufTy).Contents (Elt F)) = constantI S_ 32 0#32 := by
    dsimp only [V29, hostOps0_28]; generalize V28 m c = W; after_results
  rw [hX, hW]

/-- The integer zero that becomes a padding value. -/
theorem E_c_21 (c : Dev nD) :
    (V35 m c main_c_21 : (⟨S_, .i32⟩ : BufTy).Contents (Elt F)) = constantI S_ 32 0#32 := by
  have hX : V35 m c main_c_21 = V31 m c main_c_21 := (V35_of m c main_c_21 (by decide)).trans <| (V34_of m c main_c_21 (by decide)).trans <| (V33_of m c main_c_21 (by decide)).trans <| (V32_of m c main_c_21 (by decide))
  have hW : (V31 m c main_c_21 : (⟨S_, .i32⟩ : BufTy).Contents (Elt F)) = constantI S_ 32 0#32 := by
    dsimp only [V31, hostOps0_30]; generalize V30 m c = W; after_results
  rw [hX, hW]

/-- The integer zero that becomes a padding value. -/
theorem E_c_22 (c : Dev nD) :
    (V35 m c main_c_22 : (⟨S_, .i32⟩ : BufTy).Contents (Elt F)) = constantI S_ 32 0#32 := by
  have hX : V35 m c main_c_22 = V33 m c main_c_22 := (V35_of m c main_c_22 (by decide)).trans <| (V34_of m c main_c_22 (by decide))
  have hW : (V33 m c main_c_22 : (⟨S_, .i32⟩ : BufTy).Contents (Elt F)) = constantI S_ 32 0#32 := by
    dsimp only [V33, hostOps0_32]; generalize V32 m c = W; after_results
  rw [hX, hW]

/-! ## The four column-normalised weights -/

/-- Column normalisation of the input-to-gate weights (10 × 7600): each column of `w` divided by the square root of its sum of squares
    (bounded below by 1e-12) and multiplied by the column's gain `g`, as the host operations compute it. -/
def wxnK (w : (⟨S10x7600, .f32⟩ : BufTy).Contents (Elt F)) (g : (⟨S7600, .f32⟩ : BufTy).Contents (Elt F)) : (⟨S10x7600, .f32⟩ : BufTy).Contents (Elt F) :=
  mulf (mulf w (broadcastInDim S10x7600 ![0, 1] bcast_S1x7600_S10x7600_0_1 (Host.rsqrt (maximumf (broadcastInDim S1x7600 ![1] bcast_S7600_S1x7600_1 (Host.reduceAdd (mulf w w) (constant S_ .f32 0x00000000#32) reducesTo_S10x7600_S7600_d0 h_S_)) (broadcastInDim S1x7600 ![] bcast_S_S1x7600 (constant S_ .f32 0x2B8CBCCC#32))))))
    (broadcastInDim S10x7600 ![0, 1] bcast_S1x7600_S10x7600_0_1 (broadcastInDim S1x7600 ![1] bcast_S7600_S1x7600_1 g))

/-- `v10` is the column-normalised `arg3` with gains `arg8`. -/
theorem W_v10 (c : Dev nD) :
    (V35 m c main_v10 : (⟨S10x7600, .f32⟩ : BufTy).Contents (Elt F)) = wxnK (m ((c : Thread nD τ).loc main_arg3)) (m ((c : Thread nD τ).loc main_arg8)) := by
  have hX : V35 m c main_v10 = V1 m c main_v10 := (V35_of m c main_v10 (by decide)).trans <| (V34_of m c main_v10 (by decide)).trans <| (V33_of m c main_v10 (by decide)).trans <| (V32_of m c main_v10 (by decide)).trans <| (V31_of m c main_v10 (by decide)).trans <| (V30_of m c main_v10 (by decide)).trans <| (V29_of m c main_v10 (by decide)).trans <| (V28_of m c main_v10 (by decide)).trans <| (V27_of m c main_v10 (by decide)).trans <| (V26_of m c main_v10 (by decide)).trans <| (V25_of m c main_v10 (by decide)).trans <| (V24_of m c main_v10 (by decide)).trans <| (V23_of m c main_v10 (by decide)).trans <| (V22_of m c main_v10 (by decide)).trans <| (V21_of m c main_v10 (by decide)).trans <| (V20_of m c main_v10 (by decide)).trans <| (V19_of m c main_v10 (by decide)).trans <| (V18_of m c main_v10 (by decide)).trans <| (V17_of m c main_v10 (by decide)).trans <| (V16_of m c main_v10 (by decide)).trans <| (V15_of m c main_v10 (by decide)).trans <| (V14_of m c main_v10 (by decide)).trans <| (V13_of m c main_v10 (by decide)).trans <| (V12_of m c main_v10 (by decide)).trans <| (V11_of m c main_v10 (by decide)).trans <| (V10_of m c main_v10 (by decide)).trans <| (V9_of m c main_v10 (by decide)).trans <| (V8_of m c main_v10 (by decide)).trans <| (V7_of m c main_v10 (by decide)).trans <| (V6_of m c main_v10 (by decide)).trans <| (V5_of m c main_v10 (by decide)).trans <| (V4_of m c main_v10 (by decide)).trans <| (V3_of m c main_v10 (by decide)).trans <| (V2_of m c main_v10 (by decide))
  have hW : (V1 m c main_v10 : (⟨S10x7600, .f32⟩ : BufTy).Contents (Elt F)) = wxnK (V0 m c main_arg3) (V0 m c main_arg8) := by
    dsimp only [V1, hostOps0]; generalize V0 m c = W; after_results_simp; rfl
  rw [hX, hW]

/-- Column normalisation of the state-to-gate weights (1900 × 7600): each column of `w` divided by the square root of its sum of squares
    (bounded below by 1e-12) and multiplied by the column's gain `g`, as the host operations compute it. -/
def whnK (w : (⟨S1900x7600, .f32⟩ : BufTy).Contents (Elt F)) (g : (⟨S7600, .f32⟩ : BufTy).Contents (Elt F)) : (⟨S1900x7600, .f32⟩ : BufTy).Contents (Elt F) :=
  mulf (mulf w (broadcastInDim S1900x7600 ![0, 1] bcast_S1x7600_S1900x7600_0_1 (Host.rsqrt (maximumf (broadcastInDim S1x7600 ![1] bcast_S7600_S1x7600_1 (Host.reduceAdd (mulf w w) (constant S_ .f32 0x00000000#32) reducesTo_S1900x7600_S7600_d0 h_S_)) (broadcastInDim S1x7600 ![] bcast_S_S1x7600 (constant S_ .f32 0x2B8CBCCC#32))))))
    (broadcastInDim S1900x7600 ![0, 1] bcast_S1x7600_S1900x7600_0_1 (broadcastInDim S1x7600 ![1] bcast_S7600_S1x7600_1 g))

/-- `v21` is the column-normalised `arg4` with gains `arg9`. -/
theorem W_v21 (c : Dev nD) :
    (V35 m c main_v21 : (⟨S1900x7600, .f32⟩ : BufTy).Contents (Elt F)) = whnK (m ((c : Thread nD τ).loc main_arg4)) (m ((c : Thread nD τ).loc main_arg9)) := by
  have hX : V35 m c main_v21 = V1 m c main_v21 := (V35_of m c main_v21 (by decide)).trans <| (V34_of m c main_v21 (by decide)).trans <| (V33_of m c main_v21 (by decide)).trans <| (V32_of m c main_v21 (by decide)).trans <| (V31_of m c main_v21 (by decide)).trans <| (V30_of m c main_v21 (by decide)).trans <| (V29_of m c main_v21 (by decide)).trans <| (V28_of m c main_v21 (by decide)).trans <| (V27_of m c main_v21 (by decide)).trans <| (V26_of m c main_v21 (by decide)).trans <| (V25_of m c main_v21 (by decide)).trans <| (V24_of m c main_v21 (by decide)).trans <| (V23_of m c main_v21 (by decide)).trans <| (V22_of m c main_v21 (by decide)).trans <| (V21_of m c main_v21 (by decide)).trans <| (V20_of m c main_v21 (by decide)).trans <| (V19_of m c main_v21 (by decide)).trans <| (V18_of m c main_v21 (by decide)).trans <| (V17_of m c main_v21 (by decide)).trans <| (V16_of m c main_v21 (by decide)).trans <| (V15_of m c main_v21 (by decide)).trans <| (V14_of m c main_v21 (by decide)).trans <| (V13_of m c main_v21 (by decide)).trans <| (V12_of m c main_v21 (by decide)).trans <| (V11_of m c main_v21 (by decide)).trans <| (V10_of m c main_v21 (by decide)).trans <| (V9_of m c main_v21 (by decide)).trans <| (V8_of m c main_v21 (by decide)).trans <| (V7_of m c main_v21 (by decide)).trans <| (V6_of m c main_v21 (by decide)).trans <| (V5_of m c main_v21 (by decide)).trans <| (V4_of m c main_v21 (by decide)).trans <| (V3_of m c main_v21 (by decide)).trans <| (V2_of m c main_v21 (by decide))
  have hW : (V1 m c main_v21 : (⟨S1900x7600, .f32⟩ : BufTy).Contents (Elt F)) = whnK (V0 m c main_arg4) (V0 m c main_arg9) := by
    dsimp only [V1, hostOps0]; generalize V0 m c = W; after_results_simp; rfl
  rw [hX, hW]

/-- Column normalisation of the input weights of the multiplicative state (10 × 1900): each column of `w` divided by the square root of its sum of squares
    (bounded below by 1e-12) and multiplied by the column's gain `g`, as the host operations compute it. -/
def wmxnK (w : (⟨S10x1900, .f32⟩ : BufTy).Contents (Elt F)) (g : (⟨S1900, .f32⟩ : BufTy).Contents (Elt F)) : (⟨S10x1900, .f32⟩ : BufTy).Contents (Elt F) :=
  mulf (mulf w (broadcastInDim S10x1900 ![0, 1] bcast_S1x1900_S10x1900_0_1 (Host.rsqrt (maximumf (broadcastInDim S1x1900 ![1] bcast_S1900_S1x1900_1 (Host.reduceAdd (mulf w w) (constant S_ .f32 0x00000000#32) reducesTo_S10x1900_S1900_d0 h_S_)) (broadcastInDim S1x1900 ![] bcast_S_S1x1900 (constant S_ .f32 0x2B8CBCCC#32))))))
    (broadcastInDim S10x1900 ![0, 1] bcast_S1x1900_S10x1900_0_1 (broadcastInDim S1x1900 ![1] bcast_S1900_S1x1900_1 g))

/-- `v32` is the column-normalised `arg5` with gains `arg10`. -/
theorem W_v32 (c : Dev nD) :
    (V35 m c main_v32 : (⟨S10x1900, .f32⟩ : BufTy).Contents (Elt F)) = wmxnK (m ((c : Thread nD τ).loc main_arg5)) (m ((c : Thread nD τ).loc main_arg10)) := by
  have hX : V35 m c main_v32 = V1 m c main_v32 := (V35_of m c main_v32 (by decide)).trans <| (V34_of m c main_v32 (by decide)).trans <| (V33_of m c main_v32 (by decide)).trans <| (V32_of m c main_v32 (by decide)).trans <| (V31_of m c main_v32 (by decide)).trans <| (V30_of m c main_v32 (by decide)).trans <| (V29_of m c main_v32 (by decide)).trans <| (V28_of m c main_v32 (by decide)).trans <| (V27_of m c main_v32 (by decide)).trans <| (V26_of m c main_v32 (by decide)).trans <| (V25_of m c main_v32 (by decide)).trans <| (V24_of m c main_v32 (by decide)).trans <| (V23_of m c main_v32 (by decide)).trans <| (V22_of m c main_v32 (by decide)).trans <| (V21_of m c main_v32 (by decide)).trans <| (V20_of m c main_v32 (by decide)).trans <| (V19_of m c main_v32 (by decide)).trans <| (V18_of m c main_v32 (by decide)).trans <| (V17_of m c main_v32 (by decide)).trans <| (V16_of m c main_v32 (by decide)).trans <| (V15_of m c main_v32 (by decide)).trans <| (V14_of m c main_v32 (by decide)).trans <| (V13_of m c main_v32 (by decide)).trans <| (V12_of m c main_v32 (by decide)).trans <| (V11_of m c main_v32 (by decide)).trans <| (V10_of m c main_v32 (by decide)).trans <| (V9_of m c main_v32 (by decide)).trans <| (V8_of m c main_v32 (by decide)).trans <| (V7_of m c main_v32 (by decide)).trans <| (V6_of m c main_v32 (by decide)).trans <| (V5_of m c main_v32 (by decide)).trans <| (V4_of m c main_v32 (by decide)).trans <| (V3_of m c main_v32 (by decide)).trans <| (V2_of m c main_v32 (by decide))
  have hW : (V1 m c main_v32 : (⟨S10x1900, .f32⟩ : BufTy).Contents (Elt F)) = wmxnK (V0 m c main_arg5) (V0 m c main_arg10) := by
    dsimp only [V1, hostOps0]; generalize V0 m c = W; after_results_simp; rfl
  rw [hX, hW]

/-- Column normalisation of the hidden weights of the multiplicative state (1900 × 1900): each column of `w` divided by the square root of its sum of squares
    (bounded below by 1e-12) and multiplied by the column's gain `g`, as the host operations compute it. -/
def wmhnK (w : (⟨S1900x1900, .f32⟩ : BufTy).Contents (Elt F)) (g : (⟨S1900, .f32⟩ : BufTy).Contents (Elt F)) : (⟨S1900x1900, .f32⟩ : BufTy).Contents (Elt F) :=
  mulf (mulf w (broadcastInDim S1900x1900 ![0, 1] bcast_S1x1900_S1900x1900_0_1 (Host.rsqrt (maximumf (broadcastInDim S1x1900 ![1] bcast_S1900_S1x1900_1 (Host.reduceAdd (mulf w w) (constant S_ .f32 0x00000000#32) reducesTo_S1900x1900_S1900_d0 h_S_)) (broadcastInDim S1x1900 ![] bcast_S_S1x1900 (constant S_ .f32 0x2B8CBCCC#32))))))
    (broadcastInDim S1900x1900 ![0, 1] bcast_S1x1900_S1900x1900_0_1 (broadcastInDim S1x1900 ![1] bcast_S1900_S1x1900_1 g))

/-- `v43` is the column-normalised `arg6` with gains `arg11`. -/
theorem W_v43 (c : Dev nD) :
    (V35 m c main_v43 : (⟨S1900x1900, .f32⟩ : BufTy).Contents (Elt F)) = wmhnK (m ((c : Thread nD τ).loc main_arg6)) (m ((c : Thread nD τ).loc main_arg11)) := by
  have hX : V35 m c main_v43 = V1 m c main_v43 := (V35_of m c main_v43 (by decide)).trans <| (V34_of m c main_v43 (by decide)).trans <| (V33_of m c main_v43 (by decide)).trans <| (V32_of m c main_v43 (by decide)).trans <| (V31_of m c main_v43 (by decide)).trans <| (V30_of m c main_v43 (by decide)).trans <| (V29_of m c main_v43 (by decide)).trans <| (V28_of m c main_v43 (by decide)).trans <| (V27_of m c main_v43 (by decide)).trans <| (V26_of m c main_v43 (by decide)).trans <| (V25_of m c main_v43 (by decide)).trans <| (V24_of m c main_v43 (by decide)).trans <| (V23_of m c main_v43 (by decide)).trans <| (V22_of m c main_v43 (by decide)).trans <| (V21_of m c main_v43 (by decide)).trans <| (V20_of m c main_v43 (by decide)).trans <| (V19_of m c main_v43 (by decide)).trans <| (V18_of m c main_v43 (by decide)).trans <| (V17_of m c main_v43 (by decide)).trans <| (V16_of m c main_v43 (by decide)).trans <| (V15_of m c main_v43 (by decide)).trans <| (V14_of m c main_v43 (by decide)).trans <| (V13_of m c main_v43 (by decide)).trans <| (V12_of m c main_v43 (by decide)).trans <| (V11_of m c main_v43 (by decide)).trans <| (V10_of m c main_v43 (by decide)).trans <| (V9_of m c main_v43 (by decide)).trans <| (V8_of m c main_v43 (by decide)).trans <| (V7_of m c main_v43 (by decide)).trans <| (V6_of m c main_v43 (by decide)).trans <| (V5_of m c main_v43 (by decide)).trans <| (V4_of m c main_v43 (by decide)).trans <| (V3_of m c main_v43 (by decide)).trans <| (V2_of m c main_v43 (by decide))
  have hW : (V1 m c main_v43 : (⟨S1900x1900, .f32⟩ : BufTy).Contents (Elt F)) = wmhnK (V0 m c main_arg6) (V0 m c main_arg11) := by
    dsimp only [V1, hostOps0]; generalize V0 m c = W; after_results_simp; rfl
  rw [hX, hW]

/-! ## The operands padded as a whole -/

/-- `v44` is `v32` padded after its last column with the converted integer zero. -/
theorem E_v44 (c : Dev nD) :
    (V35 m c main_v44 : (⟨S10x1920, .f32⟩ : BufTy).Contents (Elt F)) = pad S10x1920 ![0, 0] ![0, 20] ![0, 0] (V35 m c main_v32 : (⟨S10x1900, .f32⟩ : BufTy).Contents (Elt F)) (sitofp (F := F) .f32 (V35 m c main_c : (⟨S_, .i32⟩ : BufTy).Contents (Elt F))) pads_S10x1900_S10x1920_000_0200 h_S_ := by
  have hX : V35 m c main_v44 = V2 m c main_v44 := (V35_of m c main_v44 (by decide)).trans <| (V34_of m c main_v44 (by decide)).trans <| (V33_of m c main_v44 (by decide)).trans <| (V32_of m c main_v44 (by decide)).trans <| (V31_of m c main_v44 (by decide)).trans <| (V30_of m c main_v44 (by decide)).trans <| (V29_of m c main_v44 (by decide)).trans <| (V28_of m c main_v44 (by decide)).trans <| (V27_of m c main_v44 (by decide)).trans <| (V26_of m c main_v44 (by decide)).trans <| (V25_of m c main_v44 (by decide)).trans <| (V24_of m c main_v44 (by decide)).trans <| (V23_of m c main_v44 (by decide)).trans <| (V22_of m c main_v44 (by decide)).trans <| (V21_of m c main_v44 (by decide)).trans <| (V20_of m c main_v44 (by decide)).trans <| (V19_of m c main_v44 (by decide)).trans <| (V18_of m c main_v44 (by decide)).trans <| (V17_of m c main_v44 (by decide)).trans <| (V16_of m c main_v44 (by decide)).trans <| (V15_of m c main_v44 (by decide)).trans <| (V14_of m c main_v44 (by decide)).trans <| (V13_of m c main_v44 (by decide)).trans <| (V12_of m c main_v44 (by decide)).trans <| (V11_of m c main_v44 (by decide)).trans <| (V10_of m c main_v44 (by decide)).trans <| (V9_of m c main_v44 (by decide)).trans <| (V8_of m c main_v44 (by decide)).trans <| (V7_of m c main_v44 (by decide)).trans <| (V6_of m c main_v44 (by decide)).trans <| (V5_of m c main_v44 (by decide)).trans <| (V4_of m c main_v44 (by decide)).trans <| (V3_of m c main_v44 (by decide))
  have hW : (V2 m c main_v44 : (⟨S10x1920, .f32⟩ : BufTy).Contents (Elt F)) = pad S10x1920 ![0, 0] ![0, 20] ![0, 0] (V1 m c main_v32 : (⟨S10x1900, .f32⟩ : BufTy).Contents (Elt F)) (sitofp (F := F) .f32 (V1 m c main_c : (⟨S_, .i32⟩ : BufTy).Contents (Elt F))) pads_S10x1900_S10x1920_000_0200 h_S_ := by
    dsimp only [V2, hostOps0_1]; generalize V1 m c = W; after_results <;> rfl
  have hA0 : V35 m c main_v32 = V1 m c main_v32 := (V35_of m c main_v32 (by decide)).trans <| (V34_of m c main_v32 (by decide)).trans <| (V33_of m c main_v32 (by decide)).trans <| (V32_of m c main_v32 (by decide)).trans <| (V31_of m c main_v32 (by decide)).trans <| (V30_of m c main_v32 (by decide)).trans <| (V29_of m c main_v32 (by decide)).trans <| (V28_of m c main_v32 (by decide)).trans <| (V27_of m c main_v32 (by decide)).trans <| (V26_of m c main_v32 (by decide)).trans <| (V25_of m c main_v32 (by decide)).trans <| (V24_of m c main_v32 (by decide)).trans <| (V23_of m c main_v32 (by decide)).trans <| (V22_of m c main_v32 (by decide)).trans <| (V21_of m c main_v32 (by decide)).trans <| (V20_of m c main_v32 (by decide)).trans <| (V19_of m c main_v32 (by decide)).trans <| (V18_of m c main_v32 (by decide)).trans <| (V17_of m c main_v32 (by decide)).trans <| (V16_of m c main_v32 (by decide)).trans <| (V15_of m c main_v32 (by decide)).trans <| (V14_of m c main_v32 (by decide)).trans <| (V13_of m c main_v32 (by decide)).trans <| (V12_of m c main_v32 (by decide)).trans <| (V11_of m c main_v32 (by decide)).trans <| (V10_of m c main_v32 (by decide)).trans <| (V9_of m c main_v32 (by decide)).trans <| (V8_of m c main_v32 (by decide)).trans <| (V7_of m c main_v32 (by decide)).trans <| (V6_of m c main_v32 (by decide)).trans <| (V5_of m c main_v32 (by decide)).trans <| (V4_of m c main_v32 (by decide)).trans <| (V3_of m c main_v32 (by decide)).trans <| (V2_of m c main_v32 (by decide))
  have hA1 : V35 m c main_c = V1 m c main_c := (V35_of m c main_c (by decide)).trans <| (V34_of m c main_c (by decide)).trans <| (V33_of m c main_c (by decide)).trans <| (V32_of m c main_c (by decide)).trans <| (V31_of m c main_c (by decide)).trans <| (V30_of m c main_c (by decide)).trans <| (V29_of m c main_c (by decide)).trans <| (V28_of m c main_c (by decide)).trans <| (V27_of m c main_c (by decide)).trans <| (V26_of m c main_c (by decide)).trans <| (V25_of m c main_c (by decide)).trans <| (V24_of m c main_c (by decide)).trans <| (V23_of m c main_c (by decide)).trans <| (V22_of m c main_c (by decide)).trans <| (V21_of m c main_c (by decide)).trans <| (V20_of m c main_c (by decide)).trans <| (V19_of m c main_c (by decide)).trans <| (V18_of m c main_c (by decide)).trans <| (V17_of m c main_c (by decide)).trans <| (V16_of m c main_c (by decide)).trans <| (V15_of m c main_c (by decide)).trans <| (V14_of m c main_c (by decide)).trans <| (V13_of m c main_c (by decide)).trans <| (V12_of m c main_c (by decide)).trans <| (V11_of m c main_c (by decide)).trans <| (V10_of m c main_c (by decide)).trans <| (V9_of m c main_c (by decide)).trans <| (V8_of m c main_c (by decide)).trans <| (V7_of m c main_c (by decide)).trans <| (V6_of m c main_c (by decide)).trans <| (V5_of m c main_c (by decide)).trans <| (V4_of m c main_c (by decide)).trans <| (V3_of m c main_c (by decide)).trans <| (V2_of m c main_c (by decide))
  rw [hX, hW, hA0, hA1]

/-- `v46` is `v43` padded after its last row and column with the converted integer zero. -/
theorem E_v46 (c : Dev nD) :
    (V35 m c main_v46 : (⟨S1920x1920, .f32⟩ : BufTy).Contents (Elt F)) = pad S1920x1920 ![0, 0] ![20, 20] ![0, 0] (V35 m c main_v43 : (⟨S1900x1900, .f32⟩ : BufTy).Contents (Elt F)) (sitofp (F := F) .f32 (V35 m c main_c_7 : (⟨S_, .i32⟩ : BufTy).Contents (Elt F))) pads_S1900x1900_S1920x1920_0200_0200 h_S_ := by
  have hX : V35 m c main_v46 = V4 m c main_v46 := (V35_of m c main_v46 (by decide)).trans <| (V34_of m c main_v46 (by decide)).trans <| (V33_of m c main_v46 (by decide)).trans <| (V32_of m c main_v46 (by decide)).trans <| (V31_of m c main_v46 (by decide)).trans <| (V30_of m c main_v46 (by decide)).trans <| (V29_of m c main_v46 (by decide)).trans <| (V28_of m c main_v46 (by decide)).trans <| (V27_of m c main_v46 (by decide)).trans <| (V26_of m c main_v46 (by decide)).trans <| (V25_of m c main_v46 (by decide)).trans <| (V24_of m c main_v46 (by decide)).trans <| (V23_of m c main_v46 (by decide)).trans <| (V22_of m c main_v46 (by decide)).trans <| (V21_of m c main_v46 (by decide)).trans <| (V20_of m c main_v46 (by decide)).trans <| (V19_of m c main_v46 (by decide)).trans <| (V18_of m c main_v46 (by decide)).trans <| (V17_of m c main_v46 (by decide)).trans <| (V16_of m c main_v46 (by decide)).trans <| (V15_of m c main_v46 (by decide)).trans <| (V14_of m c main_v46 (by decide)).trans <| (V13_of m c main_v46 (by decide)).trans <| (V12_of m c main_v46 (by decide)).trans <| (V11_of m c main_v46 (by decide)).trans <| (V10_of m c main_v46 (by decide)).trans <| (V9_of m c main_v46 (by decide)).trans <| (V8_of m c main_v46 (by decide)).trans <| (V7_of m c main_v46 (by decide)).trans <| (V6_of m c main_v46 (by decide)).trans <| (V5_of m c main_v46 (by decide))
  have hW : (V4 m c main_v46 : (⟨S1920x1920, .f32⟩ : BufTy).Contents (Elt F)) = pad S1920x1920 ![0, 0] ![20, 20] ![0, 0] (V3 m c main_v43 : (⟨S1900x1900, .f32⟩ : BufTy).Contents (Elt F)) (sitofp (F := F) .f32 (V3 m c main_c_7 : (⟨S_, .i32⟩ : BufTy).Contents (Elt F))) pads_S1900x1900_S1920x1920_0200_0200 h_S_ := by
    dsimp only [V4, hostOps0_3]; generalize V3 m c = W; after_results <;> rfl
  have hA0 : V35 m c main_v43 = V3 m c main_v43 := (V35_of m c main_v43 (by decide)).trans <| (V34_of m c main_v43 (by decide)).trans <| (V33_of m c main_v43 (by decide)).trans <| (V32_of m c main_v43 (by decide)).trans <| (V31_of m c main_v43 (by decide)).trans <| (V30_of m c main_v43 (by decide)).trans <| (V29_of m c main_v43 (by decide)).trans <| (V28_of m c main_v43 (by decide)).trans <| (V27_of m c main_v43 (by decide)).trans <| (V26_of m c main_v43 (by decide)).trans <| (V25_of m c main_v43 (by decide)).trans <| (V24_of m c main_v43 (by decide)).trans <| (V23_of m c main_v43 (by decide)).trans <| (V22_of m c main_v43 (by decide)).trans <| (V21_of m c main_v43 (by decide)).trans <| (V20_of m c main_v43 (by decide)).trans <| (V19_of m c main_v43 (by decide)).trans <| (V18_of m c main_v43 (by decide)).trans <| (V17_of m c main_v43 (by decide)).trans <| (V16_of m c main_v43 (by decide)).trans <| (V15_of m c main_v43 (by decide)).trans <| (V14_of m c main_v43 (by decide)).trans <| (V13_of m c main_v43 (by decide)).trans <| (V12_of m c main_v43 (by decide)).trans <| (V11_of m c main_v43 (by decide)).trans <| (V10_of m c main_v43 (by decide)).trans <| (V9_of m c main_v43 (by decide)).trans <| (V8_of m c main_v43 (by decide)).trans <| (V7_of m c main_v43 (by decide)).trans <| (V6_of m c main_v43 (by decide)).trans <| (V5_of m c main_v43 (by decide)).trans <| (V4_of m c main_v43 (by decide))
  have hA1 : V35 m c main_c_7 = V3 m c main_c_7 := (V35_of m c main_c_7 (by decide)).trans <| (V34_of m c main_c_7 (by decide)).trans <| (V33_of m c main_c_7 (by decide)).trans <| (V32_of m c main_c_7 (by decide)).trans <| (V31_of m c main_c_7 (by decide)).trans <| (V30_of m c main_c_7 (by decide)).trans <| (V29_of m c main_c_7 (by decide)).trans <| (V28_of m c main_c_7 (by decide)).trans <| (V27_of m c main_c_7 (by decide)).trans <| (V26_of m c main_c_7 (by decide)).trans <| (V25_of m c main_c_7 (by decide)).trans <| (V24_of m c main_c_7 (by decide)).trans <| (V23_of m c main_c_7 (by decide)).trans <| (V22_of m c main_c_7 (by decide)).trans <| (V21_of m c main_c_7 (by decide)).trans <| (V20_of m c main_c_7 (by decide)).trans <| (V19_of m c main_c_7 (by decide)).trans <| (V18_of m c main_c_7 (by decide)).trans <| (V17_of m c main_c_7 (by decide)).trans <| (V16_of m c main_c_7 (by decide)).trans <| (V15_of m c main_c_7 (by decide)).trans <| (V14_of m c main_c_7 (by decide)).trans <| (V13_of m c main_c_7 (by decide)).trans <| (V12_of m c main_c_7 (by decide)).trans <| (V11_of m c main_c_7 (by decide)).trans <| (V10_of m c main_c_7 (by decide)).trans <| (V9_of m c main_c_7 (by decide)).trans <| (V8_of m c main_c_7 (by decide)).trans <| (V7_of m c main_c_7 (by decide)).trans <| (V6_of m c main_c_7 (by decide)).trans <| (V5_of m c main_c_7 (by decide)).trans <| (V4_of m c main_c_7 (by decide))
  rw [hX, hW, hA0, hA1]

/-- `v48` is `arg2` padded after its last column with the converted integer zero. -/
theorem E_v48 (c : Dev nD) :
    (V35 m c main_v48 : (⟨S8192x1920, .f32⟩ : BufTy).Contents (Elt F)) = pad S8192x1920 ![0, 0] ![0, 20] ![0, 0] (V35 m c main_arg2 : (⟨S8192x1900, .f32⟩ : BufTy).Contents (Elt F)) (sitofp (F := F) .f32 (V35 m c main_c_8 : (⟨S_, .i32⟩ : BufTy).Contents (Elt F))) pads_S8192x1900_S8192x1920_000_0200 h_S_ := by
  have hX : V35 m c main_v48 = V6 m c main_v48 := (V35_of m c main_v48 (by decide)).trans <| (V34_of m c main_v48 (by decide)).trans <| (V33_of m c main_v48 (by decide)).trans <| (V32_of m c main_v48 (by decide)).trans <| (V31_of m c main_v48 (by decide)).trans <| (V30_of m c main_v48 (by decide)).trans <| (V29_of m c main_v48 (by decide)).trans <| (V28_of m c main_v48 (by decide)).trans <| (V27_of m c main_v48 (by decide)).trans <| (V26_of m c main_v48 (by decide)).trans <| (V25_of m c main_v48 (by decide)).trans <| (V24_of m c main_v48 (by decide)).trans <| (V23_of m c main_v48 (by decide)).trans <| (V22_of m c main_v48 (by decide)).trans <| (V21_of m c main_v48 (by decide)).trans <| (V20_of m c main_v48 (by decide)).trans <| (V19_of m c main_v48 (by decide)).trans <| (V18_of m c main_v48 (by decide)).trans <| (V17_of m c main_v48 (by decide)).trans <| (V16_of m c main_v48 (by decide)).trans <| (V15_of m c main_v48 (by decide)).trans <| (V14_of m c main_v48 (by decide)).trans <| (V13_of m c main_v48 (by decide)).trans <| (V12_of m c main_v48 (by decide)).trans <| (V11_of m c main_v48 (by decide)).trans <| (V10_of m c main_v48 (by decide)).trans <| (V9_of m c main_v48 (by decide)).trans <| (V8_of m c main_v48 (by decide)).trans <| (V7_of m c main_v48 (by decide))
  have hW : (V6 m c main_v48 : (⟨S8192x1920, .f32⟩ : BufTy).Contents (Elt F)) = pad S8192x1920 ![0, 0] ![0, 20] ![0, 0] (V5 m c main_arg2 : (⟨S8192x1900, .f32⟩ : BufTy).Contents (Elt F)) (sitofp (F := F) .f32 (V5 m c main_c_8 : (⟨S_, .i32⟩ : BufTy).Contents (Elt F))) pads_S8192x1900_S8192x1920_000_0200 h_S_ := by
    dsimp only [V6, hostOps0_5]; generalize V5 m c = W; after_results <;> rfl
  have hA0 : V35 m c main_arg2 = V5 m c main_arg2 := (V35_of m c main_arg2 (by decide)).trans <| (V34_of m c main_arg2 (by decide)).trans <| (V33_of m c main_arg2 (by decide)).trans <| (V32_of m c main_arg2 (by decide)).trans <| (V31_of m c main_arg2 (by decide)).trans <| (V30_of m c main_arg2 (by decide)).trans <| (V29_of m c main_arg2 (by decide)).trans <| (V28_of m c main_arg2 (by decide)).trans <| (V27_of m c main_arg2 (by decide)).trans <| (V26_of m c main_arg2 (by decide)).trans <| (V25_of m c main_arg2 (by decide)).trans <| (V24_of m c main_arg2 (by decide)).trans <| (V23_of m c main_arg2 (by decide)).trans <| (V22_of m c main_arg2 (by decide)).trans <| (V21_of m c main_arg2 (by decide)).trans <| (V20_of m c main_arg2 (by decide)).trans <| (V19_of m c main_arg2 (by decide)).trans <| (V18_of m c main_arg2 (by decide)).trans <| (V17_of m c main_arg2 (by decide)).trans <| (V16_of m c main_arg2 (by decide)).trans <| (V15_of m c main_arg2 (by decide)).trans <| (V14_of m c main_arg2 (by decide)).trans <| (V13_of m c main_arg2 (by decide)).trans <| (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide))
  have hA1 : V35 m c main_c_8 = V5 m c main_c_8 := (V35_of m c main_c_8 (by decide)).trans <| (V34_of m c main_c_8 (by decide)).trans <| (V33_of m c main_c_8 (by decide)).trans <| (V32_of m c main_c_8 (by decide)).trans <| (V31_of m c main_c_8 (by decide)).trans <| (V30_of m c main_c_8 (by decide)).trans <| (V29_of m c main_c_8 (by decide)).trans <| (V28_of m c main_c_8 (by decide)).trans <| (V27_of m c main_c_8 (by decide)).trans <| (V26_of m c main_c_8 (by decide)).trans <| (V25_of m c main_c_8 (by decide)).trans <| (V24_of m c main_c_8 (by decide)).trans <| (V23_of m c main_c_8 (by decide)).trans <| (V22_of m c main_c_8 (by decide)).trans <| (V21_of m c main_c_8 (by decide)).trans <| (V20_of m c main_c_8 (by decide)).trans <| (V19_of m c main_c_8 (by decide)).trans <| (V18_of m c main_c_8 (by decide)).trans <| (V17_of m c main_c_8 (by decide)).trans <| (V16_of m c main_c_8 (by decide)).trans <| (V15_of m c main_c_8 (by decide)).trans <| (V14_of m c main_c_8 (by decide)).trans <| (V13_of m c main_c_8 (by decide)).trans <| (V12_of m c main_c_8 (by decide)).trans <| (V11_of m c main_c_8 (by decide)).trans <| (V10_of m c main_c_8 (by decide)).trans <| (V9_of m c main_c_8 (by decide)).trans <| (V8_of m c main_c_8 (by decide)).trans <| (V7_of m c main_c_8 (by decide)).trans <| (V6_of m c main_c_8 (by decide))
  rw [hX, hW, hA0, hA1]

/-- `v49` is `arg1` padded after its last column with the converted integer zero. -/
theorem E_v49 (c : Dev nD) :
    (V35 m c main_v49 : (⟨S8192x1920, .f32⟩ : BufTy).Contents (Elt F)) = pad S8192x1920 ![0, 0] ![0, 20] ![0, 0] (V35 m c main_arg1 : (⟨S8192x1900, .f32⟩ : BufTy).Contents (Elt F)) (sitofp (F := F) .f32 (V35 m c main_c_9 : (⟨S_, .i32⟩ : BufTy).Contents (Elt F))) pads_S8192x1900_S8192x1920_000_0200 h_S_ := by
  have hX : V35 m c main_v49 = V8 m c main_v49 := (V35_of m c main_v49 (by decide)).trans <| (V34_of m c main_v49 (by decide)).trans <| (V33_of m c main_v49 (by decide)).trans <| (V32_of m c main_v49 (by decide)).trans <| (V31_of m c main_v49 (by decide)).trans <| (V30_of m c main_v49 (by decide)).trans <| (V29_of m c main_v49 (by decide)).trans <| (V28_of m c main_v49 (by decide)).trans <| (V27_of m c main_v49 (by decide)).trans <| (V26_of m c main_v49 (by decide)).trans <| (V25_of m c main_v49 (by decide)).trans <| (V24_of m c main_v49 (by decide)).trans <| (V23_of m c main_v49 (by decide)).trans <| (V22_of m c main_v49 (by decide)).trans <| (V21_of m c main_v49 (by decide)).trans <| (V20_of m c main_v49 (by decide)).trans <| (V19_of m c main_v49 (by decide)).trans <| (V18_of m c main_v49 (by decide)).trans <| (V17_of m c main_v49 (by decide)).trans <| (V16_of m c main_v49 (by decide)).trans <| (V15_of m c main_v49 (by decide)).trans <| (V14_of m c main_v49 (by decide)).trans <| (V13_of m c main_v49 (by decide)).trans <| (V12_of m c main_v49 (by decide)).trans <| (V11_of m c main_v49 (by decide)).trans <| (V10_of m c main_v49 (by decide)).trans <| (V9_of m c main_v49 (by decide))
  have hW : (V8 m c main_v49 : (⟨S8192x1920, .f32⟩ : BufTy).Contents (Elt F)) = pad S8192x1920 ![0, 0] ![0, 20] ![0, 0] (V7 m c main_arg1 : (⟨S8192x1900, .f32⟩ : BufTy).Contents (Elt F)) (sitofp (F := F) .f32 (V7 m c main_c_9 : (⟨S_, .i32⟩ : BufTy).Contents (Elt F))) pads_S8192x1900_S8192x1920_000_0200 h_S_ := by
    dsimp only [V8, hostOps0_7]; generalize V7 m c = W; after_results <;> rfl
  have hA0 : V35 m c main_arg1 = V7 m c main_arg1 := (V35_of m c main_arg1 (by decide)).trans <| (V34_of m c main_arg1 (by decide)).trans <| (V33_of m c main_arg1 (by decide)).trans <| (V32_of m c main_arg1 (by decide)).trans <| (V31_of m c main_arg1 (by decide)).trans <| (V30_of m c main_arg1 (by decide)).trans <| (V29_of m c main_arg1 (by decide)).trans <| (V28_of m c main_arg1 (by decide)).trans <| (V27_of m c main_arg1 (by decide)).trans <| (V26_of m c main_arg1 (by decide)).trans <| (V25_of m c main_arg1 (by decide)).trans <| (V24_of m c main_arg1 (by decide)).trans <| (V23_of m c main_arg1 (by decide)).trans <| (V22_of m c main_arg1 (by decide)).trans <| (V21_of m c main_arg1 (by decide)).trans <| (V20_of m c main_arg1 (by decide)).trans <| (V19_of m c main_arg1 (by decide)).trans <| (V18_of m c main_arg1 (by decide)).trans <| (V17_of m c main_arg1 (by decide)).trans <| (V16_of m c main_arg1 (by decide)).trans <| (V15_of m c main_arg1 (by decide)).trans <| (V14_of m c main_arg1 (by decide)).trans <| (V13_of m c main_arg1 (by decide)).trans <| (V12_of m c main_arg1 (by decide)).trans <| (V11_of m c main_arg1 (by decide)).trans <| (V10_of m c main_arg1 (by decide)).trans <| (V9_of m c main_arg1 (by decide)).trans <| (V8_of m c main_arg1 (by decide))
  have hA1 : V35 m c main_c_9 = V7 m c main_c_9 := (V35_of m c main_c_9 (by decide)).trans <| (V34_of m c main_c_9 (by decide)).trans <| (V33_of m c main_c_9 (by decide)).trans <| (V32_of m c main_c_9 (by decide)).trans <| (V31_of m c main_c_9 (by decide)).trans <| (V30_of m c main_c_9 (by decide)).trans <| (V29_of m c main_c_9 (by decide)).trans <| (V28_of m c main_c_9 (by decide)).trans <| (V27_of m c main_c_9 (by decide)).trans <| (V26_of m c main_c_9 (by decide)).trans <| (V25_of m c main_c_9 (by decide)).trans <| (V24_of m c main_c_9 (by decide)).trans <| (V23_of m c main_c_9 (by decide)).trans <| (V22_of m c main_c_9 (by decide)).trans <| (V21_of m c main_c_9 (by decide)).trans <| (V20_of m c main_c_9 (by decide)).trans <| (V19_of m c main_c_9 (by decide)).trans <| (V18_of m c main_c_9 (by decide)).trans <| (V17_of m c main_c_9 (by decide)).trans <| (V16_of m c main_c_9 (by decide)).trans <| (V15_of m c main_c_9 (by decide)).trans <| (V14_of m c main_c_9 (by decide)).trans <| (V13_of m c main_c_9 (by decide)).trans <| (V12_of m c main_c_9 (by decide)).trans <| (V11_of m c main_c_9 (by decide)).trans <| (V10_of m c main_c_9 (by decide)).trans <| (V9_of m c main_c_9 (by decide)).trans <| (V8_of m c main_c_9 (by decide))
  rw [hX, hW, hA0, hA1]

/-- `v45` is `v44` narrowed to the 16-bit format. -/
theorem E_v45 (c : Dev nD) :
    (V35 m c main_v45 : (⟨S10x1920, .bf16⟩ : BufTy).Contents (Elt F)) = truncf .bf16 (V35 m c main_v44 : (⟨S10x1920, .f32⟩ : BufTy).Contents (Elt F)) bitsLt_bf16_f32 := by
  have hX : V35 m c main_v45 = V3 m c main_v45 := (V35_of m c main_v45 (by decide)).trans <| (V34_of m c main_v45 (by decide)).trans <| (V33_of m c main_v45 (by decide)).trans <| (V32_of m c main_v45 (by decide)).trans <| (V31_of m c main_v45 (by decide)).trans <| (V30_of m c main_v45 (by decide)).trans <| (V29_of m c main_v45 (by decide)).trans <| (V28_of m c main_v45 (by decide)).trans <| (V27_of m c main_v45 (by decide)).trans <| (V26_of m c main_v45 (by decide)).trans <| (V25_of m c main_v45 (by decide)).trans <| (V24_of m c main_v45 (by decide)).trans <| (V23_of m c main_v45 (by decide)).trans <| (V22_of m c main_v45 (by decide)).trans <| (V21_of m c main_v45 (by decide)).trans <| (V20_of m c main_v45 (by decide)).trans <| (V19_of m c main_v45 (by decide)).trans <| (V18_of m c main_v45 (by decide)).trans <| (V17_of m c main_v45 (by decide)).trans <| (V16_of m c main_v45 (by decide)).trans <| (V15_of m c main_v45 (by decide)).trans <| (V14_of m c main_v45 (by decide)).trans <| (V13_of m c main_v45 (by decide)).trans <| (V12_of m c main_v45 (by decide)).trans <| (V11_of m c main_v45 (by decide)).trans <| (V10_of m c main_v45 (by decide)).trans <| (V9_of m c main_v45 (by decide)).trans <| (V8_of m c main_v45 (by decide)).trans <| (V7_of m c main_v45 (by decide)).trans <| (V6_of m c main_v45 (by decide)).trans <| (V5_of m c main_v45 (by decide)).trans <| (V4_of m c main_v45 (by decide))
  have hW : (V3 m c main_v45 : (⟨S10x1920, .bf16⟩ : BufTy).Contents (Elt F)) = truncf .bf16 (V2 m c main_v44 : (⟨S10x1920, .f32⟩ : BufTy).Contents (Elt F)) bitsLt_bf16_f32 := by
    dsimp only [V3, hostOps0_2]; generalize V2 m c = W; after_results <;> rfl
  have hA0 : V35 m c main_v44 = V2 m c main_v44 := (V35_of m c main_v44 (by decide)).trans <| (V34_of m c main_v44 (by decide)).trans <| (V33_of m c main_v44 (by decide)).trans <| (V32_of m c main_v44 (by decide)).trans <| (V31_of m c main_v44 (by decide)).trans <| (V30_of m c main_v44 (by decide)).trans <| (V29_of m c main_v44 (by decide)).trans <| (V28_of m c main_v44 (by decide)).trans <| (V27_of m c main_v44 (by decide)).trans <| (V26_of m c main_v44 (by decide)).trans <| (V25_of m c main_v44 (by decide)).trans <| (V24_of m c main_v44 (by decide)).trans <| (V23_of m c main_v44 (by decide)).trans <| (V22_of m c main_v44 (by decide)).trans <| (V21_of m c main_v44 (by decide)).trans <| (V20_of m c main_v44 (by decide)).trans <| (V19_of m c main_v44 (by decide)).trans <| (V18_of m c main_v44 (by decide)).trans <| (V17_of m c main_v44 (by decide)).trans <| (V16_of m c main_v44 (by decide)).trans <| (V15_of m c main_v44 (by decide)).trans <| (V14_of m c main_v44 (by decide)).trans <| (V13_of m c main_v44 (by decide)).trans <| (V12_of m c main_v44 (by decide)).trans <| (V11_of m c main_v44 (by decide)).trans <| (V10_of m c main_v44 (by decide)).trans <| (V9_of m c main_v44 (by decide)).trans <| (V8_of m c main_v44 (by decide)).trans <| (V7_of m c main_v44 (by decide)).trans <| (V6_of m c main_v44 (by decide)).trans <| (V5_of m c main_v44 (by decide)).trans <| (V4_of m c main_v44 (by decide)).trans <| (V3_of m c main_v44 (by decide))
  rw [hX, hW, hA0]

/-- `v47` is `v46` narrowed to the 16-bit format. -/
theorem E_v47 (c : Dev nD) :
    (V35 m c main_v47 : (⟨S1920x1920, .bf16⟩ : BufTy).Contents (Elt F)) = truncf .bf16 (V35 m c main_v46 : (⟨S1920x1920, .f32⟩ : BufTy).Contents (Elt F)) bitsLt_bf16_f32 := by
  have hX : V35 m c main_v47 = V5 m c main_v47 := (V35_of m c main_v47 (by decide)).trans <| (V34_of m c main_v47 (by decide)).trans <| (V33_of m c main_v47 (by decide)).trans <| (V32_of m c main_v47 (by decide)).trans <| (V31_of m c main_v47 (by decide)).trans <| (V30_of m c main_v47 (by decide)).trans <| (V29_of m c main_v47 (by decide)).trans <| (V28_of m c main_v47 (by decide)).trans <| (V27_of m c main_v47 (by decide)).trans <| (V26_of m c main_v47 (by decide)).trans <| (V25_of m c main_v47 (by decide)).trans <| (V24_of m c main_v47 (by decide)).trans <| (V23_of m c main_v47 (by decide)).trans <| (V22_of m c main_v47 (by decide)).trans <| (V21_of m c main_v47 (by decide)).trans <| (V20_of m c main_v47 (by decide)).trans <| (V19_of m c main_v47 (by decide)).trans <| (V18_of m c main_v47 (by decide)).trans <| (V17_of m c main_v47 (by decide)).trans <| (V16_of m c main_v47 (by decide)).trans <| (V15_of m c main_v47 (by decide)).trans <| (V14_of m c main_v47 (by decide)).trans <| (V13_of m c main_v47 (by decide)).trans <| (V12_of m c main_v47 (by decide)).trans <| (V11_of m c main_v47 (by decide)).trans <| (V10_of m c main_v47 (by decide)).trans <| (V9_of m c main_v47 (by decide)).trans <| (V8_of m c main_v47 (by decide)).trans <| (V7_of m c main_v47 (by decide)).trans <| (V6_of m c main_v47 (by decide))
  have hW : (V5 m c main_v47 : (⟨S1920x1920, .bf16⟩ : BufTy).Contents (Elt F)) = truncf .bf16 (V4 m c main_v46 : (⟨S1920x1920, .f32⟩ : BufTy).Contents (Elt F)) bitsLt_bf16_f32 := by
    dsimp only [V5, hostOps0_4]; generalize V4 m c = W; after_results <;> rfl
  have hA0 : V35 m c main_v46 = V4 m c main_v46 := (V35_of m c main_v46 (by decide)).trans <| (V34_of m c main_v46 (by decide)).trans <| (V33_of m c main_v46 (by decide)).trans <| (V32_of m c main_v46 (by decide)).trans <| (V31_of m c main_v46 (by decide)).trans <| (V30_of m c main_v46 (by decide)).trans <| (V29_of m c main_v46 (by decide)).trans <| (V28_of m c main_v46 (by decide)).trans <| (V27_of m c main_v46 (by decide)).trans <| (V26_of m c main_v46 (by decide)).trans <| (V25_of m c main_v46 (by decide)).trans <| (V24_of m c main_v46 (by decide)).trans <| (V23_of m c main_v46 (by decide)).trans <| (V22_of m c main_v46 (by decide)).trans <| (V21_of m c main_v46 (by decide)).trans <| (V20_of m c main_v46 (by decide)).trans <| (V19_of m c main_v46 (by decide)).trans <| (V18_of m c main_v46 (by decide)).trans <| (V17_of m c main_v46 (by decide)).trans <| (V16_of m c main_v46 (by decide)).trans <| (V15_of m c main_v46 (by decide)).trans <| (V14_of m c main_v46 (by decide)).trans <| (V13_of m c main_v46 (by decide)).trans <| (V12_of m c main_v46 (by decide)).trans <| (V11_of m c main_v46 (by decide)).trans <| (V10_of m c main_v46 (by decide)).trans <| (V9_of m c main_v46 (by decide)).trans <| (V8_of m c main_v46 (by decide)).trans <| (V7_of m c main_v46 (by decide)).trans <| (V6_of m c main_v46 (by decide)).trans <| (V5_of m c main_v46 (by decide))
  rw [hX, hW, hA0]

/-! ## The first kernel call changes none of these buffers -/

variable (outs : Outs (F := F))

/-- The first kernel call leaves `arg0` as it was. -/
theorem V36_arg0 (c : Dev nD) : V36 m outs c main_arg0 = V35 m c main_arg0 := V36_of m outs c main_arg0 (by decide)

/-- The first kernel call leaves `arg1` as it was. -/
theorem V36_arg1 (c : Dev nD) : V36 m outs c main_arg1 = V35 m c main_arg1 := V36_of m outs c main_arg1 (by decide)

/-- The first kernel call leaves `arg2` as it was. -/
theorem V36_arg2 (c : Dev nD) : V36 m outs c main_arg2 = V35 m c main_arg2 := V36_of m outs c main_arg2 (by decide)

/-- The first kernel call leaves `arg7` as it was. -/
theorem V36_arg7 (c : Dev nD) : V36 m outs c main_arg7 = V35 m c main_arg7 := V36_of m outs c main_arg7 (by decide)

/-- The first kernel call leaves `v45` as it was. -/
theorem V36_v45 (c : Dev nD) : V36 m outs c main_v45 = V35 m c main_v45 := V36_of m outs c main_v45 (by decide)

/-- The first kernel call leaves `v47` as it was. -/
theorem V36_v47 (c : Dev nD) : V36 m outs c main_v47 = V35 m c main_v47 := V36_of m outs c main_v47 (by decide)

/-- The first kernel call leaves `v48` as it was. -/
theorem V36_v48 (c : Dev nD) : V36 m outs c main_v48 = V35 m c main_v48 := V36_of m outs c main_v48 (by decide)

/-- The first kernel call leaves `v49` as it was. -/
theorem V36_v49 (c : Dev nD) : V36 m outs c main_v49 = V35 m c main_v49 := V36_of m outs c main_v49 (by decide)

/-- The first kernel call leaves `v59` as it was. -/
theorem V36_v59 (c : Dev nD) : V36 m outs c main_v59 = V35 m c main_v59 := V36_of m outs c main_v59 (by decide)

/-- The first kernel call leaves `v70` as it was. -/
theorem V36_v70 (c : Dev nD) : V36 m outs c main_v70 = V35 m c main_v70 := V36_of m outs c main_v70 (by decide)

/-- The first kernel call leaves `v80` as it was. -/
theorem V36_v80 (c : Dev nD) : V36 m outs c main_v80 = V35 m c main_v80 := V36_of m outs c main_v80 (by decide)

/-- The first kernel call leaves `v10` as it was. -/
theorem V36_v10 (c : Dev nD) : V36 m outs c main_v10 = V35 m c main_v10 := V36_of m outs c main_v10 (by decide)

/-- The first kernel call leaves `v21` as it was. -/
theorem V36_v21 (c : Dev nD) : V36 m outs c main_v21 = V35 m c main_v21 := V36_of m outs c main_v21 (by decide)

/-- The first kernel call leaves `v32` as it was. -/
theorem V36_v32 (c : Dev nD) : V36 m outs c main_v32 = V35 m c main_v32 := V36_of m outs c main_v32 (by decide)

/-- The first kernel call leaves `v43` as it was. -/
theorem V36_v43 (c : Dev nD) : V36 m outs c main_v43 = V35 m c main_v43 := V36_of m outs c main_v43 (by decide)

end Cert.KernelIdeal.HostVal
end
-- ==== Proof.LibPadCat.lean ====
/-
  Two host layout operations on matrices, read at one entry, for any element type:
  a zero-interior padding after the last row and column, and a concatenation of four equally wide matrices along
  the columns.
-/
import Idealize.ShloMosaic.Lib.ValueIdx
import Idealize.ShloMosaic.Lib.Pipeline.Value
import Idealize.ShloMosaic.Lib.KernelVsHost

noncomputable section

namespace Cert.Lib.PadCat

open Idealize.ShloMosaic Idealize.ShloMosaic.ValueIdx

variable {α : Type}

/-- A matrix padded only AFTER its last row and last column (no low padding, no interior padding), read at entry
    `(q, k)`: the matrix's own entry there when `(q, k)` lies inside the matrix, and the padding value everywhere else. -/
theorem pad2_apply {a b a' b' : Nat} (hi : Fin 2 → Nat) (x : (⟨2, ![a, b]⟩ : Shape).Idx → α) {u : Shape} (v : u.Idx → α)
    (h : (⟨2, ![a, b]⟩ : Shape).Pads ![0, 0] hi ![0, 0] ⟨2, ![a', b']⟩) (hu : 0 < u.numel) (q : Fin a') (k : Fin b') :
    pad ⟨2, ![a', b']⟩ ![0, 0] hi ![0, 0] x v h hu (ix2 q k)
      = if hqk : q.val < a ∧ k.val < b then x (ix2 ⟨q.val, hqk.1⟩ ⟨k.val, hqk.2⟩) else v (Shape.Idx.first hu) := by
  by_cases hqk : q.val < a ∧ k.val < b
  · rw [dif_pos hqk]
    refine pad_apply_of_inside _ _ _ x v h hu _ (ix2 ⟨q.val, hqk.1⟩ ⟨k.val, hqk.2⟩) (fun ax => ?_)
    match ax with
    | ⟨0, _⟩ => show q.val = 0 + q.val * (0 + 1); omega
    | ⟨1, _⟩ => show k.val = 0 + k.val * (0 + 1); omega
  · rw [dif_neg hqk]
    by_cases hq : q.val < a
    · have hk : ¬ k.val < b := fun hk => hqk ⟨hq, hk⟩
      refine pad_apply_of_not_inside _ _ _ x v h hu _ (⟨1, by decide⟩ : Fin 2) ?_
      show ¬(0 ≤ k.val ∧ (k.val - 0) % (0 + 1) = 0 ∧ (k.val - 0) / (0 + 1) < b)
      omega
    · refine pad_apply_of_not_inside _ _ _ x v h hu _ (⟨0, by decide⟩ : Fin 2) ?_
      show ¬(0 ≤ q.val ∧ (q.val - 0) % (0 + 1) = 0 ∧ (q.val - 0) / (0 + 1) < a)
      omega

/-- `pad2_apply` when only columns are added: the row is always inside. -/
theorem pad2_cols_apply {a b b' : Nat} (hi : Fin 2 → Nat) (x : (⟨2, ![a, b]⟩ : Shape).Idx → α) {u : Shape} (v : u.Idx → α)
    (h : (⟨2, ![a, b]⟩ : Shape).Pads ![0, 0] hi ![0, 0] ⟨2, ![a, b']⟩) (hu : 0 < u.numel) (q : Fin a) (k : Fin b') :
    pad ⟨2, ![a, b']⟩ ![0, 0] hi ![0, 0] x v h hu (ix2 q k)
      = if hk : k.val < b then x (ix2 q ⟨k.val, hk⟩) else v (Shape.Idx.first hu) := by
  rw [pad2_apply]
  by_cases hk : k.val < b
  · rw [dif_pos ⟨q.isLt, hk⟩, dif_pos hk]
  · rw [dif_neg (fun h' => hk h'.2), dif_neg hk]

/-- `pad2_apply` when only rows are added: the column is always inside. -/
theorem pad2_rows_apply {a b a' : Nat} (hi : Fin 2 → Nat) (x : (⟨2, ![a, b]⟩ : Shape).Idx → α) {u : Shape} (v : u.Idx → α)
    (h : (⟨2, ![a, b]⟩ : Shape).Pads ![0, 0] hi ![0, 0] ⟨2, ![a', b]⟩) (hu : 0 < u.numel) (q : Fin a') (k : Fin b) :
    pad ⟨2, ![a', b]⟩ ![0, 0] hi ![0, 0] x v h hu (ix2 q k)
      = if hq : q.val < a then x (ix2 ⟨q.val, hq⟩ k) else v (Shape.Idx.first hu) := by
  rw [pad2_apply]
  by_cases hq : q.val < a
  · rw [dif_pos ⟨hq, k.isLt⟩, dif_pos hq]
  · rw [dif_neg (fun h' => hq h'.1), dif_neg hq]

/-- Four matrices of `a` rows and `w` columns laid side by side (concatenated along the columns), read at column
    `g·w + j` with `j < w`: piece `g` at column `j`. -/
theorem cat4_apply {a w W : Nat} (x0 x1 x2 x3 : (⟨2, ![a, w]⟩ : Shape).Idx → α)
    (h : Shape.Concatenates (([⟨⟨2, ![a, w]⟩, x0⟩, ⟨⟨2, ![a, w]⟩, x1⟩, ⟨⟨2, ![a, w]⟩, x2⟩, ⟨⟨2, ![a, w]⟩, x3⟩] :
      List ((s : Shape) × (s.Idx → α))).map (·.1)) ⟨2, ![a, W]⟩ (1 : Fin 2))
    (r : Fin a) (g : Fin 4) (j : Fin w) (hlt : g.val * w + j.val < W) :
    concatenate ⟨2, ![a, W]⟩ (1 : Fin 2) [⟨⟨2, ![a, w]⟩, x0⟩, ⟨⟨2, ![a, w]⟩, x1⟩, ⟨⟨2, ![a, w]⟩, x2⟩, ⟨⟨2, ![a, w]⟩, x3⟩] h
        (ix2 r ⟨g.val * w + j.val, hlt⟩)
      = (![x0, x1, x2, x3] g) (ix2 r j) := by
  have key : ∀ (k : Nat) (hk : k < 4) (xk : (⟨2, ![a, w]⟩ : Shape).Idx → α),
      ([⟨⟨2, ![a, w]⟩, x0⟩, ⟨⟨2, ![a, w]⟩, x1⟩, ⟨⟨2, ![a, w]⟩, x2⟩, ⟨⟨2, ![a, w]⟩, x3⟩] :
        List ((s : Shape) × (s.Idx → α)))[k]'(by simpa using hk) = ⟨⟨2, ![a, w]⟩, xk⟩ →
      ∀ (hlt' : k * w + j.val < W),
      concatenate ⟨2, ![a, W]⟩ (1 : Fin 2) [⟨⟨2, ![a, w]⟩, x0⟩, ⟨⟨2, ![a, w]⟩, x1⟩, ⟨⟨2, ![a, w]⟩, x2⟩, ⟨⟨2, ![a, w]⟩, x3⟩] h
        (ix2 r ⟨k * w + j.val, hlt'⟩) = xk (ix2 r j) := by
    intro k hk xk hxk hlt'
    refine concatenate_apply_piece (t := ⟨2, ![a, W]⟩) (1 : Fin 2) _ h _ k (by simpa using hk) ⟨2, ![a, w]⟩ xk hxk rfl (k * w) ?_ (ix2 r j) ?_ ?_
    · match k, hk with
      | 0, _ => simp
      | 1, _ => simp
      | 2, _ => simp; omega
      | 3, _ => simp; omega
    · intro b hb
      match b with
      | ⟨0, _⟩ => rfl
      | ⟨1, _⟩ => exact absurd rfl hb
    · rfl
  match g with
  | ⟨0, _⟩ => exact key 0 (by omega) x0 rfl hlt
  | ⟨1, _⟩ => exact key 1 (by omega) x1 rfl hlt
  | ⟨2, _⟩ => exact key 2 (by omega) x2 rfl hlt
  | ⟨3, _⟩ => exact key 3 (by omega) x3 rfl hlt

end Cert.Lib.PadCat
end
-- ==== Proof.HostPrefix2.lean ====
/-
  The kernel program's host operations read at one entry, on the extended reals: what the two kernel calls find in the
  buffers they read (the padded previous states, the column-normalised weights padded per gate block, the padded bias)
  and what the two final slices return. All paddings are the real zero.
-/
import proofs.«136980_j58978490909175_2_alg».proof.Proof.HostPrefix
import proofs.«136980_j58978490909175_2_alg».proof.Proof.LibPadCat

set_option maxRecDepth 65536

noncomputable section

namespace Cert.KernelIdeal.HostVal

open Cert.KernelIdeal Cert.KernelIdeal.Gen Cert.KernelIdeal.GenP
open Idealize.ShloMosaic Idealize.ShloMosaic.TcCoe Idealize.ShloMosaic.ValueIdx
open Idealize.ShloMosaic.StableHlo (after_cons after_nil)
open Idealize.SL.Sem
open Cert.Lib.PadCat

/-! ## The padding value and the three paddings on the extended reals -/

/-- The padding value, the integer zero converted to a float, is the real zero. -/
theorem padval (i : S_.Idx) : (sitofp (F := Ideal) .f32 (constantI S_ 32 0#32) : S_.Idx → EReal) i = 0 := by
  show (((0#32 : BitVec 32).toInt : ℝ) : EReal) = 0
  simp

/-- Zero padding after the last row and column, read at an entry. -/
theorem padI {a b a' b' : Nat} (hi : Fin 2 → Nat) (x : (⟨2, ![a, b]⟩ : Shape).Idx → EReal)
    (h : (⟨2, ![a, b]⟩ : Shape).Pads ![0, 0] hi ![0, 0] ⟨2, ![a', b']⟩) (hu : 0 < S_.numel) (q : Fin a') (k : Fin b') :
    pad ⟨2, ![a', b']⟩ ![0, 0] hi ![0, 0] x (sitofp (F := Ideal) .f32 (constantI S_ 32 0#32) : S_.Idx → EReal) h hu (ix2 q k)
      = (if hqk : q.val < a ∧ k.val < b then x (ix2 ⟨q.val, hqk.1⟩ ⟨k.val, hqk.2⟩) else 0 : EReal) := by
  rw [pad2_apply]
  by_cases hqk : q.val < a ∧ k.val < b
  · rw [dif_pos hqk, dif_pos hqk]
  · rw [dif_neg hqk, dif_neg hqk]; exact padval _

/-- Zero padding after the last column, read at an entry. -/
theorem padI_cols {a b b' : Nat} (hi : Fin 2 → Nat) (x : (⟨2, ![a, b]⟩ : Shape).Idx → EReal)
    (h : (⟨2, ![a, b]⟩ : Shape).Pads ![0, 0] hi ![0, 0] ⟨2, ![a, b']⟩) (hu : 0 < S_.numel) (q : Fin a) (k : Fin b') :
    pad ⟨2, ![a, b']⟩ ![0, 0] hi ![0, 0] x (sitofp (F := Ideal) .f32 (constantI S_ 32 0#32) : S_.Idx → EReal) h hu (ix2 q k)
      = (if hk : k.val < b then x (ix2 q ⟨k.val, hk⟩) else 0 : EReal) := by
  rw [pad2_cols_apply]
  by_cases hk : k.val < b
  · rw [dif_pos hk, dif_pos hk]
  · rw [dif_neg hk, dif_neg hk]; exact padval _

/-- Zero padding after the last row, read at an entry. -/
theorem padI_rows {a b a' : Nat} (hi : Fin 2 → Nat) (x : (⟨2, ![a, b]⟩ : Shape).Idx → EReal)
    (h : (⟨2, ![a, b]⟩ : Shape).Pads ![0, 0] hi ![0, 0] ⟨2, ![a', b]⟩) (hu : 0 < S_.numel) (q : Fin a') (k : Fin b) :
    pad ⟨2, ![a', b]⟩ ![0, 0] hi ![0, 0] x (sitofp (F := Ideal) .f32 (constantI S_ 32 0#32) : S_.Idx → EReal) h hu (ix2 q k)
      = (if hq : q.val < a then x (ix2 ⟨q.val, hq⟩ k) else 0 : EReal) := by
  rw [pad2_rows_apply]
  by_cases hq : q.val < a
  · rw [dif_pos hq, dif_pos hq]
  · rw [dif_neg hq, dif_neg hq]; exact padval _

variable (m : (ℓ : Loc nD τ sig) → Buf (Elt Ideal) ℓ)

/-! ## What the first kernel call reads -/

/-- The previous hidden state, padded from 1900 to 1920 columns. -/
theorem v48_at (c : Dev nD) (r : Fin 8192) (k : Fin 1920) :
    (V35 m c main_v48 : S8192x1920.Idx → EReal) (ix2 r k)
      = (if h : k.val < 1900 then ((m ((c : Thread nD τ).loc main_arg2)) : S8192x1900.Idx → EReal) (ix2 r ⟨k.val, h⟩) else 0 : EReal) := by
  rw [E_v48, E_c_8, V35_arg2]
  exact padI_cols _ _ _ _ r k

/-- The normalised input weights of the multiplicative state (buffer `v32`), padded from 1900 to 1920 columns; the
    narrowing to the 16-bit format changes no real. -/
theorem v45_at (c : Dev nD) (q : Fin 10) (k : Fin 1920) :
    (V35 m c main_v45 : S10x1920.Idx → EReal) (ix2 q k)
      = (if h : k.val < 1900 then (V35 m c main_v32 : S10x1900.Idx → EReal) (ix2 q ⟨k.val, h⟩) else 0 : EReal) := by
  rw [E_v45]
  show (V35 m c main_v44 : S10x1920.Idx → EReal) (ix2 q k) = _
  rw [E_v44, E_c]
  exact padI_cols _ _ _ _ q k

/-- `v45_at` with `v32` written as the normalisation of the arguments. -/
theorem v45_at' (c : Dev nD) (q : Fin 10) (k : Fin 1920) :
    (V35 m c main_v45 : S10x1920.Idx → EReal) (ix2 q k)
      = (if h : k.val < 1900 then (wmxnK (m ((c : Thread nD τ).loc main_arg5)) (m ((c : Thread nD τ).loc main_arg10)) : S10x1900.Idx → EReal) (ix2 q ⟨k.val, h⟩) else 0 : EReal) := by
  rw [v45_at, W_v32]

/-- The normalised hidden weights of the multiplicative state (buffer `v43`), padded from 1900 × 1900 to 1920 × 1920; the
    narrowing to the 16-bit format changes no real. -/
theorem v47_at (c : Dev nD) (q : Fin 1920) (k : Fin 1920) :
    (V35 m c main_v47 : S1920x1920.Idx → EReal) (ix2 q k)
      = (if h : q.val < 1900 ∧ k.val < 1900 then (V35 m c main_v43 : S1900x1900.Idx → EReal) (ix2 ⟨q.val, h.1⟩ ⟨k.val, h.2⟩) else 0 : EReal) := by
  rw [E_v47]
  show (V35 m c main_v46 : S1920x1920.Idx → EReal) (ix2 q k) = _
  rw [E_v46, E_c_7]
  exact padI _ _ _ _ q k

/-- `v47_at` with `v43` written as the normalisation of the arguments. -/
theorem v47_at' (c : Dev nD) (q : Fin 1920) (k : Fin 1920) :
    (V35 m c main_v47 : S1920x1920.Idx → EReal) (ix2 q k)
      = (if h : q.val < 1900 ∧ k.val < 1900 then (wmhnK (m ((c : Thread nD τ).loc main_arg6)) (m ((c : Thread nD τ).loc main_arg11)) : S1900x1900.Idx → EReal) (ix2 ⟨q.val, h.1⟩ ⟨k.val, h.2⟩) else 0 : EReal) := by
  rw [v47_at, W_v43]

/-! ## What the second kernel call reads -/

/-- The previous cell state, padded from 1900 to 1920 columns. -/
theorem v49_at (c : Dev nD) (r : Fin 8192) (k : Fin 1920) :
    (V35 m c main_v49 : S8192x1920.Idx → EReal) (ix2 r k)
      = (if h : k.val < 1900 then ((m ((c : Thread nD τ).loc main_arg1)) : S8192x1900.Idx → EReal) (ix2 r ⟨k.val, h⟩) else 0 : EReal) := by
  rw [E_v49, E_c_9, V35_arg1]
  exact padI_cols _ _ _ _ r k

/-! ## What the program returns -/

variable (outs : Outs (F := Ideal))

/-- The first result is the second kernel call's first output with its 20 padding columns cut off. -/
theorem V38_v83 (c : Dev nD) (r : Fin 8192) (j : Fin 1900) :
    (V38 m outs c main_v83 : S8192x1900.Idx → EReal) (ix2 r j) = (outs 37 main_v82_0 c : S8192x1920.Idx → EReal) (ix2 r ⟨j.val, by omega⟩) := by
  have e : V38 m outs c main_v83 = extractStridedSlice S8192x1900 ![0, 0] (outs 37 main_v82_0 c) slices_S8192x1920_S8192x1900_0_0 := by
    dsimp only [V38, hostOps2]; after_results <;> rfl
  rw [e]
  exact slice2_axis1_apply 0 _ _ r j _ (by simp)

/-- The second result is the second kernel call's second output with its 20 padding columns cut off. -/
theorem V38_v84 (c : Dev nD) (r : Fin 8192) (j : Fin 1900) :
    (V38 m outs c main_v84 : S8192x1900.Idx → EReal) (ix2 r j) = (outs 37 main_v82_1 c : S8192x1920.Idx → EReal) (ix2 r ⟨j.val, by omega⟩) := by
  have e : V38 m outs c main_v84 = extractStridedSlice S8192x1900 ![0, 0] (outs 37 main_v82_1 c) slices_S8192x1920_S8192x1900_0_0 := by
    dsimp only [V38, hostOps2]; after_results <;> rfl
  rw [e]
  exact slice2_axis1_apply 0 _ _ r j _ (by simp)

end Cert.KernelIdeal.HostVal
end
-- ==== Proof.HostPrefixG.lean ====
/-
  The host operations that lay the gate blocks of the weights and of the bias out at the padded width, as equations
  between whole arrays (slices, paddings and concatenations of the four blocks). Nothing here depends on the float instance.
-/
import proofs.«136980_j58978490909175_2_alg».proof.Proof.HostPrefix
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 65536

noncomputable section

namespace Cert.KernelIdeal.HostValG

open Cert.KernelIdeal Cert.KernelIdeal.Gen Cert.KernelIdeal.GenP Cert.KernelIdeal.HostVal
open Idealize.ShloMosaic Idealize.ShloMosaic.TcCoe Idealize.ShloMosaic.ValueIdx
open Idealize.ShloMosaic.StableHlo (after_cons after_nil)
open Idealize.SL.Sem

variable {F : FTy → Type} [FloatOps F]
variable (m : (ℓ : Loc nD τ sig) → Buf (Elt F) ℓ)

/-- `v54` is `v50` padded after its last column with the converted integer zero. -/
theorem E_v54 (c : Dev nD) :
    (V35 m c main_v54 : (⟨S10x1920, .f32⟩ : BufTy).Contents (Elt F)) = pad S10x1920 ![0, 0] ![0, 20] ![0, 0] (V35 m c main_v50 : (⟨S10x1900, .f32⟩ : BufTy).Contents (Elt F)) (sitofp (F := F) .f32 (V35 m c main_c_10 : (⟨S_, .i32⟩ : BufTy).Contents (Elt F))) pads_S10x1900_S10x1920_000_0200 h_S_ := by
  have hX : V35 m c main_v54 = V10 m c main_v54 := (V35_of m c main_v54 (by decide)).trans <| (V34_of m c main_v54 (by decide)).trans <| (V33_of m c main_v54 (by decide)).trans <| (V32_of m c main_v54 (by decide)).trans <| (V31_of m c main_v54 (by decide)).trans <| (V30_of m c main_v54 (by decide)).trans <| (V29_of m c main_v54 (by decide)).trans <| (V28_of m c main_v54 (by decide)).trans <| (V27_of m c main_v54 (by decide)).trans <| (V26_of m c main_v54 (by decide)).trans <| (V25_of m c main_v54 (by decide)).trans <| (V24_of m c main_v54 (by decide)).trans <| (V23_of m c main_v54 (by decide)).trans <| (V22_of m c main_v54 (by decide)).trans <| (V21_of m c main_v54 (by decide)).trans <| (V20_of m c main_v54 (by decide)).trans <| (V19_of m c main_v54 (by decide)).trans <| (V18_of m c main_v54 (by decide)).trans <| (V17_of m c main_v54 (by decide)).trans <| (V16_of m c main_v54 (by decide)).trans <| (V15_of m c main_v54 (by decide)).trans <| (V14_of m c main_v54 (by decide)).trans <| (V13_of m c main_v54 (by decide)).trans <| (V12_of m c main_v54 (by decide)).trans <| (V11_of m c main_v54 (by decide))
  have hW : (V10 m c main_v54 : (⟨S10x1920, .f32⟩ : BufTy).Contents (Elt F)) = pad S10x1920 ![0, 0] ![0, 20] ![0, 0] (V9 m c main_v50 : (⟨S10x1900, .f32⟩ : BufTy).Contents (Elt F)) (sitofp (F := F) .f32 (V9 m c main_c_10 : (⟨S_, .i32⟩ : BufTy).Contents (Elt F))) pads_S10x1900_S10x1920_000_0200 h_S_ := by
    dsimp only [V10, hostOps0_9]; generalize V9 m c = W; after_results <;> rfl
  have hA0 : V35 m c main_v50 = V9 m c main_v50 := (V35_of m c main_v50 (by decide)).trans <| (V34_of m c main_v50 (by decide)).trans <| (V33_of m c main_v50 (by decide)).trans <| (V32_of m c main_v50 (by decide)).trans <| (V31_of m c main_v50 (by decide)).trans <| (V30_of m c main_v50 (by decide)).trans <| (V29_of m c main_v50 (by decide)).trans <| (V28_of m c main_v50 (by decide)).trans <| (V27_of m c main_v50 (by decide)).trans <| (V26_of m c main_v50 (by decide)).trans <| (V25_of m c main_v50 (by decide)).trans <| (V24_of m c main_v50 (by decide)).trans <| (V23_of m c main_v50 (by decide)).trans <| (V22_of m c main_v50 (by decide)).trans <| (V21_of m c main_v50 (by decide)).trans <| (V20_of m c main_v50 (by decide)).trans <| (V19_of m c main_v50 (by decide)).trans <| (V18_of m c main_v50 (by decide)).trans <| (V17_of m c main_v50 (by decide)).trans <| (V16_of m c main_v50 (by decide)).trans <| (V15_of m c main_v50 (by decide)).trans <| (V14_of m c main_v50 (by decide)).trans <| (V13_of m c main_v50 (by decide)).trans <| (V12_of m c main_v50 (by decide)).trans <| (V11_of m c main_v50 (by decide)).trans <| (V10_of m c main_v50 (by decide))
  have hA1 : V35 m c main_c_10 = V9 m c main_c_10 := (V35_of m c main_c_10 (by decide)).trans <| (V34_of m c main_c_10 (by decide)).trans <| (V33_of m c main_c_10 (by decide)).trans <| (V32_of m c main_c_10 (by decide)).trans <| (V31_of m c main_c_10 (by decide)).trans <| (V30_of m c main_c_10 (by decide)).trans <| (V29_of m c main_c_10 (by decide)).trans <| (V28_of m c main_c_10 (by decide)).trans <| (V27_of m c main_c_10 (by decide)).trans <| (V26_of m c main_c_10 (by decide)).trans <| (V25_of m c main_c_10 (by decide)).trans <| (V24_of m c main_c_10 (by decide)).trans <| (V23_of m c main_c_10 (by decide)).trans <| (V22_of m c main_c_10 (by decide)).trans <| (V21_of m c main_c_10 (by decide)).trans <| (V20_of m c main_c_10 (by decide)).trans <| (V19_of m c main_c_10 (by decide)).trans <| (V18_of m c main_c_10 (by decide)).trans <| (V17_of m c main_c_10 (by decide)).trans <| (V16_of m c main_c_10 (by decide)).trans <| (V15_of m c main_c_10 (by decide)).trans <| (V14_of m c main_c_10 (by decide)).trans <| (V13_of m c main_c_10 (by decide)).trans <| (V12_of m c main_c_10 (by decide)).trans <| (V11_of m c main_c_10 (by decide)).trans <| (V10_of m c main_c_10 (by decide))
  rw [hX, hW, hA0, hA1]

/-- `v55` is `v51` padded after its last column with the converted integer zero. -/
theorem E_v55 (c : Dev nD) :
    (V35 m c main_v55 : (⟨S10x1920, .f32⟩ : BufTy).Contents (Elt F)) = pad S10x1920 ![0, 0] ![0, 20] ![0, 0] (V35 m c main_v51 : (⟨S10x1900, .f32⟩ : BufTy).Contents (Elt F)) (sitofp (F := F) .f32 (V35 m c main_c_11 : (⟨S_, .i32⟩ : BufTy).Contents (Elt F))) pads_S10x1900_S10x1920_000_0200 h_S_ := by
  have hX : V35 m c main_v55 = V12 m c main_v55 := (V35_of m c main_v55 (by decide)).trans <| (V34_of m c main_v55 (by decide)).trans <| (V33_of m c main_v55 (by decide)).trans <| (V32_of m c main_v55 (by decide)).trans <| (V31_of m c main_v55 (by decide)).trans <| (V30_of m c main_v55 (by decide)).trans <| (V29_of m c main_v55 (by decide)).trans <| (V28_of m c main_v55 (by decide)).trans <| (V27_of m c main_v55 (by decide)).trans <| (V26_of m c main_v55 (by decide)).trans <| (V25_of m c main_v55 (by decide)).trans <| (V24_of m c main_v55 (by decide)).trans <| (V23_of m c main_v55 (by decide)).trans <| (V22_of m c main_v55 (by decide)).trans <| (V21_of m c main_v55 (by decide)).trans <| (V20_of m c main_v55 (by decide)).trans <| (V19_of m c main_v55 (by decide)).trans <| (V18_of m c main_v55 (by decide)).trans <| (V17_of m c main_v55 (by decide)).trans <| (V16_of m c main_v55 (by decide)).trans <| (V15_of m c main_v55 (by decide)).trans <| (V14_of m c main_v55 (by decide)).trans <| (V13_of m c main_v55 (by decide))
  have hW : (V12 m c main_v55 : (⟨S10x1920, .f32⟩ : BufTy).Contents (Elt F)) = pad S10x1920 ![0, 0] ![0, 20] ![0, 0] (V11 m c main_v51 : (⟨S10x1900, .f32⟩ : BufTy).Contents (Elt F)) (sitofp (F := F) .f32 (V11 m c main_c_11 : (⟨S_, .i32⟩ : BufTy).Contents (Elt F))) pads_S10x1900_S10x1920_000_0200 h_S_ := by
    dsimp only [V12, hostOps0_11]; generalize V11 m c = W; after_results <;> rfl
  have hA0 : V35 m c main_v51 = V11 m c main_v51 := (V35_of m c main_v51 (by decide)).trans <| (V34_of m c main_v51 (by decide)).trans <| (V33_of m c main_v51 (by decide)).trans <| (V32_of m c main_v51 (by decide)).trans <| (V31_of m c main_v51 (by decide)).trans <| (V30_of m c main_v51 (by decide)).trans <| (V29_of m c main_v51 (by decide)).trans <| (V28_of m c main_v51 (by decide)).trans <| (V27_of m c main_v51 (by decide)).trans <| (V26_of m c main_v51 (by decide)).trans <| (V25_of m c main_v51 (by decide)).trans <| (V24_of m c main_v51 (by decide)).trans <| (V23_of m c main_v51 (by decide)).trans <| (V22_of m c main_v51 (by decide)).trans <| (V21_of m c main_v51 (by decide)).trans <| (V20_of m c main_v51 (by decide)).trans <| (V19_of m c main_v51 (by decide)).trans <| (V18_of m c main_v51 (by decide)).trans <| (V17_of m c main_v51 (by decide)).trans <| (V16_of m c main_v51 (by decide)).trans <| (V15_of m c main_v51 (by decide)).trans <| (V14_of m c main_v51 (by decide)).trans <| (V13_of m c main_v51 (by decide)).trans <| (V12_of m c main_v51 (by decide))
  have hA1 : V35 m c main_c_11 = V11 m c main_c_11 := (V35_of m c main_c_11 (by decide)).trans <| (V34_of m c main_c_11 (by decide)).trans <| (V33_of m c main_c_11 (by decide)).trans <| (V32_of m c main_c_11 (by decide)).trans <| (V31_of m c main_c_11 (by decide)).trans <| (V30_of m c main_c_11 (by decide)).trans <| (V29_of m c main_c_11 (by decide)).trans <| (V28_of m c main_c_11 (by decide)).trans <| (V27_of m c main_c_11 (by decide)).trans <| (V26_of m c main_c_11 (by decide)).trans <| (V25_of m c main_c_11 (by decide)).trans <| (V24_of m c main_c_11 (by decide)).trans <| (V23_of m c main_c_11 (by decide)).trans <| (V22_of m c main_c_11 (by decide)).trans <| (V21_of m c main_c_11 (by decide)).trans <| (V20_of m c main_c_11 (by decide)).trans <| (V19_of m c main_c_11 (by decide)).trans <| (V18_of m c main_c_11 (by decide)).trans <| (V17_of m c main_c_11 (by decide)).trans <| (V16_of m c main_c_11 (by decide)).trans <| (V15_of m c main_c_11 (by decide)).trans <| (V14_of m c main_c_11 (by decide)).trans <| (V13_of m c main_c_11 (by decide)).trans <| (V12_of m c main_c_11 (by decide))
  rw [hX, hW, hA0, hA1]

/-- `v56` is `v52` padded after its last column with the converted integer zero. -/
theorem E_v56 (c : Dev nD) :
    (V35 m c main_v56 : (⟨S10x1920, .f32⟩ : BufTy).Contents (Elt F)) = pad S10x1920 ![0, 0] ![0, 20] ![0, 0] (V35 m c main_v52 : (⟨S10x1900, .f32⟩ : BufTy).Contents (Elt F)) (sitofp (F := F) .f32 (V35 m c main_c_12 : (⟨S_, .i32⟩ : BufTy).Contents (Elt F))) pads_S10x1900_S10x1920_000_0200 h_S_ := by
  have hX : V35 m c main_v56 = V14 m c main_v56 := (V35_of m c main_v56 (by decide)).trans <| (V34_of m c main_v56 (by decide)).trans <| (V33_of m c main_v56 (by decide)).trans <| (V32_of m c main_v56 (by decide)).trans <| (V31_of m c main_v56 (by decide)).trans <| (V30_of m c main_v56 (by decide)).trans <| (V29_of m c main_v56 (by decide)).trans <| (V28_of m c main_v56 (by decide)).trans <| (V27_of m c main_v56 (by decide)).trans <| (V26_of m c main_v56 (by decide)).trans <| (V25_of m c main_v56 (by decide)).trans <| (V24_of m c main_v56 (by decide)).trans <| (V23_of m c main_v56 (by decide)).trans <| (V22_of m c main_v56 (by decide)).trans <| (V21_of m c main_v56 (by decide)).trans <| (V20_of m c main_v56 (by decide)).trans <| (V19_of m c main_v56 (by decide)).trans <| (V18_of m c main_v56 (by decide)).trans <| (V17_of m c main_v56 (by decide)).trans <| (V16_of m c main_v56 (by decide)).trans <| (V15_of m c main_v56 (by decide))
  have hW : (V14 m c main_v56 : (⟨S10x1920, .f32⟩ : BufTy).Contents (Elt F)) = pad S10x1920 ![0, 0] ![0, 20] ![0, 0] (V13 m c main_v52 : (⟨S10x1900, .f32⟩ : BufTy).Contents (Elt F)) (sitofp (F := F) .f32 (V13 m c main_c_12 : (⟨S_, .i32⟩ : BufTy).Contents (Elt F))) pads_S10x1900_S10x1920_000_0200 h_S_ := by
    dsimp only [V14, hostOps0_13]; generalize V13 m c = W; after_results <;> rfl
  have hA0 : V35 m c main_v52 = V13 m c main_v52 := (V35_of m c main_v52 (by decide)).trans <| (V34_of m c main_v52 (by decide)).trans <| (V33_of m c main_v52 (by decide)).trans <| (V32_of m c main_v52 (by decide)).trans <| (V31_of m c main_v52 (by decide)).trans <| (V30_of m c main_v52 (by decide)).trans <| (V29_of m c main_v52 (by decide)).trans <| (V28_of m c main_v52 (by decide)).trans <| (V27_of m c main_v52 (by decide)).trans <| (V26_of m c main_v52 (by decide)).trans <| (V25_of m c main_v52 (by decide)).trans <| (V24_of m c main_v52 (by decide)).trans <| (V23_of m c main_v52 (by decide)).trans <| (V22_of m c main_v52 (by decide)).trans <| (V21_of m c main_v52 (by decide)).trans <| (V20_of m c main_v52 (by decide)).trans <| (V19_of m c main_v52 (by decide)).trans <| (V18_of m c main_v52 (by decide)).trans <| (V17_of m c main_v52 (by decide)).trans <| (V16_of m c main_v52 (by decide)).trans <| (V15_of m c main_v52 (by decide)).trans <| (V14_of m c main_v52 (by decide))
  have hA1 : V35 m c main_c_12 = V13 m c main_c_12 := (V35_of m c main_c_12 (by decide)).trans <| (V34_of m c main_c_12 (by decide)).trans <| (V33_of m c main_c_12 (by decide)).trans <| (V32_of m c main_c_12 (by decide)).trans <| (V31_of m c main_c_12 (by decide)).trans <| (V30_of m c main_c_12 (by decide)).trans <| (V29_of m c main_c_12 (by decide)).trans <| (V28_of m c main_c_12 (by decide)).trans <| (V27_of m c main_c_12 (by decide)).trans <| (V26_of m c main_c_12 (by decide)).trans <| (V25_of m c main_c_12 (by decide)).trans <| (V24_of m c main_c_12 (by decide)).trans <| (V23_of m c main_c_12 (by decide)).trans <| (V22_of m c main_c_12 (by decide)).trans <| (V21_of m c main_c_12 (by decide)).trans <| (V20_of m c main_c_12 (by decide)).trans <| (V19_of m c main_c_12 (by decide)).trans <| (V18_of m c main_c_12 (by decide)).trans <| (V17_of m c main_c_12 (by decide)).trans <| (V16_of m c main_c_12 (by decide)).trans <| (V15_of m c main_c_12 (by decide)).trans <| (V14_of m c main_c_12 (by decide))
  rw [hX, hW, hA0, hA1]

/-- `v57` is `v53` padded after its last column with the converted integer zero. -/
theorem E_v57 (c : Dev nD) :
    (V35 m c main_v57 : (⟨S10x1920, .f32⟩ : BufTy).Contents (Elt F)) = pad S10x1920 ![0, 0] ![0, 20] ![0, 0] (V35 m c main_v53 : (⟨S10x1900, .f32⟩ : BufTy).Contents (Elt F)) (sitofp (F := F) .f32 (V35 m c main_c_13 : (⟨S_, .i32⟩ : BufTy).Contents (Elt F))) pads_S10x1900_S10x1920_000_0200 h_S_ := by
  have hX : V35 m c main_v57 = V16 m c main_v57 := (V35_of m c main_v57 (by decide)).trans <| (V34_of m c main_v57 (by decide)).trans <| (V33_of m c main_v57 (by decide)).trans <| (V32_of m c main_v57 (by decide)).trans <| (V31_of m c main_v57 (by decide)).trans <| (V30_of m c main_v57 (by decide)).trans <| (V29_of m c main_v57 (by decide)).trans <| (V28_of m c main_v57 (by decide)).trans <| (V27_of m c main_v57 (by decide)).trans <| (V26_of m c main_v57 (by decide)).trans <| (V25_of m c main_v57 (by decide)).trans <| (V24_of m c main_v57 (by decide)).trans <| (V23_of m c main_v57 (by decide)).trans <| (V22_of m c main_v57 (by decide)).trans <| (V21_of m c main_v57 (by decide)).trans <| (V20_of m c main_v57 (by decide)).trans <| (V19_of m c main_v57 (by decide)).trans <| (V18_of m c main_v57 (by decide)).trans <| (V17_of m c main_v57 (by decide))
  have hW : (V16 m c main_v57 : (⟨S10x1920, .f32⟩ : BufTy).Contents (Elt F)) = pad S10x1920 ![0, 0] ![0, 20] ![0, 0] (V15 m c main_v53 : (⟨S10x1900, .f32⟩ : BufTy).Contents (Elt F)) (sitofp (F := F) .f32 (V15 m c main_c_13 : (⟨S_, .i32⟩ : BufTy).Contents (Elt F))) pads_S10x1900_S10x1920_000_0200 h_S_ := by
    dsimp only [V16, hostOps0_15]; generalize V15 m c = W; after_results <;> rfl
  have hA0 : V35 m c main_v53 = V15 m c main_v53 := (V35_of m c main_v53 (by decide)).trans <| (V34_of m c main_v53 (by decide)).trans <| (V33_of m c main_v53 (by decide)).trans <| (V32_of m c main_v53 (by decide)).trans <| (V31_of m c main_v53 (by decide)).trans <| (V30_of m c main_v53 (by decide)).trans <| (V29_of m c main_v53 (by decide)).trans <| (V28_of m c main_v53 (by decide)).trans <| (V27_of m c main_v53 (by decide)).trans <| (V26_of m c main_v53 (by decide)).trans <| (V25_of m c main_v53 (by decide)).trans <| (V24_of m c main_v53 (by decide)).trans <| (V23_of m c main_v53 (by decide)).trans <| (V22_of m c main_v53 (by decide)).trans <| (V21_of m c main_v53 (by decide)).trans <| (V20_of m c main_v53 (by decide)).trans <| (V19_of m c main_v53 (by decide)).trans <| (V18_of m c main_v53 (by decide)).trans <| (V17_of m c main_v53 (by decide)).trans <| (V16_of m c main_v53 (by decide))
  have hA1 : V35 m c main_c_13 = V15 m c main_c_13 := (V35_of m c main_c_13 (by decide)).trans <| (V34_of m c main_c_13 (by decide)).trans <| (V33_of m c main_c_13 (by decide)).trans <| (V32_of m c main_c_13 (by decide)).trans <| (V31_of m c main_c_13 (by decide)).trans <| (V30_of m c main_c_13 (by decide)).trans <| (V29_of m c main_c_13 (by decide)).trans <| (V28_of m c main_c_13 (by decide)).trans <| (V27_of m c main_c_13 (by decide)).trans <| (V26_of m c main_c_13 (by decide)).trans <| (V25_of m c main_c_13 (by decide)).trans <| (V24_of m c main_c_13 (by decide)).trans <| (V23_of m c main_c_13 (by decide)).trans <| (V22_of m c main_c_13 (by decide)).trans <| (V21_of m c main_c_13 (by decide)).trans <| (V20_of m c main_c_13 (by decide)).trans <| (V19_of m c main_c_13 (by decide)).trans <| (V18_of m c main_c_13 (by decide)).trans <| (V17_of m c main_c_13 (by decide)).trans <| (V16_of m c main_c_13 (by decide))
  rw [hX, hW, hA0, hA1]

/-- `v64` is `v60` padded after its last column with the converted integer zero. -/
theorem E_v64 (c : Dev nD) :
    (V35 m c main_v64 : (⟨S1900x1920, .f32⟩ : BufTy).Contents (Elt F)) = pad S1900x1920 ![0, 0] ![0, 20] ![0, 0] (V35 m c main_v60 : (⟨S1900x1900, .f32⟩ : BufTy).Contents (Elt F)) (sitofp (F := F) .f32 (V35 m c main_c_14 : (⟨S_, .i32⟩ : BufTy).Contents (Elt F))) pads_S1900x1900_S1900x1920_000_0200 h_S_ := by
  have hX : V35 m c main_v64 = V18 m c main_v64 := (V35_of m c main_v64 (by decide)).trans <| (V34_of m c main_v64 (by decide)).trans <| (V33_of m c main_v64 (by decide)).trans <| (V32_of m c main_v64 (by decide)).trans <| (V31_of m c main_v64 (by decide)).trans <| (V30_of m c main_v64 (by decide)).trans <| (V29_of m c main_v64 (by decide)).trans <| (V28_of m c main_v64 (by decide)).trans <| (V27_of m c main_v64 (by decide)).trans <| (V26_of m c main_v64 (by decide)).trans <| (V25_of m c main_v64 (by decide)).trans <| (V24_of m c main_v64 (by decide)).trans <| (V23_of m c main_v64 (by decide)).trans <| (V22_of m c main_v64 (by decide)).trans <| (V21_of m c main_v64 (by decide)).trans <| (V20_of m c main_v64 (by decide)).trans <| (V19_of m c main_v64 (by decide))
  have hW : (V18 m c main_v64 : (⟨S1900x1920, .f32⟩ : BufTy).Contents (Elt F)) = pad S1900x1920 ![0, 0] ![0, 20] ![0, 0] (V17 m c main_v60 : (⟨S1900x1900, .f32⟩ : BufTy).Contents (Elt F)) (sitofp (F := F) .f32 (V17 m c main_c_14 : (⟨S_, .i32⟩ : BufTy).Contents (Elt F))) pads_S1900x1900_S1900x1920_000_0200 h_S_ := by
    dsimp only [V18, hostOps0_17]; generalize V17 m c = W; after_results <;> rfl
  have hA0 : V35 m c main_v60 = V17 m c main_v60 := (V35_of m c main_v60 (by decide)).trans <| (V34_of m c main_v60 (by decide)).trans <| (V33_of m c main_v60 (by decide)).trans <| (V32_of m c main_v60 (by decide)).trans <| (V31_of m c main_v60 (by decide)).trans <| (V30_of m c main_v60 (by decide)).trans <| (V29_of m c main_v60 (by decide)).trans <| (V28_of m c main_v60 (by decide)).trans <| (V27_of m c main_v60 (by decide)).trans <| (V26_of m c main_v60 (by decide)).trans <| (V25_of m c main_v60 (by decide)).trans <| (V24_of m c main_v60 (by decide)).trans <| (V23_of m c main_v60 (by decide)).trans <| (V22_of m c main_v60 (by decide)).trans <| (V21_of m c main_v60 (by decide)).trans <| (V20_of m c main_v60 (by decide)).trans <| (V19_of m c main_v60 (by decide)).trans <| (V18_of m c main_v60 (by decide))
  have hA1 : V35 m c main_c_14 = V17 m c main_c_14 := (V35_of m c main_c_14 (by decide)).trans <| (V34_of m c main_c_14 (by decide)).trans <| (V33_of m c main_c_14 (by decide)).trans <| (V32_of m c main_c_14 (by decide)).trans <| (V31_of m c main_c_14 (by decide)).trans <| (V30_of m c main_c_14 (by decide)).trans <| (V29_of m c main_c_14 (by decide)).trans <| (V28_of m c main_c_14 (by decide)).trans <| (V27_of m c main_c_14 (by decide)).trans <| (V26_of m c main_c_14 (by decide)).trans <| (V25_of m c main_c_14 (by decide)).trans <| (V24_of m c main_c_14 (by decide)).trans <| (V23_of m c main_c_14 (by decide)).trans <| (V22_of m c main_c_14 (by decide)).trans <| (V21_of m c main_c_14 (by decide)).trans <| (V20_of m c main_c_14 (by decide)).trans <| (V19_of m c main_c_14 (by decide)).trans <| (V18_of m c main_c_14 (by decide))
  rw [hX, hW, hA0, hA1]

/-- `v65` is `v61` padded after its last column with the converted integer zero. -/
theorem E_v65 (c : Dev nD) :
    (V35 m c main_v65 : (⟨S1900x1920, .f32⟩ : BufTy).Contents (Elt F)) = pad S1900x1920 ![0, 0] ![0, 20] ![0, 0] (V35 m c main_v61 : (⟨S1900x1900, .f32⟩ : BufTy).Contents (Elt F)) (sitofp (F := F) .f32 (V35 m c main_c_15 : (⟨S_, .i32⟩ : BufTy).Contents (Elt F))) pads_S1900x1900_S1900x1920_000_0200 h_S_ := by
  have hX : V35 m c main_v65 = V20 m c main_v65 := (V35_of m c main_v65 (by decide)).trans <| (V34_of m c main_v65 (by decide)).trans <| (V33_of m c main_v65 (by decide)).trans <| (V32_of m c main_v65 (by decide)).trans <| (V31_of m c main_v65 (by decide)).trans <| (V30_of m c main_v65 (by decide)).trans <| (V29_of m c main_v65 (by decide)).trans <| (V28_of m c main_v65 (by decide)).trans <| (V27_of m c main_v65 (by decide)).trans <| (V26_of m c main_v65 (by decide)).trans <| (V25_of m c main_v65 (by decide)).trans <| (V24_of m c main_v65 (by decide)).trans <| (V23_of m c main_v65 (by decide)).trans <| (V22_of m c main_v65 (by decide)).trans <| (V21_of m c main_v65 (by decide))
  have hW : (V20 m c main_v65 : (⟨S1900x1920, .f32⟩ : BufTy).Contents (Elt F)) = pad S1900x1920 ![0, 0] ![0, 20] ![0, 0] (V19 m c main_v61 : (⟨S1900x1900, .f32⟩ : BufTy).Contents (Elt F)) (sitofp (F := F) .f32 (V19 m c main_c_15 : (⟨S_, .i32⟩ : BufTy).Contents (Elt F))) pads_S1900x1900_S1900x1920_000_0200 h_S_ := by
    dsimp only [V20, hostOps0_19]; generalize V19 m c = W; after_results <;> rfl
  have hA0 : V35 m c main_v61 = V19 m c main_v61 := (V35_of m c main_v61 (by decide)).trans <| (V34_of m c main_v61 (by decide)).trans <| (V33_of m c main_v61 (by decide)).trans <| (V32_of m c main_v61 (by decide)).trans <| (V31_of m c main_v61 (by decide)).trans <| (V30_of m c main_v61 (by decide)).trans <| (V29_of m c main_v61 (by decide)).trans <| (V28_of m c main_v61 (by decide)).trans <| (V27_of m c main_v61 (by decide)).trans <| (V26_of m c main_v61 (by decide)).trans <| (V25_of m c main_v61 (by decide)).trans <| (V24_of m c main_v61 (by decide)).trans <| (V23_of m c main_v61 (by decide)).trans <| (V22_of m c main_v61 (by decide)).trans <| (V21_of m c main_v61 (by decide)).trans <| (V20_of m c main_v61 (by decide))
  have hA1 : V35 m c main_c_15 = V19 m c main_c_15 := (V35_of m c main_c_15 (by decide)).trans <| (V34_of m c main_c_15 (by decide)).trans <| (V33_of m c main_c_15 (by decide)).trans <| (V32_of m c main_c_15 (by decide)).trans <| (V31_of m c main_c_15 (by decide)).trans <| (V30_of m c main_c_15 (by decide)).trans <| (V29_of m c main_c_15 (by decide)).trans <| (V28_of m c main_c_15 (by decide)).trans <| (V27_of m c main_c_15 (by decide)).trans <| (V26_of m c main_c_15 (by decide)).trans <| (V25_of m c main_c_15 (by decide)).trans <| (V24_of m c main_c_15 (by decide)).trans <| (V23_of m c main_c_15 (by decide)).trans <| (V22_of m c main_c_15 (by decide)).trans <| (V21_of m c main_c_15 (by decide)).trans <| (V20_of m c main_c_15 (by decide))
  rw [hX, hW, hA0, hA1]

/-- `v66` is `v62` padded after its last column with the converted integer zero. -/
theorem E_v66 (c : Dev nD) :
    (V35 m c main_v66 : (⟨S1900x1920, .f32⟩ : BufTy).Contents (Elt F)) = pad S1900x1920 ![0, 0] ![0, 20] ![0, 0] (V35 m c main_v62 : (⟨S1900x1900, .f32⟩ : BufTy).Contents (Elt F)) (sitofp (F := F) .f32 (V35 m c main_c_16 : (⟨S_, .i32⟩ : BufTy).Contents (Elt F))) pads_S1900x1900_S1900x1920_000_0200 h_S_ := by
  have hX : V35 m c main_v66 = V22 m c main_v66 := (V35_of m c main_v66 (by decide)).trans <| (V34_of m c main_v66 (by decide)).trans <| (V33_of m c main_v66 (by decide)).trans <| (V32_of m c main_v66 (by decide)).trans <| (V31_of m c main_v66 (by decide)).trans <| (V30_of m c main_v66 (by decide)).trans <| (V29_of m c main_v66 (by decide)).trans <| (V28_of m c main_v66 (by decide)).trans <| (V27_of m c main_v66 (by decide)).trans <| (V26_of m c main_v66 (by decide)).trans <| (V25_of m c main_v66 (by decide)).trans <| (V24_of m c main_v66 (by decide)).trans <| (V23_of m c main_v66 (by decide))
  have hW : (V22 m c main_v66 : (⟨S1900x1920, .f32⟩ : BufTy).Contents (Elt F)) = pad S1900x1920 ![0, 0] ![0, 20] ![0, 0] (V21 m c main_v62 : (⟨S1900x1900, .f32⟩ : BufTy).Contents (Elt F)) (sitofp (F := F) .f32 (V21 m c main_c_16 : (⟨S_, .i32⟩ : BufTy).Contents (Elt F))) pads_S1900x1900_S1900x1920_000_0200 h_S_ := by
    dsimp only [V22, hostOps0_21]; generalize V21 m c = W; after_results <;> rfl
  have hA0 : V35 m c main_v62 = V21 m c main_v62 := (V35_of m c main_v62 (by decide)).trans <| (V34_of m c main_v62 (by decide)).trans <| (V33_of m c main_v62 (by decide)).trans <| (V32_of m c main_v62 (by decide)).trans <| (V31_of m c main_v62 (by decide)).trans <| (V30_of m c main_v62 (by decide)).trans <| (V29_of m c main_v62 (by decide)).trans <| (V28_of m c main_v62 (by decide)).trans <| (V27_of m c main_v62 (by decide)).trans <| (V26_of m c main_v62 (by decide)).trans <| (V25_of m c main_v62 (by decide)).trans <| (V24_of m c main_v62 (by decide)).trans <| (V23_of m c main_v62 (by decide)).trans <| (V22_of m c main_v62 (by decide))
  have hA1 : V35 m c main_c_16 = V21 m c main_c_16 := (V35_of m c main_c_16 (by decide)).trans <| (V34_of m c main_c_16 (by decide)).trans <| (V33_of m c main_c_16 (by decide)).trans <| (V32_of m c main_c_16 (by decide)).trans <| (V31_of m c main_c_16 (by decide)).trans <| (V30_of m c main_c_16 (by decide)).trans <| (V29_of m c main_c_16 (by decide)).trans <| (V28_of m c main_c_16 (by decide)).trans <| (V27_of m c main_c_16 (by decide)).trans <| (V26_of m c main_c_16 (by decide)).trans <| (V25_of m c main_c_16 (by decide)).trans <| (V24_of m c main_c_16 (by decide)).trans <| (V23_of m c main_c_16 (by decide)).trans <| (V22_of m c main_c_16 (by decide))
  rw [hX, hW, hA0, hA1]

/-- `v67` is `v63` padded after its last column with the converted integer zero. -/
theorem E_v67 (c : Dev nD) :
    (V35 m c main_v67 : (⟨S1900x1920, .f32⟩ : BufTy).Contents (Elt F)) = pad S1900x1920 ![0, 0] ![0, 20] ![0, 0] (V35 m c main_v63 : (⟨S1900x1900, .f32⟩ : BufTy).Contents (Elt F)) (sitofp (F := F) .f32 (V35 m c main_c_17 : (⟨S_, .i32⟩ : BufTy).Contents (Elt F))) pads_S1900x1900_S1900x1920_000_0200 h_S_ := by
  have hX : V35 m c main_v67 = V24 m c main_v67 := (V35_of m c main_v67 (by decide)).trans <| (V34_of m c main_v67 (by decide)).trans <| (V33_of m c main_v67 (by decide)).trans <| (V32_of m c main_v67 (by decide)).trans <| (V31_of m c main_v67 (by decide)).trans <| (V30_of m c main_v67 (by decide)).trans <| (V29_of m c main_v67 (by decide)).trans <| (V28_of m c main_v67 (by decide)).trans <| (V27_of m c main_v67 (by decide)).trans <| (V26_of m c main_v67 (by decide)).trans <| (V25_of m c main_v67 (by decide))
  have hW : (V24 m c main_v67 : (⟨S1900x1920, .f32⟩ : BufTy).Contents (Elt F)) = pad S1900x1920 ![0, 0] ![0, 20] ![0, 0] (V23 m c main_v63 : (⟨S1900x1900, .f32⟩ : BufTy).Contents (Elt F)) (sitofp (F := F) .f32 (V23 m c main_c_17 : (⟨S_, .i32⟩ : BufTy).Contents (Elt F))) pads_S1900x1900_S1900x1920_000_0200 h_S_ := by
    dsimp only [V24, hostOps0_23]; generalize V23 m c = W; after_results <;> rfl
  have hA0 : V35 m c main_v63 = V23 m c main_v63 := (V35_of m c main_v63 (by decide)).trans <| (V34_of m c main_v63 (by decide)).trans <| (V33_of m c main_v63 (by decide)).trans <| (V32_of m c main_v63 (by decide)).trans <| (V31_of m c main_v63 (by decide)).trans <| (V30_of m c main_v63 (by decide)).trans <| (V29_of m c main_v63 (by decide)).trans <| (V28_of m c main_v63 (by decide)).trans <| (V27_of m c main_v63 (by decide)).trans <| (V26_of m c main_v63 (by decide)).trans <| (V25_of m c main_v63 (by decide)).trans <| (V24_of m c main_v63 (by decide))
  have hA1 : V35 m c main_c_17 = V23 m c main_c_17 := (V35_of m c main_c_17 (by decide)).trans <| (V34_of m c main_c_17 (by decide)).trans <| (V33_of m c main_c_17 (by decide)).trans <| (V32_of m c main_c_17 (by decide)).trans <| (V31_of m c main_c_17 (by decide)).trans <| (V30_of m c main_c_17 (by decide)).trans <| (V29_of m c main_c_17 (by decide)).trans <| (V28_of m c main_c_17 (by decide)).trans <| (V27_of m c main_c_17 (by decide)).trans <| (V26_of m c main_c_17 (by decide)).trans <| (V25_of m c main_c_17 (by decide)).trans <| (V24_of m c main_c_17 (by decide))
  rw [hX, hW, hA0, hA1]

/-- `v69` is `v68` padded after its last row with the converted integer zero. -/
theorem E_v69 (c : Dev nD) :
    (V35 m c main_v69 : (⟨S1920x7680, .f32⟩ : BufTy).Contents (Elt F)) = pad S1920x7680 ![0, 0] ![20, 0] ![0, 0] (V35 m c main_v68 : (⟨S1900x7680, .f32⟩ : BufTy).Contents (Elt F)) (sitofp (F := F) .f32 (V35 m c main_c_18 : (⟨S_, .i32⟩ : BufTy).Contents (Elt F))) pads_S1900x7680_S1920x7680_0200_000 h_S_ := by
  have hX : V35 m c main_v69 = V26 m c main_v69 := (V35_of m c main_v69 (by decide)).trans <| (V34_of m c main_v69 (by decide)).trans <| (V33_of m c main_v69 (by decide)).trans <| (V32_of m c main_v69 (by decide)).trans <| (V31_of m c main_v69 (by decide)).trans <| (V30_of m c main_v69 (by decide)).trans <| (V29_of m c main_v69 (by decide)).trans <| (V28_of m c main_v69 (by decide)).trans <| (V27_of m c main_v69 (by decide))
  have hW : (V26 m c main_v69 : (⟨S1920x7680, .f32⟩ : BufTy).Contents (Elt F)) = pad S1920x7680 ![0, 0] ![20, 0] ![0, 0] (V25 m c main_v68 : (⟨S1900x7680, .f32⟩ : BufTy).Contents (Elt F)) (sitofp (F := F) .f32 (V25 m c main_c_18 : (⟨S_, .i32⟩ : BufTy).Contents (Elt F))) pads_S1900x7680_S1920x7680_0200_000 h_S_ := by
    dsimp only [V26, hostOps0_25]; generalize V25 m c = W; after_results <;> rfl
  have hA0 : V35 m c main_v68 = V25 m c main_v68 := (V35_of m c main_v68 (by decide)).trans <| (V34_of m c main_v68 (by decide)).trans <| (V33_of m c main_v68 (by decide)).trans <| (V32_of m c main_v68 (by decide)).trans <| (V31_of m c main_v68 (by decide)).trans <| (V30_of m c main_v68 (by decide)).trans <| (V29_of m c main_v68 (by decide)).trans <| (V28_of m c main_v68 (by decide)).trans <| (V27_of m c main_v68 (by decide)).trans <| (V26_of m c main_v68 (by decide))
  have hA1 : V35 m c main_c_18 = V25 m c main_c_18 := (V35_of m c main_c_18 (by decide)).trans <| (V34_of m c main_c_18 (by decide)).trans <| (V33_of m c main_c_18 (by decide)).trans <| (V32_of m c main_c_18 (by decide)).trans <| (V31_of m c main_c_18 (by decide)).trans <| (V30_of m c main_c_18 (by decide)).trans <| (V29_of m c main_c_18 (by decide)).trans <| (V28_of m c main_c_18 (by decide)).trans <| (V27_of m c main_c_18 (by decide)).trans <| (V26_of m c main_c_18 (by decide))
  rw [hX, hW, hA0, hA1]

/-- `v76` is `v72` padded after its last column with the converted integer zero. -/
theorem E_v76 (c : Dev nD) :
    (V35 m c main_v76 : (⟨S1x1920, .f32⟩ : BufTy).Contents (Elt F)) = pad S1x1920 ![0, 0] ![0, 20] ![0, 0] (V35 m c main_v72 : (⟨S1x1900, .f32⟩ : BufTy).Contents (Elt F)) (sitofp (F := F) .f32 (V35 m c main_c_19 : (⟨S_, .i32⟩ : BufTy).Contents (Elt F))) pads_S1x1900_S1x1920_000_0200 h_S_ := by
  have hX : V35 m c main_v76 = V28 m c main_v76 := (V35_of m c main_v76 (by decide)).trans <| (V34_of m c main_v76 (by decide)).trans <| (V33_of m c main_v76 (by decide)).trans <| (V32_of m c main_v76 (by decide)).trans <| (V31_of m c main_v76 (by decide)).trans <| (V30_of m c main_v76 (by decide)).trans <| (V29_of m c main_v76 (by decide))
  have hW : (V28 m c main_v76 : (⟨S1x1920, .f32⟩ : BufTy).Contents (Elt F)) = pad S1x1920 ![0, 0] ![0, 20] ![0, 0] (V27 m c main_v72 : (⟨S1x1900, .f32⟩ : BufTy).Contents (Elt F)) (sitofp (F := F) .f32 (V27 m c main_c_19 : (⟨S_, .i32⟩ : BufTy).Contents (Elt F))) pads_S1x1900_S1x1920_000_0200 h_S_ := by
    dsimp only [V28, hostOps0_27]; generalize V27 m c = W; after_results <;> rfl
  have hA0 : V35 m c main_v72 = V27 m c main_v72 := (V35_of m c main_v72 (by decide)).trans <| (V34_of m c main_v72 (by decide)).trans <| (V33_of m c main_v72 (by decide)).trans <| (V32_of m c main_v72 (by decide)).trans <| (V31_of m c main_v72 (by decide)).trans <| (V30_of m c main_v72 (by decide)).trans <| (V29_of m c main_v72 (by decide)).trans <| (V28_of m c main_v72 (by decide))
  have hA1 : V35 m c main_c_19 = V27 m c main_c_19 := (V35_of m c main_c_19 (by decide)).trans <| (V34_of m c main_c_19 (by decide)).trans <| (V33_of m c main_c_19 (by decide)).trans <| (V32_of m c main_c_19 (by decide)).trans <| (V31_of m c main_c_19 (by decide)).trans <| (V30_of m c main_c_19 (by decide)).trans <| (V29_of m c main_c_19 (by decide)).trans <| (V28_of m c main_c_19 (by decide))
  rw [hX, hW, hA0, hA1]

/-- `v77` is `v73` padded after its last column with the converted integer zero. -/
theorem E_v77 (c : Dev nD) :
    (V35 m c main_v77 : (⟨S1x1920, .f32⟩ : BufTy).Contents (Elt F)) = pad S1x1920 ![0, 0] ![0, 20] ![0, 0] (V35 m c main_v73 : (⟨S1x1900, .f32⟩ : BufTy).Contents (Elt F)) (sitofp (F := F) .f32 (V35 m c main_c_20 : (⟨S_, .i32⟩ : BufTy).Contents (Elt F))) pads_S1x1900_S1x1920_000_0200 h_S_ := by
  have hX : V35 m c main_v77 = V30 m c main_v77 := (V35_of m c main_v77 (by decide)).trans <| (V34_of m c main_v77 (by decide)).trans <| (V33_of m c main_v77 (by decide)).trans <| (V32_of m c main_v77 (by decide)).trans <| (V31_of m c main_v77 (by decide))
  have hW : (V30 m c main_v77 : (⟨S1x1920, .f32⟩ : BufTy).Contents (Elt F)) = pad S1x1920 ![0, 0] ![0, 20] ![0, 0] (V29 m c main_v73 : (⟨S1x1900, .f32⟩ : BufTy).Contents (Elt F)) (sitofp (F := F) .f32 (V29 m c main_c_20 : (⟨S_, .i32⟩ : BufTy).Contents (Elt F))) pads_S1x1900_S1x1920_000_0200 h_S_ := by
    dsimp only [V30, hostOps0_29]; generalize V29 m c = W; after_results <;> rfl
  have hA0 : V35 m c main_v73 = V29 m c main_v73 := (V35_of m c main_v73 (by decide)).trans <| (V34_of m c main_v73 (by decide)).trans <| (V33_of m c main_v73 (by decide)).trans <| (V32_of m c main_v73 (by decide)).trans <| (V31_of m c main_v73 (by decide)).trans <| (V30_of m c main_v73 (by decide))
  have hA1 : V35 m c main_c_20 = V29 m c main_c_20 := (V35_of m c main_c_20 (by decide)).trans <| (V34_of m c main_c_20 (by decide)).trans <| (V33_of m c main_c_20 (by decide)).trans <| (V32_of m c main_c_20 (by decide)).trans <| (V31_of m c main_c_20 (by decide)).trans <| (V30_of m c main_c_20 (by decide))
  rw [hX, hW, hA0, hA1]

/-- `v78` is `v74` padded after its last column with the converted integer zero. -/
theorem E_v78 (c : Dev nD) :
    (V35 m c main_v78 : (⟨S1x1920, .f32⟩ : BufTy).Contents (Elt F)) = pad S1x1920 ![0, 0] ![0, 20] ![0, 0] (V35 m c main_v74 : (⟨S1x1900, .f32⟩ : BufTy).Contents (Elt F)) (sitofp (F := F) .f32 (V35 m c main_c_21 : (⟨S_, .i32⟩ : BufTy).Contents (Elt F))) pads_S1x1900_S1x1920_000_0200 h_S_ := by
  have hX : V35 m c main_v78 = V32 m c main_v78 := (V35_of m c main_v78 (by decide)).trans <| (V34_of m c main_v78 (by decide)).trans <| (V33_of m c main_v78 (by decide))
  have hW : (V32 m c main_v78 : (⟨S1x1920, .f32⟩ : BufTy).Contents (Elt F)) = pad S1x1920 ![0, 0] ![0, 20] ![0, 0] (V31 m c main_v74 : (⟨S1x1900, .f32⟩ : BufTy).Contents (Elt F)) (sitofp (F := F) .f32 (V31 m c main_c_21 : (⟨S_, .i32⟩ : BufTy).Contents (Elt F))) pads_S1x1900_S1x1920_000_0200 h_S_ := by
    dsimp only [V32, hostOps0_31]; generalize V31 m c = W; after_results <;> rfl
  have hA0 : V35 m c main_v74 = V31 m c main_v74 := (V35_of m c main_v74 (by decide)).trans <| (V34_of m c main_v74 (by decide)).trans <| (V33_of m c main_v74 (by decide)).trans <| (V32_of m c main_v74 (by decide))
  have hA1 : V35 m c main_c_21 = V31 m c main_c_21 := (V35_of m c main_c_21 (by decide)).trans <| (V34_of m c main_c_21 (by decide)).trans <| (V33_of m c main_c_21 (by decide)).trans <| (V32_of m c main_c_21 (by decide))
  rw [hX, hW, hA0, hA1]

/-- `v79` is `v75` padded after its last column with the converted integer zero. -/
theorem E_v79 (c : Dev nD) :
    (V35 m c main_v79 : (⟨S1x1920, .f32⟩ : BufTy).Contents (Elt F)) = pad S1x1920 ![0, 0] ![0, 20] ![0, 0] (V35 m c main_v75 : (⟨S1x1900, .f32⟩ : BufTy).Contents (Elt F)) (sitofp (F := F) .f32 (V35 m c main_c_22 : (⟨S_, .i32⟩ : BufTy).Contents (Elt F))) pads_S1x1900_S1x1920_000_0200 h_S_ := by
  have hX : V35 m c main_v79 = V34 m c main_v79 := (V35_of m c main_v79 (by decide))
  have hW : (V34 m c main_v79 : (⟨S1x1920, .f32⟩ : BufTy).Contents (Elt F)) = pad S1x1920 ![0, 0] ![0, 20] ![0, 0] (V33 m c main_v75 : (⟨S1x1900, .f32⟩ : BufTy).Contents (Elt F)) (sitofp (F := F) .f32 (V33 m c main_c_22 : (⟨S_, .i32⟩ : BufTy).Contents (Elt F))) pads_S1x1900_S1x1920_000_0200 h_S_ := by
    dsimp only [V34, hostOps0_33]; generalize V33 m c = W; after_results <;> rfl
  have hA0 : V35 m c main_v75 = V33 m c main_v75 := (V35_of m c main_v75 (by decide)).trans <| (V34_of m c main_v75 (by decide))
  have hA1 : V35 m c main_c_22 = V33 m c main_c_22 := (V35_of m c main_c_22 (by decide)).trans <| (V34_of m c main_c_22 (by decide))
  rw [hX, hW, hA0, hA1]

/-- `v70` is `v69` narrowed to the 16-bit format. -/
theorem E_v70 (c : Dev nD) :
    (V35 m c main_v70 : (⟨S1920x7680, .bf16⟩ : BufTy).Contents (Elt F)) = truncf .bf16 (V35 m c main_v69 : (⟨S1920x7680, .f32⟩ : BufTy).Contents (Elt F)) bitsLt_bf16_f32 := by
  have hX : V35 m c main_v70 = V27 m c main_v70 := (V35_of m c main_v70 (by decide)).trans <| (V34_of m c main_v70 (by decide)).trans <| (V33_of m c main_v70 (by decide)).trans <| (V32_of m c main_v70 (by decide)).trans <| (V31_of m c main_v70 (by decide)).trans <| (V30_of m c main_v70 (by decide)).trans <| (V29_of m c main_v70 (by decide)).trans <| (V28_of m c main_v70 (by decide))
  have hW : (V27 m c main_v70 : (⟨S1920x7680, .bf16⟩ : BufTy).Contents (Elt F)) = truncf .bf16 (V26 m c main_v69 : (⟨S1920x7680, .f32⟩ : BufTy).Contents (Elt F)) bitsLt_bf16_f32 := by
    dsimp only [V27, hostOps0_26]; generalize V26 m c = W; after_results <;> rfl
  have hA0 : V35 m c main_v69 = V26 m c main_v69 := (V35_of m c main_v69 (by decide)).trans <| (V34_of m c main_v69 (by decide)).trans <| (V33_of m c main_v69 (by decide)).trans <| (V32_of m c main_v69 (by decide)).trans <| (V31_of m c main_v69 (by decide)).trans <| (V30_of m c main_v69 (by decide)).trans <| (V29_of m c main_v69 (by decide)).trans <| (V28_of m c main_v69 (by decide)).trans <| (V27_of m c main_v69 (by decide))
  rw [hX, hW, hA0]

/-- `v50`: columns 0 … 1899 of the normalised input weights `v10`. -/
theorem E_v50 (c : Dev nD) :
    (V35 m c main_v50 : (⟨S10x1900, .f32⟩ : BufTy).Contents (Elt F)) = extractStridedSlice S10x1900 ![0, 0] (V35 m c main_v10 : (⟨S10x7600, .f32⟩ : BufTy).Contents (Elt F)) slices_S10x7600_S10x1900_0_0 := by
  have hX : V35 m c main_v50 = V9 m c main_v50 := (V35_of m c main_v50 (by decide)).trans <| (V34_of m c main_v50 (by decide)).trans <| (V33_of m c main_v50 (by decide)).trans <| (V32_of m c main_v50 (by decide)).trans <| (V31_of m c main_v50 (by decide)).trans <| (V30_of m c main_v50 (by decide)).trans <| (V29_of m c main_v50 (by decide)).trans <| (V28_of m c main_v50 (by decide)).trans <| (V27_of m c main_v50 (by decide)).trans <| (V26_of m c main_v50 (by decide)).trans <| (V25_of m c main_v50 (by decide)).trans <| (V24_of m c main_v50 (by decide)).trans <| (V23_of m c main_v50 (by decide)).trans <| (V22_of m c main_v50 (by decide)).trans <| (V21_of m c main_v50 (by decide)).trans <| (V20_of m c main_v50 (by decide)).trans <| (V19_of m c main_v50 (by decide)).trans <| (V18_of m c main_v50 (by decide)).trans <| (V17_of m c main_v50 (by decide)).trans <| (V16_of m c main_v50 (by decide)).trans <| (V15_of m c main_v50 (by decide)).trans <| (V14_of m c main_v50 (by decide)).trans <| (V13_of m c main_v50 (by decide)).trans <| (V12_of m c main_v50 (by decide)).trans <| (V11_of m c main_v50 (by decide)).trans <| (V10_of m c main_v50 (by decide))
  have hW : (V9 m c main_v50 : (⟨S10x1900, .f32⟩ : BufTy).Contents (Elt F)) = extractStridedSlice S10x1900 ![0, 0] (V8 m c main_v10 : (⟨S10x7600, .f32⟩ : BufTy).Contents (Elt F)) slices_S10x7600_S10x1900_0_0 := by
    dsimp only [V9, hostOps0_8]; generalize V8 m c = W; after_results <;> rfl
  have hA0 : V35 m c main_v10 = V8 m c main_v10 := (V35_of m c main_v10 (by decide)).trans <| (V34_of m c main_v10 (by decide)).trans <| (V33_of m c main_v10 (by decide)).trans <| (V32_of m c main_v10 (by decide)).trans <| (V31_of m c main_v10 (by decide)).trans <| (V30_of m c main_v10 (by decide)).trans <| (V29_of m c main_v10 (by decide)).trans <| (V28_of m c main_v10 (by decide)).trans <| (V27_of m c main_v10 (by decide)).trans <| (V26_of m c main_v10 (by decide)).trans <| (V25_of m c main_v10 (by decide)).trans <| (V24_of m c main_v10 (by decide)).trans <| (V23_of m c main_v10 (by decide)).trans <| (V22_of m c main_v10 (by decide)).trans <| (V21_of m c main_v10 (by decide)).trans <| (V20_of m c main_v10 (by decide)).trans <| (V19_of m c main_v10 (by decide)).trans <| (V18_of m c main_v10 (by decide)).trans <| (V17_of m c main_v10 (by decide)).trans <| (V16_of m c main_v10 (by decide)).trans <| (V15_of m c main_v10 (by decide)).trans <| (V14_of m c main_v10 (by decide)).trans <| (V13_of m c main_v10 (by decide)).trans <| (V12_of m c main_v10 (by decide)).trans <| (V11_of m c main_v10 (by decide)).trans <| (V10_of m c main_v10 (by decide)).trans <| (V9_of m c main_v10 (by decide))
  rw [hX, hW, hA0]

/-- `v51`: columns 1900 … 3799 of the normalised input weights `v10`. -/
theorem E_v51 (c : Dev nD) :
    (V35 m c main_v51 : (⟨S10x1900, .f32⟩ : BufTy).Contents (Elt F)) = extractStridedSlice S10x1900 ![0, 1900] (V35 m c main_v10 : (⟨S10x7600, .f32⟩ : BufTy).Contents (Elt F)) slices_S10x7600_S10x1900_0_1900 := by
  have hX : V35 m c main_v51 = V9 m c main_v51 := (V35_of m c main_v51 (by decide)).trans <| (V34_of m c main_v51 (by decide)).trans <| (V33_of m c main_v51 (by decide)).trans <| (V32_of m c main_v51 (by decide)).trans <| (V31_of m c main_v51 (by decide)).trans <| (V30_of m c main_v51 (by decide)).trans <| (V29_of m c main_v51 (by decide)).trans <| (V28_of m c main_v51 (by decide)).trans <| (V27_of m c main_v51 (by decide)).trans <| (V26_of m c main_v51 (by decide)).trans <| (V25_of m c main_v51 (by decide)).trans <| (V24_of m c main_v51 (by decide)).trans <| (V23_of m c main_v51 (by decide)).trans <| (V22_of m c main_v51 (by decide)).trans <| (V21_of m c main_v51 (by decide)).trans <| (V20_of m c main_v51 (by decide)).trans <| (V19_of m c main_v51 (by decide)).trans <| (V18_of m c main_v51 (by decide)).trans <| (V17_of m c main_v51 (by decide)).trans <| (V16_of m c main_v51 (by decide)).trans <| (V15_of m c main_v51 (by decide)).trans <| (V14_of m c main_v51 (by decide)).trans <| (V13_of m c main_v51 (by decide)).trans <| (V12_of m c main_v51 (by decide)).trans <| (V11_of m c main_v51 (by decide)).trans <| (V10_of m c main_v51 (by decide))
  have hW : (V9 m c main_v51 : (⟨S10x1900, .f32⟩ : BufTy).Contents (Elt F)) = extractStridedSlice S10x1900 ![0, 1900] (V8 m c main_v10 : (⟨S10x7600, .f32⟩ : BufTy).Contents (Elt F)) slices_S10x7600_S10x1900_0_1900 := by
    dsimp only [V9, hostOps0_8]; generalize V8 m c = W; after_results <;> rfl
  have hA0 : V35 m c main_v10 = V8 m c main_v10 := (V35_of m c main_v10 (by decide)).trans <| (V34_of m c main_v10 (by decide)).trans <| (V33_of m c main_v10 (by decide)).trans <| (V32_of m c main_v10 (by decide)).trans <| (V31_of m c main_v10 (by decide)).trans <| (V30_of m c main_v10 (by decide)).trans <| (V29_of m c main_v10 (by decide)).trans <| (V28_of m c main_v10 (by decide)).trans <| (V27_of m c main_v10 (by decide)).trans <| (V26_of m c main_v10 (by decide)).trans <| (V25_of m c main_v10 (by decide)).trans <| (V24_of m c main_v10 (by decide)).trans <| (V23_of m c main_v10 (by decide)).trans <| (V22_of m c main_v10 (by decide)).trans <| (V21_of m c main_v10 (by decide)).trans <| (V20_of m c main_v10 (by decide)).trans <| (V19_of m c main_v10 (by decide)).trans <| (V18_of m c main_v10 (by decide)).trans <| (V17_of m c main_v10 (by decide)).trans <| (V16_of m c main_v10 (by decide)).trans <| (V15_of m c main_v10 (by decide)).trans <| (V14_of m c main_v10 (by decide)).trans <| (V13_of m c main_v10 (by decide)).trans <| (V12_of m c main_v10 (by decide)).trans <| (V11_of m c main_v10 (by decide)).trans <| (V10_of m c main_v10 (by decide)).trans <| (V9_of m c main_v10 (by decide))
  rw [hX, hW, hA0]

/-- `v52`: columns 3800 … 5699 of the normalised input weights `v10`. -/
theorem E_v52 (c : Dev nD) :
    (V35 m c main_v52 : (⟨S10x1900, .f32⟩ : BufTy).Contents (Elt F)) = extractStridedSlice S10x1900 ![0, 3800] (V35 m c main_v10 : (⟨S10x7600, .f32⟩ : BufTy).Contents (Elt F)) slices_S10x7600_S10x1900_0_3800 := by
  have hX : V35 m c main_v52 = V9 m c main_v52 := (V35_of m c main_v52 (by decide)).trans <| (V34_of m c main_v52 (by decide)).trans <| (V33_of m c main_v52 (by decide)).trans <| (V32_of m c main_v52 (by decide)).trans <| (V31_of m c main_v52 (by decide)).trans <| (V30_of m c main_v52 (by decide)).trans <| (V29_of m c main_v52 (by decide)).trans <| (V28_of m c main_v52 (by decide)).trans <| (V27_of m c main_v52 (by decide)).trans <| (V26_of m c main_v52 (by decide)).trans <| (V25_of m c main_v52 (by decide)).trans <| (V24_of m c main_v52 (by decide)).trans <| (V23_of m c main_v52 (by decide)).trans <| (V22_of m c main_v52 (by decide)).trans <| (V21_of m c main_v52 (by decide)).trans <| (V20_of m c main_v52 (by decide)).trans <| (V19_of m c main_v52 (by decide)).trans <| (V18_of m c main_v52 (by decide)).trans <| (V17_of m c main_v52 (by decide)).trans <| (V16_of m c main_v52 (by decide)).trans <| (V15_of m c main_v52 (by decide)).trans <| (V14_of m c main_v52 (by decide)).trans <| (V13_of m c main_v52 (by decide)).trans <| (V12_of m c main_v52 (by decide)).trans <| (V11_of m c main_v52 (by decide)).trans <| (V10_of m c main_v52 (by decide))
  have hW : (V9 m c main_v52 : (⟨S10x1900, .f32⟩ : BufTy).Contents (Elt F)) = extractStridedSlice S10x1900 ![0, 3800] (V8 m c main_v10 : (⟨S10x7600, .f32⟩ : BufTy).Contents (Elt F)) slices_S10x7600_S10x1900_0_3800 := by
    dsimp only [V9, hostOps0_8]; generalize V8 m c = W; after_results <;> rfl
  have hA0 : V35 m c main_v10 = V8 m c main_v10 := (V35_of m c main_v10 (by decide)).trans <| (V34_of m c main_v10 (by decide)).trans <| (V33_of m c main_v10 (by decide)).trans <| (V32_of m c main_v10 (by decide)).trans <| (V31_of m c main_v10 (by decide)).trans <| (V30_of m c main_v10 (by decide)).trans <| (V29_of m c main_v10 (by decide)).trans <| (V28_of m c main_v10 (by decide)).trans <| (V27_of m c main_v10 (by decide)).trans <| (V26_of m c main_v10 (by decide)).trans <| (V25_of m c main_v10 (by decide)).trans <| (V24_of m c main_v10 (by decide)).trans <| (V23_of m c main_v10 (by decide)).trans <| (V22_of m c main_v10 (by decide)).trans <| (V21_of m c main_v10 (by decide)).trans <| (V20_of m c main_v10 (by decide)).trans <| (V19_of m c main_v10 (by decide)).trans <| (V18_of m c main_v10 (by decide)).trans <| (V17_of m c main_v10 (by decide)).trans <| (V16_of m c main_v10 (by decide)).trans <| (V15_of m c main_v10 (by decide)).trans <| (V14_of m c main_v10 (by decide)).trans <| (V13_of m c main_v10 (by decide)).trans <| (V12_of m c main_v10 (by decide)).trans <| (V11_of m c main_v10 (by decide)).trans <| (V10_of m c main_v10 (by decide)).trans <| (V9_of m c main_v10 (by decide))
  rw [hX, hW, hA0]

/-- `v53`: columns 5700 … 7599 of the normalised input weights `v10`. -/
theorem E_v53 (c : Dev nD) :
    (V35 m c main_v53 : (⟨S10x1900, .f32⟩ : BufTy).Contents (Elt F)) = extractStridedSlice S10x1900 ![0, 5700] (V35 m c main_v10 : (⟨S10x7600, .f32⟩ : BufTy).Contents (Elt F)) slices_S10x7600_S10x1900_0_5700 := by
  have hX : V35 m c main_v53 = V9 m c main_v53 := (V35_of m c main_v53 (by decide)).trans <| (V34_of m c main_v53 (by decide)).trans <| (V33_of m c main_v53 (by decide)).trans <| (V32_of m c main_v53 (by decide)).trans <| (V31_of m c main_v53 (by decide)).trans <| (V30_of m c main_v53 (by decide)).trans <| (V29_of m c main_v53 (by decide)).trans <| (V28_of m c main_v53 (by decide)).trans <| (V27_of m c main_v53 (by decide)).trans <| (V26_of m c main_v53 (by decide)).trans <| (V25_of m c main_v53 (by decide)).trans <| (V24_of m c main_v53 (by decide)).trans <| (V23_of m c main_v53 (by decide)).trans <| (V22_of m c main_v53 (by decide)).trans <| (V21_of m c main_v53 (by decide)).trans <| (V20_of m c main_v53 (by decide)).trans <| (V19_of m c main_v53 (by decide)).trans <| (V18_of m c main_v53 (by decide)).trans <| (V17_of m c main_v53 (by decide)).trans <| (V16_of m c main_v53 (by decide)).trans <| (V15_of m c main_v53 (by decide)).trans <| (V14_of m c main_v53 (by decide)).trans <| (V13_of m c main_v53 (by decide)).trans <| (V12_of m c main_v53 (by decide)).trans <| (V11_of m c main_v53 (by decide)).trans <| (V10_of m c main_v53 (by decide))
  have hW : (V9 m c main_v53 : (⟨S10x1900, .f32⟩ : BufTy).Contents (Elt F)) = extractStridedSlice S10x1900 ![0, 5700] (V8 m c main_v10 : (⟨S10x7600, .f32⟩ : BufTy).Contents (Elt F)) slices_S10x7600_S10x1900_0_5700 := by
    dsimp only [V9, hostOps0_8]; generalize V8 m c = W; after_results <;> rfl
  have hA0 : V35 m c main_v10 = V8 m c main_v10 := (V35_of m c main_v10 (by decide)).trans <| (V34_of m c main_v10 (by decide)).trans <| (V33_of m c main_v10 (by decide)).trans <| (V32_of m c main_v10 (by decide)).trans <| (V31_of m c main_v10 (by decide)).trans <| (V30_of m c main_v10 (by decide)).trans <| (V29_of m c main_v10 (by decide)).trans <| (V28_of m c main_v10 (by decide)).trans <| (V27_of m c main_v10 (by decide)).trans <| (V26_of m c main_v10 (by decide)).trans <| (V25_of m c main_v10 (by decide)).trans <| (V24_of m c main_v10 (by decide)).trans <| (V23_of m c main_v10 (by decide)).trans <| (V22_of m c main_v10 (by decide)).trans <| (V21_of m c main_v10 (by decide)).trans <| (V20_of m c main_v10 (by decide)).trans <| (V19_of m c main_v10 (by decide)).trans <| (V18_of m c main_v10 (by decide)).trans <| (V17_of m c main_v10 (by decide)).trans <| (V16_of m c main_v10 (by decide)).trans <| (V15_of m c main_v10 (by decide)).trans <| (V14_of m c main_v10 (by decide)).trans <| (V13_of m c main_v10 (by decide)).trans <| (V12_of m c main_v10 (by decide)).trans <| (V11_of m c main_v10 (by decide)).trans <| (V10_of m c main_v10 (by decide)).trans <| (V9_of m c main_v10 (by decide))
  rw [hX, hW, hA0]

/-- `v60`: columns 0 … 1899 of the normalised hidden weights `v21`. -/
theorem E_v60 (c : Dev nD) :
    (V35 m c main_v60 : (⟨S1900x1900, .f32⟩ : BufTy).Contents (Elt F)) = extractStridedSlice S1900x1900 ![0, 0] (V35 m c main_v21 : (⟨S1900x7600, .f32⟩ : BufTy).Contents (Elt F)) slices_S1900x7600_S1900x1900_0_0 := by
  have hX : V35 m c main_v60 = V17 m c main_v60 := (V35_of m c main_v60 (by decide)).trans <| (V34_of m c main_v60 (by decide)).trans <| (V33_of m c main_v60 (by decide)).trans <| (V32_of m c main_v60 (by decide)).trans <| (V31_of m c main_v60 (by decide)).trans <| (V30_of m c main_v60 (by decide)).trans <| (V29_of m c main_v60 (by decide)).trans <| (V28_of m c main_v60 (by decide)).trans <| (V27_of m c main_v60 (by decide)).trans <| (V26_of m c main_v60 (by decide)).trans <| (V25_of m c main_v60 (by decide)).trans <| (V24_of m c main_v60 (by decide)).trans <| (V23_of m c main_v60 (by decide)).trans <| (V22_of m c main_v60 (by decide)).trans <| (V21_of m c main_v60 (by decide)).trans <| (V20_of m c main_v60 (by decide)).trans <| (V19_of m c main_v60 (by decide)).trans <| (V18_of m c main_v60 (by decide))
  have hW : (V17 m c main_v60 : (⟨S1900x1900, .f32⟩ : BufTy).Contents (Elt F)) = extractStridedSlice S1900x1900 ![0, 0] (V16 m c main_v21 : (⟨S1900x7600, .f32⟩ : BufTy).Contents (Elt F)) slices_S1900x7600_S1900x1900_0_0 := by
    dsimp only [V17, hostOps0_16]; generalize V16 m c = W; after_results <;> rfl
  have hA0 : V35 m c main_v21 = V16 m c main_v21 := (V35_of m c main_v21 (by decide)).trans <| (V34_of m c main_v21 (by decide)).trans <| (V33_of m c main_v21 (by decide)).trans <| (V32_of m c main_v21 (by decide)).trans <| (V31_of m c main_v21 (by decide)).trans <| (V30_of m c main_v21 (by decide)).trans <| (V29_of m c main_v21 (by decide)).trans <| (V28_of m c main_v21 (by decide)).trans <| (V27_of m c main_v21 (by decide)).trans <| (V26_of m c main_v21 (by decide)).trans <| (V25_of m c main_v21 (by decide)).trans <| (V24_of m c main_v21 (by decide)).trans <| (V23_of m c main_v21 (by decide)).trans <| (V22_of m c main_v21 (by decide)).trans <| (V21_of m c main_v21 (by decide)).trans <| (V20_of m c main_v21 (by decide)).trans <| (V19_of m c main_v21 (by decide)).trans <| (V18_of m c main_v21 (by decide)).trans <| (V17_of m c main_v21 (by decide))
  rw [hX, hW, hA0]

/-- `v61`: columns 1900 … 3799 of the normalised hidden weights `v21`. -/
theorem E_v61 (c : Dev nD) :
    (V35 m c main_v61 : (⟨S1900x1900, .f32⟩ : BufTy).Contents (Elt F)) = extractStridedSlice S1900x1900 ![0, 1900] (V35 m c main_v21 : (⟨S1900x7600, .f32⟩ : BufTy).Contents (Elt F)) slices_S1900x7600_S1900x1900_0_1900 := by
  have hX : V35 m c main_v61 = V17 m c main_v61 := (V35_of m c main_v61 (by decide)).trans <| (V34_of m c main_v61 (by decide)).trans <| (V33_of m c main_v61 (by decide)).trans <| (V32_of m c main_v61 (by decide)).trans <| (V31_of m c main_v61 (by decide)).trans <| (V30_of m c main_v61 (by decide)).trans <| (V29_of m c main_v61 (by decide)).trans <| (V28_of m c main_v61 (by decide)).trans <| (V27_of m c main_v61 (by decide)).trans <| (V26_of m c main_v61 (by decide)).trans <| (V25_of m c main_v61 (by decide)).trans <| (V24_of m c main_v61 (by decide)).trans <| (V23_of m c main_v61 (by decide)).trans <| (V22_of m c main_v61 (by decide)).trans <| (V21_of m c main_v61 (by decide)).trans <| (V20_of m c main_v61 (by decide)).trans <| (V19_of m c main_v61 (by decide)).trans <| (V18_of m c main_v61 (by decide))
  have hW : (V17 m c main_v61 : (⟨S1900x1900, .f32⟩ : BufTy).Contents (Elt F)) = extractStridedSlice S1900x1900 ![0, 1900] (V16 m c main_v21 : (⟨S1900x7600, .f32⟩ : BufTy).Contents (Elt F)) slices_S1900x7600_S1900x1900_0_1900 := by
    dsimp only [V17, hostOps0_16]; generalize V16 m c = W; after_results <;> rfl
  have hA0 : V35 m c main_v21 = V16 m c main_v21 := (V35_of m c main_v21 (by decide)).trans <| (V34_of m c main_v21 (by decide)).trans <| (V33_of m c main_v21 (by decide)).trans <| (V32_of m c main_v21 (by decide)).trans <| (V31_of m c main_v21 (by decide)).trans <| (V30_of m c main_v21 (by decide)).trans <| (V29_of m c main_v21 (by decide)).trans <| (V28_of m c main_v21 (by decide)).trans <| (V27_of m c main_v21 (by decide)).trans <| (V26_of m c main_v21 (by decide)).trans <| (V25_of m c main_v21 (by decide)).trans <| (V24_of m c main_v21 (by decide)).trans <| (V23_of m c main_v21 (by decide)).trans <| (V22_of m c main_v21 (by decide)).trans <| (V21_of m c main_v21 (by decide)).trans <| (V20_of m c main_v21 (by decide)).trans <| (V19_of m c main_v21 (by decide)).trans <| (V18_of m c main_v21 (by decide)).trans <| (V17_of m c main_v21 (by decide))
  rw [hX, hW, hA0]

/-- `v62`: columns 3800 … 5699 of the normalised hidden weights `v21`. -/
theorem E_v62 (c : Dev nD) :
    (V35 m c main_v62 : (⟨S1900x1900, .f32⟩ : BufTy).Contents (Elt F)) = extractStridedSlice S1900x1900 ![0, 3800] (V35 m c main_v21 : (⟨S1900x7600, .f32⟩ : BufTy).Contents (Elt F)) slices_S1900x7600_S1900x1900_0_3800 := by
  have hX : V35 m c main_v62 = V17 m c main_v62 := (V35_of m c main_v62 (by decide)).trans <| (V34_of m c main_v62 (by decide)).trans <| (V33_of m c main_v62 (by decide)).trans <| (V32_of m c main_v62 (by decide)).trans <| (V31_of m c main_v62 (by decide)).trans <| (V30_of m c main_v62 (by decide)).trans <| (V29_of m c main_v62 (by decide)).trans <| (V28_of m c main_v62 (by decide)).trans <| (V27_of m c main_v62 (by decide)).trans <| (V26_of m c main_v62 (by decide)).trans <| (V25_of m c main_v62 (by decide)).trans <| (V24_of m c main_v62 (by decide)).trans <| (V23_of m c main_v62 (by decide)).trans <| (V22_of m c main_v62 (by decide)).trans <| (V21_of m c main_v62 (by decide)).trans <| (V20_of m c main_v62 (by decide)).trans <| (V19_of m c main_v62 (by decide)).trans <| (V18_of m c main_v62 (by decide))
  have hW : (V17 m c main_v62 : (⟨S1900x1900, .f32⟩ : BufTy).Contents (Elt F)) = extractStridedSlice S1900x1900 ![0, 3800] (V16 m c main_v21 : (⟨S1900x7600, .f32⟩ : BufTy).Contents (Elt F)) slices_S1900x7600_S1900x1900_0_3800 := by
    dsimp only [V17, hostOps0_16]; generalize V16 m c = W; after_results <;> rfl
  have hA0 : V35 m c main_v21 = V16 m c main_v21 := (V35_of m c main_v21 (by decide)).trans <| (V34_of m c main_v21 (by decide)).trans <| (V33_of m c main_v21 (by decide)).trans <| (V32_of m c main_v21 (by decide)).trans <| (V31_of m c main_v21 (by decide)).trans <| (V30_of m c main_v21 (by decide)).trans <| (V29_of m c main_v21 (by decide)).trans <| (V28_of m c main_v21 (by decide)).trans <| (V27_of m c main_v21 (by decide)).trans <| (V26_of m c main_v21 (by decide)).trans <| (V25_of m c main_v21 (by decide)).trans <| (V24_of m c main_v21 (by decide)).trans <| (V23_of m c main_v21 (by decide)).trans <| (V22_of m c main_v21 (by decide)).trans <| (V21_of m c main_v21 (by decide)).trans <| (V20_of m c main_v21 (by decide)).trans <| (V19_of m c main_v21 (by decide)).trans <| (V18_of m c main_v21 (by decide)).trans <| (V17_of m c main_v21 (by decide))
  rw [hX, hW, hA0]

/-- `v63`: columns 5700 … 7599 of the normalised hidden weights `v21`. -/
theorem E_v63 (c : Dev nD) :
    (V35 m c main_v63 : (⟨S1900x1900, .f32⟩ : BufTy).Contents (Elt F)) = extractStridedSlice S1900x1900 ![0, 5700] (V35 m c main_v21 : (⟨S1900x7600, .f32⟩ : BufTy).Contents (Elt F)) slices_S1900x7600_S1900x1900_0_5700 := by
  have hX : V35 m c main_v63 = V17 m c main_v63 := (V35_of m c main_v63 (by decide)).trans <| (V34_of m c main_v63 (by decide)).trans <| (V33_of m c main_v63 (by decide)).trans <| (V32_of m c main_v63 (by decide)).trans <| (V31_of m c main_v63 (by decide)).trans <| (V30_of m c main_v63 (by decide)).trans <| (V29_of m c main_v63 (by decide)).trans <| (V28_of m c main_v63 (by decide)).trans <| (V27_of m c main_v63 (by decide)).trans <| (V26_of m c main_v63 (by decide)).trans <| (V25_of m c main_v63 (by decide)).trans <| (V24_of m c main_v63 (by decide)).trans <| (V23_of m c main_v63 (by decide)).trans <| (V22_of m c main_v63 (by decide)).trans <| (V21_of m c main_v63 (by decide)).trans <| (V20_of m c main_v63 (by decide)).trans <| (V19_of m c main_v63 (by decide)).trans <| (V18_of m c main_v63 (by decide))
  have hW : (V17 m c main_v63 : (⟨S1900x1900, .f32⟩ : BufTy).Contents (Elt F)) = extractStridedSlice S1900x1900 ![0, 5700] (V16 m c main_v21 : (⟨S1900x7600, .f32⟩ : BufTy).Contents (Elt F)) slices_S1900x7600_S1900x1900_0_5700 := by
    dsimp only [V17, hostOps0_16]; generalize V16 m c = W; after_results <;> rfl
  have hA0 : V35 m c main_v21 = V16 m c main_v21 := (V35_of m c main_v21 (by decide)).trans <| (V34_of m c main_v21 (by decide)).trans <| (V33_of m c main_v21 (by decide)).trans <| (V32_of m c main_v21 (by decide)).trans <| (V31_of m c main_v21 (by decide)).trans <| (V30_of m c main_v21 (by decide)).trans <| (V29_of m c main_v21 (by decide)).trans <| (V28_of m c main_v21 (by decide)).trans <| (V27_of m c main_v21 (by decide)).trans <| (V26_of m c main_v21 (by decide)).trans <| (V25_of m c main_v21 (by decide)).trans <| (V24_of m c main_v21 (by decide)).trans <| (V23_of m c main_v21 (by decide)).trans <| (V22_of m c main_v21 (by decide)).trans <| (V21_of m c main_v21 (by decide)).trans <| (V20_of m c main_v21 (by decide)).trans <| (V19_of m c main_v21 (by decide)).trans <| (V18_of m c main_v21 (by decide)).trans <| (V17_of m c main_v21 (by decide))
  rw [hX, hW, hA0]

/-- `v72`: columns 0 … 1899 of the bias, seen as one row. -/
theorem E_v72 (c : Dev nD) :
    (V35 m c main_v72 : (⟨S1x1900, .f32⟩ : BufTy).Contents (Elt F)) = extractStridedSlice S1x1900 ![0, 0] (shapeCast S1x7600 (V35 m c main_arg7 : (⟨S7600, .f32⟩ : BufTy).Contents (Elt F)) shapeCasts_S7600_S1x7600) slices_S1x7600_S1x1900_0_0 := by
  have hX : V35 m c main_v72 = V27 m c main_v72 := (V35_of m c main_v72 (by decide)).trans <| (V34_of m c main_v72 (by decide)).trans <| (V33_of m c main_v72 (by decide)).trans <| (V32_of m c main_v72 (by decide)).trans <| (V31_of m c main_v72 (by decide)).trans <| (V30_of m c main_v72 (by decide)).trans <| (V29_of m c main_v72 (by decide)).trans <| (V28_of m c main_v72 (by decide))
  have hW : (V27 m c main_v72 : (⟨S1x1900, .f32⟩ : BufTy).Contents (Elt F)) = extractStridedSlice S1x1900 ![0, 0] (shapeCast S1x7600 (V26 m c main_arg7 : (⟨S7600, .f32⟩ : BufTy).Contents (Elt F)) shapeCasts_S7600_S1x7600) slices_S1x7600_S1x1900_0_0 := by
    dsimp only [V27, hostOps0_26]; generalize V26 m c = W; after_results <;> rfl
  have hA0 : V35 m c main_arg7 = V26 m c main_arg7 := (V35_of m c main_arg7 (by decide)).trans <| (V34_of m c main_arg7 (by decide)).trans <| (V33_of m c main_arg7 (by decide)).trans <| (V32_of m c main_arg7 (by decide)).trans <| (V31_of m c main_arg7 (by decide)).trans <| (V30_of m c main_arg7 (by decide)).trans <| (V29_of m c main_arg7 (by decide)).trans <| (V28_of m c main_arg7 (by decide)).trans <| (V27_of m c main_arg7 (by decide))
  rw [hX, hW, hA0]

/-- `v73`: columns 1900 … 3799 of the bias, seen as one row. -/
theorem E_v73 (c : Dev nD) :
    (V35 m c main_v73 : (⟨S1x1900, .f32⟩ : BufTy).Contents (Elt F)) = extractStridedSlice S1x1900 ![0, 1900] (shapeCast S1x7600 (V35 m c main_arg7 : (⟨S7600, .f32⟩ : BufTy).Contents (Elt F)) shapeCasts_S7600_S1x7600) slices_S1x7600_S1x1900_0_1900 := by
  have hX : V35 m c main_v73 = V27 m c main_v73 := (V35_of m c main_v73 (by decide)).trans <| (V34_of m c main_v73 (by decide)).trans <| (V33_of m c main_v73 (by decide)).trans <| (V32_of m c main_v73 (by decide)).trans <| (V31_of m c main_v73 (by decide)).trans <| (V30_of m c main_v73 (by decide)).trans <| (V29_of m c main_v73 (by decide)).trans <| (V28_of m c main_v73 (by decide))
  have hW : (V27 m c main_v73 : (⟨S1x1900, .f32⟩ : BufTy).Contents (Elt F)) = extractStridedSlice S1x1900 ![0, 1900] (shapeCast S1x7600 (V26 m c main_arg7 : (⟨S7600, .f32⟩ : BufTy).Contents (Elt F)) shapeCasts_S7600_S1x7600) slices_S1x7600_S1x1900_0_1900 := by
    dsimp only [V27, hostOps0_26]; generalize V26 m c = W; after_results <;> rfl
  have hA0 : V35 m c main_arg7 = V26 m c main_arg7 := (V35_of m c main_arg7 (by decide)).trans <| (V34_of m c main_arg7 (by decide)).trans <| (V33_of m c main_arg7 (by decide)).trans <| (V32_of m c main_arg7 (by decide)).trans <| (V31_of m c main_arg7 (by decide)).trans <| (V30_of m c main_arg7 (by decide)).trans <| (V29_of m c main_arg7 (by decide)).trans <| (V28_of m c main_arg7 (by decide)).trans <| (V27_of m c main_arg7 (by decide))
  rw [hX, hW, hA0]

/-- `v74`: columns 3800 … 5699 of the bias, seen as one row. -/
theorem E_v74 (c : Dev nD) :
    (V35 m c main_v74 : (⟨S1x1900, .f32⟩ : BufTy).Contents (Elt F)) = extractStridedSlice S1x1900 ![0, 3800] (shapeCast S1x7600 (V35 m c main_arg7 : (⟨S7600, .f32⟩ : BufTy).Contents (Elt F)) shapeCasts_S7600_S1x7600) slices_S1x7600_S1x1900_0_3800 := by
  have hX : V35 m c main_v74 = V27 m c main_v74 := (V35_of m c main_v74 (by decide)).trans <| (V34_of m c main_v74 (by decide)).trans <| (V33_of m c main_v74 (by decide)).trans <| (V32_of m c main_v74 (by decide)).trans <| (V31_of m c main_v74 (by decide)).trans <| (V30_of m c main_v74 (by decide)).trans <| (V29_of m c main_v74 (by decide)).trans <| (V28_of m c main_v74 (by decide))
  have hW : (V27 m c main_v74 : (⟨S1x1900, .f32⟩ : BufTy).Contents (Elt F)) = extractStridedSlice S1x1900 ![0, 3800] (shapeCast S1x7600 (V26 m c main_arg7 : (⟨S7600, .f32⟩ : BufTy).Contents (Elt F)) shapeCasts_S7600_S1x7600) slices_S1x7600_S1x1900_0_3800 := by
    dsimp only [V27, hostOps0_26]; generalize V26 m c = W; after_results <;> rfl
  have hA0 : V35 m c main_arg7 = V26 m c main_arg7 := (V35_of m c main_arg7 (by decide)).trans <| (V34_of m c main_arg7 (by decide)).trans <| (V33_of m c main_arg7 (by decide)).trans <| (V32_of m c main_arg7 (by decide)).trans <| (V31_of m c main_arg7 (by decide)).trans <| (V30_of m c main_arg7 (by decide)).trans <| (V29_of m c main_arg7 (by decide)).trans <| (V28_of m c main_arg7 (by decide)).trans <| (V27_of m c main_arg7 (by decide))
  rw [hX, hW, hA0]

/-- `v75`: columns 5700 … 7599 of the bias, seen as one row. -/
theorem E_v75 (c : Dev nD) :
    (V35 m c main_v75 : (⟨S1x1900, .f32⟩ : BufTy).Contents (Elt F)) = extractStridedSlice S1x1900 ![0, 5700] (shapeCast S1x7600 (V35 m c main_arg7 : (⟨S7600, .f32⟩ : BufTy).Contents (Elt F)) shapeCasts_S7600_S1x7600) slices_S1x7600_S1x1900_0_5700 := by
  have hX : V35 m c main_v75 = V27 m c main_v75 := (V35_of m c main_v75 (by decide)).trans <| (V34_of m c main_v75 (by decide)).trans <| (V33_of m c main_v75 (by decide)).trans <| (V32_of m c main_v75 (by decide)).trans <| (V31_of m c main_v75 (by decide)).trans <| (V30_of m c main_v75 (by decide)).trans <| (V29_of m c main_v75 (by decide)).trans <| (V28_of m c main_v75 (by decide))
  have hW : (V27 m c main_v75 : (⟨S1x1900, .f32⟩ : BufTy).Contents (Elt F)) = extractStridedSlice S1x1900 ![0, 5700] (shapeCast S1x7600 (V26 m c main_arg7 : (⟨S7600, .f32⟩ : BufTy).Contents (Elt F)) shapeCasts_S7600_S1x7600) slices_S1x7600_S1x1900_0_5700 := by
    dsimp only [V27, hostOps0_26]; generalize V26 m c = W; after_results <;> rfl
  have hA0 : V35 m c main_arg7 = V26 m c main_arg7 := (V35_of m c main_arg7 (by decide)).trans <| (V34_of m c main_arg7 (by decide)).trans <| (V33_of m c main_arg7 (by decide)).trans <| (V32_of m c main_arg7 (by decide)).trans <| (V31_of m c main_arg7 (by decide)).trans <| (V30_of m c main_arg7 (by decide)).trans <| (V29_of m c main_arg7 (by decide)).trans <| (V28_of m c main_arg7 (by decide)).trans <| (V27_of m c main_arg7 (by decide))
  rw [hX, hW, hA0]

/-- `v59`: the four padded gate blocks of the input weights side by side, narrowed to the 16-bit format. -/
theorem E_v59 (c : Dev nD) :
    (V35 m c main_v59 : (⟨S10x7680, .bf16⟩ : BufTy).Contents (Elt F)) = truncf .bf16 (concatenate S10x7680 1 [⟨S10x1920, (V35 m c main_v54 : (⟨S10x1920, .f32⟩ : BufTy).Contents (Elt F))⟩, ⟨S10x1920, (V35 m c main_v55 : (⟨S10x1920, .f32⟩ : BufTy).Contents (Elt F))⟩, ⟨S10x1920, (V35 m c main_v56 : (⟨S10x1920, .f32⟩ : BufTy).Contents (Elt F))⟩, ⟨S10x1920, (V35 m c main_v57 : (⟨S10x1920, .f32⟩ : BufTy).Contents (Elt F))⟩] concatenates_S10x1920_S10x1920_S10x1920_S10x1920_S10x7680_d1 : (⟨S10x7680, .f32⟩ : BufTy).Contents (Elt F)) bitsLt_bf16_f32 := by
  have hX : V35 m c main_v59 = V17 m c main_v59 := (V35_of m c main_v59 (by decide)).trans <| (V34_of m c main_v59 (by decide)).trans <| (V33_of m c main_v59 (by decide)).trans <| (V32_of m c main_v59 (by decide)).trans <| (V31_of m c main_v59 (by decide)).trans <| (V30_of m c main_v59 (by decide)).trans <| (V29_of m c main_v59 (by decide)).trans <| (V28_of m c main_v59 (by decide)).trans <| (V27_of m c main_v59 (by decide)).trans <| (V26_of m c main_v59 (by decide)).trans <| (V25_of m c main_v59 (by decide)).trans <| (V24_of m c main_v59 (by decide)).trans <| (V23_of m c main_v59 (by decide)).trans <| (V22_of m c main_v59 (by decide)).trans <| (V21_of m c main_v59 (by decide)).trans <| (V20_of m c main_v59 (by decide)).trans <| (V19_of m c main_v59 (by decide)).trans <| (V18_of m c main_v59 (by decide))
  have hW : (V17 m c main_v59 : (⟨S10x7680, .bf16⟩ : BufTy).Contents (Elt F)) = truncf .bf16 (concatenate S10x7680 1 [⟨S10x1920, (V16 m c main_v54 : (⟨S10x1920, .f32⟩ : BufTy).Contents (Elt F))⟩, ⟨S10x1920, (V16 m c main_v55 : (⟨S10x1920, .f32⟩ : BufTy).Contents (Elt F))⟩, ⟨S10x1920, (V16 m c main_v56 : (⟨S10x1920, .f32⟩ : BufTy).Contents (Elt F))⟩, ⟨S10x1920, (V16 m c main_v57 : (⟨S10x1920, .f32⟩ : BufTy).Contents (Elt F))⟩] concatenates_S10x1920_S10x1920_S10x1920_S10x1920_S10x7680_d1 : (⟨S10x7680, .f32⟩ : BufTy).Contents (Elt F)) bitsLt_bf16_f32 := by
    dsimp only [V17, hostOps0_16]; generalize V16 m c = W; after_results <;> rfl
  have hA0 : V35 m c main_v54 = V16 m c main_v54 := (V35_of m c main_v54 (by decide)).trans <| (V34_of m c main_v54 (by decide)).trans <| (V33_of m c main_v54 (by decide)).trans <| (V32_of m c main_v54 (by decide)).trans <| (V31_of m c main_v54 (by decide)).trans <| (V30_of m c main_v54 (by decide)).trans <| (V29_of m c main_v54 (by decide)).trans <| (V28_of m c main_v54 (by decide)).trans <| (V27_of m c main_v54 (by decide)).trans <| (V26_of m c main_v54 (by decide)).trans <| (V25_of m c main_v54 (by decide)).trans <| (V24_of m c main_v54 (by decide)).trans <| (V23_of m c main_v54 (by decide)).trans <| (V22_of m c main_v54 (by decide)).trans <| (V21_of m c main_v54 (by decide)).trans <| (V20_of m c main_v54 (by decide)).trans <| (V19_of m c main_v54 (by decide)).trans <| (V18_of m c main_v54 (by decide)).trans <| (V17_of m c main_v54 (by decide))
  have hA1 : V35 m c main_v55 = V16 m c main_v55 := (V35_of m c main_v55 (by decide)).trans <| (V34_of m c main_v55 (by decide)).trans <| (V33_of m c main_v55 (by decide)).trans <| (V32_of m c main_v55 (by decide)).trans <| (V31_of m c main_v55 (by decide)).trans <| (V30_of m c main_v55 (by decide)).trans <| (V29_of m c main_v55 (by decide)).trans <| (V28_of m c main_v55 (by decide)).trans <| (V27_of m c main_v55 (by decide)).trans <| (V26_of m c main_v55 (by decide)).trans <| (V25_of m c main_v55 (by decide)).trans <| (V24_of m c main_v55 (by decide)).trans <| (V23_of m c main_v55 (by decide)).trans <| (V22_of m c main_v55 (by decide)).trans <| (V21_of m c main_v55 (by decide)).trans <| (V20_of m c main_v55 (by decide)).trans <| (V19_of m c main_v55 (by decide)).trans <| (V18_of m c main_v55 (by decide)).trans <| (V17_of m c main_v55 (by decide))
  have hA2 : V35 m c main_v56 = V16 m c main_v56 := (V35_of m c main_v56 (by decide)).trans <| (V34_of m c main_v56 (by decide)).trans <| (V33_of m c main_v56 (by decide)).trans <| (V32_of m c main_v56 (by decide)).trans <| (V31_of m c main_v56 (by decide)).trans <| (V30_of m c main_v56 (by decide)).trans <| (V29_of m c main_v56 (by decide)).trans <| (V28_of m c main_v56 (by decide)).trans <| (V27_of m c main_v56 (by decide)).trans <| (V26_of m c main_v56 (by decide)).trans <| (V25_of m c main_v56 (by decide)).trans <| (V24_of m c main_v56 (by decide)).trans <| (V23_of m c main_v56 (by decide)).trans <| (V22_of m c main_v56 (by decide)).trans <| (V21_of m c main_v56 (by decide)).trans <| (V20_of m c main_v56 (by decide)).trans <| (V19_of m c main_v56 (by decide)).trans <| (V18_of m c main_v56 (by decide)).trans <| (V17_of m c main_v56 (by decide))
  have hA3 : V35 m c main_v57 = V16 m c main_v57 := (V35_of m c main_v57 (by decide)).trans <| (V34_of m c main_v57 (by decide)).trans <| (V33_of m c main_v57 (by decide)).trans <| (V32_of m c main_v57 (by decide)).trans <| (V31_of m c main_v57 (by decide)).trans <| (V30_of m c main_v57 (by decide)).trans <| (V29_of m c main_v57 (by decide)).trans <| (V28_of m c main_v57 (by decide)).trans <| (V27_of m c main_v57 (by decide)).trans <| (V26_of m c main_v57 (by decide)).trans <| (V25_of m c main_v57 (by decide)).trans <| (V24_of m c main_v57 (by decide)).trans <| (V23_of m c main_v57 (by decide)).trans <| (V22_of m c main_v57 (by decide)).trans <| (V21_of m c main_v57 (by decide)).trans <| (V20_of m c main_v57 (by decide)).trans <| (V19_of m c main_v57 (by decide)).trans <| (V18_of m c main_v57 (by decide)).trans <| (V17_of m c main_v57 (by decide))
  rw [hX, hW, hA0, hA1, hA2, hA3]

/-- `v68`: the four padded gate blocks of the hidden weights side by side. -/
theorem E_v68 (c : Dev nD) :
    (V35 m c main_v68 : (⟨S1900x7680, .f32⟩ : BufTy).Contents (Elt F)) = concatenate S1900x7680 1 [⟨S1900x1920, (V35 m c main_v64 : (⟨S1900x1920, .f32⟩ : BufTy).Contents (Elt F))⟩, ⟨S1900x1920, (V35 m c main_v65 : (⟨S1900x1920, .f32⟩ : BufTy).Contents (Elt F))⟩, ⟨S1900x1920, (V35 m c main_v66 : (⟨S1900x1920, .f32⟩ : BufTy).Contents (Elt F))⟩, ⟨S1900x1920, (V35 m c main_v67 : (⟨S1900x1920, .f32⟩ : BufTy).Contents (Elt F))⟩] concatenates_S1900x1920_S1900x1920_S1900x1920_S1900x1920_S1900x7680_d1 := by
  have hX : V35 m c main_v68 = V25 m c main_v68 := (V35_of m c main_v68 (by decide)).trans <| (V34_of m c main_v68 (by decide)).trans <| (V33_of m c main_v68 (by decide)).trans <| (V32_of m c main_v68 (by decide)).trans <| (V31_of m c main_v68 (by decide)).trans <| (V30_of m c main_v68 (by decide)).trans <| (V29_of m c main_v68 (by decide)).trans <| (V28_of m c main_v68 (by decide)).trans <| (V27_of m c main_v68 (by decide)).trans <| (V26_of m c main_v68 (by decide))
  have hW : (V25 m c main_v68 : (⟨S1900x7680, .f32⟩ : BufTy).Contents (Elt F)) = concatenate S1900x7680 1 [⟨S1900x1920, (V24 m c main_v64 : (⟨S1900x1920, .f32⟩ : BufTy).Contents (Elt F))⟩, ⟨S1900x1920, (V24 m c main_v65 : (⟨S1900x1920, .f32⟩ : BufTy).Contents (Elt F))⟩, ⟨S1900x1920, (V24 m c main_v66 : (⟨S1900x1920, .f32⟩ : BufTy).Contents (Elt F))⟩, ⟨S1900x1920, (V24 m c main_v67 : (⟨S1900x1920, .f32⟩ : BufTy).Contents (Elt F))⟩] concatenates_S1900x1920_S1900x1920_S1900x1920_S1900x1920_S1900x7680_d1 := by
    dsimp only [V25, hostOps0_24]; generalize V24 m c = W; after_results <;> rfl
  have hA0 : V35 m c main_v64 = V24 m c main_v64 := (V35_of m c main_v64 (by decide)).trans <| (V34_of m c main_v64 (by decide)).trans <| (V33_of m c main_v64 (by decide)).trans <| (V32_of m c main_v64 (by decide)).trans <| (V31_of m c main_v64 (by decide)).trans <| (V30_of m c main_v64 (by decide)).trans <| (V29_of m c main_v64 (by decide)).trans <| (V28_of m c main_v64 (by decide)).trans <| (V27_of m c main_v64 (by decide)).trans <| (V26_of m c main_v64 (by decide)).trans <| (V25_of m c main_v64 (by decide))
  have hA1 : V35 m c main_v65 = V24 m c main_v65 := (V35_of m c main_v65 (by decide)).trans <| (V34_of m c main_v65 (by decide)).trans <| (V33_of m c main_v65 (by decide)).trans <| (V32_of m c main_v65 (by decide)).trans <| (V31_of m c main_v65 (by decide)).trans <| (V30_of m c main_v65 (by decide)).trans <| (V29_of m c main_v65 (by decide)).trans <| (V28_of m c main_v65 (by decide)).trans <| (V27_of m c main_v65 (by decide)).trans <| (V26_of m c main_v65 (by decide)).trans <| (V25_of m c main_v65 (by decide))
  have hA2 : V35 m c main_v66 = V24 m c main_v66 := (V35_of m c main_v66 (by decide)).trans <| (V34_of m c main_v66 (by decide)).trans <| (V33_of m c main_v66 (by decide)).trans <| (V32_of m c main_v66 (by decide)).trans <| (V31_of m c main_v66 (by decide)).trans <| (V30_of m c main_v66 (by decide)).trans <| (V29_of m c main_v66 (by decide)).trans <| (V28_of m c main_v66 (by decide)).trans <| (V27_of m c main_v66 (by decide)).trans <| (V26_of m c main_v66 (by decide)).trans <| (V25_of m c main_v66 (by decide))
  have hA3 : V35 m c main_v67 = V24 m c main_v67 := (V35_of m c main_v67 (by decide)).trans <| (V34_of m c main_v67 (by decide)).trans <| (V33_of m c main_v67 (by decide)).trans <| (V32_of m c main_v67 (by decide)).trans <| (V31_of m c main_v67 (by decide)).trans <| (V30_of m c main_v67 (by decide)).trans <| (V29_of m c main_v67 (by decide)).trans <| (V28_of m c main_v67 (by decide)).trans <| (V27_of m c main_v67 (by decide)).trans <| (V26_of m c main_v67 (by decide)).trans <| (V25_of m c main_v67 (by decide))
  rw [hX, hW, hA0, hA1, hA2, hA3]

/-- `v80`: the four padded gate blocks of the bias side by side. -/
theorem E_v80 (c : Dev nD) :
    (V35 m c main_v80 : (⟨S1x7680, .f32⟩ : BufTy).Contents (Elt F)) = concatenate S1x7680 1 [⟨S1x1920, (V35 m c main_v76 : (⟨S1x1920, .f32⟩ : BufTy).Contents (Elt F))⟩, ⟨S1x1920, (V35 m c main_v77 : (⟨S1x1920, .f32⟩ : BufTy).Contents (Elt F))⟩, ⟨S1x1920, (V35 m c main_v78 : (⟨S1x1920, .f32⟩ : BufTy).Contents (Elt F))⟩, ⟨S1x1920, (V35 m c main_v79 : (⟨S1x1920, .f32⟩ : BufTy).Contents (Elt F))⟩] concatenates_S1x1920_S1x1920_S1x1920_S1x1920_S1x7680_d1 := by
  have hX : V35 m c main_v80 = V35 m c main_v80 := rfl
  have hW : (V35 m c main_v80 : (⟨S1x7680, .f32⟩ : BufTy).Contents (Elt F)) = concatenate S1x7680 1 [⟨S1x1920, (V34 m c main_v76 : (⟨S1x1920, .f32⟩ : BufTy).Contents (Elt F))⟩, ⟨S1x1920, (V34 m c main_v77 : (⟨S1x1920, .f32⟩ : BufTy).Contents (Elt F))⟩, ⟨S1x1920, (V34 m c main_v78 : (⟨S1x1920, .f32⟩ : BufTy).Contents (Elt F))⟩, ⟨S1x1920, (V34 m c main_v79 : (⟨S1x1920, .f32⟩ : BufTy).Contents (Elt F))⟩] concatenates_S1x1920_S1x1920_S1x1920_S1x1920_S1x7680_d1 := by
    dsimp only [V35, hostOps0_34]; generalize V34 m c = W; after_results <;> rfl
  have hA0 : V35 m c main_v76 = V34 m c main_v76 := (V35_of m c main_v76 (by decide))
  have hA1 : V35 m c main_v77 = V34 m c main_v77 := (V35_of m c main_v77 (by decide))
  have hA2 : V35 m c main_v78 = V34 m c main_v78 := (V35_of m c main_v78 (by decide))
  have hA3 : V35 m c main_v79 = V34 m c main_v79 := (V35_of m c main_v79 (by decide))
  rw [hX, hW, hA0, hA1, hA2, hA3]

end Cert.KernelIdeal.HostValG
end
-- ==== Proof.HostPrefix3.lean ====
/-
  The gate-aligned operands of the second kernel call read at one entry, on the extended reals: the normalised gate
  weights and the bias with each of the four gate blocks padded from 1900 to 1920 columns.
-/
import proofs.«136980_j58978490909175_2_alg».proof.Proof.HostPrefix2
import proofs.«136980_j58978490909175_2_alg».proof.Proof.HostPrefixG
import proofs.«136980_j58978490909175_2_alg».proof.Proof.Spec

set_option maxRecDepth 65536

noncomputable section

namespace Cert.KernelIdeal.HostValG

open Cert.KernelIdeal Cert.KernelIdeal.Gen Cert.KernelIdeal.GenP Cert.KernelIdeal.HostVal
open Idealize.ShloMosaic Idealize.ShloMosaic.TcCoe Idealize.ShloMosaic.ValueIdx
open Idealize.SL.Sem
open Cert.Lib.PadCat
open Cert.Spec (col)

/-- Column `j` of padded gate block `g` is a column of the padded width `4·1920`. -/
theorem gcol_lt (g : Fin 4) (j : Fin 1920) : g.val * 1920 + j.val < 7680 := by
  have := g.isLt; have := j.isLt; omega

variable (m : (ℓ : Loc nD τ sig) → Buf (Elt Ideal) ℓ)

/-- Gate block 0 of the normalised input weights, padded to 1920 columns. -/
theorem v54_at (c : Dev nD) (q : Fin 10) (j : Fin 1920) :
    (V35 m c main_v54 : S10x1920.Idx → EReal) (ix2 q j)
      = (if hj : j.val < 1900 then (wxnK (m ((c : Thread nD τ).loc main_arg3)) (m ((c : Thread nD τ).loc main_arg8)) : S10x7600.Idx → EReal) (ix2 q (col 0 ⟨j.val, hj⟩)) else 0 : EReal) := by
  rw [E_v54, E_c_10, E_v50, W_v10]
  refine (padI_cols _ _ _ _ q j).trans ?_
  by_cases hj : j.val < 1900
  · rw [dif_pos hj, dif_pos hj]
    exact slice2_axis1_apply 0 _ _ q ⟨j.val, hj⟩ (col 0 ⟨j.val, hj⟩) rfl
  · rw [dif_neg hj, dif_neg hj]

/-- Gate block 1 of the normalised input weights, padded to 1920 columns. -/
theorem v55_at (c : Dev nD) (q : Fin 10) (j : Fin 1920) :
    (V35 m c main_v55 : S10x1920.Idx → EReal) (ix2 q j)
      = (if hj : j.val < 1900 then (wxnK (m ((c : Thread nD τ).loc main_arg3)) (m ((c : Thread nD τ).loc main_arg8)) : S10x7600.Idx → EReal) (ix2 q (col 1 ⟨j.val, hj⟩)) else 0 : EReal) := by
  rw [E_v55, E_c_11, E_v51, W_v10]
  refine (padI_cols _ _ _ _ q j).trans ?_
  by_cases hj : j.val < 1900
  · rw [dif_pos hj, dif_pos hj]
    exact slice2_axis1_apply 1900 _ _ q ⟨j.val, hj⟩ (col 1 ⟨j.val, hj⟩) rfl
  · rw [dif_neg hj, dif_neg hj]

/-- Gate block 2 of the normalised input weights, padded to 1920 columns. -/
theorem v56_at (c : Dev nD) (q : Fin 10) (j : Fin 1920) :
    (V35 m c main_v56 : S10x1920.Idx → EReal) (ix2 q j)
      = (if hj : j.val < 1900 then (wxnK (m ((c : Thread nD τ).loc main_arg3)) (m ((c : Thread nD τ).loc main_arg8)) : S10x7600.Idx → EReal) (ix2 q (col 2 ⟨j.val, hj⟩)) else 0 : EReal) := by
  rw [E_v56, E_c_12, E_v52, W_v10]
  refine (padI_cols _ _ _ _ q j).trans ?_
  by_cases hj : j.val < 1900
  · rw [dif_pos hj, dif_pos hj]
    exact slice2_axis1_apply 3800 _ _ q ⟨j.val, hj⟩ (col 2 ⟨j.val, hj⟩) rfl
  · rw [dif_neg hj, dif_neg hj]

/-- Gate block 3 of the normalised input weights, padded to 1920 columns. -/
theorem v57_at (c : Dev nD) (q : Fin 10) (j : Fin 1920) :
    (V35 m c main_v57 : S10x1920.Idx → EReal) (ix2 q j)
      = (if hj : j.val < 1900 then (wxnK (m ((c : Thread nD τ).loc main_arg3)) (m ((c : Thread nD τ).loc main_arg8)) : S10x7600.Idx → EReal) (ix2 q (col 3 ⟨j.val, hj⟩)) else 0 : EReal) := by
  rw [E_v57, E_c_13, E_v53, W_v10]
  refine (padI_cols _ _ _ _ q j).trans ?_
  by_cases hj : j.val < 1900
  · rw [dif_pos hj, dif_pos hj]
    exact slice2_axis1_apply 5700 _ _ q ⟨j.val, hj⟩ (col 3 ⟨j.val, hj⟩) rfl
  · rw [dif_neg hj, dif_neg hj]

/-- The normalised input weights with each gate block padded from 1900 to 1920 columns: column `g·1920 + j`. -/
theorem v59_at (c : Dev nD) (q : Fin 10) (g : Fin 4) (j : Fin 1920) :
    (V35 m c main_v59 : S10x7680.Idx → EReal) (ix2 q ⟨g.val * 1920 + j.val, gcol_lt g j⟩)
      = (if hj : j.val < 1900 then (wxnK (m ((c : Thread nD τ).loc main_arg3)) (m ((c : Thread nD τ).loc main_arg8)) : S10x7600.Idx → EReal) (ix2 q (col g ⟨j.val, hj⟩)) else 0 : EReal) := by
  rw [E_v59]
  refine (truncf_apply (φ := .f32) (ψ := .bf16) _ _ _).trans ?_
  refine (cat4_apply _ _ _ _ _ q g j _).trans ?_
  match g with
  | ⟨0, _⟩ => exact v54_at m c q j
  | ⟨1, _⟩ => exact v55_at m c q j
  | ⟨2, _⟩ => exact v56_at m c q j
  | ⟨3, _⟩ => exact v57_at m c q j

/-- Gate block 0 of the normalised state-to-gate weights, padded to 1920 columns. -/
theorem v64_at (c : Dev nD) (k : Fin 1900) (j : Fin 1920) :
    (V35 m c main_v64 : S1900x1920.Idx → EReal) (ix2 k j)
      = (if hj : j.val < 1900 then (whnK (m ((c : Thread nD τ).loc main_arg4)) (m ((c : Thread nD τ).loc main_arg9)) : S1900x7600.Idx → EReal) (ix2 k (col 0 ⟨j.val, hj⟩)) else 0 : EReal) := by
  rw [E_v64, E_c_14, E_v60, W_v21]
  refine (padI_cols _ _ _ _ k j).trans ?_
  by_cases hj : j.val < 1900
  · rw [dif_pos hj, dif_pos hj]
    exact slice2_axis1_apply 0 _ _ k ⟨j.val, hj⟩ (col 0 ⟨j.val, hj⟩) rfl
  · rw [dif_neg hj, dif_neg hj]

/-- Gate block 1 of the normalised state-to-gate weights, padded to 1920 columns. -/
theorem v65_at (c : Dev nD) (k : Fin 1900) (j : Fin 1920) :
    (V35 m c main_v65 : S1900x1920.Idx → EReal) (ix2 k j)
      = (if hj : j.val < 1900 then (whnK (m ((c : Thread nD τ).loc main_arg4)) (m ((c : Thread nD τ).loc main_arg9)) : S1900x7600.Idx → EReal) (ix2 k (col 1 ⟨j.val, hj⟩)) else 0 : EReal) := by
  rw [E_v65, E_c_15, E_v61, W_v21]
  refine (padI_cols _ _ _ _ k j).trans ?_
  by_cases hj : j.val < 1900
  · rw [dif_pos hj, dif_pos hj]
    exact slice2_axis1_apply 1900 _ _ k ⟨j.val, hj⟩ (col 1 ⟨j.val, hj⟩) rfl
  · rw [dif_neg hj, dif_neg hj]

/-- Gate block 2 of the normalised state-to-gate weights, padded to 1920 columns. -/
theorem v66_at (c : Dev nD) (k : Fin 1900) (j : Fin 1920) :
    (V35 m c main_v66 : S1900x1920.Idx → EReal) (ix2 k j)
      = (if hj : j.val < 1900 then (whnK (m ((c : Thread nD τ).loc main_arg4)) (m ((c : Thread nD τ).loc main_arg9)) : S1900x7600.Idx → EReal) (ix2 k (col 2 ⟨j.val, hj⟩)) else 0 : EReal) := by
  rw [E_v66, E_c_16, E_v62, W_v21]
  refine (padI_cols _ _ _ _ k j).trans ?_
  by_cases hj : j.val < 1900
  · rw [dif_pos hj, dif_pos hj]
    exact slice2_axis1_apply 3800 _ _ k ⟨j.val, hj⟩ (col 2 ⟨j.val, hj⟩) rfl
  · rw [dif_neg hj, dif_neg hj]

/-- Gate block 3 of the normalised state-to-gate weights, padded to 1920 columns. -/
theorem v67_at (c : Dev nD) (k : Fin 1900) (j : Fin 1920) :
    (V35 m c main_v67 : S1900x1920.Idx → EReal) (ix2 k j)
      = (if hj : j.val < 1900 then (whnK (m ((c : Thread nD τ).loc main_arg4)) (m ((c : Thread nD τ).loc main_arg9)) : S1900x7600.Idx → EReal) (ix2 k (col 3 ⟨j.val, hj⟩)) else 0 : EReal) := by
  rw [E_v67, E_c_17, E_v63, W_v21]
  refine (padI_cols _ _ _ _ k j).trans ?_
  by_cases hj : j.val < 1900
  · rw [dif_pos hj, dif_pos hj]
    exact slice2_axis1_apply 5700 _ _ k ⟨j.val, hj⟩ (col 3 ⟨j.val, hj⟩) rfl
  · rw [dif_neg hj, dif_neg hj]

/-- The four padded gate blocks of the state-to-gate weights side by side (1900 rows). -/
theorem v68_at (c : Dev nD) (k : Fin 1900) (g : Fin 4) (j : Fin 1920) :
    (V35 m c main_v68 : S1900x7680.Idx → EReal) (ix2 k ⟨g.val * 1920 + j.val, gcol_lt g j⟩)
      = (if hj : j.val < 1900 then (whnK (m ((c : Thread nD τ).loc main_arg4)) (m ((c : Thread nD τ).loc main_arg9)) : S1900x7600.Idx → EReal) (ix2 k (col g ⟨j.val, hj⟩)) else 0 : EReal) := by
  rw [E_v68]
  refine (cat4_apply _ _ _ _ _ k g j _).trans ?_
  match g with
  | ⟨0, _⟩ => exact v64_at m c k j
  | ⟨1, _⟩ => exact v65_at m c k j
  | ⟨2, _⟩ => exact v66_at m c k j
  | ⟨3, _⟩ => exact v67_at m c k j

/-- The normalised state-to-gate weights, each gate block padded to 1920 columns and the rows padded from 1900 to 1920. -/
theorem v70_at (c : Dev nD) (k : Fin 1920) (g : Fin 4) (j : Fin 1920) :
    (V35 m c main_v70 : S1920x7680.Idx → EReal) (ix2 k ⟨g.val * 1920 + j.val, gcol_lt g j⟩)
      = (if h : k.val < 1900 ∧ j.val < 1900 then (whnK (m ((c : Thread nD τ).loc main_arg4)) (m ((c : Thread nD τ).loc main_arg9)) : S1900x7600.Idx → EReal) (ix2 ⟨k.val, h.1⟩ (col g ⟨j.val, h.2⟩)) else 0 : EReal) := by
  rw [E_v70]
  show (V35 m c main_v69 : S1920x7680.Idx → EReal) (ix2 k ⟨g.val * 1920 + j.val, gcol_lt g j⟩) = _
  rw [E_v69, E_c_18]
  refine (padI_rows _ _ _ _ k _).trans ?_
  by_cases hk : k.val < 1900
  · rw [dif_pos hk]
    refine (v68_at m c ⟨k.val, hk⟩ g j).trans ?_
    by_cases hj : j.val < 1900
    · rw [dif_pos hj, dif_pos ⟨hk, hj⟩]
    · rw [dif_neg hj, dif_neg (fun h => hj h.2)]
  · rw [dif_neg hk, dif_neg (fun h => hk h.1)]

/-- Gate block 0 of the bias (as one row), padded to 1920 columns. -/
theorem v76_at (c : Dev nD) (u : Fin 1) (j : Fin 1920) :
    (V35 m c main_v76 : S1x1920.Idx → EReal) (ix2 u j)
      = (if hj : j.val < 1900 then ((m ((c : Thread nD τ).loc main_arg7)) : S7600.Idx → EReal) (ix1 (col 0 ⟨j.val, hj⟩)) else 0 : EReal) := by
  rw [E_v76, E_c_19, E_v72, V35_arg7]
  refine (padI_cols _ _ _ _ u j).trans ?_
  by_cases hj : j.val < 1900
  · rw [dif_pos hj, dif_pos hj]
    refine (slice2_axis1_apply 0 _ _ u ⟨j.val, hj⟩ (col 0 ⟨j.val, hj⟩) rfl).trans ?_
    exact shapeCast_a_1a_apply _ _ u _
  · rw [dif_neg hj, dif_neg hj]

/-- Gate block 1 of the bias (as one row), padded to 1920 columns. -/
theorem v77_at (c : Dev nD) (u : Fin 1) (j : Fin 1920) :
    (V35 m c main_v77 : S1x1920.Idx → EReal) (ix2 u j)
      = (if hj : j.val < 1900 then ((m ((c : Thread nD τ).loc main_arg7)) : S7600.Idx → EReal) (ix1 (col 1 ⟨j.val, hj⟩)) else 0 : EReal) := by
  rw [E_v77, E_c_20, E_v73, V35_arg7]
  refine (padI_cols _ _ _ _ u j).trans ?_
  by_cases hj : j.val < 1900
  · rw [dif_pos hj, dif_pos hj]
    refine (slice2_axis1_apply 1900 _ _ u ⟨j.val, hj⟩ (col 1 ⟨j.val, hj⟩) rfl).trans ?_
    exact shapeCast_a_1a_apply _ _ u _
  · rw [dif_neg hj, dif_neg hj]

/-- Gate block 2 of the bias (as one row), padded to 1920 columns. -/
theorem v78_at (c : Dev nD) (u : Fin 1) (j : Fin 1920) :
    (V35 m c main_v78 : S1x1920.Idx → EReal) (ix2 u j)
      = (if hj : j.val < 1900 then ((m ((c : Thread nD τ).loc main_arg7)) : S7600.Idx → EReal) (ix1 (col 2 ⟨j.val, hj⟩)) else 0 : EReal) := by
  rw [E_v78, E_c_21, E_v74, V35_arg7]
  refine (padI_cols _ _ _ _ u j).trans ?_
  by_cases hj : j.val < 1900
  · rw [dif_pos hj, dif_pos hj]
    refine (slice2_axis1_apply 3800 _ _ u ⟨j.val, hj⟩ (col 2 ⟨j.val, hj⟩) rfl).trans ?_
    exact shapeCast_a_1a_apply _ _ u _
  · rw [dif_neg hj, dif_neg hj]

/-- Gate block 3 of the bias (as one row), padded to 1920 columns. -/
theorem v79_at (c : Dev nD) (u : Fin 1) (j : Fin 1920) :
    (V35 m c main_v79 : S1x1920.Idx → EReal) (ix2 u j)
      = (if hj : j.val < 1900 then ((m ((c : Thread nD τ).loc main_arg7)) : S7600.Idx → EReal) (ix1 (col 3 ⟨j.val, hj⟩)) else 0 : EReal) := by
  rw [E_v79, E_c_22, E_v75, V35_arg7]
  refine (padI_cols _ _ _ _ u j).trans ?_
  by_cases hj : j.val < 1900
  · rw [dif_pos hj, dif_pos hj]
    refine (slice2_axis1_apply 5700 _ _ u ⟨j.val, hj⟩ (col 3 ⟨j.val, hj⟩) rfl).trans ?_
    exact shapeCast_a_1a_apply _ _ u _
  · rw [dif_neg hj, dif_neg hj]

/-- The bias as one row with each gate block padded from 1900 to 1920 columns. -/
theorem v80_at (c : Dev nD) (u : Fin 1) (g : Fin 4) (j : Fin 1920) :
    (V35 m c main_v80 : S1x7680.Idx → EReal) (ix2 u ⟨g.val * 1920 + j.val, gcol_lt g j⟩)
      = (if hj : j.val < 1900 then ((m ((c : Thread nD τ).loc main_arg7)) : S7600.Idx → EReal) (ix1 (col g ⟨j.val, hj⟩)) else 0 : EReal) := by
  rw [E_v80]
  refine (cat4_apply _ _ _ _ _ u g j _).trans ?_
  match g with
  | ⟨0, _⟩ => exact v76_at m c u j
  | ⟨1, _⟩ => exact v77_at m c u j
  | ⟨2, _⟩ => exact v78_at m c u j
  | ⟨3, _⟩ => exact v79_at m c u j

end Cert.KernelIdeal.HostValG
end
-- ==== Proof.LibSumSupport.lean ====
/-
  Finite sums whose terms vanish outside a prefix or outside one block.

  A sum over `Fin N` of terms that are zero from position `n` on is the sum of the first `n` terms; a sum over
  `Fin (Q * B)`, read as `Q` consecutive blocks of `B` places, of terms that are zero outside block `p` is the
  sum over that block. Both hold in any additive commutative monoid (no subtraction, no finiteness), so they
  serve sums of extended reals: a matrix product against a zero-padded or a block-diagonal matrix loses its
  vanishing terms this way. Imports only Mathlib.
-/
import Mathlib.Algebra.BigOperators.Fin
import Mathlib.Algebra.BigOperators.Group.Finset.Basic
import Mathlib.Logic.Equiv.Fin.Basic

namespace Cert.Lib.SumSupport

open scoped BigOperators

variable {M : Type*} [AddCommMonoid M]

/-- Terms that vanish from position `n` on: the sum over `Fin N` is the sum of the first `n` terms. -/
theorem sum_prefix {n N : ℕ} (h : n ≤ N) (f : Fin N → M) (hz : ∀ k : Fin N, n ≤ k.val → f k = 0) :
    ∑ k, f k = ∑ k : Fin n, f (Fin.castLE h k) := by
  rw [show ∑ k : Fin n, f (Fin.castLE h k) = ∑ x ∈ Finset.univ.map (Fin.castLEEmb h), f x from
    (Finset.sum_map Finset.univ (Fin.castLEEmb h) f).symm]
  refine (Finset.sum_subset (Finset.subset_univ _) fun x _ hx => hz x ?_).symm
  by_contra hlt
  exact hx (Finset.mem_map.2 ⟨⟨x.val, Nat.lt_of_not_le hlt⟩, Finset.mem_univ _, Fin.ext rfl⟩)

/-- Place `b` of block `p` among `Q` consecutive blocks of `B` places: position `p * B + b`. -/
def blockIdx {N Q B : ℕ} (hN : N = Q * B) (p : ℕ) (hp : p < Q) (b : Fin B) : Fin N :=
  ⟨p * B + b.val, by
    subst hN; calc p * B + b.val < p * B + B := Nat.add_lt_add_left b.isLt _
      _ = (p + 1) * B := (Nat.succ_mul p B).symm
      _ ≤ Q * B := Nat.mul_le_mul_right B hp⟩

theorem blockIdx_val {N Q B : ℕ} (hN : N = Q * B) (p : ℕ) (hp : p < Q) (b : Fin B) :
    (blockIdx hN p hp b).val = p * B + b.val := rfl

/-- Terms that vanish outside block `p` of `Q` consecutive blocks of `B` places: the sum over all `Q * B`
    places is the sum over the block's `B` places `p * B + b`. -/
theorem sum_block {N Q B : ℕ} (hN : N = Q * B) (f : Fin N → M) (p : ℕ) (hp : p < Q)
    (hz : ∀ k : Fin N, k.val / B ≠ p → f k = 0) :
    ∑ k, f k = ∑ b : Fin B, f (blockIdx hN p hp b) := by
  subst hN
  rw [← Equiv.sum_comp finProdFinEquiv f, Fintype.sum_prod_type]
  rw [Finset.sum_eq_single (⟨p, hp⟩ : Fin Q)]
  · refine Finset.sum_congr rfl fun b _ => congrArg f (Fin.ext ?_)
    show b.val + B * p = p * B + b.val
    rw [Nat.mul_comm, Nat.add_comm]
  · intro q _ hq
    refine Finset.sum_eq_zero fun b _ => hz _ ?_
    show (b.val + B * q.val) / B ≠ p
    have hB : 0 < B := Nat.pos_of_ne_zero fun h0 => by subst h0; exact b.elim0
    rw [Nat.add_mul_div_left _ _ hB, Nat.div_eq_of_lt b.isLt, Nat.zero_add]
    exact fun e => hq (Fin.ext e)
  · intro hp'; exact absurd (Finset.mem_univ _) hp'

end Cert.Lib.SumSupport
-- ==== Proof.PadAlgebra.lean ====
/-
  The zero padding is inert: the multiplicative LSTM step computed on arrays padded with zeros from 1900 to 1920
  hidden units (per gate block of the weights and the bias, and along the contracted axis) agrees, at every true
  position, with the step on the true arrays.

  A padded array is the true array inside the first 1900 positions of an axis and zero from there on. In a product of
  two finite sums, a factor all of whose terms are a number times zero is zero, and zero times anything is zero; in a
  sum over 1920 positions whose terms vanish from position 1900 on only the first 1900 terms count. Both facts hold
  on the extended reals with no finiteness assumption, because there zero times every element, the infinities
  included, is zero.
-/
import proofs.«136980_j58978490909175_2_alg».proof.Proof.Spec
import proofs.«136980_j58978490909175_2_alg».proof.Proof.LibSumSupport

noncomputable section

namespace Cert.PadAlg

open Cert.Spec Idealize.ShloMosaic
open scoped BigOperators

/-- Column `q` of gate `g` among the `4·1920` padded gate columns: `g·1920 + q`. -/
def pcol (g : Fin 4) (q : Fin 1920) : Fin 7680 :=
  ⟨g.val * 1920 + q.val, by have := g.isLt; have := q.isLt; omega⟩

/-- Gate `g`'s pre-activation at padded column `q`, from the padded arrays: input projection plus state
    projection (over all 1920 padded positions) plus bias, in this order of addition. -/
def zP (x : Fin 8192 → Fin 10 → EReal) (wxP : Fin 10 → Fin 7680 → EReal) (mP : Fin 8192 → Fin 1920 → EReal)
    (whP : Fin 1920 → Fin 7680 → EReal) (bP : Fin 7680 → EReal) (r : Fin 8192) (g : Fin 4) (q : Fin 1920) : EReal :=
  (∑ k : Fin 10, x r k * wxP k (pcol g q)) + (∑ k : Fin 1920, mP r k * whP k (pcol g q)) + bP (pcol g q)

/-- The true width is within the padded width. -/
theorem le_pad : 1900 ≤ 1920 := by norm_num

/-- A true position, as a padded position. -/
abbrev up (j : Fin 1900) : Fin 1920 := ⟨j.val, Nat.lt_of_lt_of_le j.isLt le_pad⟩

section
variable {x : Fin 8192 → Fin 10 → EReal} {cp hp : Fin 8192 → Fin 1900 → EReal}
  {wx : Fin 10 → Fin 7600 → EReal} {wh : Fin 1900 → Fin 7600 → EReal}
  {wmx : Fin 10 → Fin 1900 → EReal} {wmh : Fin 1900 → Fin 1900 → EReal} {b : Fin 7600 → EReal}
  {hpP cpP mP : Fin 8192 → Fin 1920 → EReal} {wmxP : Fin 10 → Fin 1920 → EReal} {wmhP : Fin 1920 → Fin 1920 → EReal}
  {wxP : Fin 10 → Fin 7680 → EReal} {whP : Fin 1920 → Fin 7680 → EReal} {bP : Fin 7680 → EReal}
  (Hhp : ∀ r k, hpP r k = if h : k.val < 1900 then hp r ⟨k.val, h⟩ else 0)
  (Hcp : ∀ r k, cpP r k = if h : k.val < 1900 then cp r ⟨k.val, h⟩ else 0)
  (Hwmx : ∀ q k, wmxP q k = if h : k.val < 1900 then wmx q ⟨k.val, h⟩ else 0)
  (Hwmh : ∀ q k, wmhP q k = if h : q.val < 1900 ∧ k.val < 1900 then wmh ⟨q.val, h.1⟩ ⟨k.val, h.2⟩ else 0)
  (Hwx : ∀ q g j, wxP q (pcol g j) = if h : j.val < 1900 then wx q (col g ⟨j.val, h⟩) else 0)
  (Hwh : ∀ k g j, whP k (pcol g j)
    = if h : k.val < 1900 ∧ j.val < 1900 then wh ⟨k.val, h.1⟩ (col g ⟨j.val, h.2⟩) else 0)
  (Hb : ∀ g j, bP (pcol g j) = if h : j.val < 1900 then b (col g ⟨j.val, h⟩) else 0)
  (Hm : ∀ r k, mP r k = (∑ q : Fin 10, x r q * wmxP q k) * (∑ q : Fin 1920, hpP r q * wmhP q k))

include Hhp Hwmx Hwmh Hm

/-- The padded multiplicative state is the true one inside the first 1900 columns and zero in the padding. -/
theorem m_pad (r : Fin 8192) (k : Fin 1920) :
    mP r k = if h : k.val < 1900 then mState x hp wmx wmh r ⟨k.val, h⟩ else 0 := by
  rw [Hm]
  by_cases h : k.val < 1900
  · rw [dif_pos h]
    show _ = (∑ q : Fin 10, x r q * wmx q ⟨k.val, h⟩) * (∑ q : Fin 1900, hp r q * wmh q ⟨k.val, h⟩)
    have e1 : ∀ q, wmxP q k = wmx q ⟨k.val, h⟩ := fun q => by rw [Hwmx, dif_pos h]
    have e2 : ∑ q : Fin 1920, hpP r q * wmhP q k = ∑ q : Fin 1900, hp r q * wmh q ⟨k.val, h⟩ := by
      rw [Cert.Lib.SumSupport.sum_prefix le_pad (fun q => hpP r q * wmhP q k)
        (fun q hq => by rw [Hhp, dif_neg (by omega : ¬ q.val < 1900), zero_mul])]
      refine Finset.sum_congr rfl fun q _ => ?_
      rw [Hhp, Hwmh, dif_pos (show (Fin.castLE le_pad q).val < 1900 from q.isLt),
        dif_pos (show (Fin.castLE le_pad q).val < 1900 ∧ k.val < 1900 from ⟨q.isLt, h⟩)]
      rfl
    rw [e2]
    simp only [e1]
  · rw [dif_neg h]
    have e : ∑ q : Fin 10, x r q * wmxP q k = 0 :=
      Finset.sum_eq_zero fun q _ => by rw [Hwmx, dif_neg h, mul_zero]
    rw [e, zero_mul]

include Hwx Hwh Hb

/-- At a true column of a gate block the pre-activation from the padded arrays is the true one. -/
theorem z_pad_lt (r : Fin 8192) (g : Fin 4) (q : Fin 1920) (hq : q.val < 1900) :
    zP x wxP mP whP bP r g q = gateZ x hp wx wh wmx wmh b r (col g ⟨q.val, hq⟩) := by
  show (∑ k : Fin 10, x r k * wxP k (pcol g q)) + (∑ k : Fin 1920, mP r k * whP k (pcol g q)) + bP (pcol g q)
    = (∑ k : Fin 10, x r k * wx k (col g ⟨q.val, hq⟩))
      + (∑ k : Fin 1900, mState x hp wmx wmh r k * wh k (col g ⟨q.val, hq⟩)) + b (col g ⟨q.val, hq⟩)
  have e1 : ∀ k, wxP k (pcol g q) = wx k (col g ⟨q.val, hq⟩) := fun k => by rw [Hwx, dif_pos hq]
  have e2 : ∑ k : Fin 1920, mP r k * whP k (pcol g q)
      = ∑ k : Fin 1900, mState x hp wmx wmh r k * wh k (col g ⟨q.val, hq⟩) := by
    rw [Cert.Lib.SumSupport.sum_prefix le_pad (fun k => mP r k * whP k (pcol g q))
      (fun k hk => by rw [Hwh, dif_neg (by omega : ¬ (k.val < 1900 ∧ q.val < 1900)), mul_zero])]
    refine Finset.sum_congr rfl fun k _ => ?_
    rw [m_pad Hhp Hwmx Hwmh Hm, Hwh, dif_pos (show (Fin.castLE le_pad k).val < 1900 from k.isLt),
      dif_pos (show (Fin.castLE le_pad k).val < 1900 ∧ q.val < 1900 from ⟨k.isLt, hq⟩)]
    rfl
  have e3 : bP (pcol g q) = b (col g ⟨q.val, hq⟩) := by rw [Hb, dif_pos hq]
  rw [e2, e3]
  simp only [e1]

/-- The same at the true position `j`, read as a padded position. -/
theorem z_pad (r : Fin 8192) (g : Fin 4) (j : Fin 1900) :
    zP x wxP mP whP bP r g (up j) = gateZ x hp wx wh wmx wmh b r (col g j) :=
  z_pad_lt Hhp Hwmx Hwmh Hwx Hwh Hb Hm r g (up j) j.isLt

include Hcp

/-- The new cell state from the padded arrays, at a true column, is the specification's. -/
theorem c_pad_lt (r : Fin 8192) (q : Fin 1920) (hq : q.val < 1900) :
    Ideal.logistic (zP x wxP mP whP bP r 1 q) * cpP r q
      + Ideal.logistic (zP x wxP mP whP bP r 0 q) * Ideal.tanh (zP x wxP mP whP bP r 3 q)
    = cNew x cp hp wx wh wmx wmh b r ⟨q.val, hq⟩ := by
  rw [z_pad_lt Hhp Hwmx Hwmh Hwx Hwh Hb Hm r 1 q hq, z_pad_lt Hhp Hwmx Hwmh Hwx Hwh Hb Hm r 0 q hq,
    z_pad_lt Hhp Hwmx Hwmh Hwx Hwh Hb Hm r 3 q hq, Hcp, dif_pos hq]
  rfl

/-- The new hidden state from the padded arrays, at a true column, is the specification's. -/
theorem h_pad_lt (r : Fin 8192) (q : Fin 1920) (hq : q.val < 1900) :
    Ideal.logistic (zP x wxP mP whP bP r 2 q)
      * Ideal.tanh (Ideal.logistic (zP x wxP mP whP bP r 1 q) * cpP r q
          + Ideal.logistic (zP x wxP mP whP bP r 0 q) * Ideal.tanh (zP x wxP mP whP bP r 3 q))
    = hNew x cp hp wx wh wmx wmh b r ⟨q.val, hq⟩ := by
  rw [c_pad_lt Hhp Hcp Hwmx Hwmh Hwx Hwh Hb Hm r q hq, z_pad_lt Hhp Hwmx Hwmh Hwx Hwh Hb Hm r 2 q hq]
  rfl

/-- The new cell state from the padded arrays at the true position `j`, read as a padded position. -/
theorem c_pad (r : Fin 8192) (j : Fin 1900) :
    Ideal.logistic (zP x wxP mP whP bP r 1 (up j)) * cpP r (up j)
      + Ideal.logistic (zP x wxP mP whP bP r 0 (up j)) * Ideal.tanh (zP x wxP mP whP bP r 3 (up j))
    = cNew x cp hp wx wh wmx wmh b r j :=
  c_pad_lt Hhp Hcp Hwmx Hwmh Hwx Hwh Hb Hm r (up j) j.isLt

/-- The new hidden state from the padded arrays at the true position `j`, read as a padded position. -/
theorem h_pad (r : Fin 8192) (j : Fin 1900) :
    Ideal.logistic (zP x wxP mP whP bP r 2 (up j))
      * Ideal.tanh (Ideal.logistic (zP x wxP mP whP bP r 1 (up j)) * cpP r (up j)
          + Ideal.logistic (zP x wxP mP whP bP r 0 (up j)) * Ideal.tanh (zP x wxP mP whP bP r 3 (up j)))
    = hNew x cp hp wx wh wmx wmh b r j :=
  h_pad_lt Hhp Hcp Hwmx Hwmh Hwx Hwh Hb Hm r (up j) j.isLt

end

end Cert.PadAlg

end
-- ==== Proof.KiResult.lean ====
/-
  The kernel program's two results on the extended reals, read back to the specification.

  The run ends with every buffer at the last host stretch's contents. The two results are slices (the first 1900 of
  1920 columns) of the second pallas call's outputs; those are, block by block of 128 rows, the gates' expression over
  what that call finds: the multiplicative state the first call left (block by block of 256 rows, a product of two
  projections over padded operands), the inputs, and the padded cell state, weights and bias. Every padded operand is
  the datum followed by zeros — per gate block for the weights and the bias — so each sum over 1920 places keeps its
  first 1900 terms and the padded columns of the state are zero: the gates are the specification's pre-activations at
  the unpadded columns, and the two results its new hidden and cell states. The column-normalised weights are computed
  by the same host operations as the reference's, so the two terms are one.
-/
import proofs.«136980_j58978490909175_2_alg».proof.Proof.KiRun
import proofs.«136980_j58978490909175_2_alg».proof.Proof.KiValue0
import proofs.«136980_j58978490909175_2_alg».proof.Proof.KiValue1
import proofs.«136980_j58978490909175_2_alg».proof.Proof.HostPrefix2
import proofs.«136980_j58978490909175_2_alg».proof.Proof.HostPrefix3
import proofs.«136980_j58978490909175_2_alg».proof.Proof.PadAlgebra
import proofs.«136980_j58978490909175_2_alg».proof.Proof.RefValue
import Idealize.ShloMosaic.Lib.ValueIdx
import Idealize.ShloMosaic.PureOps.Ideal.Laws

set_option maxRecDepth 65536

noncomputable section

namespace Cert.KernelIdeal.Res

open Cert.KernelIdeal Cert.KernelIdeal.Gen Cert.KernelIdeal.GenP Cert.KernelIdeal.Fr Cert.KernelIdeal.Val Cert.KernelIdeal.HostVal
open Idealize.ShloMosaic Idealize.ShloMosaic.TcCoe Idealize.ShloMosaic.ValueIdx Idealize.SL.Sem
open scoped BigOperators

variable (m : (ℓ : Loc nD τ sig) → Buf (Elt Ideal) ℓ) (c : Dev nD)

/-! ## The data, read entry by entry -/

/-- The inputs, the previous cell and hidden states and the bias, as launched. -/
def X : Fin 8192 → Fin 10 → EReal := fun r q => (m ((c : Thread nD τ).loc main_arg0) : S8192x10.Idx → EReal) (ix2 r q)
def CP : Fin 8192 → Fin 1900 → EReal := fun r j => (m ((c : Thread nD τ).loc main_arg1) : S8192x1900.Idx → EReal) (ix2 r j)
def HP : Fin 8192 → Fin 1900 → EReal := fun r j => (m ((c : Thread nD τ).loc main_arg2) : S8192x1900.Idx → EReal) (ix2 r j)
def B : Fin 7600 → EReal := fun k => (m ((c : Thread nD τ).loc main_arg7) : S7600.Idx → EReal) (ix1 k)
/-- The four column-normalised weight matrices, as the host prefix leaves them. -/
def WX : Fin 10 → Fin 7600 → EReal := fun q k => (V35 m c main_v10 : S10x7600.Idx → EReal) (ix2 q k)
def WH : Fin 1900 → Fin 7600 → EReal := fun q k => (V35 m c main_v21 : S1900x7600.Idx → EReal) (ix2 q k)
def WMX : Fin 10 → Fin 1900 → EReal := fun q k => (V35 m c main_v32 : S10x1900.Idx → EReal) (ix2 q k)
def WMH : Fin 1900 → Fin 1900 → EReal := fun q k => (V35 m c main_v43 : S1900x1900.Idx → EReal) (ix2 q k)
/-- The zero-padded operands the two pallas calls read. -/
def HPp : Fin 8192 → Fin 1920 → EReal := fun r k => (V35 m c main_v48 : S8192x1920.Idx → EReal) (ix2 r k)
def CPp : Fin 8192 → Fin 1920 → EReal := fun r k => (V35 m c main_v49 : S8192x1920.Idx → EReal) (ix2 r k)
def WMXp : Fin 10 → Fin 1920 → EReal := fun q k => (V35 m c main_v45 : S10x1920.Idx → EReal) (ix2 q k)
def WMHp : Fin 1920 → Fin 1920 → EReal := fun q k => (V35 m c main_v47 : S1920x1920.Idx → EReal) (ix2 q k)
def WXp : Fin 10 → Fin 7680 → EReal := fun q k => (V35 m c main_v59 : S10x7680.Idx → EReal) (ix2 q k)
def WHp : Fin 1920 → Fin 7680 → EReal := fun q k => (V35 m c main_v70 : S1920x7680.Idx → EReal) (ix2 q k)
def Bp : Fin 7680 → EReal := fun k => (V35 m c main_v80 : S1x7680.Idx → EReal) (ix2 (0 : Fin 1) k)
/-- The multiplicative state as the first pallas call leaves it (padded to 1920 columns). -/
def Mp : Fin 8192 → Fin 1920 → EReal := fun r k => (E1 m c main_v81 : S8192x1920.Idx → EReal) (ix2 r k)

/-! ## The padded operands are the data followed by zeros -/

theorem Hhp : ∀ r k, HPp m c r k = if h : k.val < 1900 then HP m c r ⟨k.val, h⟩ else 0 := fun r k => v48_at m c r k
theorem Hcp : ∀ r k, CPp m c r k = if h : k.val < 1900 then CP m c r ⟨k.val, h⟩ else 0 := fun r k => v49_at m c r k
theorem Hwmx : ∀ q k, WMXp m c q k = if h : k.val < 1900 then WMX m c q ⟨k.val, h⟩ else 0 := fun q k => v45_at m c q k
theorem Hwmh : ∀ q k, WMHp m c q k = if h : q.val < 1900 ∧ k.val < 1900 then WMH m c ⟨q.val, h.1⟩ ⟨k.val, h.2⟩ else 0 :=
  fun q k => v47_at m c q k

/-! ## What the first pallas call leaves -/

/-- The second region finds, in the first region's output array, what the first region's write-backs add up to. -/
theorem E1_v81 : E1 m c main_v81 = (dat0 (F := Ideal) (E0 m) c).arrAt 4 cfg0.N := by
  show Function.update (V35 m c) (Proc.devRef .tc main_v81) (left0 m c (Proc.devRef .tc main_v81)) (Proc.devRef .tc main_v81) = _
  rw [Function.update_self]; exact left0_arr m c 4

/-- and everywhere else what the host prefix left. -/
theorem E1_of (b : Ref sig .tc) (h : b ∉ ([main_v81] : List (Ref sig .tc))) : E1 m c b = V35 m c b :=
  V36_of m (outs0 m) c b h

/-- Entry by entry that is the product of the two projections, over the padded operands. -/
theorem Hm : ∀ r k, Mp m c r k = (∑ q : Fin 10, X m c r q * WMXp m c q k) * (∑ q : Fin 1920, HPp m c r q * WMHp m c q k) := by
  intro r k
  show (E1 m c main_v81 : S8192x1920.Idx → EReal) (ix2 r k) = _
  rw [E1_v81 m c, final0 (E0 m) c]
  show G0 (V35 m c main_arg0) (V35 m c main_v48) (V35 m c main_v45) (V35 m c main_v47) (ix2 r k) = _
  rw [G0_apply, V35_arg0 m c]
  rfl

/-! ## The gate-aligned operands are the data, gate block by gate block, followed by zeros -/

theorem Hwx : ∀ q g j, WXp m c q (Cert.PadAlg.pcol g j) = if h : j.val < 1900 then WX m c q (Cert.Spec.col g ⟨j.val, h⟩) else 0 := by
  intro q g j
  unfold WXp WX
  rw [W_v10 m c]
  exact Cert.KernelIdeal.HostValG.v59_at m c q g j

theorem Hwh : ∀ k g j, WHp m c k (Cert.PadAlg.pcol g j)
    = if h : k.val < 1900 ∧ j.val < 1900 then WH m c ⟨k.val, h.1⟩ (Cert.Spec.col g ⟨j.val, h.2⟩) else 0 := by
  intro k g j
  unfold WHp WH
  rw [W_v21 m c]
  exact Cert.KernelIdeal.HostValG.v70_at m c k g j

theorem Hb : ∀ g j, Bp m c (Cert.PadAlg.pcol g j) = if h : j.val < 1900 then B m c (Cert.Spec.col g ⟨j.val, h⟩) else 0 := by
  intro g j
  unfold Bp B
  exact Cert.KernelIdeal.HostValG.v80_at m c (0 : Fin 1) g j

/-! ## The gates over the padded operands -/

/-- The second region's gate expression, at the contents the region finds, is the padded gate expression of the data:
    every operand but the multiplicative state is as the host prefix left it. -/
theorem zg_eq (g : Fin 4) (r : Fin 8192) (q : Fin 1920) :
    zg (E1 m) c g r q = Cert.PadAlg.zP (X m c) (WXp m c) (Mp m c) (WHp m c) (Bp m c) r g q := by
  have e0 : E1 m c main_arg0 = m ((c : Thread nD τ).loc main_arg0) := (E1_of m c main_arg0 (by decide)).trans (V35_arg0 m c)
  have e59 : E1 m c main_v59 = V35 m c main_v59 := E1_of m c main_v59 (by decide)
  have e70 : E1 m c main_v70 = V35 m c main_v70 := E1_of m c main_v70 (by decide)
  have e80 : E1 m c main_v80 = V35 m c main_v80 := E1_of m c main_v80 (by decide)
  show zgAt (R := 8192) (E1 m c main_arg0) (E1 m c main_v81) (E1 m c main_v59) (E1 m c main_v70) (E1 m c main_v80) g r q = _
  rw [e0, e59, e70, e80]
  rfl

/-! ## The two results, entry by entry -/

/-- The new cell state the kernel program returns is the specification's. -/
theorem result_c_at (r : Fin 8192) (j : Fin 1900) :
    (V38 m (outs m) c main_v84 : S8192x1900.Idx → EReal) (ix2 r j)
      = Cert.Spec.cNew (X m c) (CP m c) (HP m c) (WX m c) (WH m c) (WMX m c) (WMH m c) (B m c) r j := by
  rw [V38_v84 m (outs m) c r j]
  show ((left1 m c (Proc.devRef .tc main_v82_1)) : S8192x1920.Idx → EReal) (ix2 r (Cert.PadAlg.up j)) = _
  rw [show left1 m c (Proc.devRef .tc main_v82_1) = (dat1 (F := Ideal) (E1 m) c).arrAt 7 cfg1.N from left1_arr m c 7,
    final1_c (E1 m) c, C1_apply, zg_eq, zg_eq, zg_eq]
  have e49 : E1 m c main_v49 = V35 m c main_v49 := E1_of m c main_v49 (by decide)
  rw [e49]
  exact Cert.PadAlg.c_pad (Hhp m c) (Hcp m c) (Hwmx m c) (Hwmh m c) (Hwx m c) (Hwh m c) (Hb m c) (Hm m c) r j

/-- The new hidden state the kernel program returns is the specification's. -/
theorem result_h_at (r : Fin 8192) (j : Fin 1900) :
    (V38 m (outs m) c main_v83 : S8192x1900.Idx → EReal) (ix2 r j)
      = Cert.Spec.hNew (X m c) (CP m c) (HP m c) (WX m c) (WH m c) (WMX m c) (WMH m c) (B m c) r j := by
  rw [V38_v83 m (outs m) c r j]
  show ((left1 m c (Proc.devRef .tc main_v82_0)) : S8192x1920.Idx → EReal) (ix2 r (Cert.PadAlg.up j)) = _
  rw [show left1 m c (Proc.devRef .tc main_v82_0) = (dat1 (F := Ideal) (E1 m) c).arrAt 6 cfg1.N from left1_arr m c 6,
    final1_h (E1 m) c, H1_apply, C1_apply, zg_eq, zg_eq, zg_eq, zg_eq]
  have e49 : E1 m c main_v49 = V35 m c main_v49 := E1_of m c main_v49 (by decide)
  rw [e49]
  exact Cert.PadAlg.h_pad (Hhp m c) (Hcp m c) (Hwmx m c) (Hwmh m c) (Hwx m c) (Hwh m c) (Hb m c) (Hm m c) r j

/-! ## The two results as arrays: the reference's -/

/-- The specification's data are the argument arrays and the reference's own normalised weights: the kernel program's
    host prefix computes them by the same operations. -/
theorem spec_data :
    X m c = (fun r q => ((m ((c : Thread nD τ).loc main_arg0)) : S8192x10.Idx → EReal) (ix2 r q))
    ∧ CP m c = (fun r j => ((m ((c : Thread nD τ).loc main_arg1)) : S8192x1900.Idx → EReal) (ix2 r j))
    ∧ HP m c = (fun r j => ((m ((c : Thread nD τ).loc main_arg2)) : S8192x1900.Idx → EReal) (ix2 r j))
    ∧ WX m c = (fun q k => Cert.RefSide.wxn (m ((c : Thread nD τ).loc main_arg3)) (m ((c : Thread nD τ).loc main_arg8)) (ix2 q k))
    ∧ WH m c = (fun q k => Cert.RefSide.whn (m ((c : Thread nD τ).loc main_arg4)) (m ((c : Thread nD τ).loc main_arg9)) (ix2 q k))
    ∧ WMX m c = (fun q k => Cert.RefSide.wmxn (m ((c : Thread nD τ).loc main_arg5)) (m ((c : Thread nD τ).loc main_arg10)) (ix2 q k))
    ∧ WMH m c = (fun q k => Cert.RefSide.wmhn (m ((c : Thread nD τ).loc main_arg6)) (m ((c : Thread nD τ).loc main_arg11)) (ix2 q k))
    ∧ B m c = (fun k => ((m ((c : Thread nD τ).loc main_arg7)) : S7600.Idx → EReal) (ix1 k)) := by
  refine ⟨rfl, rfl, rfl, ?_, ?_, ?_, ?_, rfl⟩
  · unfold WX; rw [W_v10 m c]; rfl
  · unfold WH; rw [W_v21 m c]; rfl
  · unfold WMX; rw [W_v32 m c]; rfl
  · unfold WMH; rw [W_v43 m c]; rfl

theorem result_h : V38 m (outs m) c main_v83 = Cert.RefSide.hOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  obtain ⟨e1, e2, e3, e4, e5, e6, e7, e8⟩ := spec_data m c
  funext i
  obtain ⟨r, j, rfl⟩ : ∃ (r : Fin 8192) (j : Fin 1900), i = ix2 r j := ⟨i 0, i 1, eq_ix2 i⟩
  refine (result_h_at m c r j).trans ?_
  rw [e1, e2, e3, e4, e5, e6, e7, e8]

theorem result_c : V38 m (outs m) c main_v84 = Cert.RefSide.cOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  obtain ⟨e1, e2, e3, e4, e5, e6, e7, e8⟩ := spec_data m c
  funext i
  obtain ⟨r, j, rfl⟩ : ∃ (r : Fin 8192) (j : Fin 1900), i = ix2 r j := ⟨i 0, i 1, eq_ix2 i⟩
  refine (result_c_at m c r j).trans ?_
  rw [e1, e2, e3, e4, e5, e6, e7, e8]

/-- An unscoped reference of the TensorCore is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Res

end
-- ==== Proof.lean ====
/-
  The certificate of one multiplicative-LSTM step: a batch of 8192 rows, 10 inputs, 1900 hidden units. Both programs
  column-normalise the four weight matrices on the host by the same operations, form the multiplicative state
  m = (x·Wmx)·(h·Wmh), the gates' pre-activations z = x·Wx + m·Wh + b, and the new cell and hidden states
  c' = σ(z_f)·c + σ(z_i)·tanh(z_u), h' = σ(z_o)·tanh(c'). The kernel program pads the hidden axis from 1900 to 1920 with
  zeros (each of the four gate blocks separately, and the contracted axis), computes m in one pallas call over 32 blocks
  of 256 rows and the gates and states in a second over 64 blocks of 128 rows, and slices the padding off again.

  On the extended reals the padding is inert without any finiteness: a padded term is a product with the real zero,
  which is zero there even against an infinity, so every sum over 1920 places is its first 1900 terms. The logistic
  function the kernel applies is, on the extended reals, the quotient 1/(1 + e^(-z)) the reference spells out.

  The three frames: each kernel program is a chain of host stretches and two pipeline regions, each region's body run
  once at a symbolic grid point; the reference is its host run with the results dropped. The idealization rewrote no
  operation, so there is nothing to preserve. The algebraic claim: the kernel program's run ends with every unscoped
  buffer at the last host stretch's contents, whose two results are read back through the final slices, the second
  region's write-backs block by block, the first region's, and the host paddings, to the specification's new states of
  the argument arrays — which is what the reference's run returns.
-/
import proofs.«136980_j58978490909175_2_alg».proof.Defs
import proofs.«136980_j58978490909175_2_alg».proof.Proof.Gen.Kernel
import proofs.«136980_j58978490909175_2_alg».proof.Proof.Gen.KernelIdeal
import proofs.«136980_j58978490909175_2_alg».proof.Proof.Gen.ReferenceIdeal
import proofs.«136980_j58978490909175_2_alg».proof.Proof.Gen.Pre_finite_inputs
import proofs.«136980_j58978490909175_2_alg».proof.Proof.KRun
import proofs.«136980_j58978490909175_2_alg».proof.Proof.KiRun
import proofs.«136980_j58978490909175_2_alg».proof.Proof.RefValue
import proofs.«136980_j58978490909175_2_alg».proof.Proof.KiResult
import Idealize.ShloMosaic.Adequacy
import Idealize.ShloMosaic.Init

set_option maxRecDepth 65536

noncomputable section

namespace Cert.Proof

open Idealize.ShloMosaic Idealize.ShloMosaic.TcCoe Idealize.SL.Sem

/-- The word-level kernel program runs to the end, faults nowhere, and leaves its arguments as launched. -/
theorem frame_kernel : Cert.frame_Kernel (hKernel := Cert.Kernel.Gen.facts) (hPre_finite_inputs := Cert.Pre_finite_inputs.Gen.facts) :=
  fun m ρ _ => Cert.Kernel.Fr.frame m ρ

/-- So does its reading on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Fr.frame m ρ

/-- The reference is a host program: its run with the results dropped. -/
theorem frame_reference : Cert.frame_ReferenceIdeal (hReferenceIdeal := Cert.ReferenceIdeal.Gen.facts) (hPre_finite_inputs := Cert.Pre_finite_inputs.Gen.facts) :=
  fun m ρ _ => Cert.RefSide.frame m ρ

/-- The idealization rewrote no operation. -/
theorem preserves : Cert.preserves_Kernel_KernelIdeal := trivial

/-- From memories agreeing on the arguments both programs end with the specification's new hidden state and new cell
    state of the argument arrays, and with the arguments unchanged. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.RefSide.hOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), fun c => Cert.RefSide.cOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ?_) (Cert.KernelIdeal.Fr.run_all (F := Ideal) m ρ)
    exact ⟨(h c _ (Cert.KernelIdeal.Res.mem_uc Cert.KernelIdeal.main_v83 (by decide))).trans (Cert.KernelIdeal.Res.result_h m c),
      (h c _ (Cert.KernelIdeal.Res.mem_uc Cert.KernelIdeal.main_v84 (by decide))).trans (Cert.KernelIdeal.Res.result_c m c),
      (h c _ (Cert.KernelIdeal.Res.mem_uc Cert.KernelIdeal.main_arg0 (by decide))).trans (Cert.KernelIdeal.GenP.V38_main_arg0 m (Cert.KernelIdeal.Fr.outs m) c),
      (h c _ (Cert.KernelIdeal.Res.mem_uc Cert.KernelIdeal.main_arg1 (by decide))).trans (Cert.KernelIdeal.GenP.V38_main_arg1 m (Cert.KernelIdeal.Fr.outs m) c),
      (h c _ (Cert.KernelIdeal.Res.mem_uc Cert.KernelIdeal.main_arg2 (by decide))).trans (Cert.KernelIdeal.GenP.V38_main_arg2 m (Cert.KernelIdeal.Fr.outs m) c),
      (h c _ (Cert.KernelIdeal.Res.mem_uc Cert.KernelIdeal.main_arg3 (by decide))).trans (Cert.KernelIdeal.GenP.V38_main_arg3 m (Cert.KernelIdeal.Fr.outs m) c),
      (h c _ (Cert.KernelIdeal.Res.mem_uc Cert.KernelIdeal.main_arg4 (by decide))).trans (Cert.KernelIdeal.GenP.V38_main_arg4 m (Cert.KernelIdeal.Fr.outs m) c),
      (h c _ (Cert.KernelIdeal.Res.mem_uc Cert.KernelIdeal.main_arg5 (by decide))).trans (Cert.KernelIdeal.GenP.V38_main_arg5 m (Cert.KernelIdeal.Fr.outs m) c),
      (h c _ (Cert.KernelIdeal.Res.mem_uc Cert.KernelIdeal.main_arg6 (by decide))).trans (Cert.KernelIdeal.GenP.V38_main_arg6 m (Cert.KernelIdeal.Fr.outs m) c),
      (h c _ (Cert.KernelIdeal.Res.mem_uc Cert.KernelIdeal.main_arg7 (by decide))).trans (Cert.KernelIdeal.GenP.V38_main_arg7 m (Cert.KernelIdeal.Fr.outs m) c),
      (h c _ (Cert.KernelIdeal.Res.mem_uc Cert.KernelIdeal.main_arg8 (by decide))).trans (Cert.KernelIdeal.GenP.V38_main_arg8 m (Cert.KernelIdeal.Fr.outs m) c),
      (h c _ (Cert.KernelIdeal.Res.mem_uc Cert.KernelIdeal.main_arg9 (by decide))).trans (Cert.KernelIdeal.GenP.V38_main_arg9 m (Cert.KernelIdeal.Fr.outs m) c),
      (h c _ (Cert.KernelIdeal.Res.mem_uc Cert.KernelIdeal.main_arg10 (by decide))).trans (Cert.KernelIdeal.GenP.V38_main_arg10 m (Cert.KernelIdeal.Fr.outs m) c),
      (h c _ (Cert.KernelIdeal.Res.mem_uc Cert.KernelIdeal.main_arg11 (by decide))).trans (Cert.KernelIdeal.GenP.V38_main_arg11 m (Cert.KernelIdeal.Fr.outs m) c)⟩
  · refine (θ_run Cert.ReferenceIdeal.defs _ _).mono (fun r h c => ⟨(h c).1.trans ?_, (h c).2.1.trans ?_, (h c).2.2⟩) (Cert.RefSide.run m' ρ')
    · rw [(hagree c).1, (hagree c).2.1, (hagree c).2.2.1, (hagree c).2.2.2.1, (hagree c).2.2.2.2.1, (hagree c).2.2.2.2.2.1, (hagree c).2.2.2.2.2.2.1,
        (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    · rw [(hagree c).1, (hagree c).2.1, (hagree c).2.2.1, (hagree c).2.2.2.1, (hagree c).2.2.2.2.1, (hagree c).2.2.2.2.2.1, (hagree c).2.2.2.2.2.2.1,
        (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
